-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S4096x200x64 : Shape := ⟨3, ![4096, 200, 64]⟩
abbrev S1024x16 : Shape := ⟨2, ![1024, 16]⟩
abbrev S64x64 : Shape := ⟨2, ![64, 64]⟩
abbrev S64 : Shape := ⟨1, ![64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4096x200 : S_.BroadcastsInDim S4096x200 (![] : Fin 0 → Fin S4096x200.rank)
  reducesTo_S4096x200_S_d0_1 : S4096x200.ReducesTo [0, 1] S_

variable [Facts]

def fn_part2 {F : FTy → Type} [FloatOps F] (main_arg0 : IVec S4096x200 32) (main_v33 : IVec S_ 1) : IVec S_ 1 :=
  let main_c_12 : IVec S_ 32 := constantI S_ 32 0#32
  let main_v34 : IVec S4096x200 32 := broadcastInDim S4096x200 ![] bcast_S_S4096x200 main_c_12
  let main_v35 : IVec S4096x200 1 := cmpi .sge main_arg0 main_v34
  let main_c_13 : IVec S_ 32 := constantI S_ 32 99999#32
  let main_v36 : IVec S4096x200 32 := broadcastInDim S4096x200 ![] bcast_S_S4096x200 main_c_13
  let main_v37 : IVec S4096x200 1 := cmpi .sle main_arg0 main_v36
  let main_v38 : IVec S4096x200 1 := andi main_v35 main_v37
  let main_c_14 : IVec S_ 1 := constantI S_ 1 1#1
  let main_v39 : IVec S_ 1 := (fun x v => Host.reduce IntOp.andi x v reducesTo_S4096x200_S_d0_1 h_S_) main_v38 main_c_14
  let main_v40 : IVec S_ 1 := andi main_v33 main_v39
  main_v40

def fn_part1 {F : FTy → Type} [FloatOps F] (main_arg0 : IVec S4096x200 32) (main_arg5 : FVec F S1024x16 .f32) (main_arg6 : FVec F S64x64 .f32) (main_arg7 : FVec F S64 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S1024x16 .f32 := Host.absf main_arg5
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_v33

def fn {F : FTy → Type} [FloatOps F] (main_arg0 : IVec S4096x200 32) (main_arg1 : FVec F S4096x200x64 .f32) (main_arg2 : FVec F S1024x16 .f32) (main_arg3 : FVec F S1024x16 .f32) (main_arg4 : FVec F S1024x16 .f32) (main_arg5 : FVec F S1024x16 .f32) (main_arg6 : FVec F S64x64 .f32) (main_arg7 : FVec F S64 .f32) : IVec S_ 1 :=
  let main_v0 : FVec F S4096x200x64 .f32 := Host.absf main_arg1
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S1024x16 .f32 := Host.absf main_arg2
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S1024x16 .f32 := Host.absf main_arg3
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S1024x16 .f32 := Host.absf main_arg4
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg0 main_arg5 main_arg6 main_arg7 main_v13 main_v16
-- ==== Kernel.lean ====
abbrev S4096x200 : Shape := ⟨2, ![4096, 200]⟩
abbrev S4096x200x64 : Shape := ⟨3, ![4096, 200, 64]⟩
abbrev S1024x16 : Shape := ⟨2, ![1024, 16]⟩
abbrev S64x64 : Shape := ⟨2, ![64, 64]⟩
abbrev S64 : Shape := ⟨1, ![64]⟩
abbrev S819200 : Shape := ⟨1, ![819200]⟩
abbrev S4194304 : Shape := ⟨1, ![4194304]⟩
abbrev S3200 : Shape := ⟨1, ![3200]⟩
abbrev S16384 : Shape := ⟨1, ![16384]⟩
abbrev S_ : Shape := ⟨0, ![]⟩
abbrev S16 : Shape := ⟨1, ![16]⟩
abbrev S4096x1024 : Shape := ⟨2, ![4096, 1024]⟩
abbrev S1024x64 : Shape := ⟨2, ![1024, 64]⟩
abbrev S4096x100x128 : Shape := ⟨3, ![4096, 100, 128]⟩
abbrev S1x64 : Shape := ⟨2, ![1, 64]⟩
abbrev S4096x64 : Shape := ⟨2, ![4096, 64]⟩
abbrev S128x100x128 : Shape := ⟨3, ![128, 100, 128]⟩
abbrev S128x1024 : Shape := ⟨2, ![128, 1024]⟩
abbrev S128x64 : Shape := ⟨2, ![128, 64]⟩
abbrev S128x128 : Shape := ⟨2, ![128, 128]⟩

abbrev nBuf : Table → Nat
  | .hbm => 15
  | .local .tc .vmem => 9
  | .local .scVector .vmem => 3
  | _ => 0

abbrev bufTy : (tb : Table) → Fin (nBuf tb) → BufTy
  | .hbm, ⟨0, _⟩ => ⟨S4096x200, .i32⟩
  | .hbm, ⟨1, _⟩ => ⟨S4096x200x64, .f32⟩
  | .hbm, ⟨2, _⟩ => ⟨S1024x16, .f32⟩
  | .hbm, ⟨3, _⟩ => ⟨S1024x16, .f32⟩
  | .hbm, ⟨4, _⟩ => ⟨S1024x16, .f32⟩
  | .hbm, ⟨5, _⟩ => ⟨S1024x16, .f32⟩
  | .hbm, ⟨6, _⟩ => ⟨S64x64, .f32⟩
  | .hbm, ⟨7, _⟩ => ⟨S64, .f32⟩
  | .hbm, ⟨8, _⟩ => ⟨S819200, .i32⟩
  | .hbm, ⟨9, _⟩ => ⟨S4194304, .f32⟩
  | .hbm, ⟨10, _⟩ => ⟨S4096x1024, .f32⟩
  | .hbm, ⟨11, _⟩ => ⟨S1024x64, .f32⟩
  | .hbm, ⟨12, _⟩ => ⟨S4096x100x128, .f32⟩
  | .hbm, ⟨13, _⟩ => ⟨S1x64, .f32⟩
  | .hbm, ⟨14, _⟩ => ⟨S4096x64, .f32⟩
  | .local .tc .vmem, ⟨0, _⟩ => ⟨S128x100x128, .f32⟩
  | .local .tc .vmem, ⟨1, _⟩ => ⟨S128x100x128, .f32⟩
  | .local .tc .vmem, ⟨2, _⟩ => ⟨S128x1024, .f32⟩
  | .local .tc .vmem, ⟨3, _⟩ => ⟨S128x1024, .f32⟩
  | .local .tc .vmem, ⟨4, _⟩ => ⟨S1024x64, .f32⟩
  | .local .tc .vmem, ⟨5, _⟩ => ⟨S64x64, .f32⟩
  | .local .tc .vmem, ⟨6, _⟩ => ⟨S1x64, .f32⟩
  | .local .tc .vmem, ⟨7, _⟩ => ⟨S128x64, .f32⟩
  | .local .tc .vmem, ⟨8, _⟩ => ⟨S128x64, .f32⟩
  | .local .scVector .vmem, ⟨0, _⟩ => ⟨S3200, .i32⟩
  | .local .scVector .vmem, ⟨1, _⟩ => ⟨S16384, .f32⟩
  | .local .scVector .vmem, ⟨2, _⟩ => ⟨S16384, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v0_scv : Ref sig .scVector := ⟨.hbm, 8, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v10 : BitVec 32 := Scalar.addi v2 c0_i32
  let c200_i32_1 : BitVec 32 := 200#32
  let v11 : BitVec 32 := Scalar.muli v10 c200_i32_1
  ![v11.toNat]
@[reducible] def k0_t1_loop : Scf.Loop 32 :=
  let c0_i32_3 : BitVec 32 := 0#32
  let c64_i32 : BitVec 32 := 64#32
  let v12 : BitVec 32 := Scalar.addi c0_i32_3 c64_i32
  let c1_i32 : BitVec 32 := 1#32
  ⟨c0_i32_3, v12, c1_i32⟩
def k0_off2 (k0_t1 : Fin k0_t1_loop.trips) (c0_i32_96 : BitVec 32) : Fin 1 → Nat :=
  let c0_i32_3 : BitVec 32 := 0#32
  let c1_i32 : BitVec 32 := 1#32
  let arg9 : BitVec 32 := Scf.iv c0_i32_3 c1_i32 k0_t1
  let c16_i32_95 : BitVec 32 := 16#32
  let v98 : BitVec 32 := Scalar.muli arg9 c16_i32_95
  let v99 : BitVec 32 := Scalar.addi v98 c0_i32_96
  let c16_i32_97 : BitVec 32 := 16#32
  let v100 : BitVec 32 := Scalar.muli v99 c16_i32_97
  let v101 : Index := Scalar.indexCast v100
  ![v101.toNat]
@[reducible] def k0_t2_loop : Scf.Loop 32 :=
  let c0_i32_6 : BitVec 32 := 0#32
  let c50_i32 : BitVec 32 := 50#32
  let v14 : BitVec 32 := Scalar.addi c0_i32_6 c50_i32
  let c1_i32_7 : BitVec 32 := 1#32
  ⟨c0_i32_6, v14, c1_i32_7⟩

def k0_chk1 (v101 : IVec S16 32) : Prop :=
  (∀ a x, ((![v101] : Fin 1 → IVec S16 32) a x).toNat < S3200.size a)
instance k0_chk1.dec : ∀ (v101 : IVec S16 32), Decidable (k0_chk1 v101) := fun v101 => decidable_of_iff' _ (Iff.of_eq (k0_chk1.eq_1 v101))
theorem k0_idx1_inb : ∀ (v101 : IVec S16 32) (k0_hw1 : k0_chk1 v101), ∀ a x, ((![v101] : Fin 1 → IVec S16 32) a x).toNat < S3200.size a := fun v101 k0_hw1 => k0_hw1

def k0_chk2 (v105 : IVec S16 32) : Prop :=
  (∀ a x, ((![v105] : Fin 1 → IVec S16 32) a x).toNat < S16384.size a)
instance k0_chk2.dec : ∀ (v105 : IVec S16 32), Decidable (k0_chk2 v105) := fun v105 => decidable_of_iff' _ (Iff.of_eq (k0_chk2.eq_1 v105))
theorem k0_idx2_inb : ∀ (v105 : IVec S16 32) (k0_hw2 : k0_chk2 v105), ∀ a x, ((![v105] : Fin 1 → IVec S16 32) a x).toNat < S16384.size a := fun v105 k0_hw2 => k0_hw2

def k0_chk3 (v109 : IVec S16 32) : Prop :=
  (∀ a x, ((![v109] : Fin 1 → IVec S16 32) a x).toNat < S3200.size a)
instance k0_chk3.dec : ∀ (v109 : IVec S16 32), Decidable (k0_chk3 v109) := fun v109 => decidable_of_iff' _ (Iff.of_eq (k0_chk3.eq_1 v109))
theorem k0_idx3_inb : ∀ (v109 : IVec S16 32) (k0_hw3 : k0_chk3 v109), ∀ a x, ((![v109] : Fin 1 → IVec S16 32) a x).toNat < S3200.size a := fun v109 k0_hw3 => k0_hw3

def k0_chk4 (v113 : IVec S16 32) : Prop :=
  (∀ a x, ((![v113] : Fin 1 → IVec S16 32) a x).toNat < S16384.size a)
instance k0_chk4.dec : ∀ (v113 : IVec S16 32), Decidable (k0_chk4 v113) := fun v113 => decidable_of_iff' _ (Iff.of_eq (k0_chk4.eq_1 v113))
theorem k0_idx4_inb : ∀ (v113 : IVec S16 32) (k0_hw4 : k0_chk4 v113), ∀ a x, ((![v113] : Fin 1 → IVec S16 32) a x).toNat < S16384.size a := fun v113 k0_hw4 => k0_hw4

def k0_chk5 (v117 : IVec S16 32) : Prop :=
  (∀ a x, ((![v117] : Fin 1 → IVec S16 32) a x).toNat < S3200.size a)
instance k0_chk5.dec : ∀ (v117 : IVec S16 32), Decidable (k0_chk5 v117) := fun v117 => decidable_of_iff' _ (Iff.of_eq (k0_chk5.eq_1 v117))
theorem k0_idx5_inb : ∀ (v117 : IVec S16 32) (k0_hw5 : k0_chk5 v117), ∀ a x, ((![v117] : Fin 1 → IVec S16 32) a x).toNat < S3200.size a := fun v117 k0_hw5 => k0_hw5

def k0_chk6 (v121 : IVec S16 32) : Prop :=
  (∀ a x, ((![v121] : Fin 1 → IVec S16 32) a x).toNat < S16384.size a)
instance k0_chk6.dec : ∀ (v121 : IVec S16 32), Decidable (k0_chk6 v121) := fun v121 => decidable_of_iff' _ (Iff.of_eq (k0_chk6.eq_1 v121))
theorem k0_idx6_inb : ∀ (v121 : IVec S16 32) (k0_hw6 : k0_chk6 v121), ∀ a x, ((![v121] : Fin 1 → IVec S16 32) a x).toNat < S16384.size a := fun v121 k0_hw6 => k0_hw6

def k0_chk7 (v125 : IVec S16 32) : Prop :=
  (∀ a x, ((![v125] : Fin 1 → IVec S16 32) a x).toNat < S3200.size a)
instance k0_chk7.dec : ∀ (v125 : IVec S16 32), Decidable (k0_chk7 v125) := fun v125 => decidable_of_iff' _ (Iff.of_eq (k0_chk7.eq_1 v125))
theorem k0_idx7_inb : ∀ (v125 : IVec S16 32) (k0_hw7 : k0_chk7 v125), ∀ a x, ((![v125] : Fin 1 → IVec S16 32) a x).toNat < S3200.size a := fun v125 k0_hw7 => k0_hw7

def k0_chk8 (v129 : IVec S16 32) : Prop :=
  (∀ a x, ((![v129] : Fin 1 → IVec S16 32) a x).toNat < S16384.size a)
instance k0_chk8.dec : ∀ (v129 : IVec S16 32), Decidable (k0_chk8 v129) := fun v129 => decidable_of_iff' _ (Iff.of_eq (k0_chk8.eq_1 v129))
theorem k0_idx8_inb : ∀ (v129 : IVec S16 32) (k0_hw8 : k0_chk8 v129), ∀ a x, ((![v129] : Fin 1 → IVec S16 32) a x).toNat < S16384.size a := fun v129 k0_hw8 => k0_hw8
def k0_off3 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v10 : BitVec 32 := Scalar.addi v2 c0_i32
  let c1024_i32_9 : BitVec 32 := 1024#32
  let v16 : BitVec 32 := Scalar.muli v10 c1024_i32_9
  ![v16.toNat]
@[reducible] def k0_t3_loop : Scf.Loop 32 :=
  let c0_i32_12 : BitVec 32 := 0#32
  let c64_i32_13 : BitVec 32 := 64#32
  let v21 : BitVec 32 := Scalar.addi c0_i32_12 c64_i32_13
  let c1_i32_14 : BitVec 32 := 1#32
  ⟨c0_i32_12, v21, c1_i32_14⟩
def k0_off4 (k0_t3 : Fin k0_t3_loop.trips) (c0_i32_96 : BitVec 32) : Fin 1 → Nat :=
  let c0_i32_12 : BitVec 32 := 0#32
  let c1_i32_14 : BitVec 32 := 1#32
  let arg9 : BitVec 32 := Scf.iv c0_i32_12 c1_i32_14 k0_t3
  let c16_i32_95 : BitVec 32 := 16#32
  let v98 : BitVec 32 := Scalar.muli arg9 c16_i32_95
  let v99 : BitVec 32 := Scalar.addi v98 c0_i32_96
  let c16_i32_97 : BitVec 32 := 16#32
  let v100 : BitVec 32 := Scalar.muli v99 c16_i32_97
  let v101 : Index := Scalar.indexCast v100
  ![v101.toNat]
@[reducible] def k0_t4_loop : Scf.Loop 32 :=
  let c0_i32_17 : BitVec 32 := 0#32
  let c50_i32_18 : BitVec 32 := 50#32
  let v23 : BitVec 32 := Scalar.addi c0_i32_17 c50_i32_18
  let c1_i32_19 : BitVec 32 := 1#32
  ⟨c0_i32_17, v23, c1_i32_19⟩

def k0_chk9 (v101 : IVec S16 32) : Prop :=
  (∀ a x, ((![v101] : Fin 1 → IVec S16 32) a x).toNat < S3200.size a)
instance k0_chk9.dec : ∀ (v101 : IVec S16 32), Decidable (k0_chk9 v101) := fun v101 => decidable_of_iff' _ (Iff.of_eq (k0_chk9.eq_1 v101))
theorem k0_idx9_inb : ∀ (v101 : IVec S16 32) (k0_hw9 : k0_chk9 v101), ∀ a x, ((![v101] : Fin 1 → IVec S16 32) a x).toNat < S3200.size a := fun v101 k0_hw9 => k0_hw9

def k0_chk10 (v105 : IVec S16 32) : Prop :=
  (∀ a x, ((![v105] : Fin 1 → IVec S16 32) a x).toNat < S16384.size a)
instance k0_chk10.dec : ∀ (v105 : IVec S16 32), Decidable (k0_chk10 v105) := fun v105 => decidable_of_iff' _ (Iff.of_eq (k0_chk10.eq_1 v105))
theorem k0_idx10_inb : ∀ (v105 : IVec S16 32) (k0_hw10 : k0_chk10 v105), ∀ a x, ((![v105] : Fin 1 → IVec S16 32) a x).toNat < S16384.size a := fun v105 k0_hw10 => k0_hw10

def k0_chk11 (v109 : IVec S16 32) : Prop :=
  (∀ a x, ((![v109] : Fin 1 → IVec S16 32) a x).toNat < S3200.size a)
instance k0_chk11.dec : ∀ (v109 : IVec S16 32), Decidable (k0_chk11 v109) := fun v109 => decidable_of_iff' _ (Iff.of_eq (k0_chk11.eq_1 v109))
theorem k0_idx11_inb : ∀ (v109 : IVec S16 32) (k0_hw11 : k0_chk11 v109), ∀ a x, ((![v109] : Fin 1 → IVec S16 32) a x).toNat < S3200.size a := fun v109 k0_hw11 => k0_hw11

def k0_chk12 (v113 : IVec S16 32) : Prop :=
  (∀ a x, ((![v113] : Fin 1 → IVec S16 32) a x).toNat < S16384.size a)
instance k0_chk12.dec : ∀ (v113 : IVec S16 32), Decidable (k0_chk12 v113) := fun v113 => decidable_of_iff' _ (Iff.of_eq (k0_chk12.eq_1 v113))
theorem k0_idx12_inb : ∀ (v113 : IVec S16 32) (k0_hw12 : k0_chk12 v113), ∀ a x, ((![v113] : Fin 1 → IVec S16 32) a x).toNat < S16384.size a := fun v113 k0_hw12 => k0_hw12

def k0_chk13 (v117 : IVec S16 32) : Prop :=
  (∀ a x, ((![v117] : Fin 1 → IVec S16 32) a x).toNat < S3200.size a)
instance k0_chk13.dec : ∀ (v117 : IVec S16 32), Decidable (k0_chk13 v117) := fun v117 => decidable_of_iff' _ (Iff.of_eq (k0_chk13.eq_1 v117))
theorem k0_idx13_inb : ∀ (v117 : IVec S16 32) (k0_hw13 : k0_chk13 v117), ∀ a x, ((![v117] : Fin 1 → IVec S16 32) a x).toNat < S3200.size a := fun v117 k0_hw13 => k0_hw13

def k0_chk14 (v121 : IVec S16 32) : Prop :=
  (∀ a x, ((![v121] : Fin 1 → IVec S16 32) a x).toNat < S16384.size a)
instance k0_chk14.dec : ∀ (v121 : IVec S16 32), Decidable (k0_chk14 v121) := fun v121 => decidable_of_iff' _ (Iff.of_eq (k0_chk14.eq_1 v121))
theorem k0_idx14_inb : ∀ (v121 : IVec S16 32) (k0_hw14 : k0_chk14 v121), ∀ a x, ((![v121] : Fin 1 → IVec S16 32) a x).toNat < S16384.size a := fun v121 k0_hw14 => k0_hw14

def k0_chk15 (v125 : IVec S16 32) : Prop :=
  (∀ a x, ((![v125] : Fin 1 → IVec S16 32) a x).toNat < S3200.size a)
instance k0_chk15.dec : ∀ (v125 : IVec S16 32), Decidable (k0_chk15 v125) := fun v125 => decidable_of_iff' _ (Iff.of_eq (k0_chk15.eq_1 v125))
theorem k0_idx15_inb : ∀ (v125 : IVec S16 32) (k0_hw15 : k0_chk15 v125), ∀ a x, ((![v125] : Fin 1 → IVec S16 32) a x).toNat < S3200.size a := fun v125 k0_hw15 => k0_hw15

def k0_chk16 (v129 : IVec S16 32) : Prop :=
  (∀ a x, ((![v129] : Fin 1 → IVec S16 32) a x).toNat < S16384.size a)
instance k0_chk16.dec : ∀ (v129 : IVec S16 32), Decidable (k0_chk16 v129) := fun v129 => decidable_of_iff' _ (Iff.of_eq (k0_chk16.eq_1 v129))
theorem k0_idx16_inb : ∀ (v129 : IVec S16 32) (k0_hw16 : k0_chk16 v129), ∀ a x, ((![v129] : Fin 1 → IVec S16 32) a x).toNat < S16384.size a := fun v129 k0_hw16 => k0_hw16
@[reducible] def k0_t5_loop : Scf.Loop 32 :=
  let c0_i32_24 : BitVec 32 := 0#32
  let c64_i32_25 : BitVec 32 := 64#32
  let v32 : BitVec 32 := Scalar.addi c0_i32_24 c64_i32_25
  let c1_i32_26 : BitVec 32 := 1#32
  ⟨c0_i32_24, v32, c1_i32_26⟩
def k0_off5 (k0_t5 : Fin k0_t5_loop.trips) (c0_i32_96 : BitVec 32) : Fin 1 → Nat :=
  let c0_i32_24 : BitVec 32 := 0#32
  let c1_i32_26 : BitVec 32 := 1#32
  let arg9 : BitVec 32 := Scf.iv c0_i32_24 c1_i32_26 k0_t5
  let c16_i32_95 : BitVec 32 := 16#32
  let v98 : BitVec 32 := Scalar.muli arg9 c16_i32_95
  let v99 : BitVec 32 := Scalar.addi v98 c0_i32_96
  let c16_i32_97 : BitVec 32 := 16#32
  let v100 : BitVec 32 := Scalar.muli v99 c16_i32_97
  let v101 : Index := Scalar.indexCast v100
  ![v101.toNat]
@[reducible] def k0_t6_loop : Scf.Loop 32 :=
  let c0_i32_29 : BitVec 32 := 0#32
  let c50_i32_30 : BitVec 32 := 50#32
  let v34 : BitVec 32 := Scalar.addi c0_i32_29 c50_i32_30
  let c1_i32_31 : BitVec 32 := 1#32
  ⟨c0_i32_29, v34, c1_i32_31⟩

def k0_chk17 (v101 : IVec S16 32) : Prop :=
  (∀ a x, ((![v101] : Fin 1 → IVec S16 32) a x).toNat < S3200.size a)
instance k0_chk17.dec : ∀ (v101 : IVec S16 32), Decidable (k0_chk17 v101) := fun v101 => decidable_of_iff' _ (Iff.of_eq (k0_chk17.eq_1 v101))
theorem k0_idx17_inb : ∀ (v101 : IVec S16 32) (k0_hw17 : k0_chk17 v101), ∀ a x, ((![v101] : Fin 1 → IVec S16 32) a x).toNat < S3200.size a := fun v101 k0_hw17 => k0_hw17

def k0_chk18 (v105 : IVec S16 32) : Prop :=
  (∀ a x, ((![v105] : Fin 1 → IVec S16 32) a x).toNat < S16384.size a)
instance k0_chk18.dec : ∀ (v105 : IVec S16 32), Decidable (k0_chk18 v105) := fun v105 => decidable_of_iff' _ (Iff.of_eq (k0_chk18.eq_1 v105))
theorem k0_idx18_inb : ∀ (v105 : IVec S16 32) (k0_hw18 : k0_chk18 v105), ∀ a x, ((![v105] : Fin 1 → IVec S16 32) a x).toNat < S16384.size a := fun v105 k0_hw18 => k0_hw18

def k0_chk19 (v109 : IVec S16 32) : Prop :=
  (∀ a x, ((![v109] : Fin 1 → IVec S16 32) a x).toNat < S3200.size a)
instance k0_chk19.dec : ∀ (v109 : IVec S16 32), Decidable (k0_chk19 v109) := fun v109 => decidable_of_iff' _ (Iff.of_eq (k0_chk19.eq_1 v109))
theorem k0_idx19_inb : ∀ (v109 : IVec S16 32) (k0_hw19 : k0_chk19 v109), ∀ a x, ((![v109] : Fin 1 → IVec S16 32) a x).toNat < S3200.size a := fun v109 k0_hw19 => k0_hw19

def k0_chk20 (v113 : IVec S16 32) : Prop :=
  (∀ a x, ((![v113] : Fin 1 → IVec S16 32) a x).toNat < S16384.size a)
instance k0_chk20.dec : ∀ (v113 : IVec S16 32), Decidable (k0_chk20 v113) := fun v113 => decidable_of_iff' _ (Iff.of_eq (k0_chk20.eq_1 v113))
theorem k0_idx20_inb : ∀ (v113 : IVec S16 32) (k0_hw20 : k0_chk20 v113), ∀ a x, ((![v113] : Fin 1 → IVec S16 32) a x).toNat < S16384.size a := fun v113 k0_hw20 => k0_hw20

def k0_chk21 (v117 : IVec S16 32) : Prop :=
  (∀ a x, ((![v117] : Fin 1 → IVec S16 32) a x).toNat < S3200.size a)
instance k0_chk21.dec : ∀ (v117 : IVec S16 32), Decidable (k0_chk21 v117) := fun v117 => decidable_of_iff' _ (Iff.of_eq (k0_chk21.eq_1 v117))
theorem k0_idx21_inb : ∀ (v117 : IVec S16 32) (k0_hw21 : k0_chk21 v117), ∀ a x, ((![v117] : Fin 1 → IVec S16 32) a x).toNat < S3200.size a := fun v117 k0_hw21 => k0_hw21

def k0_chk22 (v121 : IVec S16 32) : Prop :=
  (∀ a x, ((![v121] : Fin 1 → IVec S16 32) a x).toNat < S16384.size a)
instance k0_chk22.dec : ∀ (v121 : IVec S16 32), Decidable (k0_chk22 v121) := fun v121 => decidable_of_iff' _ (Iff.of_eq (k0_chk22.eq_1 v121))
theorem k0_idx22_inb : ∀ (v121 : IVec S16 32) (k0_hw22 : k0_chk22 v121), ∀ a x, ((![v121] : Fin 1 → IVec S16 32) a x).toNat < S16384.size a := fun v121 k0_hw22 => k0_hw22

def k0_chk23 (v125 : IVec S16 32) : Prop :=
  (∀ a x, ((![v125] : Fin 1 → IVec S16 32) a x).toNat < S3200.size a)
instance k0_chk23.dec : ∀ (v125 : IVec S16 32), Decidable (k0_chk23 v125) := fun v125 => decidable_of_iff' _ (Iff.of_eq (k0_chk23.eq_1 v125))
theorem k0_idx23_inb : ∀ (v125 : IVec S16 32) (k0_hw23 : k0_chk23 v125), ∀ a x, ((![v125] : Fin 1 → IVec S16 32) a x).toNat < S3200.size a := fun v125 k0_hw23 => k0_hw23

def k0_chk24 (v129 : IVec S16 32) : Prop :=
  (∀ a x, ((![v129] : Fin 1 → IVec S16 32) a x).toNat < S16384.size a)
instance k0_chk24.dec : ∀ (v129 : IVec S16 32), Decidable (k0_chk24 v129) := fun v129 => decidable_of_iff' _ (Iff.of_eq (k0_chk24.eq_1 v129))
theorem k0_idx24_inb : ∀ (v129 : IVec S16 32) (k0_hw24 : k0_chk24 v129), ∀ a x, ((![v129] : Fin 1 → IVec S16 32) a x).toNat < S16384.size a := fun v129 k0_hw24 => k0_hw24
@[reducible] def k0_t7_loop : Scf.Loop 32 :=
  let c0_i32_36 : BitVec 32 := 0#32
  let c64_i32_37 : BitVec 32 := 64#32
  let v43 : BitVec 32 := Scalar.addi c0_i32_36 c64_i32_37
  let c1_i32_38 : BitVec 32 := 1#32
  ⟨c0_i32_36, v43, c1_i32_38⟩
def k0_off6 (k0_t7 : Fin k0_t7_loop.trips) (c0_i32_96 : BitVec 32) : Fin 1 → Nat :=
  let c0_i32_36 : BitVec 32 := 0#32
  let c1_i32_38 : BitVec 32 := 1#32
  let arg9 : BitVec 32 := Scf.iv c0_i32_36 c1_i32_38 k0_t7
  let c16_i32_95 : BitVec 32 := 16#32
  let v98 : BitVec 32 := Scalar.muli arg9 c16_i32_95
  let v99 : BitVec 32 := Scalar.addi v98 c0_i32_96
  let c16_i32_97 : BitVec 32 := 16#32
  let v100 : BitVec 32 := Scalar.muli v99 c16_i32_97
  let v101 : Index := Scalar.indexCast v100
  ![v101.toNat]
@[reducible] def k0_t8_loop : Scf.Loop 32 :=
  let c0_i32_41 : BitVec 32 := 0#32
  let c50_i32_42 : BitVec 32 := 50#32
  let v45 : BitVec 32 := Scalar.addi c0_i32_41 c50_i32_42
  let c1_i32_43 : BitVec 32 := 1#32
  ⟨c0_i32_41, v45, c1_i32_43⟩

def k0_chk25 (v101 : IVec S16 32) : Prop :=
  (∀ a x, ((![v101] : Fin 1 → IVec S16 32) a x).toNat < S3200.size a)
instance k0_chk25.dec : ∀ (v101 : IVec S16 32), Decidable (k0_chk25 v101) := fun v101 => decidable_of_iff' _ (Iff.of_eq (k0_chk25.eq_1 v101))
theorem k0_idx25_inb : ∀ (v101 : IVec S16 32) (k0_hw25 : k0_chk25 v101), ∀ a x, ((![v101] : Fin 1 → IVec S16 32) a x).toNat < S3200.size a := fun v101 k0_hw25 => k0_hw25

def k0_chk26 (v105 : IVec S16 32) : Prop :=
  (∀ a x, ((![v105] : Fin 1 → IVec S16 32) a x).toNat < S16384.size a)
instance k0_chk26.dec : ∀ (v105 : IVec S16 32), Decidable (k0_chk26 v105) := fun v105 => decidable_of_iff' _ (Iff.of_eq (k0_chk26.eq_1 v105))
theorem k0_idx26_inb : ∀ (v105 : IVec S16 32) (k0_hw26 : k0_chk26 v105), ∀ a x, ((![v105] : Fin 1 → IVec S16 32) a x).toNat < S16384.size a := fun v105 k0_hw26 => k0_hw26

def k0_chk27 (v109 : IVec S16 32) : Prop :=
  (∀ a x, ((![v109] : Fin 1 → IVec S16 32) a x).toNat < S3200.size a)
instance k0_chk27.dec : ∀ (v109 : IVec S16 32), Decidable (k0_chk27 v109) := fun v109 => decidable_of_iff' _ (Iff.of_eq (k0_chk27.eq_1 v109))
theorem k0_idx27_inb : ∀ (v109 : IVec S16 32) (k0_hw27 : k0_chk27 v109), ∀ a x, ((![v109] : Fin 1 → IVec S16 32) a x).toNat < S3200.size a := fun v109 k0_hw27 => k0_hw27

def k0_chk28 (v113 : IVec S16 32) : Prop :=
  (∀ a x, ((![v113] : Fin 1 → IVec S16 32) a x).toNat < S16384.size a)
instance k0_chk28.dec : ∀ (v113 : IVec S16 32), Decidable (k0_chk28 v113) := fun v113 => decidable_of_iff' _ (Iff.of_eq (k0_chk28.eq_1 v113))
theorem k0_idx28_inb : ∀ (v113 : IVec S16 32) (k0_hw28 : k0_chk28 v113), ∀ a x, ((![v113] : Fin 1 → IVec S16 32) a x).toNat < S16384.size a := fun v113 k0_hw28 => k0_hw28

def k0_chk29 (v117 : IVec S16 32) : Prop :=
  (∀ a x, ((![v117] : Fin 1 → IVec S16 32) a x).toNat < S3200.size a)
instance k0_chk29.dec : ∀ (v117 : IVec S16 32), Decidable (k0_chk29 v117) := fun v117 => decidable_of_iff' _ (Iff.of_eq (k0_chk29.eq_1 v117))
theorem k0_idx29_inb : ∀ (v117 : IVec S16 32) (k0_hw29 : k0_chk29 v117), ∀ a x, ((![v117] : Fin 1 → IVec S16 32) a x).toNat < S3200.size a := fun v117 k0_hw29 => k0_hw29

def k0_chk30 (v121 : IVec S16 32) : Prop :=
  (∀ a x, ((![v121] : Fin 1 → IVec S16 32) a x).toNat < S16384.size a)
instance k0_chk30.dec : ∀ (v121 : IVec S16 32), Decidable (k0_chk30 v121) := fun v121 => decidable_of_iff' _ (Iff.of_eq (k0_chk30.eq_1 v121))
theorem k0_idx30_inb : ∀ (v121 : IVec S16 32) (k0_hw30 : k0_chk30 v121), ∀ a x, ((![v121] : Fin 1 → IVec S16 32) a x).toNat < S16384.size a := fun v121 k0_hw30 => k0_hw30

def k0_chk31 (v125 : IVec S16 32) : Prop :=
  (∀ a x, ((![v125] : Fin 1 → IVec S16 32) a x).toNat < S3200.size a)
instance k0_chk31.dec : ∀ (v125 : IVec S16 32), Decidable (k0_chk31 v125) := fun v125 => decidable_of_iff' _ (Iff.of_eq (k0_chk31.eq_1 v125))
theorem k0_idx31_inb : ∀ (v125 : IVec S16 32) (k0_hw31 : k0_chk31 v125), ∀ a x, ((![v125] : Fin 1 → IVec S16 32) a x).toNat < S3200.size a := fun v125 k0_hw31 => k0_hw31

def k0_chk32 (v129 : IVec S16 32) : Prop :=
  (∀ a x, ((![v129] : Fin 1 → IVec S16 32) a x).toNat < S16384.size a)
instance k0_chk32.dec : ∀ (v129 : IVec S16 32), Decidable (k0_chk32 v129) := fun v129 => decidable_of_iff' _ (Iff.of_eq (k0_chk32.eq_1 v129))
theorem k0_idx32_inb : ∀ (v129 : IVec S16 32) (k0_hw32 : k0_chk32 v129), ∀ a x, ((![v129] : Fin 1 → IVec S16 32) a x).toNat < S16384.size a := fun v129 k0_hw32 => k0_hw32
@[reducible] def k0_t9_loop : Scf.Loop 32 :=
  let c0_i32_49 : BitVec 32 := 0#32
  let c64_i32_50 : BitVec 32 := 64#32
  let v54 : BitVec 32 := Scalar.addi c0_i32_49 c64_i32_50
  let c1_i32_51 : BitVec 32 := 1#32
  ⟨c0_i32_49, v54, c1_i32_51⟩
def k0_off7 (k0_t9 : Fin k0_t9_loop.trips) (c0_i32_96 : BitVec 32) : Fin 1 → Nat :=
  let c0_i32_49 : BitVec 32 := 0#32
  let c1_i32_51 : BitVec 32 := 1#32
  let arg9 : BitVec 32 := Scf.iv c0_i32_49 c1_i32_51 k0_t9
  let c16_i32_95 : BitVec 32 := 16#32
  let v98 : BitVec 32 := Scalar.muli arg9 c16_i32_95
  let v99 : BitVec 32 := Scalar.addi v98 c0_i32_96
  let c16_i32_97 : BitVec 32 := 16#32
  let v100 : BitVec 32 := Scalar.muli v99 c16_i32_97
  let v101 : Index := Scalar.indexCast v100
  ![v101.toNat]
@[reducible] def k0_t10_loop : Scf.Loop 32 :=
  let c0_i32_54 : BitVec 32 := 0#32
  let c50_i32_55 : BitVec 32 := 50#32
  let v56 : BitVec 32 := Scalar.addi c0_i32_54 c50_i32_55
  let c1_i32_56 : BitVec 32 := 1#32
  ⟨c0_i32_54, v56, c1_i32_56⟩

def k0_chk33 (v101 : IVec S16 32) : Prop :=
  (∀ a x, ((![v101] : Fin 1 → IVec S16 32) a x).toNat < S3200.size a)
instance k0_chk33.dec : ∀ (v101 : IVec S16 32), Decidable (k0_chk33 v101) := fun v101 => decidable_of_iff' _ (Iff.of_eq (k0_chk33.eq_1 v101))
theorem k0_idx33_inb : ∀ (v101 : IVec S16 32) (k0_hw33 : k0_chk33 v101), ∀ a x, ((![v101] : Fin 1 → IVec S16 32) a x).toNat < S3200.size a := fun v101 k0_hw33 => k0_hw33

def k0_chk34 (v105 : IVec S16 32) : Prop :=
  (∀ a x, ((![v105] : Fin 1 → IVec S16 32) a x).toNat < S16384.size a)
instance k0_chk34.dec : ∀ (v105 : IVec S16 32), Decidable (k0_chk34 v105) := fun v105 => decidable_of_iff' _ (Iff.of_eq (k0_chk34.eq_1 v105))
theorem k0_idx34_inb : ∀ (v105 : IVec S16 32) (k0_hw34 : k0_chk34 v105), ∀ a x, ((![v105] : Fin 1 → IVec S16 32) a x).toNat < S16384.size a := fun v105 k0_hw34 => k0_hw34

def k0_chk35 (v109 : IVec S16 32) : Prop :=
  (∀ a x, ((![v109] : Fin 1 → IVec S16 32) a x).toNat < S3200.size a)
instance k0_chk35.dec : ∀ (v109 : IVec S16 32), Decidable (k0_chk35 v109) := fun v109 => decidable_of_iff' _ (Iff.of_eq (k0_chk35.eq_1 v109))
theorem k0_idx35_inb : ∀ (v109 : IVec S16 32) (k0_hw35 : k0_chk35 v109), ∀ a x, ((![v109] : Fin 1 → IVec S16 32) a x).toNat < S3200.size a := fun v109 k0_hw35 => k0_hw35

def k0_chk36 (v113 : IVec S16 32) : Prop :=
  (∀ a x, ((![v113] : Fin 1 → IVec S16 32) a x).toNat < S16384.size a)
instance k0_chk36.dec : ∀ (v113 : IVec S16 32), Decidable (k0_chk36 v113) := fun v113 => decidable_of_iff' _ (Iff.of_eq (k0_chk36.eq_1 v113))
theorem k0_idx36_inb : ∀ (v113 : IVec S16 32) (k0_hw36 : k0_chk36 v113), ∀ a x, ((![v113] : Fin 1 → IVec S16 32) a x).toNat < S16384.size a := fun v113 k0_hw36 => k0_hw36

def k0_chk37 (v117 : IVec S16 32) : Prop :=
  (∀ a x, ((![v117] : Fin 1 → IVec S16 32) a x).toNat < S3200.size a)
instance k0_chk37.dec : ∀ (v117 : IVec S16 32), Decidable (k0_chk37 v117) := fun v117 => decidable_of_iff' _ (Iff.of_eq (k0_chk37.eq_1 v117))
theorem k0_idx37_inb : ∀ (v117 : IVec S16 32) (k0_hw37 : k0_chk37 v117), ∀ a x, ((![v117] : Fin 1 → IVec S16 32) a x).toNat < S3200.size a := fun v117 k0_hw37 => k0_hw37

def k0_chk38 (v121 : IVec S16 32) : Prop :=
  (∀ a x, ((![v121] : Fin 1 → IVec S16 32) a x).toNat < S16384.size a)
instance k0_chk38.dec : ∀ (v121 : IVec S16 32), Decidable (k0_chk38 v121) := fun v121 => decidable_of_iff' _ (Iff.of_eq (k0_chk38.eq_1 v121))
theorem k0_idx38_inb : ∀ (v121 : IVec S16 32) (k0_hw38 : k0_chk38 v121), ∀ a x, ((![v121] : Fin 1 → IVec S16 32) a x).toNat < S16384.size a := fun v121 k0_hw38 => k0_hw38

def k0_chk39 (v125 : IVec S16 32) : Prop :=
  (∀ a x, ((![v125] : Fin 1 → IVec S16 32) a x).toNat < S3200.size a)
instance k0_chk39.dec : ∀ (v125 : IVec S16 32), Decidable (k0_chk39 v125) := fun v125 => decidable_of_iff' _ (Iff.of_eq (k0_chk39.eq_1 v125))
theorem k0_idx39_inb : ∀ (v125 : IVec S16 32) (k0_hw39 : k0_chk39 v125), ∀ a x, ((![v125] : Fin 1 → IVec S16 32) a x).toNat < S3200.size a := fun v125 k0_hw39 => k0_hw39

def k0_chk40 (v129 : IVec S16 32) : Prop :=
  (∀ a x, ((![v129] : Fin 1 → IVec S16 32) a x).toNat < S16384.size a)
instance k0_chk40.dec : ∀ (v129 : IVec S16 32), Decidable (k0_chk40 v129) := fun v129 => decidable_of_iff' _ (Iff.of_eq (k0_chk40.eq_1 v129))
theorem k0_idx40_inb : ∀ (v129 : IVec S16 32) (k0_hw40 : k0_chk40 v129), ∀ a x, ((![v129] : Fin 1 → IVec S16 32) a x).toNat < S16384.size a := fun v129 k0_hw40 => k0_hw40
@[reducible] def k0_t11_loop : Scf.Loop 32 :=
  let c0_i32_61 : BitVec 32 := 0#32
  let c64_i32_62 : BitVec 32 := 64#32
  let v65 : BitVec 32 := Scalar.addi c0_i32_61 c64_i32_62
  let c1_i32_63 : BitVec 32 := 1#32
  ⟨c0_i32_61, v65, c1_i32_63⟩
def k0_off8 (k0_t11 : Fin k0_t11_loop.trips) (c0_i32_96 : BitVec 32) : Fin 1 → Nat :=
  let c0_i32_61 : BitVec 32 := 0#32
  let c1_i32_63 : BitVec 32 := 1#32
  let arg9 : BitVec 32 := Scf.iv c0_i32_61 c1_i32_63 k0_t11
  let c16_i32_95 : BitVec 32 := 16#32
  let v98 : BitVec 32 := Scalar.muli arg9 c16_i32_95
  let v99 : BitVec 32 := Scalar.addi v98 c0_i32_96
  let c16_i32_97 : BitVec 32 := 16#32
  let v100 : BitVec 32 := Scalar.muli v99 c16_i32_97
  let v101 : Index := Scalar.indexCast v100
  ![v101.toNat]
@[reducible] def k0_t12_loop : Scf.Loop 32 :=
  let c0_i32_66 : BitVec 32 := 0#32
  let c50_i32_67 : BitVec 32 := 50#32
  let v67 : BitVec 32 := Scalar.addi c0_i32_66 c50_i32_67
  let c1_i32_68 : BitVec 32 := 1#32
  ⟨c0_i32_66, v67, c1_i32_68⟩

def k0_chk41 (v101 : IVec S16 32) : Prop :=
  (∀ a x, ((![v101] : Fin 1 → IVec S16 32) a x).toNat < S3200.size a)
instance k0_chk41.dec : ∀ (v101 : IVec S16 32), Decidable (k0_chk41 v101) := fun v101 => decidable_of_iff' _ (Iff.of_eq (k0_chk41.eq_1 v101))
theorem k0_idx41_inb : ∀ (v101 : IVec S16 32) (k0_hw41 : k0_chk41 v101), ∀ a x, ((![v101] : Fin 1 → IVec S16 32) a x).toNat < S3200.size a := fun v101 k0_hw41 => k0_hw41

def k0_chk42 (v105 : IVec S16 32) : Prop :=
  (∀ a x, ((![v105] : Fin 1 → IVec S16 32) a x).toNat < S16384.size a)
instance k0_chk42.dec : ∀ (v105 : IVec S16 32), Decidable (k0_chk42 v105) := fun v105 => decidable_of_iff' _ (Iff.of_eq (k0_chk42.eq_1 v105))
theorem k0_idx42_inb : ∀ (v105 : IVec S16 32) (k0_hw42 : k0_chk42 v105), ∀ a x, ((![v105] : Fin 1 → IVec S16 32) a x).toNat < S16384.size a := fun v105 k0_hw42 => k0_hw42

def k0_chk43 (v109 : IVec S16 32) : Prop :=
  (∀ a x, ((![v109] : Fin 1 → IVec S16 32) a x).toNat < S3200.size a)
instance k0_chk43.dec : ∀ (v109 : IVec S16 32), Decidable (k0_chk43 v109) := fun v109 => decidable_of_iff' _ (Iff.of_eq (k0_chk43.eq_1 v109))
theorem k0_idx43_inb : ∀ (v109 : IVec S16 32) (k0_hw43 : k0_chk43 v109), ∀ a x, ((![v109] : Fin 1 → IVec S16 32) a x).toNat < S3200.size a := fun v109 k0_hw43 => k0_hw43

def k0_chk44 (v113 : IVec S16 32) : Prop :=
  (∀ a x, ((![v113] : Fin 1 → IVec S16 32) a x).toNat < S16384.size a)
instance k0_chk44.dec : ∀ (v113 : IVec S16 32), Decidable (k0_chk44 v113) := fun v113 => decidable_of_iff' _ (Iff.of_eq (k0_chk44.eq_1 v113))
theorem k0_idx44_inb : ∀ (v113 : IVec S16 32) (k0_hw44 : k0_chk44 v113), ∀ a x, ((![v113] : Fin 1 → IVec S16 32) a x).toNat < S16384.size a := fun v113 k0_hw44 => k0_hw44

def k0_chk45 (v117 : IVec S16 32) : Prop :=
  (∀ a x, ((![v117] : Fin 1 → IVec S16 32) a x).toNat < S3200.size a)
instance k0_chk45.dec : ∀ (v117 : IVec S16 32), Decidable (k0_chk45 v117) := fun v117 => decidable_of_iff' _ (Iff.of_eq (k0_chk45.eq_1 v117))
theorem k0_idx45_inb : ∀ (v117 : IVec S16 32) (k0_hw45 : k0_chk45 v117), ∀ a x, ((![v117] : Fin 1 → IVec S16 32) a x).toNat < S3200.size a := fun v117 k0_hw45 => k0_hw45

def k0_chk46 (v121 : IVec S16 32) : Prop :=
  (∀ a x, ((![v121] : Fin 1 → IVec S16 32) a x).toNat < S16384.size a)
instance k0_chk46.dec : ∀ (v121 : IVec S16 32), Decidable (k0_chk46 v121) := fun v121 => decidable_of_iff' _ (Iff.of_eq (k0_chk46.eq_1 v121))
theorem k0_idx46_inb : ∀ (v121 : IVec S16 32) (k0_hw46 : k0_chk46 v121), ∀ a x, ((![v121] : Fin 1 → IVec S16 32) a x).toNat < S16384.size a := fun v121 k0_hw46 => k0_hw46

def k0_chk47 (v125 : IVec S16 32) : Prop :=
  (∀ a x, ((![v125] : Fin 1 → IVec S16 32) a x).toNat < S3200.size a)
instance k0_chk47.dec : ∀ (v125 : IVec S16 32), Decidable (k0_chk47 v125) := fun v125 => decidable_of_iff' _ (Iff.of_eq (k0_chk47.eq_1 v125))
theorem k0_idx47_inb : ∀ (v125 : IVec S16 32) (k0_hw47 : k0_chk47 v125), ∀ a x, ((![v125] : Fin 1 → IVec S16 32) a x).toNat < S3200.size a := fun v125 k0_hw47 => k0_hw47

def k0_chk48 (v129 : IVec S16 32) : Prop :=
  (∀ a x, ((![v129] : Fin 1 → IVec S16 32) a x).toNat < S16384.size a)
instance k0_chk48.dec : ∀ (v129 : IVec S16 32), Decidable (k0_chk48 v129) := fun v129 => decidable_of_iff' _ (Iff.of_eq (k0_chk48.eq_1 v129))
theorem k0_idx48_inb : ∀ (v129 : IVec S16 32) (k0_hw48 : k0_chk48 v129), ∀ a x, ((![v129] : Fin 1 → IVec S16 32) a x).toNat < S16384.size a := fun v129 k0_hw48 => k0_hw48
@[reducible] def k0_t13_loop : Scf.Loop 32 :=
  let c0_i32_73 : BitVec 32 := 0#32
  let c64_i32_74 : BitVec 32 := 64#32
  let v76 : BitVec 32 := Scalar.addi c0_i32_73 c64_i32_74
  let c1_i32_75 : BitVec 32 := 1#32
  ⟨c0_i32_73, v76, c1_i32_75⟩
def k0_off9 (k0_t13 : Fin k0_t13_loop.trips) (c0_i32_96 : BitVec 32) : Fin 1 → Nat :=
  let c0_i32_73 : BitVec 32 := 0#32
  let c1_i32_75 : BitVec 32 := 1#32
  let arg9 : BitVec 32 := Scf.iv c0_i32_73 c1_i32_75 k0_t13
  let c16_i32_95 : BitVec 32 := 16#32
  let v98 : BitVec 32 := Scalar.muli arg9 c16_i32_95
  let v99 : BitVec 32 := Scalar.addi v98 c0_i32_96
  let c16_i32_97 : BitVec 32 := 16#32
  let v100 : BitVec 32 := Scalar.muli v99 c16_i32_97
  let v101 : Index := Scalar.indexCast v100
  ![v101.toNat]
@[reducible] def k0_t14_loop : Scf.Loop 32 :=
  let c0_i32_78 : BitVec 32 := 0#32
  let c50_i32_79 : BitVec 32 := 50#32
  let v78 : BitVec 32 := Scalar.addi c0_i32_78 c50_i32_79
  let c1_i32_80 : BitVec 32 := 1#32
  ⟨c0_i32_78, v78, c1_i32_80⟩

def k0_chk49 (v101 : IVec S16 32) : Prop :=
  (∀ a x, ((![v101] : Fin 1 → IVec S16 32) a x).toNat < S3200.size a)
instance k0_chk49.dec : ∀ (v101 : IVec S16 32), Decidable (k0_chk49 v101) := fun v101 => decidable_of_iff' _ (Iff.of_eq (k0_chk49.eq_1 v101))
theorem k0_idx49_inb : ∀ (v101 : IVec S16 32) (k0_hw49 : k0_chk49 v101), ∀ a x, ((![v101] : Fin 1 → IVec S16 32) a x).toNat < S3200.size a := fun v101 k0_hw49 => k0_hw49

def k0_chk50 (v105 : IVec S16 32) : Prop :=
  (∀ a x, ((![v105] : Fin 1 → IVec S16 32) a x).toNat < S16384.size a)
instance k0_chk50.dec : ∀ (v105 : IVec S16 32), Decidable (k0_chk50 v105) := fun v105 => decidable_of_iff' _ (Iff.of_eq (k0_chk50.eq_1 v105))
theorem k0_idx50_inb : ∀ (v105 : IVec S16 32) (k0_hw50 : k0_chk50 v105), ∀ a x, ((![v105] : Fin 1 → IVec S16 32) a x).toNat < S16384.size a := fun v105 k0_hw50 => k0_hw50

def k0_chk51 (v109 : IVec S16 32) : Prop :=
  (∀ a x, ((![v109] : Fin 1 → IVec S16 32) a x).toNat < S3200.size a)
instance k0_chk51.dec : ∀ (v109 : IVec S16 32), Decidable (k0_chk51 v109) := fun v109 => decidable_of_iff' _ (Iff.of_eq (k0_chk51.eq_1 v109))
theorem k0_idx51_inb : ∀ (v109 : IVec S16 32) (k0_hw51 : k0_chk51 v109), ∀ a x, ((![v109] : Fin 1 → IVec S16 32) a x).toNat < S3200.size a := fun v109 k0_hw51 => k0_hw51

def k0_chk52 (v113 : IVec S16 32) : Prop :=
  (∀ a x, ((![v113] : Fin 1 → IVec S16 32) a x).toNat < S16384.size a)
instance k0_chk52.dec : ∀ (v113 : IVec S16 32), Decidable (k0_chk52 v113) := fun v113 => decidable_of_iff' _ (Iff.of_eq (k0_chk52.eq_1 v113))
theorem k0_idx52_inb : ∀ (v113 : IVec S16 32) (k0_hw52 : k0_chk52 v113), ∀ a x, ((![v113] : Fin 1 → IVec S16 32) a x).toNat < S16384.size a := fun v113 k0_hw52 => k0_hw52

def k0_chk53 (v117 : IVec S16 32) : Prop :=
  (∀ a x, ((![v117] : Fin 1 → IVec S16 32) a x).toNat < S3200.size a)
instance k0_chk53.dec : ∀ (v117 : IVec S16 32), Decidable (k0_chk53 v117) := fun v117 => decidable_of_iff' _ (Iff.of_eq (k0_chk53.eq_1 v117))
theorem k0_idx53_inb : ∀ (v117 : IVec S16 32) (k0_hw53 : k0_chk53 v117), ∀ a x, ((![v117] : Fin 1 → IVec S16 32) a x).toNat < S3200.size a := fun v117 k0_hw53 => k0_hw53

def k0_chk54 (v121 : IVec S16 32) : Prop :=
  (∀ a x, ((![v121] : Fin 1 → IVec S16 32) a x).toNat < S16384.size a)
instance k0_chk54.dec : ∀ (v121 : IVec S16 32), Decidable (k0_chk54 v121) := fun v121 => decidable_of_iff' _ (Iff.of_eq (k0_chk54.eq_1 v121))
theorem k0_idx54_inb : ∀ (v121 : IVec S16 32) (k0_hw54 : k0_chk54 v121), ∀ a x, ((![v121] : Fin 1 → IVec S16 32) a x).toNat < S16384.size a := fun v121 k0_hw54 => k0_hw54

def k0_chk55 (v125 : IVec S16 32) : Prop :=
  (∀ a x, ((![v125] : Fin 1 → IVec S16 32) a x).toNat < S3200.size a)
instance k0_chk55.dec : ∀ (v125 : IVec S16 32), Decidable (k0_chk55 v125) := fun v125 => decidable_of_iff' _ (Iff.of_eq (k0_chk55.eq_1 v125))
theorem k0_idx55_inb : ∀ (v125 : IVec S16 32) (k0_hw55 : k0_chk55 v125), ∀ a x, ((![v125] : Fin 1 → IVec S16 32) a x).toNat < S3200.size a := fun v125 k0_hw55 => k0_hw55

def k0_chk56 (v129 : IVec S16 32) : Prop :=
  (∀ a x, ((![v129] : Fin 1 → IVec S16 32) a x).toNat < S16384.size a)
instance k0_chk56.dec : ∀ (v129 : IVec S16 32), Decidable (k0_chk56 v129) := fun v129 => decidable_of_iff' _ (Iff.of_eq (k0_chk56.eq_1 v129))
theorem k0_idx56_inb : ∀ (v129 : IVec S16 32) (k0_hw56 : k0_chk56 v129), ∀ a x, ((![v129] : Fin 1 → IVec S16 32) a x).toNat < S16384.size a := fun v129 k0_hw56 => k0_hw56
@[reducible] def k0_t15_loop : Scf.Loop 32 :=
  let c0_i32_85 : BitVec 32 := 0#32
  let c64_i32_86 : BitVec 32 := 64#32
  let v87 : BitVec 32 := Scalar.addi c0_i32_85 c64_i32_86
  let c1_i32_87 : BitVec 32 := 1#32
  ⟨c0_i32_85, v87, c1_i32_87⟩
def k0_off10 (k0_t15 : Fin k0_t15_loop.trips) (c0_i32_96 : BitVec 32) : Fin 1 → Nat :=
  let c0_i32_85 : BitVec 32 := 0#32
  let c1_i32_87 : BitVec 32 := 1#32
  let arg9 : BitVec 32 := Scf.iv c0_i32_85 c1_i32_87 k0_t15
  let c16_i32_95 : BitVec 32 := 16#32
  let v98 : BitVec 32 := Scalar.muli arg9 c16_i32_95
  let v99 : BitVec 32 := Scalar.addi v98 c0_i32_96
  let c16_i32_97 : BitVec 32 := 16#32
  let v100 : BitVec 32 := Scalar.muli v99 c16_i32_97
  let v101 : Index := Scalar.indexCast v100
  ![v101.toNat]
@[reducible] def k0_t16_loop : Scf.Loop 32 :=
  let c0_i32_90 : BitVec 32 := 0#32
  let c50_i32_91 : BitVec 32 := 50#32
  let v89 : BitVec 32 := Scalar.addi c0_i32_90 c50_i32_91
  let c1_i32_92 : BitVec 32 := 1#32
  ⟨c0_i32_90, v89, c1_i32_92⟩

def k0_chk57 (v101 : IVec S16 32) : Prop :=
  (∀ a x, ((![v101] : Fin 1 → IVec S16 32) a x).toNat < S3200.size a)
instance k0_chk57.dec : ∀ (v101 : IVec S16 32), Decidable (k0_chk57 v101) := fun v101 => decidable_of_iff' _ (Iff.of_eq (k0_chk57.eq_1 v101))
theorem k0_idx57_inb : ∀ (v101 : IVec S16 32) (k0_hw57 : k0_chk57 v101), ∀ a x, ((![v101] : Fin 1 → IVec S16 32) a x).toNat < S3200.size a := fun v101 k0_hw57 => k0_hw57

def k0_chk58 (v105 : IVec S16 32) : Prop :=
  (∀ a x, ((![v105] : Fin 1 → IVec S16 32) a x).toNat < S16384.size a)
instance k0_chk58.dec : ∀ (v105 : IVec S16 32), Decidable (k0_chk58 v105) := fun v105 => decidable_of_iff' _ (Iff.of_eq (k0_chk58.eq_1 v105))
theorem k0_idx58_inb : ∀ (v105 : IVec S16 32) (k0_hw58 : k0_chk58 v105), ∀ a x, ((![v105] : Fin 1 → IVec S16 32) a x).toNat < S16384.size a := fun v105 k0_hw58 => k0_hw58

def k0_chk59 (v109 : IVec S16 32) : Prop :=
  (∀ a x, ((![v109] : Fin 1 → IVec S16 32) a x).toNat < S3200.size a)
instance k0_chk59.dec : ∀ (v109 : IVec S16 32), Decidable (k0_chk59 v109) := fun v109 => decidable_of_iff' _ (Iff.of_eq (k0_chk59.eq_1 v109))
theorem k0_idx59_inb : ∀ (v109 : IVec S16 32) (k0_hw59 : k0_chk59 v109), ∀ a x, ((![v109] : Fin 1 → IVec S16 32) a x).toNat < S3200.size a := fun v109 k0_hw59 => k0_hw59

def k0_chk60 (v113 : IVec S16 32) : Prop :=
  (∀ a x, ((![v113] : Fin 1 → IVec S16 32) a x).toNat < S16384.size a)
instance k0_chk60.dec : ∀ (v113 : IVec S16 32), Decidable (k0_chk60 v113) := fun v113 => decidable_of_iff' _ (Iff.of_eq (k0_chk60.eq_1 v113))
theorem k0_idx60_inb : ∀ (v113 : IVec S16 32) (k0_hw60 : k0_chk60 v113), ∀ a x, ((![v113] : Fin 1 → IVec S16 32) a x).toNat < S16384.size a := fun v113 k0_hw60 => k0_hw60

def k0_chk61 (v117 : IVec S16 32) : Prop :=
  (∀ a x, ((![v117] : Fin 1 → IVec S16 32) a x).toNat < S3200.size a)
instance k0_chk61.dec : ∀ (v117 : IVec S16 32), Decidable (k0_chk61 v117) := fun v117 => decidable_of_iff' _ (Iff.of_eq (k0_chk61.eq_1 v117))
theorem k0_idx61_inb : ∀ (v117 : IVec S16 32) (k0_hw61 : k0_chk61 v117), ∀ a x, ((![v117] : Fin 1 → IVec S16 32) a x).toNat < S3200.size a := fun v117 k0_hw61 => k0_hw61

def k0_chk62 (v121 : IVec S16 32) : Prop :=
  (∀ a x, ((![v121] : Fin 1 → IVec S16 32) a x).toNat < S16384.size a)
instance k0_chk62.dec : ∀ (v121 : IVec S16 32), Decidable (k0_chk62 v121) := fun v121 => decidable_of_iff' _ (Iff.of_eq (k0_chk62.eq_1 v121))
theorem k0_idx62_inb : ∀ (v121 : IVec S16 32) (k0_hw62 : k0_chk62 v121), ∀ a x, ((![v121] : Fin 1 → IVec S16 32) a x).toNat < S16384.size a := fun v121 k0_hw62 => k0_hw62

def k0_chk63 (v125 : IVec S16 32) : Prop :=
  (∀ a x, ((![v125] : Fin 1 → IVec S16 32) a x).toNat < S3200.size a)
instance k0_chk63.dec : ∀ (v125 : IVec S16 32), Decidable (k0_chk63 v125) := fun v125 => decidable_of_iff' _ (Iff.of_eq (k0_chk63.eq_1 v125))
theorem k0_idx63_inb : ∀ (v125 : IVec S16 32) (k0_hw63 : k0_chk63 v125), ∀ a x, ((![v125] : Fin 1 → IVec S16 32) a x).toNat < S3200.size a := fun v125 k0_hw63 => k0_hw63

def k0_chk64 (v129 : IVec S16 32) : Prop :=
  (∀ a x, ((![v129] : Fin 1 → IVec S16 32) a x).toNat < S16384.size a)
instance k0_chk64.dec : ∀ (v129 : IVec S16 32), Decidable (k0_chk64 v129) := fun v129 => decidable_of_iff' _ (Iff.of_eq (k0_chk64.eq_1 v129))
theorem k0_idx64_inb : ∀ (v129 : IVec S16 32) (k0_hw64 : k0_chk64 v129), ∀ a x, ((![v129] : Fin 1 → IVec S16 32) a x).toNat < S16384.size a := fun v129 k0_hw64 => k0_hw64
abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x100x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  iota_S16_d0_w32_scVector : S16.Iotas .scVector 32 [0]
  h_S16 : 0 < S16.numel
  h_S3200 : 0 < S3200.numel
  h_S16384 : 0 < S16384.numel
  shapeCasts_S4194304_S4096x1024 : S4194304.ShapeCasts S4096x1024
  concatenates_S1024x16_S1024x16_S1024x16_S1024x16_S1024x64_d1 : Shape.Concatenates [S1024x16, S1024x16, S1024x16, S1024x16] S1024x64 1
  shapeCasts_S4096x200x64_S4096x100x128 : S4096x200x64.ShapeCasts S4096x100x128
  shapeCasts_S64_S1x64 : S64.ShapeCasts S1x64
  inb_S128x100x128_S128x100x128_0_0_0 : ∀ a, (![0, 0, 0] : Fin 3 → Nat) a + S128x100x128.size a ≤ S128x100x128.size a
  h_S128x100x128 : 0 < S128x100x128.numel
  shapeCasts_S128x100x128_S128x100x128 : S128x100x128.ShapeCasts S128x100x128
  reduces_S128x100x128_S128x128 : S128x100x128.Reduces [1] S128x128
  slices_S128x128_o0_0_S128x64 : S128x128.Slices ![0, 0] S128x64
  slices_S128x128_o0_64_S128x64 : S128x128.Slices ![0, 64] S128x64
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S128x64_S128x64_0_0 : ∀ a, (![0, 0] : Fin 2 → Nat) a + S128x64.size a ≤ S128x64.size a
  h_S128x64 : 0 < S128x64.numel
  dot_S128x1024_S1024x64_S128x64_1_0_0_1_n_n_wf : DotDims.WF S128x1024 S1024x64 S128x64 [1] [0] [0] [1] [] []
  dot_S128x64_S64x64_S128x64_1_1_0_0_n_n_wf : DotDims.WF S128x64 S64x64 S128x64 [1] [1] [0] [0] [] []
  hcc0_scratch3 : 0 + S_.numel ≤ 19
  hcc0_scratch4 : 1 + S_.numel ≤ 19
  hcc0_scoped0 : 2 + S_.numel ≤ 19
  hcc0_scoped1 : 3 + S_.numel ≤ 19
  hcc0_scoped2 : 4 + S_.numel ≤ 19
  hcc0_scoped3 : 5 + S_.numel ≤ 19
  hcc0_scoped4 : 6 + S_.numel ≤ 19
  hcc0_scoped5 : 7 + S_.numel ≤ 19
  hcc0_scoped6 : 8 + S_.numel ≤ 19
  hcc0_scoped7 : 9 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 8), ∀ a, (k0_off1 i (BitVec.ofNat 32 (16 * r.val))) a + S3200.size a ≤ S819200.size a
  k0_t1_ok : k0_t1_loop.OK
  k0_off2_inb : ∀ k0_t1 : Fin k0_t1_loop.trips, ∀ (r : Fin 16), ∀ a, (k0_off2 k0_t1 (BitVec.ofNat 32 r.val)) a + S16.size a ≤ S16384.size a
  k0_t2_ok : k0_t2_loop.OK
  k0_off3_inb : ∀ i : grid0.Coords, ∀ (r : Fin 8), ∀ a, (k0_off3 i (BitVec.ofNat 32 (16 * r.val))) a + S16384.size a ≤ S4194304.size a
  k0_t3_ok : k0_t3_loop.OK
  k0_off4_inb : ∀ k0_t3 : Fin k0_t3_loop.trips, ∀ (r : Fin 16), ∀ a, (k0_off4 k0_t3 (BitVec.ofNat 32 r.val)) a + S16.size a ≤ S16384.size a
  k0_t4_ok : k0_t4_loop.OK
  k0_t5_ok : k0_t5_loop.OK
  k0_off5_inb : ∀ k0_t5 : Fin k0_t5_loop.trips, ∀ (r : Fin 16), ∀ a, (k0_off5 k0_t5 (BitVec.ofNat 32 r.val)) a + S16.size a ≤ S16384.size a
  k0_t6_ok : k0_t6_loop.OK
  k0_t7_ok : k0_t7_loop.OK
  k0_off6_inb : ∀ k0_t7 : Fin k0_t7_loop.trips, ∀ (r : Fin 16), ∀ a, (k0_off6 k0_t7 (BitVec.ofNat 32 r.val)) a + S16.size a ≤ S16384.size a
  k0_t8_ok : k0_t8_loop.OK
  k0_t9_ok : k0_t9_loop.OK
  k0_off7_inb : ∀ k0_t9 : Fin k0_t9_loop.trips, ∀ (r : Fin 16), ∀ a, (k0_off7 k0_t9 (BitVec.ofNat 32 r.val)) a + S16.size a ≤ S16384.size a
  k0_t10_ok : k0_t10_loop.OK
  k0_t11_ok : k0_t11_loop.OK
  k0_off8_inb : ∀ k0_t11 : Fin k0_t11_loop.trips, ∀ (r : Fin 16), ∀ a, (k0_off8 k0_t11 (BitVec.ofNat 32 r.val)) a + S16.size a ≤ S16384.size a
  k0_t12_ok : k0_t12_loop.OK
  k0_t13_ok : k0_t13_loop.OK
  k0_off9_inb : ∀ k0_t13 : Fin k0_t13_loop.trips, ∀ (r : Fin 16), ∀ a, (k0_off9 k0_t13 (BitVec.ofNat 32 r.val)) a + S16.size a ≤ S16384.size a
  k0_t14_ok : k0_t14_loop.OK
  k0_t15_ok : k0_t15_loop.OK
  k0_off10_inb : ∀ k0_t15 : Fin k0_t15_loop.trips, ∀ (r : Fin 16), ∀ a, (k0_off10 k0_t15 (BitVec.ofNat 32 r.val)) a + S16.size a ≤ S16384.size a
  k0_t16_ok : k0_t16_loop.OK
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x100x128.size a ≤ S4096x100x128.size a
  hwx1_0 : ∀ i : grid1.Coords, EltTy.bits .f32 = 32 ∨ (Rect.block (s := S4096x100x128) S128x100x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .f32 = 32 ∨ (Rect.block (s := S4096x1024) S128x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1024x64.size a
  hwx1_2 : ∀ i : grid1.Coords, EltTy.bits .f32 = 32 ∨ (Rect.block (s := S1024x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S4096x64.size a
  hwx1_5 : ∀ i : grid1.Coords, EltTy.bits .f32 = 32 ∨ (Rect.block (s := S4096x64) S128x64.size (cc1_transform_5 i) (hinb1_5 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def dot_S128x64_S64x64_S128x64_1_1_0_0_n_n : DotDims S128x64 S64x64 S128x64 where
  lhsContracting := [1]
  rhsContracting := [1]
  lhsNonContracting := [0]
  rhsNonContracting := [0]
  lhsBatch := []
  rhsBatch := []
  wf := dot_S128x64_S64x64_S128x64_1_1_0_0_n_n_wf

abbrev win1_0 : Pipeline.Window sig grid1 :=
  Pipeline.Window.ofSpec (Memref.whole main_v4) S128x100x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S128x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x200 : Shape := ⟨2, ![4096, 200]⟩
abbrev S4096x200x64 : Shape := ⟨3, ![4096, 200, 64]⟩
abbrev S1024x16 : Shape := ⟨2, ![1024, 16]⟩
abbrev S64x64 : Shape := ⟨2, ![64, 64]⟩
abbrev S64 : Shape := ⟨1, ![64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x16 : Shape := ⟨3, ![4096, 200, 16]⟩
abbrev S4096x16 : Shape := ⟨2, ![4096, 16]⟩
abbrev S4096x64 : Shape := ⟨2, ![4096, 64]⟩
abbrev S1x64 : Shape := ⟨2, ![1, 64]⟩

abbrev nBuf : Space → Nat
  | .hbm => 154
  | .vmem => 0
  | .smem => 0
  | _ => 0

abbrev hbmTy0_0 (i : Nat) : BufTy := match i % 128 with
  | 0 => ⟨S4096x200, .i32⟩
  | 1 => ⟨S4096x200x64, .f32⟩
  | 2 => ⟨S1024x16, .f32⟩
  | 3 => ⟨S1024x16, .f32⟩
  | 4 => ⟨S1024x16, .f32⟩
  | 5 => ⟨S1024x16, .f32⟩
  | 6 => ⟨S64x64, .f32⟩
  | 7 => ⟨S64, .f32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S4096x200, .i32⟩
  | 15 => ⟨S4096x200, .i32⟩
  | 16 => ⟨S_, .i32⟩
  | 17 => ⟨S4096x200, .i32⟩
  | 18 => ⟨S4096x200, .i1⟩
  | 19 => ⟨S_, .i32⟩
  | 20 => ⟨S4096x200, .i32⟩
  | 21 => ⟨S4096x200, .i1⟩
  | 22 => ⟨S_, .i32⟩
  | 23 => ⟨S_, .i1⟩
  | 24 => ⟨S4096x200, .i1⟩
  | 25 => ⟨S4096x200, .i1⟩
  | 26 => ⟨S4096x200, .i1⟩
  | 27 => ⟨S4096x200, .i32⟩
  | 28 => ⟨S4096x200, .i32⟩
  | 29 => ⟨S4096x200, .i32⟩
  | 30 => ⟨S_, .i32⟩
  | 31 => ⟨S4096x200, .i32⟩
  | 32 => ⟨S4096x200, .i1⟩
  | 33 => ⟨S_, .i32⟩
  | 34 => ⟨S4096x200, .i32⟩
  | 35 => ⟨S4096x200, .i32⟩
  | 36 => ⟨S4096x200, .i32⟩
  | 37 => ⟨S4096x200x1, .i32⟩
  | 38 => ⟨S1, .i32⟩
  | 39 => ⟨S_, .i32⟩
  | 40 => ⟨S4096x200x1, .i32⟩
  | 41 => ⟨S4096x200x1, .i1⟩
  | 42 => ⟨S1x1x1, .i32⟩
  | 43 => ⟨S4096x200x1, .i32⟩
  | 44 => ⟨S4096x200x1, .i1⟩
  | 45 => ⟨S4096x200x1, .i1⟩
  | 46 => ⟨S_, .i1⟩
  | 47 => ⟨S4096x200, .i1⟩
  | 48 => ⟨S4096x200x16, .f32⟩
  | 49 => ⟨S4096x200x16, .i1⟩
  | 50 => ⟨S_, .f32⟩
  | 51 => ⟨S4096x200x16, .f32⟩
  | 52 => ⟨S4096x200x16, .f32⟩
  | 53 => ⟨S_, .f32⟩
  | 54 => ⟨S4096x16, .f32⟩
  | 55 => ⟨S_, .f32⟩
  | 56 => ⟨S4096x16, .f32⟩
  | 57 => ⟨S4096x16, .f32⟩
  | 58 => ⟨S_, .i32⟩
  | 59 => ⟨S4096x200, .i32⟩
  | 60 => ⟨S4096x200, .i1⟩
  | 61 => ⟨S_, .i32⟩
  | 62 => ⟨S4096x200, .i32⟩
  | 63 => ⟨S4096x200, .i32⟩
  | 64 => ⟨S4096x200, .i32⟩
  | 65 => ⟨S4096x200x1, .i32⟩
  | 66 => ⟨S1, .i32⟩
  | 67 => ⟨S_, .i32⟩
  | 68 => ⟨S4096x200x1, .i32⟩
  | 69 => ⟨S4096x200x1, .i1⟩
  | 70 => ⟨S1x1x1, .i32⟩
  | 71 => ⟨S4096x200x1, .i32⟩
  | 72 => ⟨S4096x200x1, .i1⟩
  | 73 => ⟨S4096x200x1, .i1⟩
  | 74 => ⟨S_, .i1⟩
  | 75 => ⟨S4096x200, .i1⟩
  | 76 => ⟨S4096x200x16, .f32⟩
  | 77 => ⟨S4096x200x16, .i1⟩
  | 78 => ⟨S_, .f32⟩
  | 79 => ⟨S4096x200x16, .f32⟩
  | 80 => ⟨S4096x200x16, .f32⟩
  | 81 => ⟨S_, .f32⟩
  | 82 => ⟨S4096x16, .f32⟩
  | 83 => ⟨S_, .f32⟩
  | 84 => ⟨S4096x16, .f32⟩
  | 85 => ⟨S4096x16, .f32⟩
  | 86 => ⟨S_, .i32⟩
  | 87 => ⟨S4096x200, .i32⟩
  | 88 => ⟨S4096x200, .i1⟩
  | 89 => ⟨S_, .i32⟩
  | 90 => ⟨S4096x200, .i32⟩
  | 91 => ⟨S4096x200, .i32⟩
  | 92 => ⟨S4096x200, .i32⟩
  | 93 => ⟨S4096x200x1, .i32⟩
  | 94 => ⟨S1, .i32⟩
  | 95 => ⟨S_, .i32⟩
  | 96 => ⟨S4096x200x1, .i32⟩
  | 97 => ⟨S4096x200x1, .i1⟩
  | 98 => ⟨S1x1x1, .i32⟩
  | 99 => ⟨S4096x200x1, .i32⟩
  | 100 => ⟨S4096x200x1, .i1⟩
  | 101 => ⟨S4096x200x1, .i1⟩
  | 102 => ⟨S_, .i1⟩
  | 103 => ⟨S4096x200, .i1⟩
  | 104 => ⟨S4096x200x16, .f32⟩
  | 105 => ⟨S4096x200x16, .i1⟩
  | 106 => ⟨S_, .f32⟩
  | 107 => ⟨S4096x200x16, .f32⟩
  | 108 => ⟨S4096x200x16, .f32⟩
  | 109 => ⟨S_, .f32⟩
  | 110 => ⟨S4096x16, .f32⟩
  | 111 => ⟨S_, .f32⟩
  | 112 => ⟨S4096x16, .f32⟩
  | 113 => ⟨S4096x16, .f32⟩
  | 114 => ⟨S_, .i32⟩
  | 115 => ⟨S4096x200, .i32⟩
  | 116 => ⟨S4096x200, .i1⟩
  | 117 => ⟨S_, .i32⟩
  | 118 => ⟨S4096x200, .i32⟩
  | 119 => ⟨S4096x200, .i32⟩
  | 120 => ⟨S4096x200, .i32⟩
  | 121 => ⟨S4096x200x1, .i32⟩
  | 122 => ⟨S1, .i32⟩
  | 123 => ⟨S_, .i32⟩
  | 124 => ⟨S4096x200x1, .i32⟩
  | 125 => ⟨S4096x200x1, .i1⟩
  | 126 => ⟨S1x1x1, .i32⟩
  | 127 => ⟨S4096x200x1, .i32⟩
  | _ => ⟨S4096x200, .i32⟩

abbrev hbmTy0_1 (i : Nat) : BufTy := match i % 128 with
  | 0 => ⟨S4096x200x1, .i1⟩
  | 1 => ⟨S4096x200x1, .i1⟩
  | 2 => ⟨S_, .i1⟩
  | 3 => ⟨S4096x200, .i1⟩
  | 4 => ⟨S4096x200x16, .f32⟩
  | 5 => ⟨S4096x200x16, .i1⟩
  | 6 => ⟨S_, .f32⟩
  | 7 => ⟨S4096x200x16, .f32⟩
  | 8 => ⟨S4096x200x16, .f32⟩
  | 9 => ⟨S_, .f32⟩
  | 10 => ⟨S4096x16, .f32⟩
  | 11 => ⟨S_, .f32⟩
  | 12 => ⟨S4096x16, .f32⟩
  | 13 => ⟨S4096x16, .f32⟩
  | 14 => ⟨S4096x64, .f32⟩
  | 15 => ⟨S_, .f32⟩
  | 16 => ⟨S4096x64, .f32⟩
  | 17 => ⟨S_, .f32⟩
  | 18 => ⟨S4096x64, .f32⟩
  | 19 => ⟨S4096x64, .f32⟩
  | 20 => ⟨S4096x64, .f32⟩
  | 21 => ⟨S64x64, .f32⟩
  | 22 => ⟨S4096x64, .f32⟩
  | 23 => ⟨S1x64, .f32⟩
  | 24 => ⟨S4096x64, .f32⟩
  | 25 => ⟨S4096x64, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_cst : Ref sig .tc := ⟨.hbm, 53, rfl⟩
abbrev main_v2 : Ref sig .tc := ⟨.hbm, 54, rfl⟩
abbrev main_cst_0 : Ref sig .tc := ⟨.hbm, 55, rfl⟩
abbrev main_v3 : Ref sig .tc := ⟨.hbm, 56, rfl⟩
abbrev main_v4 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v5 : Ref sig .tc := ⟨.hbm, 80, rfl⟩
abbrev main_cst_1 : Ref sig .tc := ⟨.hbm, 81, rfl⟩
abbrev main_v6 : Ref sig .tc := ⟨.hbm, 82, rfl⟩
abbrev main_cst_2 : Ref sig .tc := ⟨.hbm, 83, rfl⟩
abbrev main_v7 : Ref sig .tc := ⟨.hbm, 84, rfl⟩
abbrev main_v8 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v9 : Ref sig .tc := ⟨.hbm, 108, rfl⟩
abbrev main_cst_3 : Ref sig .tc := ⟨.hbm, 109, rfl⟩
abbrev main_v10 : Ref sig .tc := ⟨.hbm, 110, rfl⟩
abbrev main_cst_4 : Ref sig .tc := ⟨.hbm, 111, rfl⟩
abbrev main_v11 : Ref sig .tc := ⟨.hbm, 112, rfl⟩
abbrev main_v12 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v13 : Ref sig .tc := ⟨.hbm, 136, rfl⟩
abbrev main_cst_5 : Ref sig .tc := ⟨.hbm, 137, rfl⟩
abbrev main_v14 : Ref sig .tc := ⟨.hbm, 138, rfl⟩
abbrev main_cst_6 : Ref sig .tc := ⟨.hbm, 139, rfl⟩
abbrev main_v15 : Ref sig .tc := ⟨.hbm, 140, rfl⟩
abbrev main_v16 : Ref sig .tc := ⟨.hbm, 141, rfl⟩
abbrev main_v17 : Ref sig .tc := ⟨.hbm, 142, rfl⟩
abbrev main_cst_7 : Ref sig .tc := ⟨.hbm, 143, rfl⟩
abbrev main_v18 : Ref sig .tc := ⟨.hbm, 144, rfl⟩
abbrev main_cst_8 : Ref sig .tc := ⟨.hbm, 145, rfl⟩
abbrev main_v19 : Ref sig .tc := ⟨.hbm, 146, rfl⟩
abbrev main_v20 : Ref sig .tc := ⟨.hbm, 147, rfl⟩
abbrev main_v21 : Ref sig .tc := ⟨.hbm, 148, rfl⟩
abbrev main_v22 : Ref sig .tc := ⟨.hbm, 149, rfl⟩
abbrev main_v23 : Ref sig .tc := ⟨.hbm, 150, rfl⟩
abbrev main_v24 : Ref sig .tc := ⟨.hbm, 151, rfl⟩
abbrev main_v25 : Ref sig .tc := ⟨.hbm, 152, rfl⟩
abbrev main_v26 : Ref sig .tc := ⟨.hbm, 153, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x16_0_1 : S4096x200.BroadcastsInDim S4096x200x16 (![0, 1] : Fin 2 → Fin S4096x200x16.rank)
  bcast_S_S4096x200x16 : S_.BroadcastsInDim S4096x200x16 (![] : Fin 0 → Fin S4096x200x16.rank)
  reducesTo_S4096x200x16_S4096x16_d1 : S4096x200x16.ReducesTo [1] S4096x16
  bcast_S_S4096x16 : S_.BroadcastsInDim S4096x16 (![] : Fin 0 → Fin S4096x16.rank)
  concatenates_S4096x16_S4096x16_S4096x16_S4096x16_S4096x64_d1 : Shape.Concatenates [S4096x16, S4096x16, S4096x16, S4096x16] S4096x64 1
  reducesTo_S4096x200x64_S4096x64_d1 : S4096x200x64.ReducesTo [1] S4096x64
  bcast_S_S4096x64 : S_.BroadcastsInDim S4096x64 (![] : Fin 0 → Fin S4096x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  gather_S1024x16_S4096x200x1_S4096x200x16_2_0_n_n_0_2_116_wf : GatherDims.WF S1024x16 S4096x200x1 S4096x200x16 [2] [0] [] [0] [] 2 ![1, 16]
  dot_S4096x64_S64x64_S4096x64_1_0_0_1_n_n_wf : DotDims.WF S4096x64 S64x64 S4096x64 [1] [0] [0] [1] [] []

variable [Facts₀]

def gather_S1024x16_S4096x200x1_S4096x200x16_2_0_n_n_0_2_116 : GatherDims S1024x16 S4096x200x1 S4096x200x16 where
  offsetDims := [2]
  collapsedSliceDims := [0]
  operandBatchingDims := []
  startIndicesBatchingDims := []
  startIndexMap := [0]
  indexVectorDim := 2
  sliceSizes := ![1, 16]
  wf := gather_S1024x16_S4096x200x1_S4096x200x16_2_0_n_n_0_2_116_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.KISetup.lean ====
/-
  The idealized kernel program as the SparseCore launch theorem sees it: one vector-subcore call on
  2 SparseCores × 16 subcores followed by one TensorCore pipeline; the ghost state (the launch
  handshakes' rounds, the TensorCore pipeline's staging cells, the transfer counters of local copies);
  the arrays the tasks share; and how a task's own semaphores split off its ten DMA semaphores.
-/
import proofs.«215258_g80247168959020_cont_9to1_m_796_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215258_g80247168959020_cont_9to1_m_796_9_alg».proof.Proof.Gen.KernelIdeal
import proofs.«215258_g80247168959020_cont_9to1_m_796_9_alg».proof.Proof.Gen.KernelIdeal.Skeleton

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP [FloatOps F] [Named F] : Labels := Pipeline.Sig Λ₀ (Fin 1) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

variable [FloatOps F] [Named F]

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev idsLoc (d : Dev nD) : Loc nD τ sig := (SparseCore.T d).loc main_v0
abbrev outLoc (d : Dev nD) : Loc nD τ sig := (SparseCore.T d).loc main_v1

abbrev idsV : Memref sig .scVector .hbm S819200 .i32 := Memref.whole main_v0_scv
abbrev outV : Memref sig .scVector .hbm S4194304 .f32 := Memref.whole main_v1_scv
abbrev sI : Memref sig .scVector .vmem S3200 .i32 := Memref.whole cc0_scratch0
abbrev sA : Memref sig .scVector .vmem S16384 .f32 := Memref.whole cc0_scratch1
abbrev sB : Memref sig .scVector .vmem S16384 .f32 := Memref.whole cc0_scratch2

/-- The ten DMA semaphores a task uses: two for the copies out (one per count buffer), eight for the copies in. -/
abbrev taskSems : Finset (SemLoc sig) :=
  {SemLoc.dma cc0_scratch3.sem, SemLoc.dma cc0_scratch4.sem, SemLoc.dma cc0_scoped0.sem, SemLoc.dma cc0_scoped1.sem, SemLoc.dma cc0_scoped2.sem, SemLoc.dma cc0_scoped3.sem, SemLoc.dma cc0_scoped4.sem, SemLoc.dma cc0_scoped5.sem, SemLoc.dma cc0_scoped6.sem, SemLoc.dma cc0_scoped7.sem}

omit [FloatOps F] [Named F] in
/-- A thread's own semaphores at zero: those of a set of scoped ones, and the rest. -/
theorem ownSems0_split (thr : Thread nD τ) (s : Finset (SemLoc sig)) (hs : ∀ sm ∈ s, sm.isScoped thr.2.kind = true) :
    (ownSems0 thr : sProp 𝕄)
      = iprop((bigSep s fun sm => semVal ((thr, sm) : GSem nD τ sig) 0) ∗ bigSep (ownCells thr \ s.image fun sm => ((thr, sm) : GSem nD τ sig)) fun g => semVal g 0) := by
  unfold SparseCore.Cfg.ownSems0
  rw [SparseCore.bigSep_sdiff_split' (t := s.image fun sm => ((thr, sm) : GSem nD τ sig)) (by
      intro g hg
      obtain ⟨sm, hsm, rfl⟩ := Finset.mem_image.mp hg
      exact mem_ownCells.mpr ⟨rfl, hs sm hsm⟩),
    SparseCore.bigSep_image_of_injOn (fun a _ b _ e => (Prod.mk.inj e).2)]

end Cert.Proof.KernelIdealRun

end
-- ==== Proof.KIPay.lean ====
/-
  What the one SparseCore call carries. The 32 tasks of the histogram kernel (subcore i of SparseCore c is
  task 2 i + c) cut the flat array of ids into 32 equal runs of 25600 words (128 rows of 200) and the flat array
  of counts into 32 equal runs of 131072 floats (128 rows of 1024). Task w reads run w of the ids and
  writes run w of the counts. The call takes the two arrays cut that way and brings them back, the ids as they
  were and every run of the counts at the one whole-array function `Hf` of the ids.
-/
import proofs.«215258_g80247168959020_cont_9to1_m_796_9_alg».proof.Proof.KISetup

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

theorem hdivI : 32 ∣ S819200.size 0 := ⟨25600, rfl⟩
theorem hdivO : 32 ∣ S4194304.size 0 := ⟨131072, rfl⟩

/-- The task that runs on subcore `i` of SparseCore `c`: number `2 i + c`. -/
def widN (c i : ℕ) : Fin 32 := ⟨(2 * i + c) % 32, Nat.mod_lt _ (by norm_num)⟩

/-- Run `w` of the flat ids: words `25600 w` … `25600 w + 25599`. -/
abbrev idsPart (w : Fin 32) : Rect S819200 := Rect.part (s := S819200) (a₀ := 0) hdivI w
/-- Run `w` of the flat counts: floats `131072 w` … `131072 w + 131071`. -/
abbrev outPart (w : Fin 32) : Rect S4194304 := Rect.part (s := S4194304) (a₀ := 0) hdivO w
abbrev idsSet (w : Fin 32) : Finset S819200.Idx := ((idsV : Memref sig .scVector .hbm S819200 .i32).view.slice (idsPart w)).set
abbrev outSet (w : Fin 32) : Finset S4194304.Idx := ((outV : Memref sig .scVector .hbm S4194304 .f32).view.slice (outPart w)).set

variable (Vids : (d : Dev nD) → Buf (Elt F) (idsLoc d)) (Hf : (d : Dev nD) → Buf (Elt F) (outLoc d))

/-- What task `w` of device `d` starts from: its run of the ids, and its run of the counts at anything. -/
def taskPre (d : Dev nD) (w : Fin 32) : sProp 𝕄 :=
  iprop((idsLoc d ↦[idsSet w]{fullShare} Vids d) ∗ ∃ f, outLoc d ↦[outSet w]{fullShare} f)
/-- What it leaves: its run of the ids as found, its run of the counts at `Hf`. -/
def taskPost (d : Dev nD) (w : Fin 32) : sProp 𝕄 :=
  iprop((idsLoc d ↦[idsSet w]{fullShare} Vids d) ∗ outLoc d ↦[outSet w]{fullShare} Hf d)

/-- The call hands SparseCore `c` the runs of its sixteen tasks and takes them back. -/
def P : (K (F := F)).Pay (nD := nD) (Val := Elt F) (Name := ℕ) (U := UU) where
  st := fun _ d c => bigSep (Finset.univ : Finset (Fin 16)) fun i => taskPre Vids d (widN c.val i.val)
  dn := fun _ d c => bigSep (Finset.univ : Finset (Fin 16)) fun i => taskPost Vids Hf d (widN c.val i.val)
  go := fun _ d c i => taskPre Vids d (widN c.val i.val)
  td := fun _ d c i => taskPost Vids Hf d (widN c.val i.val)
  x := fun _ _ => iprop(emp)

instance taskPre_storable (d : Dev nD) (w : Fin 32) : BI.Storable (upEmb : UEmb _ 𝕄) (taskPre Vids d w) := by
  unfold taskPre; infer_instance
instance taskPost_storable (d : Dev nD) (w : Fin 32) : BI.Storable (upEmb : UEmb _ 𝕄) (taskPost Vids Hf d w) := by
  unfold taskPost; infer_instance

instance P_storable : (P (F := F) Vids Hf).IsStorable where
  st _ d c := by unfold P; infer_instance
  dn _ d c := by unfold P; infer_instance
  go _ _ _ _ := by unfold P; infer_instance
  td _ _ _ _ := by unfold P; infer_instance

theorem P_ox : (P (F := F) Vids Hf).ox = fun _ _ => 0 := rfl
theorem P_x (q : Fin 1) (thr : Thread nD τ) : (P (F := F) Vids Hf).x q thr = iprop(emp) := rfl
theorem P_go (q : Fin 1) (d : Dev nD) (c : Fin ((K (F := F)).nCore q)) (i : Fin ((K (F := F)).nSub q)) :
    (P (F := F) Vids Hf).go q d c i = taskPre Vids d (widN c.val i.val) := rfl
theorem P_td (q : Fin 1) (d : Dev nD) (c : Fin ((K (F := F)).nCore q)) (i : Fin ((K (F := F)).nSub q)) :
    (P (F := F) Vids Hf).td q d c i = taskPost Vids Hf d (widN c.val i.val) := rfl

/-- The sixteen tasks of a SparseCore take exactly what the call hands it, and give back what it takes back. -/
theorem vecSplit : (K (F := F)).VecSplit' (P Vids Hf) 0 := by
  intro d c
  show (bigSep (Finset.univ : Finset (Fin 16)) fun i => taskPre Vids d (widN c.val i.val)) ⊢ |={Set.univ}=> iprop(
      (bigSep (Finset.univ : Finset (Fin 16)) fun i => taskPre Vids d (widN c.val i.val))
      ∗ ((bigSep (Finset.univ : Finset (Fin 16)) fun i => taskPost Vids Hf d (widN c.val i.val))
          -∗ bigSep (Finset.univ : Finset (Fin 16)) fun i => taskPost Vids Hf d (widN c.val i.val)))
  iintro H; imodintro
  isplitl [H]; · iexact H
  iintro H; iexact H

end Cert.Proof.KernelIdealRun

end
-- ==== Proof.KIVals.lean ====
/-
  The contents of the TensorCore's arrays along @main of the kernel program: the launch memory; after the ids are
  flattened; after the histogram call has left its result in the counts array; after the counts are re-laid as
  [4096, 1024], the four tables set side by side, the embeddings re-laid as [4096, 100, 128] and the bias as [1, 64].
  Every array no operation writes keeps its launch contents. Also: the flat ids and the flat counts cut into the
  32 tasks' runs, SparseCore by SparseCore.
-/
import proofs.«215258_g80247168959020_cont_9to1_m_796_9_alg».proof.Proof.KIPay

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-- The result array of @main, as a location of device `d`. -/
abbrev resLoc (d : Dev nD) : Loc nD τ sig := (SparseCore.T d).loc main_v6

/-- A TensorCore array as the device's buffer. -/
abbrev dr (b : Ref sig .tc) : DevRef τ sig := Proc.devRef .tc b

/-- The arrays of @main: its arguments and the values it computes. -/
abbrev Sall : Finset (DevRef τ sig) := (Finset.univ.filter fun b : Ref sig .tc => ¬ b.isScoped).image dr

omit [FloatOps F] [Named F] in
theorem held_Sall (d : Dev nD) (W : Valuation τ sig (Elt F)) :
    (held (SparseCore.T d) Sall W : sProp 𝕄) = unscopedBufs d (fun b => W (dr b)) := by
  unfold held Sall unscopedBufs
  rw [SparseCore.bigSep_image_of_injOn (f := dr) (fun a _ b _ e => Proc.devRef_injective _ e)]

/-! ## The host operations of @main -/

abbrev op0 : HloOp τ sig (Elt F) := StableHlo.reshape main_arg0 main_v0 rfl shapeCasts_S4096x200_S819200
abbrev op2 : HloOp τ sig (Elt F) := StableHlo.reshape main_v1 main_v2 rfl shapeCasts_S4194304_S4096x1024
abbrev op3 : HloOp τ sig (Elt F) :=
  StableHlo.nary ![main_arg2, main_arg3, main_arg4, main_arg5] main_v3 (fun u => concatenate S1024x64 1 [⟨S1024x16, u 0⟩, ⟨S1024x16, u 1⟩, ⟨S1024x16, u 2⟩, ⟨S1024x16, u 3⟩] concatenates_S1024x16_S1024x16_S1024x16_S1024x16_S1024x64_d1)
abbrev op4 : HloOp τ sig (Elt F) := StableHlo.reshape main_arg1 main_v4 rfl shapeCasts_S4096x200x64_S4096x100x128
abbrev op5 : HloOp τ sig (Elt F) := StableHlo.reshape main_arg7 main_v5 rfl shapeCasts_S64_S1x64

omit [Named F] in theorem op0_sub : (op0 (F := F)).bufs ⊆ Sall :=
  show ({dr main_arg0, dr main_v0} : Finset (DevRef τ sig)) ⊆ Sall by decide
omit [Named F] in theorem op2_sub : (op2 (F := F)).bufs ⊆ Sall :=
  show ({dr main_v1, dr main_v2} : Finset (DevRef τ sig)) ⊆ Sall by decide
omit [Named F] in theorem op3_sub : (op3 (F := F)).bufs ⊆ Sall :=
  show (insert (dr main_v3) (Finset.univ.image fun k : Fin 4 => dr ((![main_arg2, main_arg3, main_arg4, main_arg5] : Fin 4 → Ref sig .tc) k))) ⊆ Sall by decide
omit [Named F] in theorem op4_sub : (op4 (F := F)).bufs ⊆ Sall :=
  show ({dr main_arg1, dr main_v4} : Finset (DevRef τ sig)) ⊆ Sall by decide
omit [Named F] in theorem op5_sub : (op5 (F := F)).bufs ⊆ Sall :=
  show ({dr main_arg7, dr main_v5} : Finset (DevRef τ sig)) ⊆ Sall by decide

/-! ## The arrays' contents along @main -/

/-- At launch. -/
def V0 (d : Dev nD) : Valuation τ sig (Elt F) := fun b => m (d, b)
/-- After the ids are flattened. -/
def V1 (d : Dev nD) : Valuation τ sig (Elt F) := (op0 (F := F)).result (V0 m d)
/-- The flat ids the histogram call reads. -/
def Vids (d : Dev nD) : Buf (Elt F) (idsLoc d) := V1 m d (dr main_v0)
/-- After the call has left `h` in the counts array. -/
def V2 (d : Dev nD) (h : Buf (Elt F) (outLoc d)) : Valuation τ sig (Elt F) := Function.update (V1 m d) (dr main_v1) h
/-- After the four re-layings and the concatenation: what the TensorCore region is entered with. -/
def V6 (d : Dev nD) (h : Buf (Elt F) (outLoc d)) : Valuation τ sig (Elt F) :=
  (op5 (F := F)).result ((op4 (F := F)).result ((op3 (F := F)).result ((op2 (F := F)).result (V2 m d h))))
/-- After the region has left `r` in the result array. -/
def V7 (d : Dev nD) (h : Buf (Elt F) (outLoc d)) (r : Buf (Elt F) (resLoc d)) : Valuation τ sig (Elt F) :=
  Function.update (V6 m d h) (dr main_v6) r

/-- An array none of the operations, the call or the region writes keeps its launch contents. -/
theorem V7_kept (d : Dev nD) (h : Buf (Elt F) (outLoc d)) (r : Buf (Elt F) (resLoc d)) (b : DevRef τ sig)
    (hb : b ∉ ({dr main_v0, dr main_v1, dr main_v2, dr main_v3, dr main_v4, dr main_v5, dr main_v6} : Finset (DevRef τ sig))) :
    V7 m d h r b = m (d, b) := by
  simp only [Finset.mem_insert, Finset.mem_singleton, not_or] at hb
  obtain ⟨h0, h1, h2, h3, h4, h5, h6⟩ := hb
  unfold V7 V6 V2 V1 V0
  rw [Function.update_of_ne h6,
    (op5 (F := F)).result_of_not_mem _ (by rw [show (op5 (F := F)).writes = {dr main_v5} from rfl, Finset.mem_singleton]; exact h5),
    (op4 (F := F)).result_of_not_mem _ (by rw [show (op4 (F := F)).writes = {dr main_v4} from rfl, Finset.mem_singleton]; exact h4),
    (op3 (F := F)).result_of_not_mem _ (by rw [show (op3 (F := F)).writes = {dr main_v3} from rfl, Finset.mem_singleton]; exact h3),
    (op2 (F := F)).result_of_not_mem _ (by rw [show (op2 (F := F)).writes = {dr main_v2} from rfl, Finset.mem_singleton]; exact h2),
    Function.update_of_ne h1,
    (op0 (F := F)).result_of_not_mem _ (by rw [show (op0 (F := F)).writes = {dr main_v0} from rfl, Finset.mem_singleton]; exact h0)]

theorem V7_v6 (d : Dev nD) (h : Buf (Elt F) (outLoc d)) (r : Buf (Elt F) (resLoc d)) : V7 m d h r (dr main_v6) = r :=
  Function.update_self _ _ _

theorem V2_v1 (d : Dev nD) (h : Buf (Elt F) (outLoc d)) : V2 m d h (dr main_v1) = h := Function.update_self _ _ _
theorem V2_v0 (d : Dev nD) (h : Buf (Elt F) (outLoc d)) : V2 m d h (dr main_v0) = Vids m d :=
  Function.update_of_ne (show dr main_v0 ≠ dr main_v1 by decide) _ _
theorem V2_rest (d : Dev nD) (h : Buf (Elt F) (outLoc d)) (b : DevRef τ sig) (hb : b ∈ Sall \ {dr main_v0, dr main_v1}) :
    V2 m d h b = V1 m d b := by
  have hne : b ≠ dr main_v1 := fun e => by
    rw [e] at hb; exact absurd hb (by decide)
  exact Function.update_of_ne hne _ _

/-! ## The two flat arrays cut into the tasks' runs -/

omit [FloatOps F] [Named F] in
theorem idsSet_eq (w : Fin 32) : idsSet w = (idsPart w).set := by
  show ((View.whole (main_v0_scv : Ref sig .scVector)).slice (idsPart w)).set = _
  rw [View.set_slice]; exact Finset.map_refl
omit [FloatOps F] [Named F] in
theorem outSet_eq (w : Fin 32) : outSet w = (outPart w).set := by
  show ((View.whole (main_v1_scv : Ref sig .scVector)).slice (outPart w)).set = _
  rw [View.set_slice]; exact Finset.map_refl

omit [FloatOps F] [Named F] in
theorem ids_disjoint : ∀ i ∈ (Finset.univ : Finset (Fin 32)), ∀ j ∈ (Finset.univ : Finset (Fin 32)), i ≠ j → Disjoint (idsSet i) (idsSet j) :=
  fun i _ j _ h => by rw [idsSet_eq, idsSet_eq]; exact Rect.part_disjoint hdivI h
omit [FloatOps F] [Named F] in
theorem ids_cover : (Finset.univ : Finset (Fin 32)).biUnion idsSet = Finset.univ :=
  (Finset.biUnion_congr rfl fun i _ => idsSet_eq i).trans (Rect.biUnion_part hdivI)
omit [FloatOps F] [Named F] in
theorem out_disjoint : ∀ i ∈ (Finset.univ : Finset (Fin 32)), ∀ j ∈ (Finset.univ : Finset (Fin 32)), i ≠ j → Disjoint (outSet i) (outSet j) :=
  fun i _ j _ h => by rw [outSet_eq, outSet_eq]; exact Rect.part_disjoint hdivO h
omit [FloatOps F] [Named F] in
theorem out_cover : (Finset.univ : Finset (Fin 32)).biUnion outSet = Finset.univ :=
  (Finset.biUnion_congr rfl fun i _ => outSet_eq i).trans (Rect.biUnion_part hdivO)

omit [FloatOps F] [Named F] in
/-- A family over the 32 tasks, taken SparseCore by SparseCore and subcore by subcore. -/
theorem bigSep_tasks (Φ : Fin 32 → sProp 𝕄) :
    bigSep (Finset.univ : Finset (Fin 32)) Φ
      = bigSep (Finset.univ : Finset (Fin 2)) fun c => bigSep (Finset.univ : Finset (Fin 16)) fun i => Φ (widN c.val i.val) := by
  rw [show (Finset.univ : Finset (Fin 32)) = ((Finset.univ : Finset (Fin 2)) ×ˢ (Finset.univ : Finset (Fin 16))).image (fun p => widN p.1.val p.2.val) by decide,
    SparseCore.bigSep_image_of_injOn (by decide), SparseCore.bigSep_product]

omit [FloatOps F] [Named F] in
theorem ids_tasks (d : Dev nD) (f : Buf (Elt F) (idsLoc d)) :
    (idsLoc d ↦{fullShare} f : sProp 𝕄)
      = bigSep (Finset.univ : Finset (Fin 2)) fun c => bigSep (Finset.univ : Finset (Fin 16)) fun i => idsLoc d ↦[idsSet (widN c.val i.val)]{fullShare} f := by
  rw [← bigSep_tasks (fun w => idsLoc d ↦[idsSet w]{fullShare} f), ← pointsTo_biUnion Finset.univ (ℓ := idsLoc d) idsSet ids_disjoint, ids_cover]; try rfl
omit [FloatOps F] [Named F] in
theorem out_tasks (d : Dev nD) (f : Buf (Elt F) (outLoc d)) :
    (outLoc d ↦{fullShare} f : sProp 𝕄)
      = bigSep (Finset.univ : Finset (Fin 2)) fun c => bigSep (Finset.univ : Finset (Fin 16)) fun i => outLoc d ↦[outSet (widN c.val i.val)]{fullShare} f := by
  rw [← bigSep_tasks (fun w => outLoc d ↦[outSet w]{fullShare} f), ← pointsTo_biUnion Finset.univ (ℓ := outLoc d) outSet out_disjoint, out_cover]; try rfl

end Cert.Proof.KernelIdealRun

end
-- ==== Proof.KILaunch.lean ====
/-
  @main of the kernel program on a device's TensorCore, from what the launch deals it: the ids are flattened; the
  histogram call takes the flat ids and the flat counts cut into the 32 tasks' runs and brings them back, the counts
  at the whole-array function `Hf` of the ids; four host operations re-lay the counts, the tables, the embeddings and
  the bias; the TensorCore region takes five of those arrays and the result array and brings them back, the result at
  `Res`. Every array of @main then holds its launch contents or what the one operation that writes it left, and the
  final memory is read off those.
-/
import proofs.«215258_g80247168959020_cont_9to1_m_796_9_alg».proof.Proof.KIVals
import Idealize.ShloMosaic.Init

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (Hf : (d : Dev nD) → Buf (Elt F) (outLoc d)) (Res : (d : Dev nD) → Buf (Elt F) (resLoc d))

/-! ## The call's operands and results -/

theorem st_intro (d : Dev nD) (f : Buf (Elt F) (outLoc d)) :
    iprop((idsLoc d ↦{fullShare} Vids m d) ∗ outLoc d ↦{fullShare} f)
      ⊢ (bigSep Finset.univ fun c : Fin ((K (F := F)).nCore 0) => (P (Vids m) Hf).st 0 d c : sProp 𝕄) := by
  show _ ⊢ bigSep (Finset.univ : Finset (Fin 2)) fun c => bigSep (Finset.univ : Finset (Fin 16)) fun i => taskPre (Vids m) d (widN c.val i.val)
  unfold taskPre
  rw [ids_tasks, out_tasks]
  simp only [bigSep_sep']
  exact BIClass.sep_mono (BI.Entails.refl _) (bigSep_mono fun c _ => bigSep_mono fun i _ =>
    exists_intro (Φ := fun f : Buf (Elt F) (outLoc d) => (outLoc d ↦[outSet (widN c.val i.val)]{fullShare} f : sProp 𝕄)) f)

theorem dn_elim (d : Dev nD) :
    (bigSep Finset.univ fun c : Fin ((K (F := F)).nCore 0) => (P (Vids m) Hf).dn 0 d c : sProp 𝕄)
      ⊢ iprop((idsLoc d ↦{fullShare} Vids m d) ∗ outLoc d ↦{fullShare} Hf d) := by
  show (bigSep (Finset.univ : Finset (Fin 2)) fun c => bigSep (Finset.univ : Finset (Fin 16)) fun i => taskPost (Vids m) Hf d (widN c.val i.val)) ⊢ _
  unfold taskPost
  rw [ids_tasks, out_tasks]
  simp only [bigSep_sep']
  exact BI.Entails.refl _

/-! ## The arrays a step takes out of the whole set -/

abbrev IO : Finset (DevRef τ sig) := {dr main_v0, dr main_v1}
abbrev R6 : Finset (DevRef τ sig) := {dr main_v4, dr main_v2, dr main_v3, dr main_arg6, dr main_v5, dr main_v6}

omit [FloatOps F] [Named F] in
theorem held_IO (d : Dev nD) (W : Valuation τ sig (Elt F)) :
    (held (SparseCore.T d) IO W : sProp 𝕄) = iprop((idsLoc d ↦{fullShare} W (dr main_v0)) ∗ outLoc d ↦{fullShare} W (dr main_v1)) := by
  unfold held IO
  rw [SparseCore.bigSep_insert' (by decide), bigSep_singleton]

omit [FloatOps F] [Named F] in
theorem held_R6 (d : Dev nD) (W : Valuation τ sig (Elt F)) :
    (held (SparseCore.T d) R6 W : sProp 𝕄)
      = iprop((((d : Thread nD τ).loc main_v4) ↦{fullShare} W (dr main_v4)) ∗ (((d : Thread nD τ).loc main_v2) ↦{fullShare} W (dr main_v2))
          ∗ (((d : Thread nD τ).loc main_v3) ↦{fullShare} W (dr main_v3)) ∗ (((d : Thread nD τ).loc main_arg6) ↦{fullShare} W (dr main_arg6))
          ∗ (((d : Thread nD τ).loc main_v5) ↦{fullShare} W (dr main_v5)) ∗ (((d : Thread nD τ).loc main_v6) ↦{fullShare} W (dr main_v6))) := by
  unfold held R6
  rw [SparseCore.bigSep_insert' (by decide), SparseCore.bigSep_insert' (by decide), SparseCore.bigSep_insert' (by decide),
    SparseCore.bigSep_insert' (by decide), SparseCore.bigSep_insert' (by decide), bigSep_singleton]

/-! ## Taking the call's and the region's arrays out of the whole set, and putting them back -/

theorem held_before_call (d : Dev nD) :
    (held (SparseCore.T d) Sall (V1 m d) : sProp 𝕄)
      ⊢ iprop((idsLoc d ↦{fullShare} Vids m d) ∗ (outLoc d ↦{fullShare} V1 m d (dr main_v1)) ∗ held (SparseCore.T d) (Sall \ IO) (V1 m d)) := by
  rw [held_sub_split (SparseCore.T d) (T := IO) (S := Sall) (by decide) (V1 m d), held_IO]
  iintro ⟨⟨Hi, Ho⟩, Hr⟩
  isplitl [Hi]; · iexact Hi
  isplitl [Ho]; · iexact Ho
  iexact Hr

theorem held_after_call (d : Dev nD) (h : Buf (Elt F) (outLoc d)) :
    iprop((idsLoc d ↦{fullShare} Vids m d) ∗ (outLoc d ↦{fullShare} h) ∗ held (SparseCore.T d) (Sall \ IO) (V1 m d))
      ⊢ (held (SparseCore.T d) Sall (V2 m d h) : sProp 𝕄) := by
  rw [held_sub_split (SparseCore.T d) (T := IO) (S := Sall) (by decide) (V2 m d h), held_IO, V2_v0, V2_v1,
    held_congr (SparseCore.T d) (fun b hb => V2_rest m d h b hb)]
  iintro ⟨Hi, Ho, Hr⟩
  isplitl [Hi Ho]
  · isplitl [Hi]; · iexact Hi
    iexact Ho
  iexact Hr

theorem V7_rest (d : Dev nD) (h : Buf (Elt F) (outLoc d)) (r : Buf (Elt F) (resLoc d)) (b : DevRef τ sig) (hb : b ≠ dr main_v6) :
    V7 m d h r b = V6 m d h b := Function.update_of_ne hb _ _

theorem held_after_region (d : Dev nD) (h : Buf (Elt F) (outLoc d)) (r : Buf (Elt F) (resLoc d)) :
    iprop(((((d : Thread nD τ).loc main_v4) ↦{fullShare} V6 m d h (dr main_v4)) ∗ (((d : Thread nD τ).loc main_v2) ↦{fullShare} V6 m d h (dr main_v2))
        ∗ (((d : Thread nD τ).loc main_v3) ↦{fullShare} V6 m d h (dr main_v3)) ∗ (((d : Thread nD τ).loc main_arg6) ↦{fullShare} V6 m d h (dr main_arg6))
        ∗ (((d : Thread nD τ).loc main_v5) ↦{fullShare} V6 m d h (dr main_v5)) ∗ (((d : Thread nD τ).loc main_v6) ↦{fullShare} r))
        ∗ held (SparseCore.T d) (Sall \ R6) (V6 m d h))
      ⊢ (held (SparseCore.T d) Sall (V7 m d h r) : sProp 𝕄) := by
  rw [held_sub_split (SparseCore.T d) (T := R6) (S := Sall) (by decide) (V7 m d h r), held_R6,
    V7_rest m d h r _ (show dr main_v4 ≠ dr main_v6 by decide), V7_rest m d h r _ (show dr main_v2 ≠ dr main_v6 by decide),
    V7_rest m d h r _ (show dr main_v3 ≠ dr main_v6 by decide), V7_rest m d h r _ (show dr main_arg6 ≠ dr main_v6 by decide),
    V7_rest m d h r _ (show dr main_v5 ≠ dr main_v6 by decide), V7_v6,
    held_congr (SparseCore.T d) (fun b hb => V7_rest m d h r b (fun e => by rw [e] at hb; exact absurd hb (by decide)))]

/-! ## The region's interface -/

/-- What the region is entered from: five operand arrays and the result array whole, the TensorCore owing nothing,
    its recorded waits at levels up to 8. -/
def RPre (d : Dev nD) : sProp 𝕄 :=
  iprop((((d : Thread nD τ).loc main_v4) ↦{fullShare} V6 m d (Hf d) (dr main_v4)) ∗ (((d : Thread nD τ).loc main_v2) ↦{fullShare} V6 m d (Hf d) (dr main_v2))
    ∗ (((d : Thread nD τ).loc main_v3) ↦{fullShare} V6 m d (Hf d) (dr main_v3)) ∗ (((d : Thread nD τ).loc main_arg6) ↦{fullShare} V6 m d (Hf d) (dr main_arg6))
    ∗ (((d : Thread nD τ).loc main_v5) ↦{fullShare} V6 m d (Hf d) (dr main_v5)) ∗ (((d : Thread nD τ).loc main_v6) ↦{fullShare} V6 m d (Hf d) (dr main_v6))
    ∗ ∃ W, ⌜(K (F := F)).WBelow (SparseCore.T d) W 8⌝ ∗ owes (SparseCore.T d) (0 : CellTallies nD τ sig (HIx 1)) W)

/-- What it leaves: the operands as found, the result array at `Res`. -/
def RPost (d : Dev nD) : sProp 𝕄 :=
  iprop((((d : Thread nD τ).loc main_v4) ↦{fullShare} V6 m d (Hf d) (dr main_v4)) ∗ (((d : Thread nD τ).loc main_v2) ↦{fullShare} V6 m d (Hf d) (dr main_v2))
    ∗ (((d : Thread nD τ).loc main_v3) ↦{fullShare} V6 m d (Hf d) (dr main_v3)) ∗ (((d : Thread nD τ).loc main_arg6) ↦{fullShare} V6 m d (Hf d) (dr main_arg6))
    ∗ (((d : Thread nD τ).loc main_v5) ↦{fullShare} V6 m d (Hf d) (dr main_v5)) ∗ (((d : Thread nD τ).loc main_v6) ↦{fullShare} Res d)
    ∗ ∃ W, ⌜(K (F := F)).WBelow (SparseCore.T d) W 8⌝ ∗ owes (SparseCore.T d) (0 : CellTallies nD τ sig (HIx 1)) W)

/-! ## The TensorCore's handshake state after the one call -/

/-- The part of the TensorCore's state after the call that is not its debt. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt EH d 1 : sProp 𝕄)
      = iprop((∃ W, ⌜(K (F := F)).WBelow (SparseCore.T d) W 8⌝ ∗ owes (SparseCore.T d) (0 : CellTallies nD τ sig (HIx 1)) W) ∗ tcTail d) := by
  unfold SparseCore.Cfg.tcSt tcTail
  rw [(K (F := F)).Otc_end d (le_refl 1)]

/-! ## What @main leaves -/

/-- Every array of @main at its final contents. -/
abbrev FIN (d : Dev nD) : sProp 𝕄 := held (SparseCore.T d) Sall (V7 m d (Hf d) (Res d))

set_option maxHeartbeats 1600000 in
/-- @main on device `d`'s TensorCore. -/
theorem hmain (GR : Dev nD → sProp 𝕄)
    (hreg : ∀ (d : Dev nD) (Φ : PUnit → sProp 𝕄),
      iprop((iprop(boundary (SparseCore.T d) ∗ RPost m Hf Res d) -∗ Φ ⟨⟩) ∗ boundary (SparseCore.T d) ∗ RPre m Hf d ∗ levAts (K (F := F)).L (K (F := F)).lev ∗ GR d)
        ⊢ wp frame (wpE ((K (F := F)).defs (D (F := F))) 𝒱 (SparseCore.T d) none) Set.univ
            (Prog.lift (.customCall (SparseCore.inner (Pipeline.entry 0)) ())) Φ)
    (κ : GSem nD τ sig → ℕ) (d : Dev nD) :
    iprop((K (F := F)).ctx EH (P (Vids m) Hf) κ ∗ (K (F := F)).tcSt EH d 0 ∗ (K (F := F)).tcRes m ρ d ∗ GR d)
      ⊢ wp frame (wpE ((K (F := F)).defs (D (F := F))) 𝒱 (SparseCore.T d) none) Set.univ (main d)
          fun _ => iprop((K (F := F)).tcSt EH d 1 ∗ FIN m Hf Res d) := by
  unfold SparseCore.Cfg.tcRes
  rw [show (unscopedBufs d (fun b => m ((SparseCore.T d).loc b)) : sProp 𝕄) = held (SparseCore.T d) Sall (V0 m d) from (held_Sall (F := F) d (V0 m d)).symm]
  simp only [main, wp_bind, wp_pure]
  iintro ⟨#Hctx, Hst, ⟨Hb, Hheld, -, -⟩, HG⟩
  -- the ids flattened
  iapply (wp_hlo_within 𝒱 (SparseCore.T d) none Set.univ (op := op0) (S := Sall) op0_sub (V := V0 m d)) $$ [Hb Hheld]
  · isplitl [Hb]; · iexact Hb
    iexact Hheld
  iintro ⟨Hb, Hheld⟩
  rw [wp_ret]; imodintro
  -- the histogram call: the flat ids and the flat counts go out cut into the tasks' runs and come back
  ihave Hheld := (Entails.of_eq (show (held (SparseCore.T d) Sall ((op0 (F := F)).result (V0 m d)) : sProp 𝕄) = held (SparseCore.T d) Sall (V1 m d) from rfl)) $$ Hheld
  ihave Hh := (held_before_call m d) $$ Hheld
  icases Hh with ⟨Hi, Ho, Hrest⟩
  iapply ((K (F := F)).wp_run (D (F := F)) 𝒱 (EH := EH) (P := P (Vids m) Hf) κ d 0) $$ [Hst Hi Ho Hb Hrest HG]
  isplitr; · iexact Hctx
  isplitl [Hst]; · iexact Hst
  isplitl [Hi Ho]
  · iapply (st_intro m Hf d _)
    isplitl [Hi]; · iexact Hi
    iexact Ho
  iintro ⟨Hst, Hdn⟩
  ihave Hdn' := (dn_elim m Hf d) $$ Hdn
  icases Hdn' with ⟨Hi, Ho⟩
  ihave Hheld := (held_after_call m d (Hf d)) $$ [Hi Ho Hrest]
  · isplitl [Hi]; · iexact Hi
    isplitl [Ho]; · iexact Ho
    iexact Hrest
  -- the counts re-laid, the tables side by side, the embeddings and the bias re-laid
  iapply (wp_hlo_within 𝒱 (SparseCore.T d) none Set.univ (op := op2) (S := Sall) op2_sub (V := V2 m d (Hf d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := Sall) op3_sub (V := (op2 (F := F)).result (V2 m d (Hf d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := Sall) op4_sub (V := (op3 (F := F)).result ((op2 (F := F)).result (V2 m d (Hf d))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := Sall) op5_sub
    (V := (op4 (F := F)).result ((op3 (F := F)).result ((op2 (F := F)).result (V2 m d (Hf d)))))) $$ [Hb Hheld]
  · isplitl [Hb]; · iexact Hb
    iexact Hheld
  iintro ⟨Hb, Hheld⟩
  rw [wp_ret]; imodintro
  -- the TensorCore region
  ihave Hheld := (Entails.of_eq (show (held (SparseCore.T d) Sall ((op5 (F := F)).result ((op4 (F := F)).result ((op3 (F := F)).result ((op2 (F := F)).result (V2 m d (Hf d)))))) : sProp 𝕄)
    = held (SparseCore.T d) Sall (V6 m d (Hf d)) from rfl)) $$ Hheld
  ihave Hh := (Entails.of_eq ((held_sub_split (SparseCore.T d) (T := R6) (S := Sall) (by decide) (V6 m d (Hf d))).trans
    (congrArg (fun X => iprop(X ∗ held (SparseCore.T d) (Sall \ R6) (V6 m d (Hf d)))) (held_R6 (F := F) d (V6 m d (Hf d)))))) $$ Hheld
  icases Hh with ⟨⟨H4, H2, H3, H6a, H5, H6⟩, Hrest⟩
  ihave Hst := (Entails.of_eq (show ((K (F := F)).tcSt EH d ((0 : Fin 1).val + 1) : sProp 𝕄) = (K (F := F)).tcSt EH d 1 from rfl)) $$ Hst
  ihave Hst' := (Entails.of_eq (tcSt_one (F := F) d)) $$ Hst
  icases Hst' with ⟨HO, Htail⟩
  iapply (hreg d _) $$ [Hb H4 H2 H3 H6a H5 H6 HO HG Hrest Htail]
  isplitl [Hrest Htail]
  · iintro ⟨Hb, Hpost⟩
    unfold RPost
    icases Hpost with ⟨H4, H2, H3, H6a, H5, H6, HO⟩
    imodintro
    isplitl [HO Htail]
    · iapply (Entails.of_eq (tcSt_one (F := F) d).symm)
      isplitl [HO]; · iexact HO
      iexact Htail
    iapply (held_after_region m d (Hf d) (Res d))
    isplitl [H4 H2 H3 H6a H5 H6]
    · isplitl [H4]; · iexact H4
      isplitl [H2]; · iexact H2
      isplitl [H3]; · iexact H3
      isplitl [H6a]; · iexact H6a
      isplitl [H5]; · iexact H5
      iexact H6
    iexact Hrest
  isplitl [Hb]; · iexact Hb
  isplitl [H4 H2 H3 H6a H5 H6 HO]
  · unfold RPre
    isplitl [H4]; · iexact H4
    isplitl [H2]; · iexact H2
    isplitl [H3]; · iexact H3
    isplitl [H6a]; · iexact H6a
    isplitl [H5]; · iexact H5
    isplitl [H6]; · iexact H6
    iexact HO
  isplitr
  · iapply (SparseCore.Cfg.ctx_levAts κ); iexact Hctx
  iexact HG

/-! ## The final memory -/

/-- Device `d`'s arrays in the final memory are what @main left. -/
def fq (d : Dev nD) (s' : Phys nD τ sig (Elt F)) : Prop :=
  ∀ b ∈ Sall, s'.mem.mem ((d, b) : Loc nD τ sig) = V7 m d (Hf d) (Res d) b

theorem hfin (d : Dev nD) (s' : Phys nD τ sig (Elt F)) : iprop(FIN m Hf Res d ∗ SI s') ⊢ (⌜fq m Hf Res d s'⌝ : sProp 𝕄) := by
  unfold fq FIN held
  refine posts_pure (Φ := fun b : DevRef τ sig => (((SparseCore.T d : Thread nD τ).1, b) ↦{fullShare} V7 m d (Hf d) (Res d) b : sProp 𝕄))
    (q := fun b s' => s'.mem.mem ((d, b) : Loc nD τ sig) = V7 m d (Hf d) (Res d) b) Sall (fun b s' => ?_) s'
  iintro ⟨Hp, HSI⟩
  ihave H := (SI_pointsTo_agree (st := s') (ℓ := ((d, b) : Loc nD τ sig)) (I := Finset.univ) (q := fullShare) (f := V7 m d (Hf d) (Res d) b)) $$ [HSI Hp]
  · isplitl [HSI] <;> iassumption
  icases H with %hx
  ipureintro; exact funext fun i => hx i (Finset.mem_univ i)

end Cert.Proof.KernelIdealRun

end
-- ==== Proof.KIRun.lean ====
/-
  The kernel program's run: every weakly fair execution of the device's threads from a memory whose semaphores read
  zero terminates, nothing faulting, and every array of @main ends at what @main's steps left in it: the arguments at
  their launch contents, the result array at what the TensorCore region computed from the re-laid operands. The launch
  theorem for a SparseCore program supplies the run from: the one task's proof, the cut of a SparseCore's operands into
  its tasks', @main on the TensorCore, the launch's ghost state, and the reading of the final memory.
-/
import proofs.«215258_g80247168959020_cont_9to1_m_796_9_alg».proof.Proof.KILaunch

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (Hf : (d : Dev nD) → Buf (Elt F) (outLoc d)) (Res : (d : Dev nD) → Buf (Elt F) (resLoc d))

/-- Every array of @main, on every device, at its final contents. -/
def QC : PUnit × MemSt nD τ sig (Elt F) → Prop :=
  fun r => ∀ c : Dev nD, ∀ b ∈ Sall, r.2.mem ((c, b) : Loc nD τ sig) = V7 m c (Hf c) (Res c) b

theorem run_main [∀ e, Nonempty (Elt F e)] (GR : Dev nD → sProp 𝕄) (u₀ : UU)
    (hu₀ : iprop(ownU u₀ ∗ (P (Vids m) Hf).oxCred ∗ (K (F := F)).freeSems0)
      ⊢ |={Set.univ}=> iprop(BI.own (EH (initOf (K (F := F)).hsCells (K (F := F)).hsToks)) ∗ (bigSep Finset.univ fun d : Dev nD => GR d)
        ∗ bigSep Finset.univ fun thr : Thread nD τ => bigSep Finset.univ fun q : Fin 1 => (P (Vids m) Hf).x q thr))
    (hreg : ∀ (d : Dev nD) (Φ : PUnit → sProp 𝕄),
      iprop((iprop(boundary (SparseCore.T d) ∗ RPost m Hf Res d) -∗ Φ ⟨⟩) ∗ boundary (SparseCore.T d) ∗ RPre m Hf d ∗ levAts (K (F := F)).L (K (F := F)).lev ∗ GR d)
        ⊢ wp frame (wpE ((K (F := F)).defs (D (F := F))) 𝒱 (SparseCore.T d) none) Set.univ
            (Prog.lift (.customCall (SparseCore.inner (Pipeline.entry 0)) ())) Φ)
    (htile : (K (F := F)).TileObl (D (F := F)) 𝒱 (P (Vids m) Hf) v₀ 0) :
    θ_run (Cert.KernelIdeal.defs (F := F)) (Cert.KernelIdeal.threads (F := F)) ⟨m, fun _ => 0, ρ⟩ (QC m Hf Res) :=
  SparseCore.Cfg.θ_run_sc (K := K (F := F)) (D := D (F := F)) (𝒱 := 𝒱) (EH := EH) (P := P (Vids m) Hf) facts v₀
    (fun q hq => match q with | 0 => nomatch hq)
    (fun q _ => match q with | 0 => htile)
    (fun q _ => match q with | 0 => SparseCore.Cfg.VecSplit.of_plain (vecSplit (Vids m) Hf))
    m ρ main GR (FIN m Hf Res) u₀ hu₀ (hmain m ρ Hf Res GR hreg) (fq m Hf Res) (hfin m Hf Res) (QC m Hf Res) (fun _ h => h)

/-- In that final memory an argument array holds its launch contents. -/
theorem QC_arg {r : PUnit × MemSt nD τ sig (Elt F)} (h : QC m Hf Res r) (c : Dev nD) (b : DevRef τ sig) (hb : b ∈ Sall)
    (hn : b ∉ ({dr main_v0, dr main_v1, dr main_v2, dr main_v3, dr main_v4, dr main_v5, dr main_v6} : Finset (DevRef τ sig))) :
    r.2.mem ((c, b) : Loc nD τ sig) = m (c, b) :=
  (h c b hb).trans (V7_kept m c (Hf c) (Res c) b hn)

/-- and the result array holds what the region left. -/
theorem QC_res {r : PUnit × MemSt nD τ sig (Elt F)} (h : QC m Hf Res r) (c : Dev nD) :
    r.2.mem ((c, dr main_v6) : Loc nD τ sig) = Res c :=
  (h c (dr main_v6) (by decide)).trans (V7_v6 m c (Hf c) (Res c))

end Cert.Proof.KernelIdealRun

end
-- ==== Proof.KIRegBody.lean ====
/-
  The TensorCore region of the kernel program: six windows over a grid of 32 points, each point loading its
  blocks whole, computing one block of the result from them, and storing it whole.

  At point t the body finds in each input window's buffer block t of that window's array (for the three arrays
  staged once, the whole array), and leaves in the result window's buffer one function of those blocks. The
  region therefore ends with the five operand arrays as it found them and the result array, block by block,
  at that function of the operands' blocks.
-/
import proofs.«215258_g80247168959020_cont_9to1_m_796_9_alg».proof.Proof.KISetup
import proofs.«215258_g80247168959020_cont_9to1_m_796_9_alg».proof.Proof.Gen.KernelIdeal.Launch
import proofs.«215258_g80247168959020_cont_9to1_m_796_9_alg».proof.Proof.Gen.KernelIdeal.Points
import Idealize.ShloMosaic.Lib.Pipeline.Regions
import Idealize.ShloMosaic.Lib.Pipeline.FrameBody
import Idealize.ShloMosaic.Lib.Ring
import Idealize.ShloMosaic.Lib.Tactic

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- The one admissible table of the pipeline: it has none. -/
abbrev adm : (p : Fin 1) → (pcfgs (F := F) p).Adm := fun p => (cfgs p).toPCfg_adm

/-- The pipeline's staging cells live in the middle component of the ghost state. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ (MT nD τ sig (HIx 1) (Elt F) ℕ UU ℕ)) := by
  unfold EP embR; infer_instance

variable (Vv : (d : Dev nD) → (b : Ref sig .tc) → Buf (Elt F) ((d : Thread nD τ).loc b))

/-! ## The windows' blocks -/

/-- Window w's block at point t, read off its array. -/
def iblk (d : Dev nD) (w : Fin cfg1.W) (t : Fin cfg1.N) : ((cfg1.win w).xblock (cfg1.grid.coords t)).Idx → Elt F (cfg1.win w).elt :=
  ((cfg1.win w).blk t).view.read (Elt F) (Vv d (Pipeline.arrRef spec1 w))

/-! ## What the body leaves in the result window's buffer -/

abbrev r1_0 : Rect S128x100x128 := Rect.unit (s := S128x100x128) ![0, 0, 0] S128x100x128.size Facts₀.inb_S128x100x128_S128x100x128_0_0_0
abbrev r1_1 : Rect S128x1024 := Rect.unit (s := S128x1024) ![0, 0] S128x1024.size Facts₀.inb_S128x1024_S128x1024_0_0
abbrev r1_2 : Rect S1024x64 := Rect.unit (s := S1024x64) ![0, 0] S1024x64.size Facts₀.inb_S1024x64_S1024x64_0_0
abbrev r1_3 : Rect S64x64 := Rect.unit (s := S64x64) ![0, 0] S64x64.size Facts₀.inb_S64x64_S64x64_0_0
abbrev r1_4 : Rect S1x64 := Rect.unit (s := S1x64) ![0, 0] S1x64.size Facts₀.inb_S1x64_S1x64_0_0
abbrev r1_5 : Rect S128x64 := Rect.unit (s := S128x64) ![0, 0] S128x64.size Facts₀.inb_S128x64_S128x64_0_0

/-- The result window's buffer after the body, from the five input blocks: its one store, which covers it. -/
def out1_5 (x0 : Vec F S128x100x128 .f32) (x1 : Vec F S128x1024 .f32) (x2 : Vec F S1024x64 .f32) (x3 : Vec F S64x64 .f32)
    (x4 : Vec F S1x64 .f32) : Vec F S128x64 .f32 :=
  View.canon [⟨r1_5, k1_pay1 (View.ld x0 r1_0) (View.ld x1 r1_1) (View.ld x2 r1_2) (View.ld x3 r1_3) (View.ld x4 r1_4)⟩]

theorem cover1_5 (p0 : Vec F S128x64 .f32) (y : S128x64.Idx) :
    ∃ pc ∈ ([⟨r1_5, p0⟩] : List (View.Piece (Elt F) S128x64 .f32)), y ∈ pc.1.set :=
  View.cover_of_tiled [⟨r1_5, p0⟩] S128x64.size (by rfl) y

/-! ## The body's triple -/

set_option maxHeartbeats 1000000 in
/-- The body on whole buffers, the inputs' at read contents and the result's at anything, runs to the continuation
    holding the inputs' as they were and the result's at `out1_5` of the inputs'. -/
theorem sound_kernel (c : Dev nD) (E : Set ℕ) (i : grid1.Coords)
    (arg1 : Memref sig .tc .vmem S128x100x128 .f32) (harg1 : arg1.IsWhole) (arg2 : Memref sig .tc .vmem S128x1024 .f32) (harg2 : arg2.IsWhole)
    (arg3 : Memref sig .tc .vmem S1024x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S128x64 .f32) (harg6 : arg6.IsWhole)
    (x0 : Vec F S128x100x128 .f32) (x1 : Vec F S128x1024 .f32) (x2 : Vec F S1024x64 .f32) (x3 : Vec F S64x64 .f32) (x4 : Vec F S1x64 .f32)
    (Kk : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d5, owns (c : Thread nD τ) arg6 fullShare d5)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ Kk ⟨⟩))
      ⊢ wp frame (wpE (defs₀ (F := F)) Variants.none c none) E (cc1__tc_body i arg1 harg1 arg2 harg2 arg3 harg3 arg4 harg4 arg5 harg5 arg6 harg6) Kk := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data on core d: the arrays as the region finds them; after the body each input's buffer at its
    block and the result's at `out1_5` of the input blocks; nothing of the body's own between points; nothing owed;
    the waits recorded so far all at levels the handshakes allow. -/
def dats (_ : Fin 1) (d : Dev nD) : Dat τ (Elt F) (HIx 1) ℕ UU ℕ cfg1 d where
  A w := Vv d (Pipeline.arrRef spec1 w)
  after w t := match w with
    | ⟨0, _⟩ => iblk Vv d 0 t
    | ⟨1, _⟩ => iblk Vv d 1 t
    | ⟨2, _⟩ => iblk Vv d 2 t
    | ⟨3, _⟩ => iblk Vv d 3 t
    | ⟨4, _⟩ => iblk Vv d 4 t
    | ⟨5, _⟩ => out1_5 (iblk Vv d 0 t) (iblk Vv d 1 t) (iblk Vv d 2 t) (iblk Vv d 3 t) (iblk Vv d 4 t)
  Φ _ := (Pipeline.scopedRest spec1 d : sProp (MT nD τ sig (HIx 1) (Elt F) ℕ UU ℕ))
  q _ := fullShare
  owed _ := 0
  recorded _ := {p | (K (F := F)).lev ((d : Thread nD τ), p.1) p.2 ≤ 8}

theorem A_eq (d : Dev nD) (w : Fin cfg1.W) : (dats Vv 0 d).A w = Vv d (Pipeline.arrRef spec1 w) := by dsimp only [dats]

theorem after1_0 (d : Dev nD) (t : Fin cfg1.N) : (dats Vv 0 d).after 0 t = iblk Vv d 0 t := by dsimp only [dats]
theorem after1_1 (d : Dev nD) (t : Fin cfg1.N) : (dats Vv 0 d).after 1 t = iblk Vv d 1 t := by dsimp only [dats]
theorem after1_2 (d : Dev nD) (t : Fin cfg1.N) : (dats Vv 0 d).after 2 t = iblk Vv d 2 t := by dsimp only [dats]
theorem after1_3 (d : Dev nD) (t : Fin cfg1.N) : (dats Vv 0 d).after 3 t = iblk Vv d 3 t := by dsimp only [dats]
theorem after1_4 (d : Dev nD) (t : Fin cfg1.N) : (dats Vv 0 d).after 4 t = iblk Vv d 4 t := by dsimp only [dats]
theorem after1_5 (d : Dev nD) (t : Fin cfg1.N) :
    (dats Vv 0 d).after 5 t = out1_5 (iblk Vv d 0 t) (iblk Vv d 1 t) (iblk Vv d 2 t) (iblk Vv d 3 t) (iblk Vv d 4 t) := by dsimp only [dats]

/-- Each input window's current buffer holds its block at every point, fetched there or not (a window fetched
    once keeps its block: its index does not move). -/
theorem before1_0 (d : Dev nD) (t : Fin cfg1.N) (dd) : (dats Vv 0 d).before 0 t dd = iblk Vv d 0 t :=
  ((dats Vv 0 d).before_in_eq_fetched 0 rfl (fun _ => rfl) (fun _ _ _ => rfl)
      (fun t => by rw [after1_0]; unfold Dat.blockOf iblk; rw [A_eq]; try rfl) t dd).trans
    (by unfold Dat.fetched Dat.blockOf iblk; rw [A_eq]; try rfl)
theorem before1_1 (d : Dev nD) (t : Fin cfg1.N) (dd) : (dats Vv 0 d).before 1 t dd = iblk Vv d 1 t :=
  ((dats Vv 0 d).before_in_eq_fetched 1 rfl (fun _ => rfl) (fun _ _ _ => rfl)
      (fun t => by rw [after1_1]; unfold Dat.blockOf iblk; rw [A_eq]; try rfl) t dd).trans
    (by unfold Dat.fetched Dat.blockOf iblk; rw [A_eq]; try rfl)
theorem before1_2 (d : Dev nD) (t : Fin cfg1.N) (dd) : (dats Vv 0 d).before 2 t dd = iblk Vv d 2 t :=
  ((dats Vv 0 d).before_in_eq_fetched 2 rfl (fun _ => rfl) (fun _ _ _ => rfl)
      (fun t => by rw [after1_2]; unfold Dat.blockOf iblk; rw [A_eq]; try rfl) t dd).trans
    (by unfold Dat.fetched Dat.blockOf iblk; rw [A_eq]; try rfl)
theorem before1_3 (d : Dev nD) (t : Fin cfg1.N) (dd) : (dats Vv 0 d).before 3 t dd = iblk Vv d 3 t :=
  ((dats Vv 0 d).before_in_eq_fetched 3 rfl (fun _ => rfl) (fun _ _ _ => rfl)
      (fun t => by rw [after1_3]; unfold Dat.blockOf iblk; rw [A_eq]; try rfl) t dd).trans
    (by unfold Dat.fetched Dat.blockOf iblk; rw [A_eq]; try rfl)
theorem before1_4 (d : Dev nD) (t : Fin cfg1.N) (dd) : (dats Vv 0 d).before 4 t dd = iblk Vv d 4 t :=
  ((dats Vv 0 d).before_in_eq_fetched 4 rfl (fun _ => rfl) (fun _ _ _ => rfl)
      (fun t => by rw [after1_4]; unfold Dat.blockOf iblk; rw [A_eq]; try rfl) t dd).trans
    (by unfold Dat.fetched Dat.blockOf iblk; rw [A_eq]; try rfl)

/-! ## The body obligation -/

def bodyPre (d : Dev nD) (t : Fin cfg1.N) : sProp 𝕄 :=
  iprop((dats Vv 0 d).Φ t.castSucc ∗ (dats Vv 0 d).owesAt none t.castSucc
    ∗ (∃ dd, owns (d : Thread nD τ) (st1_0 t) fullShare ((dats Vv 0 d).before 0 t dd))
    ∗ (∃ dd, owns (d : Thread nD τ) (st1_1 t) fullShare ((dats Vv 0 d).before 1 t dd))
    ∗ (∃ dd, owns (d : Thread nD τ) (st1_2 t) fullShare ((dats Vv 0 d).before 2 t dd))
    ∗ (∃ dd, owns (d : Thread nD τ) (st1_3 t) fullShare ((dats Vv 0 d).before 3 t dd))
    ∗ (∃ dd, owns (d : Thread nD τ) (st1_4 t) fullShare ((dats Vv 0 d).before 4 t dd))
    ∗ (∃ dd, owns (d : Thread nD τ) (st1_5 t) fullShare ((dats Vv 0 d).before 5 t dd)))

def bodyPost (d : Dev nD) (t : Fin cfg1.N) : sProp 𝕄 :=
  iprop((dats Vv 0 d).Φ t.succ ∗ (dats Vv 0 d).owesAt none t.succ
    ∗ owns (d : Thread nD τ) (st1_0 t) fullShare ((dats Vv 0 d).after 0 t)
    ∗ owns (d : Thread nD τ) (st1_1 t) fullShare ((dats Vv 0 d).after 1 t)
    ∗ owns (d : Thread nD τ) (st1_2 t) fullShare ((dats Vv 0 d).after 2 t)
    ∗ owns (d : Thread nD τ) (st1_3 t) fullShare ((dats Vv 0 d).after 3 t)
    ∗ owns (d : Thread nD τ) (st1_4 t) fullShare ((dats Vv 0 d).after 4 t)
    ∗ owns (d : Thread nD τ) (st1_5 t) fullShare ((dats Vv 0 d).after 5 t))

theorem sound_body (d : Dev nD) (t : Fin cfg1.N) :
    bodyPre Vv d t ⊢ wp frame (wpE (defs₀ (F := F)) Variants.none d none) Set.univ (bodyAt1 t) (fun _ => bodyPost Vv d t) := by
  unfold bodyPre bodyPost bodyAt1
  simp only [before1_0, before1_1, before1_2, before1_3, before1_4]
  rw [show (dats Vv 0 d).Φ t.succ = (dats Vv 0 d).Φ t.castSucc from rfl,
    show (dats Vv 0 d).owesAt none t.succ = (dats Vv 0 d).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel d Set.univ (grid1.coords t) _ _ _ _ _ _ _ _ _ _ _ _ (iblk Vv d 0 t) (iblk Vv d 1 t) (iblk Vv d 2 t) (iblk Vv d 3 t) (iblk Vv d 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (d : Dev nD) : BodyObligation (dats (F := F) Vv 0 d) (defs₀ (F := F)) Variants.none none Set.univ := fun t => by
  rw [bigSep_W1, bigSep_W1]
  exact sound_body Vv d t

end Cert.Proof.KernelIdealRun

end
-- ==== Proof.KIRegSeg.lean ====
/-
  The TensorCore region as one segment of the program: what it is entered from and what it leaves, and the
  record of how the six arrays and the core's debt pass through the pipeline's own entry and exit.
-/
import proofs.«215258_g80247168959020_cont_9to1_m_796_9_alg».proof.Proof.KIRegBody

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (Vv : (d : Dev nD) → (b : Ref sig .tc) → Buf (Elt F) ((d : Thread nD τ).loc b))

/-! ## The region -/

/-- What the region is entered from: the six arrays whole, and what the core owes (nothing), its recorded waits
    at levels up to 8. -/
def regionPre (d : Dev nD) : sProp 𝕄 :=
  iprop((((d : Thread nD τ).loc main_v4) ↦{fullShare} Vv d main_v4) ∗ (((d : Thread nD τ).loc main_v2) ↦{fullShare} Vv d main_v2)
    ∗ (((d : Thread nD τ).loc main_v3) ↦{fullShare} Vv d main_v3) ∗ (((d : Thread nD τ).loc main_arg6) ↦{fullShare} Vv d main_arg6)
    ∗ (((d : Thread nD τ).loc main_v5) ↦{fullShare} Vv d main_v5) ∗ (((d : Thread nD τ).loc main_v6) ↦{fullShare} Vv d main_v6)
    ∗ ∃ W, ⌜(K (F := F)).WBelow (T d) W 8⌝ ∗ owes (T d) (0 : CellTallies nD τ sig (HIx 1)) W)

/-- What it leaves: the five operands as found, the result array at what the 32 write-backs left, the core owing
    nothing, its recorded waits still at levels up to 8. -/
def regionPost (d : Dev nD) : sProp 𝕄 :=
  iprop((((d : Thread nD τ).loc main_v4) ↦{fullShare} Vv d main_v4) ∗ (((d : Thread nD τ).loc main_v2) ↦{fullShare} Vv d main_v2)
    ∗ (((d : Thread nD τ).loc main_v3) ↦{fullShare} Vv d main_v3) ∗ (((d : Thread nD τ).loc main_arg6) ↦{fullShare} Vv d main_arg6)
    ∗ (((d : Thread nD τ).loc main_v5) ↦{fullShare} Vv d main_v5) ∗ (((d : Thread nD τ).loc main_v6) ↦{fullShare} (dats Vv 0 d).arrAt 5 32)
    ∗ ∃ W, ⌜(K (F := F)).WBelow (T d) W 8⌝ ∗ owes (T d) (0 : CellTallies nD τ sig (HIx 1)) W)

/-- The region's record: the layout decided at launch, no semaphore of the body's own, the body obligation, and
    how the six arrays and the core's debt enter and leave. -/
def reg1 (lv : GSem nD τ sig → HIx 1 → ℕ) :
    Pipeline.RegionSeg (pcfgs (F := F)) adm (dats Vv) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation Vv c).loose
  hwaits := Pipeline.hwaits_of_owed_zero _ _ _ _ _ lv 0 fun _ _ => rfl
  pre c := regionPre Vv c
  post c := regionPost Vv c
  X _ := BI.emp
  Y _ := BI.emp
  Z _ := BI.emp
  hentry c := by
    rw [Pipeline.arrays_eq (Pipeline.pin (pcfgs (F := F)) adm) (dats Vv) 0 c launch1.arr_whole ((dats Vv 0 c).share_full fun _ => rfl), bigSep_W1]
    unfold regionPre
    iintro ⟨⟨H0, H1, H2, H3, H4, H5, %W, %hW, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl <;> iempintro
  hin c := by
    rw [show (dats Vv 0 c).Φ 0 = (Pipeline.scopedRest spec1 c : sProp (MT nD τ sig (HIx 1) (Elt F) ℕ UU ℕ)) from rfl]
    iintro ⟨-, -, Hr⟩
    iexact Hr
  hout c := by
    rw [show (dats Vv 0 c).Φ (Fin.last cfg1.N) = (Pipeline.scopedRest spec1 c : sProp (MT nD τ sig (HIx 1) (Elt F) ℕ UU ℕ)) from rfl]
    iintro Hr
    isplitr; · iempintro
    isplitr; · unfold Pipeline.ownSems0; rw [show (Finset.univ : Finset PEmpty) = ∅ from Finset.univ_eq_empty, BI.bigSep_empty]; iempintro
    iexact Hr
  hexit c := by
    rw [Pipeline.arrays_eq (Pipeline.pin (pcfgs (F := F)) adm) (dats Vv) 0 c launch1.arr_whole ((dats Vv 0 c).share_full fun _ => rfl), bigSep_W1]
    unfold regionPost
    have e0 := ((dats Vv 0 c).arrAt_in 0 rfl cfg1.N).trans (A_eq Vv c 0)
    have e1 := ((dats Vv 0 c).arrAt_in 1 rfl cfg1.N).trans (A_eq Vv c 1)
    have e2 := ((dats Vv 0 c).arrAt_in 2 rfl cfg1.N).trans (A_eq Vv c 2)
    have e3 := ((dats Vv 0 c).arrAt_in 3 rfl cfg1.N).trans (A_eq Vv c 3)
    have e4 := ((dats Vv 0 c).arrAt_in 4 rfl cfg1.N).trans (A_eq Vv c 4)
    iintro ⟨⟨H0, H1, H2, H3, H4, H5⟩, HO, -, -⟩
    imodintro
    isplitl [H0]; · rw [← e0]; iexact H0
    isplitl [H1]; · rw [← e1]; iexact H1
    isplitl [H2]; · rw [← e2]; iexact H2
    isplitl [H3]; · rw [← e3]; iexact H3
    isplitl [H4]; · rw [← e4]; iexact H4
    isplitl [H5]; · iexact H5
    unfold Pipeline.Dat.owesAt Pipeline.owesWithin
    icases HO with ⟨%W, %hW, HO⟩
    iexists W; isplitr
    · ipureintro
      intro p hp
      rcases hW hp with h | ⟨w, s, rfl⟩
      · exact h
      · exact Nat.zero_le _
    iexact HO

end Cert.Proof.KernelIdealRun

end
-- ==== Proof.KIRegWp.lean ====
/-
  The call of the TensorCore region, run: under the pipeline's own table and under the whole program's, and the
  launch's funding of the pipeline's staging cells dealt per device.
-/
import proofs.«215258_g80247168959020_cont_9to1_m_796_9_alg».proof.Proof.KIRegSeg

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (Vv : (d : Dev nD) → (b : Ref sig .tc) → Buf (Elt F) ((d : Thread nD τ).loc b))

set_option backward.isDefEq.respectTransparency.types false in
set_option maxHeartbeats 1000000 in
/-- The region as a program of the pipeline's own table: from the boundary, the six arrays, the core owing nothing,
    the level facts and the pipeline's staging cells as the launch funds them, the call of the region runs to the
    boundary and `regionPost`. -/
theorem wp_region_inner (lv : GSem nD τ sig → HIx 1 → ℕ) (d : Dev nD) (Φ : PUnit → sProp 𝕄) :
    iprop((iprop(boundary (T d) ∗ regionPost Vv d) -∗ Φ ⟨⟩) ∗ boundary (T d) ∗ regionPre Vv d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ
          (Prog.op (.customCall (Pipeline.entry (0 : Fin 1)) ()) fun _ => Prog.ret PUnit.unit) Φ := by
  refine BIBase.Entails.trans ?_ (Pipeline.RegionSeg.wp (pcfgs (F := F)) adm (dats Vv) none cellOf_inj EP defs₀ 𝒱₀ (K (F := F)).L lv
    (reg1 Vv lv) d none (fun _ h => nomatch h) (fun _ => Prog.ret PUnit.unit) Φ)
  iintro ⟨Hk, Hrest⟩
  isplitl [Hk]
  · iintro H
    rw [wp_ret]
    imodintro
    iapply Hk
    iexact H
  iexact Hrest

set_option backward.isDefEq.respectTransparency.types false in
set_option maxHeartbeats 1000000 in
/-- The same under the whole program's table: a call of the region there is the lift of the call here. -/
theorem wp_region (lv : GSem nD τ sig → HIx 1 → ℕ) (d : Dev nD) (Φ : PUnit → sProp 𝕄) :
    iprop((iprop(boundary (T d) ∗ regionPost Vv d) -∗ Φ ⟨⟩) ∗ boundary (T d) ∗ regionPre Vv d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ
          (Prog.lift (.customCall (SparseCore.inner (Pipeline.entry 0)) ())) Φ :=
  (wp_region_inner Vv lv d Φ).trans
    ((K (F := F)).wp_liftProg D 𝒱 (T d) Set.univ none
      (Prog.op (.customCall (Pipeline.entry (0 : Fin 1)) ()) fun _ => Prog.ret PUnit.unit) Φ)

/-- The launch's funding of the pipeline's staging cells, dealt per device. -/
theorem fund_region :
    BI.own ((EP (F := F)) (initOf (Pipeline.cells (nD := nD) (τ := τ) (Pipeline.pin (pcfgs (F := F)) adm) cellOf_inj)
        (Pipeline.launchToks (nD := nD) (τ := τ) (Pipeline.pin (pcfgs (F := F)) adm) cellOf_inj)))
      ⊢ iprop(|==> bigSep Finset.univ fun d : Dev nD =>
          iprop(Pipeline.cellsGhost (Pipeline.pin (pcfgs (F := F)) adm) EP 0 d ∗ Pipeline.toksInit (Pipeline.pin (pcfgs (F := F)) adm) EP 0 d)) := by
  have h1 : ∀ (X : Fin 1 → sProp 𝕄), bigSep (Finset.univ : Finset (Fin 1)) X = X 0 := fun X => by
    rw [show (Finset.univ : Finset (Fin 1)) = {0} from rfl, BI.bigSep_singleton]
  have hf := Pipeline.fund_ghost (nD := nD) (τ := τ) (Pipeline.pin (pcfgs (F := F)) adm) (EP (F := F)) cellOf_inj
  simp only [h1] at hf ⊢
  exact hf

end Cert.Proof.KernelIdealRun

end
-- ==== Proof.KILaunchU.lean ====
/-
  The launch element of the kernel program's ghost state: the launch handshakes' rounds, the TensorCore pipeline's
  staging cells, and the transfer counters. The handshakes' part goes to the launch as it is; the pipeline's
  part funds, device by device, the staging cells' ghost state the TensorCore region is entered with; the
  counters are not used. The call's record holds nothing of its own per thread.
-/
import proofs.«215258_g80247168959020_cont_9to1_m_796_9_alg».proof.Proof.KIRegWp
import proofs.«215258_g80247168959020_cont_9to1_m_796_9_alg».proof.Proof.KIPay

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (Vids : (d : Dev nD) → Buf (Elt F) (idsLoc d)) (Hf : (d : Dev nD) → Buf (Elt F) (outLoc d))

/-- The launch element: the handshakes' cells at their first round, the pipeline's staging cells at theirs, no
    transfer counted. -/
def u₀ : UU :=
  (initOf (K (F := F)).hsCells (K (F := F)).hsToks,
    (initOf (Pipeline.cells (nD := nD) (τ := τ) (Pipeline.pin (pcfgs (F := F)) adm) cellOf_inj)
      (Pipeline.launchToks (nD := nD) (τ := τ) (Pipeline.pin (pcfgs (F := F)) adm) cellOf_inj), 1))

/-- What the launch deals device `d` for the TensorCore region: the staging cells' ghost state and tokens. -/
def GR (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] [Named F] in
theorem bigSep_emp' {I : Type} (s : Finset I) : (bigSep s fun _ => iprop(emp)) = (iprop(emp) : sProp 𝕄) := bigSep_emp_const s

/-- The launch element splits into the handshakes' rounds, each device's share for the region, and nothing per
    thread. -/
theorem hu₀ :
    iprop(ownU (u₀ (F := F)) ∗ (P Vids Hf).oxCred ∗ (K (F := F)).freeSems0)
      ⊢ |={Set.univ}=> iprop(BI.own (EH (initOf (K (F := F)).hsCells (K (F := F)).hsToks))
          ∗ (bigSep Finset.univ fun d : Dev nD => GR (F := F) d)
          ∗ bigSep Finset.univ fun thr : Thread nD τ => bigSep Finset.univ fun q : Fin 1 => (P Vids Hf).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  imod (fund_region (F := F)) $$ HP with HG
  imodintro
  isplitl [HH]; · iexact HH
  isplitl [HG]; · unfold GR; iexact HG
  rw [show (bigSep Finset.univ fun thr : Thread nD τ => bigSep Finset.univ fun q : Fin 1 => (P Vids Hf).x q thr)
      = (iprop(emp) : sProp 𝕄) from by
    simp only [P_x]
    rw [bigSep_congr fun _ _ => bigSep_emp' _, bigSep_emp']]
  iempintro

end Cert.Proof.KernelIdealRun

end
-- ==== Proof.KILaunchR.lean ====
/-
  The TensorCore region as @main meets it: entered with the five operand arrays at what the host operations and
  the histogram call left, it runs to the same arrays and the result array at what the 32 write-backs leave.
-/
import proofs.«215258_g80247168959020_cont_9to1_m_796_9_alg».proof.Proof.KILaunch
import proofs.«215258_g80247168959020_cont_9to1_m_796_9_alg».proof.Proof.KILaunchU

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (Hf : (d : Dev nD) → Buf (Elt F) (outLoc d))

/-- The TensorCore's arrays as the region is entered. -/
abbrev VvR (d : Dev nD) (b : Ref sig .tc) : Buf (Elt F) ((d : Thread nD τ).loc b) := V6 m d (Hf d) (dr b)

/-- What the region leaves in the result array. -/
def ResR (d : Dev nD) : Buf (Elt F) (resLoc d) := (dats (VvR m Hf) 0 d).arrAt 5 32

theorem RPre_eq (d : Dev nD) : (RPre m Hf d : sProp 𝕄) = regionPre (VvR m Hf) d := rfl
theorem RPost_eq (d : Dev nD) : (RPost m Hf (ResR m Hf) d : sProp 𝕄) = regionPost (VvR m Hf) d := rfl

/-- The call of the region, from what @main holds when it reaches it. -/
theorem hreg (d : Dev nD) (Φ : PUnit → sProp 𝕄) :
    iprop((iprop(boundary (SparseCore.T d) ∗ RPost m Hf (ResR m Hf) d) -∗ Φ ⟨⟩) ∗ boundary (SparseCore.T d) ∗ RPre m Hf d
        ∗ levAts (K (F := F)).L (K (F := F)).lev ∗ GR (F := F) d)
      ⊢ wp frame (wpE ((K (F := F)).defs (D (F := F))) 𝒱 (SparseCore.T d) none) Set.univ
          (Prog.lift (.customCall (SparseCore.inner (Pipeline.entry 0)) ())) Φ := by
  rw [RPre_eq, RPost_eq]
  unfold GR
  exact wp_region (VvR m Hf) (K (F := F)).lev d Φ

end Cert.Proof.KernelIdealRun

end
-- ==== Proof.Spec.lean ====
/-
  The function both programs compute, written twice over the argument arrays at the ideal instance
  (floats are extended reals): once in the order the kernel works (`kerOut`) and once in the order the
  reference works (`refOut`).

  For batch row `p` and output column `n`:
    out p n = (∑ e, comb p e · W n e) + b n,
  where `comb p e` is the mean over the 200 sequence positions of  emb p s e + hcat (bucket (ids p s)) e,
  `bucket w` the low ten bits of the id and `hcat` the four hash tables side by side (column `e` is
  column `e % 16` of table `e / 16`).

  The kernel gets the hash part from a histogram: `cnt p k` positions of row `p` fall in bucket `k`, and
  ∑ k, cnt p k · hcat k e = ∑ s, hcat (bucket (ids p s)) e. It sums the embeddings over even and odd
  positions apart (a [200, 64] row re-laid as [100, 128]), adds the two parts, and multiplies the total
  by 1/200. The reference divides each of the five sums (four tables, the embeddings) by 200 first and adds
  afterwards. With every float input finite the two orders agree (`Cert.Spec.Law`).
-/
import Idealize.ShloMosaic.PureOps.Ideal
import Idealize.ShloMosaic.Lib.ValueIdx

noncomputable section

open scoped BigOperators

namespace Cert.Spec

open Idealize.ShloMosaic Idealize.ShloMosaic.ValueIdx

abbrev SIds : Shape := ⟨2, ![4096, 200]⟩
abbrev SEmb : Shape := ⟨3, ![4096, 200, 64]⟩
abbrev SH : Shape := ⟨2, ![1024, 16]⟩
abbrev SW : Shape := ⟨2, ![64, 64]⟩
abbrev SB : Shape := ⟨1, ![64]⟩
abbrev SOut : Shape := ⟨2, ![4096, 64]⟩

/-- Every entry of an array of extended reals is a real number. -/
def AllReal {S : Shape} (x : S.Idx → EReal) : Prop := ∀ i, ∃ r : ℝ, x i = (r : EReal)

/-- The bucket of an id: its low ten bits (for a non-negative id, the id modulo 1024). -/
def bucket (w : BitVec 32) : Fin 1024 := ⟨w.toNat % 1024, Nat.mod_lt _ (by norm_num)⟩

/-- Sequence position `2 j` (`h = 0`) or `2 j + 1` (`h = 1`) of a row of 200. -/
def pos2 (j : Fin 100) (h : Fin 2) : Fin 200 := ⟨2 * j.val + h.val, by omega⟩

/-- Column `e` of the four hash tables side by side: column `e % 16` of table `e / 16`. -/
def hcat (H0 H1 H2 H3 : SH.Idx → EReal) (k : Fin 1024) (e : Fin 64) : EReal :=
  let c : Fin 16 := ⟨e.val % 16, Nat.mod_lt _ (by norm_num)⟩
  if e.val < 16 then H0 (ix2 k c) else if e.val < 32 then H1 (ix2 k c) else if e.val < 48 then H2 (ix2 k c) else H3 (ix2 k c)

/-- How many of row `p`'s 200 ids fall in bucket `k`, as an extended real. -/
def cnt (ids : SIds.Idx → BitVec 32) (p : Fin 4096) (k : Fin 1024) : EReal :=
  (((Finset.univ.filter fun s : Fin 200 => bucket (ids (ix2 p s)) = k).card : ℝ) : EReal)

/-- The kernel's combined row entry: embeddings summed over even and odd positions apart, plus the
    histogram against the tables, the total times 1/200. -/
def kerComb (ids : SIds.Idx → BitVec 32) (emb : SEmb.Idx → EReal) (H0 H1 H2 H3 : SH.Idx → EReal)
    (p : Fin 4096) (e : Fin 64) : EReal :=
  (((∑ j : Fin 100, emb (ix3 p (pos2 j 0) e)) + (∑ j : Fin 100, emb (ix3 p (pos2 j 1) e)))
      + ∑ k : Fin 1024, cnt ids p k * hcat H0 H1 H2 H3 k e) * ((1 / 200 : ℝ) : EReal)

/-- The reference's combined row entry: the mean of the looked-up table rows plus the mean of the embeddings. -/
def refComb (ids : SIds.Idx → BitVec 32) (emb : SEmb.Idx → EReal) (H0 H1 H2 H3 : SH.Idx → EReal)
    (p : Fin 4096) (e : Fin 64) : EReal :=
  (∑ s : Fin 200, hcat H0 H1 H2 H3 (bucket (ids (ix2 p s))) e) * ((1 / 200 : ℝ) : EReal)
    + (∑ s : Fin 200, emb (ix3 p s e)) * ((1 / 200 : ℝ) : EReal)

/-- The projection: row `p` of a combined array against row `n` of `W`, plus the bias. -/
def proj (comb : Fin 4096 → Fin 64 → EReal) (W : SW.Idx → EReal) (b : SB.Idx → EReal) : SOut.Idx → EReal :=
  fun i => (∑ e : Fin 64, comb (i 0) e * W (ix2 (i 1) e)) + b (ix1 (i 1))

/-- The result as the kernel computes it. -/
def kerOut (ids : SIds.Idx → BitVec 32) (emb : SEmb.Idx → EReal) (H0 H1 H2 H3 : SH.Idx → EReal)
    (W : SW.Idx → EReal) (b : SB.Idx → EReal) : SOut.Idx → EReal :=
  proj (kerComb ids emb H0 H1 H2 H3) W b

/-- The result as the reference computes it. -/
def refOut (ids : SIds.Idx → BitVec 32) (emb : SEmb.Idx → EReal) (H0 H1 H2 H3 : SH.Idx → EReal)
    (W : SW.Idx → EReal) (b : SB.Idx → EReal) : SOut.Idx → EReal :=
  proj (refComb ids emb H0 H1 H2 H3) W b

end Cert.Spec

end
-- ==== Proof.HistPure.lean ====
/-
  What one task of the histogram kernel computes, as plain functions of the buffers' contents.

  A task works on 16 rows at a time. The ids of the 16 rows are a flat buffer of 3200 words (row `l`,
  position `t` at `200 l + t`), the counts a flat buffer of 16384 floats (row `l`, bucket `b` at
  `1024 l + b`). For each position `t` the 16 lanes read the ids at `200 l + t` (lane `l`), keep the
  low ten bits, and add one at `1024 l + bucket`. The 16 targets lie in 16 different rows, so they
  are pairwise distinct and every one of them gains exactly one.
-/
import Idealize.ShloMosaic.PureOps
import Idealize.ShloMosaic.PureOps.Ideal
import Idealize.ShloMosaic.Lib.ValueIdx
import Idealize.ShloMosaic.Lib.Writes
import Idealize.ShloMosaic.Lib.Scf
import proofs.«215258_g80247168959020_cont_9to1_m_796_9_alg».proof.Proof.Spec

noncomputable section

open scoped BigOperators

namespace Cert.HistPure

open Idealize.ShloMosaic Idealize.ShloMosaic.ValueIdx

abbrev S16 : Shape := ⟨1, ![16]⟩
abbrev S3200 : Shape := ⟨1, ![3200]⟩
abbrev S16384 : Shape := ⟨1, ![16384]⟩

/-- The lane numbers 0 … 15. -/
abbrev iota16 : IVec S16 32 := iota .scVector S16 32 [0] (by decide)

/-- The indices of the ids the 16 lanes read at the position word `t`: `200 · lane + t`. -/
def gIdx (t : BitVec 32) : IVec S16 32 :=
  addi (muli iota16 (broadcast S16 (200#32 : BitVec 32))) (broadcast S16 t)

/-- The indices of the counts the 16 lanes add to, from the ids `x` they read: `1024 · lane + (x &&& 1023)`. -/
def sIdx (x : IVec S16 32) : IVec S16 32 :=
  addi (muli iota16 (broadcast S16 (1024#32 : BitVec 32))) (andi x (broadcast S16 (1023#32 : BitVec 32)))

/-- The position `4 k + u` as a word: trip `k` of the loop over positions, `u`-th of its four steps. -/
def tWord (k : ℕ) (u : BitVec 32) : BitVec 32 :=
  Scalar.addi (Scalar.muli (Scf.iv (0#32) (1#32) k) (4#32)) u

section Generic
variable {F : FTy → Type} [FloatOps F]

/-- The float zero, from its word. -/
def zeroF : F .f32 := Scalar.ofBits .f32 0x00000000#32
/-- The float one, from its word. -/
def oneF : F .f32 := Scalar.ofBits .f32 0x3F800000#32

end Generic

/-! ## The indices are inside the buffers -/

/-- Lane `x`'s number is its coordinate. -/
theorem iota16_apply (x : S16.Idx) : iota16 x = BitVec.ofNat 32 (x 0).val := by
  simp [iota16, iota]

/-- The position word of trip `k < 50`, step `u < 4`, is the number `4 k + u`. -/
theorem tWord_toNat (k : ℕ) (hk : k < 50) (u : BitVec 32) (hu : u.toNat < 4) :
    (tWord k u).toNat = 4 * k + u.toNat := by
  simp only [tWord, Scalar.addi, Scalar.muli, IntOp.addi, IntOp.muli, Scf.iv, BitVec.toNat_add, BitVec.toNat_mul,
    BitVec.toNat_ofNat]
  omega

/-- Lane `x` reads the id at `200 · lane + t`. -/
theorem gIdx_toNat (t : BitVec 32) (ht : t.toNat < 200) (x : S16.Idx) :
    (gIdx t x).toNat = 200 * (x 0).val + t.toNat := by
  have h16 : (x 0).val < 16 := (x 0).isLt
  simp only [gIdx, addi, muli, broadcast, IntOp.addi, IntOp.muli, iota16_apply, BitVec.toNat_add, BitVec.toNat_mul,
    BitVec.toNat_ofNat]
  omega

/-- Lane `y` adds at `1024 · lane + (its id's low ten bits)`. -/
theorem sIdx_toNat (x : IVec S16 32) (y : S16.Idx) :
    (sIdx x y).toNat = 1024 * (y 0).val + (x y).toNat % 1024 := by
  have h16 : (y 0).val < 16 := (y 0).isLt
  have hand : ((x y) &&& 1023#32).toNat = (x y).toNat % 1024 := by
    rw [BitVec.toNat_and]
    exact Nat.and_two_pow_sub_one_eq_mod (x y).toNat 10
  have hlt : (x y).toNat % 1024 < 1024 := Nat.mod_lt _ (by norm_num)
  simp only [sIdx, addi, muli, andi, broadcast, IntOp.addi, IntOp.muli, IntOp.andi, iota16_apply, BitVec.toNat_add,
    BitVec.toNat_mul, BitVec.toNat_ofNat, hand]
  omega

/-- Every index the gather of trip `k`, step `u` reads is inside the buffer of ids. -/
theorem chk_gather (k : ℕ) (hk : k < 50) (u : BitVec 32) (hu : u.toNat < 4) :
    ∀ a x, ((![gIdx (tWord k u)] : Fin 1 → IVec S16 32) a x).toNat < S3200.size a := by
  intro a x
  have ha : a = 0 := Subsingleton.elim _ _
  subst ha
  have h16 : (x 0).val < 16 := (x 0).isLt
  have ht := tWord_toNat k hk u hu
  have hg := gIdx_toNat (tWord k u) (by omega) x
  show (gIdx (tWord k u) x).toNat < 3200
  omega

/-- Every index the scatter adds at is inside the buffer of counts. -/
theorem chk_scatter (x : IVec S16 32) :
    ∀ a y, ((![sIdx x] : Fin 1 → IVec S16 32) a y).toNat < S16384.size a := by
  intro a y
  have ha : a = 0 := Subsingleton.elim _ _
  subst ha
  have h16 : (y 0).val < 16 := (y 0).isLt
  have hs := sIdx_toNat x y
  have hlt : (x y).toNat % 1024 < 1024 := Nat.mod_lt _ (by norm_num)
  show (sIdx x y).toNat < 16384
  omega

end Cert.HistPure

end
-- ==== Proof.HistPure2.lean ====
/-
  The adding scatter at pairwise distinct targets, and the histogram it builds position by position.
-/
import proofs.«215258_g80247168959020_cont_9to1_m_796_9_alg».proof.Proof.HistPure

noncomputable section

open scoped BigOperators

namespace Cert.HistPure

open Idealize.ShloMosaic Idealize.ShloMosaic.ValueIdx

/-! ## An adding scatter whose lanes name pairwise distinct elements -/

section Scatter
variable {F : FTy → Type} [FloatOps F] {s : Shape} {e : EltTy} {m : ℕ}

/-- One lane of an adding scatter: lane `k` adds `v k` onto the element `I k`. -/
def addStep (I : Fin m → s.Idx) (v : Fin m → Elt F e) (g : Vec F s e) (k : Fin m) : Vec F s e :=
  fun j => if (∀ a, (j a).val = ((I k) a).val) then Elt.idxAdd e (g (I k)) (v k) else g j

theorem addStep_of_ne (I : Fin m → s.Idx) (v : Fin m → Elt F e) (g : Vec F s e) (k : Fin m) (j : s.Idx)
    (h : I k ≠ j) : addStep I v g k j = g j := by
  unfold addStep
  rw [if_neg]
  intro hall
  exact h (funext fun a => Fin.ext (hall a).symm)

theorem addStep_self (I : Fin m → s.Idx) (v : Fin m → Elt F e) (g : Vec F s e) (k : Fin m) :
    addStep I v g k (I k) = Elt.idxAdd e (g (I k)) (v k) := by
  unfold addStep
  rw [if_pos (fun _ => rfl)]

/-- An element no lane of the list names keeps its value. -/
theorem foldl_addStep_miss (I : Fin m → s.Idx) (v : Fin m → Elt F e) (l : List (Fin m)) (g : Vec F s e) (j : s.Idx)
    (hj : ∀ k ∈ l, I k ≠ j) : l.foldl (addStep I v) g j = g j := by
  induction l generalizing g with
  | nil => rfl
  | cons k l ih =>
    rw [List.foldl_cons, ih _ (fun k' hk' => hj k' (List.mem_cons_of_mem _ hk')),
      addStep_of_ne I v g k j (hj k List.mem_cons_self)]

/-- With the lanes of the list naming pairwise distinct elements, the element lane `k` names gains `v k`, once. -/
theorem foldl_addStep_hit (I : Fin m → s.Idx) (v : Fin m → Elt F e) (hinj : Function.Injective I) (l : List (Fin m))
    (hnd : l.Nodup) (g : Vec F s e) (k : Fin m) (hk : k ∈ l) :
    l.foldl (addStep I v) g (I k) = Elt.idxAdd e (g (I k)) (v k) := by
  induction l generalizing g with
  | nil => cases hk
  | cons k0 l ih =>
    rw [List.foldl_cons]
    have hnd' := List.nodup_cons.mp hnd
    rcases List.mem_cons.mp hk with rfl | hk'
    · rw [foldl_addStep_miss I v l _ (I k) (fun k' hk' heq => hnd'.1 (hinj heq ▸ hk')), addStep_self]
    · have hne : I k0 ≠ I k := fun h => hnd'.1 (hinj h ▸ hk')
      rw [ih hnd'.2 _ hk', addStep_of_ne I v g k0 (I k) hne]

/-- The unmasked adding scatter is the fold of the lanes' steps. -/
theorem storeIdx_add_eq_foldl {d : Fin 1 → ℕ} (f : Vec F s e) (idxs : Fin s.rank → IVec ⟨1, d⟩ 32) (v : Vec F ⟨1, d⟩ e)
    (h : ∀ a x, (idxs a x).toNat < s.size a) :
    storeIdx f idxs v (fun _ => 1#1) true h
      = (List.finRange (d 0)).foldl (addStep (fun k => idxAt idxs h (Shape.ofLane k)) (fun k => v (Shape.ofLane k))) f := by
  unfold storeIdx
  congr 1
  funext g k
  simp only [addStep, if_true]
  rw [if_pos (show (1#1 : BitVec 1) = 1 from rfl)]
  rfl

/-- An element no lane names keeps its value through the scatter. -/
theorem storeIdx_add_miss {d : Fin 1 → ℕ} (f : Vec F s e) (idxs : Fin s.rank → IVec ⟨1, d⟩ 32) (v : Vec F ⟨1, d⟩ e)
    (h : ∀ a x, (idxs a x).toNat < s.size a) (j : s.Idx) (hj : ∀ k : Fin (d 0), idxAt idxs h (Shape.ofLane k) ≠ j) :
    storeIdx f idxs v (fun _ => 1#1) true h j = f j := by
  rw [storeIdx_add_eq_foldl]
  exact foldl_addStep_miss _ _ _ f j (fun k _ => hj k)

/-- With the lanes naming pairwise distinct elements, the element lane `k` names gains lane `k`'s value. -/
theorem storeIdx_add_hit {d : Fin 1 → ℕ} (f : Vec F s e) (idxs : Fin s.rank → IVec ⟨1, d⟩ 32) (v : Vec F ⟨1, d⟩ e)
    (h : ∀ a x, (idxs a x).toNat < s.size a)
    (hinj : Function.Injective fun k : Fin (d 0) => idxAt idxs h (Shape.ofLane k)) (k : Fin (d 0)) :
    storeIdx f idxs v (fun _ => 1#1) true h (idxAt idxs h (Shape.ofLane k))
      = Elt.idxAdd e (f (idxAt idxs h (Shape.ofLane k))) (v (Shape.ofLane k)) := by
  rw [storeIdx_add_eq_foldl]
  exact foldl_addStep_hit (fun k => idxAt idxs h (Shape.ofLane k)) (fun k => v (Shape.ofLane k)) hinj _
    (List.nodup_finRange _) f k (List.mem_finRange k)

end Scatter

end Cert.HistPure

end
-- ==== Proof.KITileVal.lean ====
/-
  The histogram a task leaves, as a function of the ids, and the two facts a chunk's loops carry: the count
  buffer is zero below a bound, and the count buffer holds the histogram of the positions read so far.

  A count is built by adding one to zero, once per hit, so its value is `cntF` of the number of hits; nothing
  else is ever added to an entry.
-/
import proofs.«215258_g80247168959020_cont_9to1_m_796_9_alg».proof.Proof.HistPure2

noncomputable section

namespace Cert.HistPure

open Idealize.ShloMosaic Idealize.ShloMosaic.ValueIdx

abbrev S819200 : Shape := ⟨1, ![819200]⟩
abbrev S4194304 : Shape := ⟨1, ![4194304]⟩

variable {F : FTy → Type} [FloatOps F]

/-- `n` ones added to zero, one after another. -/
def cntF : ℕ → F .f32
  | 0 => zeroF
  | n + 1 => Elt.idxAdd .f32 (cntF n) oneF

/-- The first `n` floats of a count buffer are zero. -/
def ZeroBelow (n : ℕ) (f : S16384.Idx → F .f32) : Prop := ∀ j, (j 0).val < n → f j = zeroF

/-- The count buffer after the first `n` positions of its 16 rows of ids `g`: entry `1024 l + b` is the
    number of positions `t < n` of row `l` whose id falls in bucket `b`. -/
def Hist (g : S3200.Idx → BitVec 32) (n : ℕ) (f : S16384.Idx → F .f32) : Prop :=
  ∀ (l : Fin 16) (b : Fin 1024), f (ix1 ⟨1024 * l.val + b.val, by omega⟩)
    = cntF ((Finset.univ.filter fun t : Fin 200 =>
        t.val < n ∧ Cert.Spec.bucket (g (ix1 ⟨200 * l.val + t.val, by omega⟩)) = b).card)

/-- The whole array of counts: entry `1024 r + b` is the number of the 200 positions of row `r` of the ids
    that fall in bucket `b`. -/
def histArr (ids : IVec S819200 32) : Vec F S4194304 .f32 := fun j =>
  cntF ((Finset.univ.filter fun t : Fin 200 =>
    Cert.Spec.bucket (ids (ix1 ⟨200 * ((j 0).val / 1024) + t.val, by
      have h : (j 0).val < 4194304 := (j 0).isLt
      have ht : t.val < 200 := t.isLt
      omega⟩)) = ⟨(j 0).val % 1024, Nat.mod_lt _ (by norm_num)⟩).card)

end Cert.HistPure

end
-- ==== Proof.KITileRes.lean ====
/-
  One task of the histogram kernel, at a symbolic place: what it is handed (its eight chunks of the ids and of
  the counts, each chunk the slice the program itself cuts), how its own ten semaphores and three scratch buffers
  split off the subcore's, and the statement of its body: from the chunks of the counts at anything to the same
  chunks at the histogram of the ids.
-/
import proofs.«215258_g80247168959020_cont_9to1_m_796_9_alg».proof.Proof.KIPay
import proofs.«215258_g80247168959020_cont_9to1_m_796_9_alg».proof.Proof.KITileVal

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile
variable (d : Dev nD) (L : grid0.Coords)

/-- The SparseCore and the subcore a grid point runs on. -/
abbrev cV (L : grid0.Coords) : Fin τ.nSC := (L 0).castLE hcore0
abbrev jV (L : grid0.Coords) : Fin τ.nSub := (L 1).castLE hsub0

omit [FloatOps F] [Named F] in
theorem taskSems0 :
    (ownSems0 (V d (cV L) (jV L)) : sProp 𝕄)
      = iprop((semVal ((V d (cV L) (jV L), SemLoc.dma cc0_scratch3.sem) : GSem nD τ sig) 0 ∗ semVal ((V d (cV L) (jV L), SemLoc.dma cc0_scratch4.sem) : GSem nD τ sig) 0 ∗ semVal ((V d (cV L) (jV L), SemLoc.dma cc0_scoped0.sem) : GSem nD τ sig) 0 ∗ semVal ((V d (cV L) (jV L), SemLoc.dma cc0_scoped1.sem) : GSem nD τ sig) 0 ∗ semVal ((V d (cV L) (jV L), SemLoc.dma cc0_scoped2.sem) : GSem nD τ sig) 0 ∗ semVal ((V d (cV L) (jV L), SemLoc.dma cc0_scoped3.sem) : GSem nD τ sig) 0 ∗ semVal ((V d (cV L) (jV L), SemLoc.dma cc0_scoped4.sem) : GSem nD τ sig) 0 ∗ semVal ((V d (cV L) (jV L), SemLoc.dma cc0_scoped5.sem) : GSem nD τ sig) 0 ∗ semVal ((V d (cV L) (jV L), SemLoc.dma cc0_scoped6.sem) : GSem nD τ sig) 0 ∗ semVal ((V d (cV L) (jV L), SemLoc.dma cc0_scoped7.sem) : GSem nD τ sig) 0)
          ∗ bigSep (ownCells (V d (cV L) (jV L)) \ taskSems.image fun sm => ((V d (cV L) (jV L), sm) : GSem nD τ sig)) fun g => semVal g 0) := by
  rw [ownSems0_split (V d (cV L) (jV L)) taskSems (show ∀ sm ∈ taskSems, SemLoc.isScoped Kind.scVector sm = true by decide)]
  unfold taskSems
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] [Named F] in
/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- What a task is handed: its eight chunks of the ids (at contents `fi`) and of the counts (at `fo`). -/
def taskRes (fi : Buf (Elt F) (idsLoc d)) (fo : Buf (Elt F) (outLoc d)) : sProp 𝕄 :=
  iprop((((idsV).slice (Rect.unit (s := S819200) (k0_off1 L 0#32) S3200.size (k0_off1_inb L 0)) (fun _ => rfl)).view.loc (V d (cV L) (jV L)) ↦[((idsV).slice (Rect.unit (s := S819200) (k0_off1 L 0#32) S3200.size (k0_off1_inb L 0)) (fun _ => rfl)).view.set]{fullShare} fi)
    ∗ (((idsV).slice (Rect.unit (s := S819200) (k0_off1 L 16#32) S3200.size (k0_off1_inb L 1)) (fun _ => rfl)).view.loc (V d (cV L) (jV L)) ↦[((idsV).slice (Rect.unit (s := S819200) (k0_off1 L 16#32) S3200.size (k0_off1_inb L 1)) (fun _ => rfl)).view.set]{fullShare} fi)
    ∗ (((idsV).slice (Rect.unit (s := S819200) (k0_off1 L 32#32) S3200.size (k0_off1_inb L 2)) (fun _ => rfl)).view.loc (V d (cV L) (jV L)) ↦[((idsV).slice (Rect.unit (s := S819200) (k0_off1 L 32#32) S3200.size (k0_off1_inb L 2)) (fun _ => rfl)).view.set]{fullShare} fi)
    ∗ (((idsV).slice (Rect.unit (s := S819200) (k0_off1 L 48#32) S3200.size (k0_off1_inb L 3)) (fun _ => rfl)).view.loc (V d (cV L) (jV L)) ↦[((idsV).slice (Rect.unit (s := S819200) (k0_off1 L 48#32) S3200.size (k0_off1_inb L 3)) (fun _ => rfl)).view.set]{fullShare} fi)
    ∗ (((idsV).slice (Rect.unit (s := S819200) (k0_off1 L 64#32) S3200.size (k0_off1_inb L 4)) (fun _ => rfl)).view.loc (V d (cV L) (jV L)) ↦[((idsV).slice (Rect.unit (s := S819200) (k0_off1 L 64#32) S3200.size (k0_off1_inb L 4)) (fun _ => rfl)).view.set]{fullShare} fi)
    ∗ (((idsV).slice (Rect.unit (s := S819200) (k0_off1 L 80#32) S3200.size (k0_off1_inb L 5)) (fun _ => rfl)).view.loc (V d (cV L) (jV L)) ↦[((idsV).slice (Rect.unit (s := S819200) (k0_off1 L 80#32) S3200.size (k0_off1_inb L 5)) (fun _ => rfl)).view.set]{fullShare} fi)
    ∗ (((idsV).slice (Rect.unit (s := S819200) (k0_off1 L 96#32) S3200.size (k0_off1_inb L 6)) (fun _ => rfl)).view.loc (V d (cV L) (jV L)) ↦[((idsV).slice (Rect.unit (s := S819200) (k0_off1 L 96#32) S3200.size (k0_off1_inb L 6)) (fun _ => rfl)).view.set]{fullShare} fi)
    ∗ (((idsV).slice (Rect.unit (s := S819200) (k0_off1 L 112#32) S3200.size (k0_off1_inb L 7)) (fun _ => rfl)).view.loc (V d (cV L) (jV L)) ↦[((idsV).slice (Rect.unit (s := S819200) (k0_off1 L 112#32) S3200.size (k0_off1_inb L 7)) (fun _ => rfl)).view.set]{fullShare} fi)
    ∗ (((outV).slice (Rect.unit (s := S4194304) (k0_off3 L 0#32) S16384.size (k0_off3_inb L 0)) (fun _ => rfl)).view.loc (V d (cV L) (jV L)) ↦[((outV).slice (Rect.unit (s := S4194304) (k0_off3 L 0#32) S16384.size (k0_off3_inb L 0)) (fun _ => rfl)).view.set]{fullShare} fo)
    ∗ (((outV).slice (Rect.unit (s := S4194304) (k0_off3 L 16#32) S16384.size (k0_off3_inb L 1)) (fun _ => rfl)).view.loc (V d (cV L) (jV L)) ↦[((outV).slice (Rect.unit (s := S4194304) (k0_off3 L 16#32) S16384.size (k0_off3_inb L 1)) (fun _ => rfl)).view.set]{fullShare} fo)
    ∗ (((outV).slice (Rect.unit (s := S4194304) (k0_off3 L 32#32) S16384.size (k0_off3_inb L 2)) (fun _ => rfl)).view.loc (V d (cV L) (jV L)) ↦[((outV).slice (Rect.unit (s := S4194304) (k0_off3 L 32#32) S16384.size (k0_off3_inb L 2)) (fun _ => rfl)).view.set]{fullShare} fo)
    ∗ (((outV).slice (Rect.unit (s := S4194304) (k0_off3 L 48#32) S16384.size (k0_off3_inb L 3)) (fun _ => rfl)).view.loc (V d (cV L) (jV L)) ↦[((outV).slice (Rect.unit (s := S4194304) (k0_off3 L 48#32) S16384.size (k0_off3_inb L 3)) (fun _ => rfl)).view.set]{fullShare} fo)
    ∗ (((outV).slice (Rect.unit (s := S4194304) (k0_off3 L 64#32) S16384.size (k0_off3_inb L 4)) (fun _ => rfl)).view.loc (V d (cV L) (jV L)) ↦[((outV).slice (Rect.unit (s := S4194304) (k0_off3 L 64#32) S16384.size (k0_off3_inb L 4)) (fun _ => rfl)).view.set]{fullShare} fo)
    ∗ (((outV).slice (Rect.unit (s := S4194304) (k0_off3 L 80#32) S16384.size (k0_off3_inb L 5)) (fun _ => rfl)).view.loc (V d (cV L) (jV L)) ↦[((outV).slice (Rect.unit (s := S4194304) (k0_off3 L 80#32) S16384.size (k0_off3_inb L 5)) (fun _ => rfl)).view.set]{fullShare} fo)
    ∗ (((outV).slice (Rect.unit (s := S4194304) (k0_off3 L 96#32) S16384.size (k0_off3_inb L 6)) (fun _ => rfl)).view.loc (V d (cV L) (jV L)) ↦[((outV).slice (Rect.unit (s := S4194304) (k0_off3 L 96#32) S16384.size (k0_off3_inb L 6)) (fun _ => rfl)).view.set]{fullShare} fo)
    ∗ (((outV).slice (Rect.unit (s := S4194304) (k0_off3 L 112#32) S16384.size (k0_off3_inb L 7)) (fun _ => rfl)).view.loc (V d (cV L) (jV L)) ↦[((outV).slice (Rect.unit (s := S4194304) (k0_off3 L 112#32) S16384.size (k0_off3_inb L 7)) (fun _ => rfl)).view.set]{fullShare} fo))

open Cert.HistPure (histArr)

/-- The body of one task: handed its chunks of the ids at `fi` and of the counts at anything, with the subcore's
    scratch buffers and semaphores, it ends with the chunks of the counts at the histogram of `fi`, everything
    else as it was, and every wait it made recorded at the index of local waits. -/
def TileBody : Prop :=
  ∀ (d : Dev nD) (L : grid0.Coords), (K (F := F)).Facts → ∀ (O : CellTallies nD τ sig (HIx 1)) (W : Waits sig (HIx 1)), (∀ g, O g none = 0) →
    ∀ (fi : Buf (Elt F) (idsLoc d)) (fo : Buf (Elt F) (outLoc d)),
    (iprop(levAts (K (F := F)).L (K (F := F)).lev ∗ taskRes d L fi fo
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_hist_body L idsV (Memref.isWhole_whole _) outV (Memref.isWhole_whole _)
            sI (Memref.isWhole_whole _) sA (Memref.isWhole_whole _) sB (Memref.isWhole_whole _) cc0_scratch3 cc0_scratch4
            cc0_scoped0 cc0_scoped1 cc0_scoped2 cc0_scoped3 cc0_scoped4 cc0_scoped5 cc0_scoped6 cc0_scoped7)
          fun _ => iprop(taskRes d L fi (histArr (F := F) fi) ∗ scopedBufs (V d (cV L) (jV L)) ∗ scopedSems0 (V d (cV L) (jV L))
            ∗ ∃ W', ⌜∀ p ∈ W', p ∈ W ∨ p.2 = none⌝ ∗ owes (V d (cV L) (jV L)) O W')

end Tile

end Cert.Proof.KernelIdealRun

end
-- ==== Proof.KITileObl.lean ====
/-
  The launch-side obligation of one task of the histogram kernel. A task's run of the flat ids (25600 words) is
  the disjoint union of the eight chunks of 3200 words the program slices, and its run of the flat counts
  (131072 floats) the disjoint union of its eight chunks of 16384: chunk r of task w starts at 25600 w + 3200 r,
  resp. 131072 w + 16384 r, where w = 2 (L 1) + (L 0) at grid point L. So what the call hands a task is what the
  body's statement takes, and what the body leaves is what the call takes back; with that the body's theorem is
  the obligation of the task as the launch theorem states it.
-/
import proofs.«215258_g80247168959020_cont_9to1_m_796_9_alg».proof.Proof.KITileRes

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.HistPure (histArr)

variable {F : FTy → Type} [FloatOps F] [Named F]

local notation "𝕄" => MT nD τ sig (HIx 1) (Elt F) ℕ UU ℕ

omit [FloatOps F] [Named F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

omit [FloatOps F] [Named F] in
theorem sep_assoc_eq (A B C : sProp 𝕄) : iprop((A ∗ B) ∗ C) = iprop(A ∗ B ∗ C) :=
  BI.Entails.antisymm (Idealize.SL.BI.sep_assoc (P := A) (Q := B) (R := C)) Idealize.SL.BI.sep_assoc'

/-- The task a grid point runs. -/
abbrev wL (L : grid0.Coords) : Fin 32 := widN (cV L).val (jV L).val

/-- Chunk `r` of the ids of the task at `L`, as the program cuts it. -/
abbrev idsChunk (L : grid0.Coords) (r : Fin 8) : Rect S819200 :=
  Rect.unit (s := S819200) (k0_off1 L (BitVec.ofNat 32 (16 * r.val))) S3200.size (k0_off1_inb L r)
/-- Chunk `r` of the counts of the task at `L`, as the program cuts it. -/
abbrev outChunk (L : grid0.Coords) (r : Fin 8) : Rect S4194304 :=
  Rect.unit (s := S4194304) (k0_off3 L (BitVec.ofNat 32 (16 * r.val))) S16384.size (k0_off3_inb L r)

theorem wL_val (L : grid0.Coords) : (wL L).val = 2 * (L 1).val + (L 0).val := by
  have h0 : (L 0).val < 2 := (L 0).isLt
  have h1 : (L 1).val < 16 := (L 1).isLt
  show (2 * (L 1).val + (L 0).val) % 32 = _
  omega

theorem mem_idsSet (w : Fin 32) (i : S819200.Idx) : i ∈ idsSet w ↔ 25600 * w.val ≤ (i 0).val ∧ (i 0).val < 25600 * w.val + 25600 := by
  have e : idsSet w = (idsPart w).set := View.set_slice_whole (main_v0_scv : Ref sig .scVector) (idsPart w)
  rw [e, Rect.mem_set_unit]
  simp [Shape.partIx, Shape.partSize, Fin.forall_fin_one]
  omega

theorem mem_idsChunk (L : grid0.Coords) (r : Fin 8) (i : S819200.Idx) :
    i ∈ (idsChunk L r).set ↔ 25600 * (wL L).val + 3200 * r.val ≤ (i 0).val ∧ (i 0).val < 25600 * (wL L).val + 3200 * r.val + 3200 := by
  rw [Rect.mem_set_unit, k0_off1_eq, wL_val]
  simp [Fin.forall_fin_one]
  omega

theorem idsChunks_disjoint (L : grid0.Coords) : ∀ r ∈ (Finset.univ : Finset (Fin 8)), ∀ r' ∈ (Finset.univ : Finset (Fin 8)), r ≠ r' →
    Disjoint (idsChunk L r).set (idsChunk L r').set := by
  intro r _ r' _ h
  rw [Finset.disjoint_left]; intro i hi hi'
  rw [mem_idsChunk] at hi hi'
  have : r.val ≠ r'.val := fun e => h (Fin.ext e)
  omega

theorem idsChunks_cover (L : grid0.Coords) : (Finset.univ : Finset (Fin 8)).biUnion (fun r => (idsChunk L r).set) = idsSet (wL L) := by
  ext i
  simp only [Finset.mem_biUnion, Finset.mem_univ, true_and, mem_idsChunk, mem_idsSet]
  constructor
  · rintro ⟨r, h1, h2⟩; have := r.isLt; omega
  · intro ⟨h1, h2⟩
    refine ⟨⟨((i 0).val - 25600 * (wL L).val) / 3200, by omega⟩, ?_⟩
    simp only; omega

theorem mem_outSet (w : Fin 32) (i : S4194304.Idx) : i ∈ outSet w ↔ 131072 * w.val ≤ (i 0).val ∧ (i 0).val < 131072 * w.val + 131072 := by
  have e : outSet w = (outPart w).set := View.set_slice_whole (main_v1_scv : Ref sig .scVector) (outPart w)
  rw [e, Rect.mem_set_unit]
  simp [Shape.partIx, Shape.partSize, Fin.forall_fin_one]
  omega

theorem mem_outChunk (L : grid0.Coords) (r : Fin 8) (i : S4194304.Idx) :
    i ∈ (outChunk L r).set ↔ 131072 * (wL L).val + 16384 * r.val ≤ (i 0).val ∧ (i 0).val < 131072 * (wL L).val + 16384 * r.val + 16384 := by
  rw [Rect.mem_set_unit, k0_off3_eq, wL_val]
  simp [Fin.forall_fin_one]
  omega

theorem outChunks_disjoint (L : grid0.Coords) : ∀ r ∈ (Finset.univ : Finset (Fin 8)), ∀ r' ∈ (Finset.univ : Finset (Fin 8)), r ≠ r' →
    Disjoint (outChunk L r).set (outChunk L r').set := by
  intro r _ r' _ h
  rw [Finset.disjoint_left]; intro i hi hi'
  rw [mem_outChunk] at hi hi'
  have : r.val ≠ r'.val := fun e => h (Fin.ext e)
  omega

theorem outChunks_cover (L : grid0.Coords) : (Finset.univ : Finset (Fin 8)).biUnion (fun r => (outChunk L r).set) = outSet (wL L) := by
  ext i
  simp only [Finset.mem_biUnion, Finset.mem_univ, true_and, mem_outChunk, mem_outSet]
  constructor
  · rintro ⟨r, h1, h2⟩; have := r.isLt; omega
  · intro ⟨h1, h2⟩
    refine ⟨⟨((i 0).val - 131072 * (wL L).val) / 16384, by omega⟩, ?_⟩
    simp only; omega

section Tile
variable (d : Dev nD) (L : grid0.Coords)

omit [FloatOps F] [Named F] in
/-- A task's run of the ids is its eight chunks, each spelt as the program slices it. -/
theorem idsPts_chunks (f : Buf (Elt F) (idsLoc d)) :
    (idsLoc d ↦[idsSet (wL L)]{fullShare} f : sProp 𝕄)
      = bigSep Finset.univ fun r : Fin 8 =>
          ((idsV).slice (idsChunk L r) (fun _ => rfl)).view.loc (V d (cV L) (jV L)) ↦[((idsV).slice (idsChunk L r) (fun _ => rfl)).view.set]{fullShare} f := by
  rw [← idsChunks_cover, pointsTo_biUnion Finset.univ (ℓ := idsLoc d) (fun r : Fin 8 => (idsChunk L r).set) (idsChunks_disjoint L)]
  refine bigSep_congr fun r _ => ?_
  have e : ((idsV).slice (idsChunk L r) (fun _ => rfl)).view.set = (idsChunk L r).set := View.set_slice_whole (main_v0_scv : Ref sig .scVector) (idsChunk L r)
  rw [e]

omit [FloatOps F] [Named F] in
/-- A task's run of the counts is its eight chunks, each spelt as the program slices it. -/
theorem outPts_chunks (f : Buf (Elt F) (outLoc d)) :
    (outLoc d ↦[outSet (wL L)]{fullShare} f : sProp 𝕄)
      = bigSep Finset.univ fun r : Fin 8 =>
          ((outV).slice (outChunk L r) (fun _ => rfl)).view.loc (V d (cV L) (jV L)) ↦[((outV).slice (outChunk L r) (fun _ => rfl)).view.set]{fullShare} f := by
  rw [← outChunks_cover, pointsTo_biUnion Finset.univ (ℓ := outLoc d) (fun r : Fin 8 => (outChunk L r).set) (outChunks_disjoint L)]
  refine bigSep_congr fun r _ => ?_
  have e : ((outV).slice (outChunk L r) (fun _ => rfl)).view.set = (outChunk L r).set := View.set_slice_whole (main_v1_scv : Ref sig .scVector) (outChunk L r)
  rw [e]

/-- What a task is handed is its run of the ids and its run of the counts. -/
theorem taskRes_eq (fi : Buf (Elt F) (idsLoc d)) (fo : Buf (Elt F) (outLoc d)) :
    (taskRes d L fi fo : sProp 𝕄) = iprop((idsLoc d ↦[idsSet (wL L)]{fullShare} fi) ∗ outLoc d ↦[outSet (wL L)]{fullShare} fo) := by
  rw [idsPts_chunks, outPts_chunks, bigSep_fin8, bigSep_fin8]
  simp only [sep_assoc_eq]
  rfl

variable (Vids : (d : Dev nD) → Buf (Elt F) (idsLoc d))

theorem taskRes_of_pre : taskPre Vids d (wL L) ⊢ iprop(∃ fo, taskRes d L (Vids d) fo) := by
  unfold taskPre
  iintro ⟨Hi, %f, Ho⟩
  iexists f
  rw [taskRes_eq]
  isplitl [Hi]
  · iexact Hi
  · iexact Ho

theorem taskPost_of_res :
    taskRes d L (Vids d) (histArr (F := F) (Vids d)) ⊢ taskPost Vids (fun d => histArr (F := F) (Vids d)) d (wL L) := by
  rw [taskRes_eq]; unfold taskPost; exact .rfl

end Tile

/-! ## The launch theorem's obligation -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_hist_body (coordsV c s)
          idsV (Memref.isWhole_whole _) outV (Memref.isWhole_whole _)
          sI (Memref.isWhole_whole _) sA (Memref.isWhole_whole _) sB (Memref.isWhole_whole _) cc0_scratch3 cc0_scratch4
          cc0_scoped0 cc0_scoped1 cc0_scoped2 cc0_scoped3 cc0_scoped4 cc0_scoped5 cc0_scoped6 cc0_scoped7) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (Vids : (d : Dev nD) → Buf (Elt F) (idsLoc d))

omit [FloatOps F] [Named F] in
theorem sep_head_mono {A A' R : sProp 𝕄} (h : A ⊢ A') : iprop(A ∗ R) ⊢ iprop(A' ∗ R) := by
  iintro ⟨HA, HR⟩
  isplitl [HA]
  · iapply h $$ HA
  · iexact HR

/-- The body's result, read as what the call takes back, the waits fact weakened to the launch theorem's. -/
theorem tile_post (d : Dev nD) (L : grid0.Coords) {thr : Thread nD τ} {B C : sProp 𝕄} {O : CellTallies nD τ sig (HIx 1)} {W : Waits sig (HIx 1)} {q : Fin 1} :
    iprop(taskRes d L (Vids d) (histArr (F := F) (Vids d)) ∗ B ∗ C ∗ ∃ W', ⌜∀ p ∈ W', p ∈ W ∨ p.2 = none⌝ ∗ owes thr O W')
      ⊢ iprop(taskPost Vids (fun d => histArr (F := F) (Vids d)) d (wL L) ∗ B ∗ C ∗ ∃ W', ⌜∀ p ∈ W', p ∈ W ∨ p.2 = none ∨ p.2 = some q⌝ ∗ owes thr O W') :=
  (sep_head_mono (taskPost_of_res d L Vids)).trans obl_post

/-- The task at grid point `L`, from what the call hands it to what the call takes back. -/
theorem tile_task (hbody : TileBody (F := F)) (hF : (K (F := F)).Facts) (d : Dev nD) (L : grid0.Coords)
    (O : CellTallies nD τ sig (HIx 1)) (W : Waits sig (HIx 1)) (hO : ∀ g, O g none = 0) :
    (iprop(levAts (K (F := F)).L (K (F := F)).lev ∗ emp ∗ taskPre Vids d (wL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_hist_body L idsV (Memref.isWhole_whole _) outV (Memref.isWhole_whole _)
            sI (Memref.isWhole_whole _) sA (Memref.isWhole_whole _) sB (Memref.isWhole_whole _) cc0_scratch3 cc0_scratch4
            cc0_scoped0 cc0_scoped1 cc0_scoped2 cc0_scoped3 cc0_scoped4 cc0_scoped5 cc0_scoped6 cc0_scoped7)
          fun _ => iprop(taskPost Vids (fun d => histArr (F := F) (Vids d)) d (wL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  iintro ⟨Hlv, -, Hgo, Hb, Hs, HO⟩
  ihave Hr := (taskRes_of_pre d L Vids) $$ Hgo
  icases Hr with ⟨%fo, Hr⟩
  iapply ((hbody d L hF O W hO (Vids d) fo).trans (wp_mono frame _ _ fun _ => tile_post Vids d L)) $$ [Hlv Hr Hb Hs HO]
  isplitl [Hlv]; · iexact Hlv
  isplitl [Hr]; · iexact Hr
  isplitl [Hb]; · iexact Hb
  isplitl [Hs]; · iexact Hs
  iexact HO

theorem tileObl (hbody : TileBody (F := F)) (hF : (K (F := F)).Facts) :
    (K (F := F)).TileObl (D (F := F)) 𝒱 (P Vids (fun d => histArr (F := F) (Vids d))) v₀ 0 := by
  intro d c i O W hO _ _
  simp only [P_ox, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  exact tile_task Vids hbody hF d (coordsV ⟨_, hc.1⟩ ⟨_, hc.2⟩) O W hO

end Cert.Proof.KernelIdealRun

end
-- ==== Proof.KIWhole.lean ====
/-
  The kernel program's run with its two results named: the counts array at the histogram of the flat ids (one
  whole-array function), the result array at what the TensorCore region computes from @main's re-laid arrays. From
  the proof of one task's body, every weakly fair execution of the device's threads terminates, nothing faulting, with
  the eight argument arrays at their launch contents and the result array at that value.
-/
import proofs.«215258_g80247168959020_cont_9to1_m_796_9_alg».proof.Proof.KIRun
import proofs.«215258_g80247168959020_cont_9to1_m_796_9_alg».proof.Proof.KILaunchU
import proofs.«215258_g80247168959020_cont_9to1_m_796_9_alg».proof.Proof.KILaunchR
import proofs.«215258_g80247168959020_cont_9to1_m_796_9_alg».proof.Proof.KITileObl

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F] [Named F]

local notation "𝕄" => MT nD τ sig (HIx 1) (Elt F) ℕ UU ℕ

open Cert.HistPure (histArr)

variable (m : (ℓ : Loc nD τ sig) → Buf (Elt F) ℓ) (ρ : Dev nD → PrngReg)

/-- The counts array the histogram call leaves: the histogram of the flat ids. -/
abbrev HfH (d : Dev nD) : Buf (Elt F) (outLoc d) := histArr (F := F) (Vids m d)

/-- The result array the region leaves. -/
abbrev ResH (d : Dev nD) : Buf (Elt F) (resLoc d) := ResR m (HfH m) d

theorem run_hist [∀ e, Nonempty (Elt F e)] (hbody : TileBody (F := F)) :
    θ_run (Cert.KernelIdeal.defs (F := F)) (Cert.KernelIdeal.threads (F := F)) ⟨m, fun _ => 0, ρ⟩ (QC m (HfH m) (ResH m)) :=
  run_main m ρ (HfH m) (ResH m) (GR (F := F)) (u₀ (F := F)) (hu₀ (Vids m) (HfH m)) (hreg m (HfH m))
    (tileObl (Vids := Vids m) hbody facts)

/-- The run as the claims read it: the result array named, the eight argument arrays unchanged. -/
theorem run_claim [∀ e, Nonempty (Elt F e)] (hbody : TileBody (F := F)) :
    θ_run (Cert.KernelIdeal.defs (F := F)) (Cert.KernelIdeal.threads (F := F)) ⟨m, fun _ => 0, ρ⟩ (fun r => ∀ c : Dev nD,
      r.2.mem ((c.tc : Thread nD τ).loc main_v6) = ResH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := F)) _ _).mono (fun r h c =>
    ⟨QC_res m (HfH m) (ResH m) h c,
      QC_arg m (HfH m) (ResH m) h c (dr main_arg0) (by decide) (by decide), QC_arg m (HfH m) (ResH m) h c (dr main_arg1) (by decide) (by decide),
      QC_arg m (HfH m) (ResH m) h c (dr main_arg2) (by decide) (by decide), QC_arg m (HfH m) (ResH m) h c (dr main_arg3) (by decide) (by decide),
      QC_arg m (HfH m) (ResH m) h c (dr main_arg4) (by decide) (by decide), QC_arg m (HfH m) (ResH m) h c (dr main_arg5) (by decide) (by decide),
      QC_arg m (HfH m) (ResH m) h c (dr main_arg6) (by decide) (by decide), QC_arg m (HfH m) (ResH m) h c (dr main_arg7) (by decide) (by decide)⟩)
    (run_hist m ρ hbody)

end Cert.Proof.KernelIdealRun

end
-- ==== Proof.KIRegValSpec.lean ====
/-
  What the TensorCore region computes, as one function of its five operand arrays at the ideal instance
  (floats are extended reals).

  The operands: the embeddings with each row of 200 positions by 64 columns re-laid as 100 by 128 (entry
  (j, e) for e < 64 is position 2 j, column e; entry (j, e + 64) is position 2 j + 1, column e), the bucket
  counts [4096, 1024], the four hash tables side by side [1024, 64], the projection matrix [64, 64] and the
  bias as one row [1, 64].

  For batch row p and column e the combined entry is the sum over j of the low half's column e, plus the sum
  over j of the high half's column e, plus the counts of row p against column e of the tables, the total times
  1/200. The result at (p, n) is the combined row p against row n of the projection matrix, plus the bias at n.

  A block of 128 batch rows of the result depends only on the same 128 rows of the embeddings and of the counts
  (and on the three small operands whole): `out_block_eq`.
-/
import proofs.«215258_g80247168959020_cont_9to1_m_796_9_alg».proof.KernelIdeal
import Idealize.ShloMosaic.PureOps.Ideal
import Idealize.ShloMosaic.Lib.ValueIdx

noncomputable section

open scoped BigOperators

namespace Cert.Proof.KernelIdealRun

open Cert.KernelIdeal

open Idealize.ShloMosaic Idealize.ShloMosaic.ValueIdx

/-- The combined entry of batch row `p`, column `e`: the two halves of the re-laid embeddings summed over
    the 100 pairs of positions apart and added, plus the counts against the tables, the total times 1/200. -/
def regComb (emb3 : S4096x100x128.Idx → EReal) (cnt : S4096x1024.Idx → EReal) (hc : S1024x64.Idx → EReal)
    (p : Fin 4096) (e : Fin 64) : EReal :=
  (((∑ j : Fin 100, emb3 (ix3 p j ⟨e.val, by omega⟩)) + (∑ j : Fin 100, emb3 (ix3 p j ⟨e.val + 64, by omega⟩)))
      + ∑ k : Fin 1024, cnt (ix2 p k) * hc (ix2 k e)) * ((1 / 200 : ℝ) : EReal)

/-- The region's result: combined row `p` against row `n` of the projection matrix, plus the bias at `n`. -/
def regOut (emb3 : S4096x100x128.Idx → EReal) (cnt : S4096x1024.Idx → EReal) (hc : S1024x64.Idx → EReal)
    (W : S64x64.Idx → EReal) (b2 : S1x64.Idx → EReal) : S4096x64.Idx → EReal :=
  fun i => (∑ e : Fin 64, regComb emb3 cnt hc (i 0) e * W (ix2 (i 1) e)) + b2 (ix2 0 (i 1))

theorem regOut_apply (emb3 : S4096x100x128.Idx → EReal) (cnt : S4096x1024.Idx → EReal) (hc : S1024x64.Idx → EReal)
    (W : S64x64.Idx → EReal) (b2 : S1x64.Idx → EReal) (p : Fin 4096) (n : Fin 64) :
    regOut emb3 cnt hc W b2 (ix2 p n) = (∑ e : Fin 64, regComb emb3 cnt hc p e * W (ix2 n e)) + b2 (ix2 0 n) := rfl

/-- Row `r` of a block of 128 batch rows: if the block's embeddings and counts are rows `q` of the arrays'
    and the three small operands are the arrays whole, the block's entry at (r, n), computed as the body
    computes it, is the result at (q, n). -/
theorem out_block_eq (emb3 : S4096x100x128.Idx → EReal) (cnt : S4096x1024.Idx → EReal) (hc : S1024x64.Idx → EReal)
    (W : S64x64.Idx → EReal) (b2 : S1x64.Idx → EReal)
    (x0 : S128x100x128.Idx → EReal) (x1 : S128x1024.Idx → EReal) (x2 : S1024x64.Idx → EReal) (x3 : S64x64.Idx → EReal)
    (x4 : S1x64.Idx → EReal) (q : Fin 4096) (r : Fin 128) (n : Fin 64)
    (h0 : ∀ (j : Fin 100) (c : Fin 128), x0 (ix3 r j c) = emb3 (ix3 q j c))
    (h1 : ∀ k : Fin 1024, x1 (ix2 r k) = cnt (ix2 q k))
    (h2 : x2 = hc) (h3 : x3 = W) (h4 : x4 = b2) :
    (∑ e : Fin 64, ((((∑ j : Fin 100, x0 (ix3 r j ⟨e.val, by omega⟩)) + (∑ j : Fin 100, x0 (ix3 r j ⟨e.val + 64, by omega⟩)))
          + ∑ k : Fin 1024, x1 (ix2 r k) * x2 (ix2 k e)) * ((1 / 200 : ℝ) : EReal)) * x3 (ix2 n e)) + x4 (ix2 0 n)
      = regOut emb3 cnt hc W b2 (ix2 q n) := by
  subst h2 h3 h4
  rw [regOut_apply]
  unfold regComb
  simp only [h0, h1]

end Cert.Proof.KernelIdealRun

end
-- ==== Proof.KIRegValBlk.lean ====
/-
  The input windows' blocks at a grid point, read off their arrays. At point t the embeddings' window holds
  batch rows 128 t … 128 t + 127 of the re-laid embeddings, the counts' window the same rows of the counts, and
  the three windows staged once hold their arrays whole; the result's window is written back to the same rows
  of the result array. Each is an equation between an entry of the block and an entry of the array.
-/
import proofs.«215258_g80247168959020_cont_9to1_m_796_9_alg».proof.Proof.KIRegBody
import Idealize.ShloMosaic.Lib.Pipeline.Value
import Idealize.ShloMosaic.Lib.ValueIdx

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Idealize.ShloMosaic.ValueIdx

variable {F : FTy → Type} [FloatOps F] [Named F]

local notation "𝕄" => MT nD τ sig (HIx 1) (Elt F) ℕ UU ℕ

variable (Vv : (d : Dev nD) → (b : Ref sig .tc) → Buf (Elt F) ((d : Thread nD τ).loc b))

/-- The windows' block indices at point `t`, decided over the 32 points: the embeddings', the counts' and the
    result's windows move with the point along the batch axis; the other three stay at block 0. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem N_lt (t : Fin cfg1.N) : t.val < 32 := Nat.lt_of_lt_of_eq t.isLt N_1

/-- Row `r` of the embeddings' block at point `t` is batch row `128 t + r` of the re-laid embeddings. -/
theorem iblk0_apply (d : Dev nD) (t : Fin cfg1.N) (r : Fin 128) (j : Fin 100) (c : Fin 128) (q : Fin 4096)
    (hq : q.val = 128 * t.val + r.val) :
    (iblk Vv d 0 t : Vec F S128x100x128 .f32) (ix3 r j c) = (Vv d main_v4 : S4096x100x128.Idx → Elt F .f32) (ix3 q j c) := by
  obtain ⟨e0, e1, e2, -⟩ := idx_facts t
  unfold iblk
  rw [View.read_apply]
  show Vv d main_v4 _ = Vv d main_v4 _
  congr 1
  funext a
  apply Fin.ext
  match a with
  | ⟨0, _⟩ => show win1_0.index t (0 : Fin 3) * 128 + 1 * r.val = q.val; rw [e0, hq]; omega
  | ⟨1, _⟩ => show win1_0.index t (1 : Fin 3) * 100 + 1 * j.val = j.val; rw [e1]; omega
  | ⟨2, _⟩ => show win1_0.index t (2 : Fin 3) * 128 + 1 * c.val = c.val; rw [e2]; omega

/-- Row `r` of the counts' block at point `t` is batch row `128 t + r` of the counts. -/
theorem iblk1_apply (d : Dev nD) (t : Fin cfg1.N) (r : Fin 128) (k : Fin 1024) (q : Fin 4096)
    (hq : q.val = 128 * t.val + r.val) :
    (iblk Vv d 1 t : Vec F S128x1024 .f32) (ix2 r k) = (Vv d main_v2 : S4096x1024.Idx → Elt F .f32) (ix2 q k) := by
  obtain ⟨-, -, -, e0, e1, -⟩ := idx_facts t
  unfold iblk
  rw [View.read_apply]
  show Vv d main_v2 _ = Vv d main_v2 _
  congr 1
  funext a
  apply Fin.ext
  match a with
  | ⟨0, _⟩ => show win1_1.index t (0 : Fin 2) * 128 + 1 * r.val = q.val; rw [e0, hq]; omega
  | ⟨1, _⟩ => show win1_1.index t (1 : Fin 2) * 1024 + 1 * k.val = k.val; rw [e1]; omega

/-- The tables' block at any point is the tables' array whole. -/
theorem iblk2_eq (d : Dev nD) (t : Fin cfg1.N) :
    (iblk Vv d 2 t : Vec F S1024x64 .f32) = (Vv d main_v3 : S1024x64.Idx → Elt F .f32) := by
  obtain ⟨-, -, -, -, -, e0, e1, -⟩ := idx_facts t
  funext y
  unfold iblk
  rw [View.read_apply]
  show Vv d main_v3 _ = Vv d main_v3 _
  congr 1
  funext a
  apply Fin.ext
  match a with
  | ⟨0, _⟩ => show win1_2.index t (0 : Fin 2) * 1024 + 1 * (y 0).val = (y 0).val; rw [e0]; omega
  | ⟨1, _⟩ => show win1_2.index t (1 : Fin 2) * 64 + 1 * (y 1).val = (y 1).val; rw [e1]; omega

/-- The projection matrix's block at any point is the matrix whole. -/
theorem iblk3_eq (d : Dev nD) (t : Fin cfg1.N) :
    (iblk Vv d 3 t : Vec F S64x64 .f32) = (Vv d main_arg6 : S64x64.Idx → Elt F .f32) := by
  obtain ⟨-, -, -, -, -, -, -, e0, e1, -⟩ := idx_facts t
  funext y
  unfold iblk
  rw [View.read_apply]
  show Vv d main_arg6 _ = Vv d main_arg6 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The bias's block at any point is the bias row whole. -/
theorem iblk4_eq (d : Dev nD) (t : Fin cfg1.N) :
    (iblk Vv d 4 t : Vec F S1x64 .f32) = (Vv d main_v5 : S1x64.Idx → Elt F .f32) := by
  obtain ⟨-, -, -, -, -, -, -, -, -, e0, e1, -⟩ := idx_facts t
  funext y
  unfold iblk
  rw [View.read_apply]
  show Vv d main_v5 _ = Vv d main_v5 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Entry (r, n) of the result's block at point `t` sits at (128 t + r, n) of the result array. -/
theorem blk5_emb (t : Fin cfg1.N) (r : Fin 128) (n : Fin 64) (q : Fin 4096) (hq : q.val = 128 * t.val + r.val) :
    ((cfg1.win 5).blk t).view.emb (ix2 r n) = (ix2 q n : S4096x64.Idx) := by
  obtain ⟨-, -, -, -, -, -, -, -, -, -, -, e0, e1⟩ := idx_facts t
  funext a
  apply Fin.ext
  match a with
  | ⟨0, _⟩ => show win1_5.index t (0 : Fin 2) * 128 + 1 * r.val = q.val; rw [e0, hq]; omega
  | ⟨1, _⟩ => show win1_5.index t (1 : Fin 2) * 64 + 1 * n.val = n.val; rw [e1]; omega

/-- An index of the result array is in point `t`'s block iff each coordinate is in the block's range. -/
theorem mem_blk5 (t : Fin cfg1.N) (i : S4096x64.Idx) :
    i ∈ ((cfg1.win 5).blk t).view.set
      ↔ ∀ a : Fin 2, win1_5.index t a * S128x64.size a ≤ (i a).val ∧ (i a).val < win1_5.index t a * S128x64.size a + S128x64.size a := by
  show i ∈ ((View.whole main_v6).slice (win1_5.rect t)).set ↔ _
  rw [View.set_slice_whole, Rect.mem_set_unit]
  exact Iff.rfl

/-- Every index of the result array is in some point's block: batch row `p` is in block `p / 128`. -/
theorem cover5 (i : S4096x64.Idx) : ∃ t : Fin cfg1.N, (cfg1.win 5).flush t = true ∧ i ∈ ((cfg1.win 5).blk t).view.set := by
  have hi0 : (i 0).val < 4096 := (i 0).isLt
  have hi1 : (i 1).val < 64 := (i 1).isLt
  obtain ⟨t, ht⟩ : ∃ t : Fin cfg1.N, t.val = (i 0).val / 128 :=
    ⟨⟨(i 0).val / 128, by rw [show cfg1.N = 32 from N_1]; omega⟩, rfl⟩
  obtain ⟨-, -, -, -, -, -, -, -, -, -, -, e0, e1⟩ := idx_facts t
  refine ⟨t, flush1_5 t, ?_⟩
  rw [mem_blk5]
  intro a
  match a with
  | ⟨0, _⟩ => show win1_5.index t (0 : Fin 2) * 128 ≤ (i 0).val ∧ (i 0).val < win1_5.index t (0 : Fin 2) * 128 + 128; rw [e0, ht]; omega
  | ⟨1, _⟩ => show win1_5.index t (1 : Fin 2) * 64 ≤ (i 1).val ∧ (i 1).val < win1_5.index t (1 : Fin 2) * 64 + 64; rw [e1]; omega

end Cert.Proof.KernelIdealRun

end
-- ==== Proof.KIRegValPay.lean ====
/-
  The TensorCore body's result block, read at one entry, at the ideal values (floats are extended reals).

  The block is computed from five input blocks: x0 : [128,100,128], x1 : [128,1024], x2 : [1024,64], x3 : [64,64]
  and x4 : [1,64]. At row `r` and column `n` it is

      (∑ e, (((∑ j, x0 (r, j, e)) + (∑ j, x0 (r, j, e + 64))) + ∑ k, x1 (r, k) * x2 (k, e)) * (1/200) * x3 (n, e)) + x4 (0, n):

  the sum over the middle axis of x0, its left and right halves of 64 columns added, plus the product x1 · x2, the
  total times 1/200, then multiplied against the transpose of x3 (both operands contracted on their second axis), plus
  the row x4 repeated over the 128 rows. Each step is first read at an index by itself; the last theorem chains them
  in the order the body applies them.
-/
import proofs.«215258_g80247168959020_cont_9to1_m_796_9_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.Proof.KernelIdealRun

open Idealize.ShloMosaic Idealize.ShloMosaic.ValueIdx Cert.KernelIdeal Cert.KernelIdeal.Gen

/-- The sum over the middle axis, at row `r` and column `c`: the sum of the 100 entries of that row and column. -/
theorem laneSum_apply (x : FVec Ideal S128x100x128 .f32) (r : Fin 128) (c : Fin 128) :
    multiReduction (F := Ideal) .add [1] S128x128 x 0x00000000#32 reduces_S128x100x128_S128x128 (.inl rfl) rfl (ix2 r c)
      = ∑ j : Fin 100, x (ix3 r j c) := by
  refine (Ideal.multiReduction_add_single x _ reduces_S128x100x128_S128x128 (.inl rfl) rfl (ix2 r c)).trans ?_
  refine Finset.sum_congr rfl fun j _ => congrArg x ?_
  funext a; apply Fin.ext
  match a with
  | ⟨0, _⟩ => rfl
  | ⟨1, _⟩ => rfl
  | ⟨2, _⟩ => rfl

/-- The left half of a [128,128] array (columns 0 to 63) at `(r, e)` is the array at column `e`. -/
theorem sliceLo_apply {α : Type} (x : S128x128.Idx → α) (r : Fin 128) (e : Fin 64) :
    extractStridedSlice S128x64 ![0, 0] x slices_S128x128_o0_0_S128x64 (ix2 r e) = x (ix2 r ⟨e.val, by omega⟩) := by
  refine extractStridedSlice_apply _ x _ (ix2 r e) (ix2 r ⟨e.val, by omega⟩) fun a => ?_
  match a with
  | ⟨0, _⟩ => exact (Nat.zero_add _).symm
  | ⟨1, _⟩ => exact (Nat.zero_add _).symm

/-- The right half (columns 64 to 127) at `(r, e)` is the array at column `e + 64`. -/
theorem sliceHi_apply {α : Type} (x : S128x128.Idx → α) (r : Fin 128) (e : Fin 64) :
    extractStridedSlice S128x64 ![0, 64] x slices_S128x128_o0_64_S128x64 (ix2 r e) = x (ix2 r ⟨e.val + 64, by omega⟩) := by
  refine extractStridedSlice_apply _ x _ (ix2 r e) (ix2 r ⟨e.val + 64, by omega⟩) fun a => ?_
  match a with
  | ⟨0, _⟩ => exact (Nat.zero_add _).symm
  | ⟨1, _⟩ => exact Nat.add_comm _ _

/-- A [1,64] row broadcast over 128 rows reads, at `(r, n)`, the row's entry `n`. -/
theorem bias_apply {α : Type} (x : S1x64.Idx → α) (r : Fin 128) (n : Fin 64) :
    broadcastTo S128x64 x broadcasts_S1x64_S128x64 (ix2 r n) = x (ix2 0 n) := by
  refine broadcastTo_apply x _ (ix2 r n) (ix2 0 n) fun a => ?_
  match a with
  | ⟨0, _⟩ => rfl
  | ⟨1, _⟩ => rfl

/-- The named reciprocal denotes the rational 1/200 on the extended reals, by the table of named constants. -/
theorem inv200 : Named.named (F := Ideal) Cert.KernelIdeal.κ "inv_200" (φ := .f32) 0x3BA3D70A#32 = ((1 / 200 : ℝ) : EReal) :=
  IdealRules.named_const.ideal_named_scalar _ _ _ _ rfl

/-- The [128,1024] by [1024,64] product into a zero accumulator, at `(r, e)`: the sum over the shared coordinate
    `k` of `a (r, k) * b (k, e)`. -/
theorem mm1_apply (a : FVec Ideal S128x1024 .f32) (b : FVec Ideal S1024x64 .f32) (r : Fin 128) (e : Fin 64) :
    matmul dot_S128x1024_S1024x64_S128x64_1_0_0_1_n_n none a b (constant (F := Ideal) S128x64 .f32 0x00000000#32) (ix2 r e)
      = ∑ k : Fin 1024, a (ix2 r k) * b (ix2 k e) := by
  refine (Ideal.matmul_constant_zero_apply dot_S128x1024_S1024x64_S128x64_1_0_0_1_n_n none a b (ix2 r e)).trans ?_
  rw [← Equiv.sum_comp (contrEquiv1 dot_S128x1024_S1024x64_S128x64_1_0_0_1_n_n 1024 rfl rfl).symm]
  refine Finset.sum_congr rfl fun k _ => ?_
  have ck := contrEquiv1_symm_val dot_S128x1024_S1024x64_S128x64_1_0_0_1_n_n 1024 rfl rfl k
  have l : dot_S128x1024_S1024x64_S128x64_1_0_0_1_n_n.lhsIdx (ix2 r e) ((contrEquiv1 _ 1024 rfl rfl).symm k) = ix2 r k := by
    funext ax; apply Fin.ext
    match ax with
    | ⟨0, _⟩ => simp [DotDims.lhsIdx, dot_S128x1024_S1024x64_S128x64_1_0_0_1_n_n]; rfl
    | ⟨1, _⟩ => simp [DotDims.lhsIdx, dot_S128x1024_S1024x64_S128x64_1_0_0_1_n_n]; exact ck
  have rr : dot_S128x1024_S1024x64_S128x64_1_0_0_1_n_n.rhsIdx (ix2 r e) ((contrEquiv1 _ 1024 rfl rfl).symm k) = ix2 k e := by
    funext ax; apply Fin.ext
    match ax with
    | ⟨0, _⟩ => simp [DotDims.rhsIdx, dot_S128x1024_S1024x64_S128x64_1_0_0_1_n_n]; exact ck
    | ⟨1, _⟩ => simp [DotDims.rhsIdx, dot_S128x1024_S1024x64_S128x64_1_0_0_1_n_n]; rfl
  rw [l, rr]

/-- The [128,64] by [64,64] product contracting the SECOND axis of both operands (a product with the transpose of
    the right operand) into a zero accumulator, at `(r, n)`: the sum over `e` of `a (r, e) * w (n, e)`. -/
theorem mm2_apply (a : FVec Ideal S128x64 .f32) (w : FVec Ideal S64x64 .f32) (r : Fin 128) (n : Fin 64) :
    matmul dot_S128x64_S64x64_S128x64_1_1_0_0_n_n none a w (constant (F := Ideal) S128x64 .f32 0x00000000#32) (ix2 r n)
      = ∑ e : Fin 64, a (ix2 r e) * w (ix2 n e) := by
  refine (Ideal.matmul_constant_zero_apply dot_S128x64_S64x64_S128x64_1_1_0_0_n_n none a w (ix2 r n)).trans ?_
  rw [← Equiv.sum_comp (contrEquiv1 dot_S128x64_S64x64_S128x64_1_1_0_0_n_n 64 rfl rfl).symm]
  refine Finset.sum_congr rfl fun e _ => ?_
  have ce := contrEquiv1_symm_val dot_S128x64_S64x64_S128x64_1_1_0_0_n_n 64 rfl rfl e
  have l : dot_S128x64_S64x64_S128x64_1_1_0_0_n_n.lhsIdx (ix2 r n) ((contrEquiv1 _ 64 rfl rfl).symm e) = ix2 r e := by
    funext ax; apply Fin.ext
    match ax with
    | ⟨0, _⟩ => simp [DotDims.lhsIdx, dot_S128x64_S64x64_S128x64_1_1_0_0_n_n]; rfl
    | ⟨1, _⟩ => simp [DotDims.lhsIdx, dot_S128x64_S64x64_S128x64_1_1_0_0_n_n]; exact ce
  have rr : dot_S128x64_S64x64_S128x64_1_1_0_0_n_n.rhsIdx (ix2 r n) ((contrEquiv1 _ 64 rfl rfl).symm e) = ix2 n e := by
    funext ax; apply Fin.ext
    match ax with
    | ⟨0, _⟩ => simp [DotDims.rhsIdx, dot_S128x64_S64x64_S128x64_1_1_0_0_n_n]; rfl
    | ⟨1, _⟩ => simp [DotDims.rhsIdx, dot_S128x64_S64x64_S128x64_1_1_0_0_n_n]; exact ce
  rw [l, rr]

/-- The body's result at `(r, n)`. The four casts to the same shape are identities; the outer sum and the repeated
    row split off; under the sum over `e` the factor `x3 (n, e)` splits off, and what is left is the scaled total
    at `(r, e)`, read step by step. -/
theorem pay1_apply (x0 : Vec Ideal S128x100x128 .f32) (x1 : Vec Ideal S128x1024 .f32) (x2 : Vec Ideal S1024x64 .f32)
    (x3 : Vec Ideal S64x64 .f32) (x4 : Vec Ideal S1x64 .f32) (r : Fin 128) (n : Fin 64) :
    Cert.KernelIdeal.Gen.k1_pay1 (F := Ideal) x0 x1 x2 x3 x4 (ix2 r n)
      = (∑ e : Fin 64, ((((∑ j : Fin 100, x0 (ix3 r j ⟨e.val, by omega⟩)) + (∑ j : Fin 100, x0 (ix3 r j ⟨e.val + 64, by omega⟩)))
            + ∑ k : Fin 1024, x1 (ix2 r k) * x2 (ix2 k e)) * ((1 / 200 : ℝ) : EReal)) * x3 (ix2 n e)) + x4 (ix2 0 n) := by
  unfold Cert.KernelIdeal.Gen.k1_pay1
  rw [shapeCast_self, shapeCast_self, shapeCast_self, shapeCast_self]
  refine (addf_apply _ _ _).trans ?_
  rw [bias_apply, mm2_apply]
  refine congrArg (· + x4 (ix2 0 n)) (Finset.sum_congr rfl fun e _ => congrArg (· * x3 (ix2 n e)) ?_)
  rw [mulf_apply, broadcast_apply, inv200, addf_apply, addf_apply, mm1_apply, sliceLo_apply, sliceHi_apply,
    laneSum_apply, laneSum_apply]

end Cert.Proof.KernelIdealRun

end
-- ==== Proof.KIRegVal.lean ====
/-
  The value the TensorCore region leaves in the result array, at the ideal instance.

  At every grid point the body's one store leaves in the result window's buffer the body's arithmetic applied to
  the five input blocks. Read at an entry (r, n) of the block, that arithmetic is the combined row r of the
  block against row n of the projection matrix plus the bias at n; the blocks at point t are batch rows
  128 t … 128 t + 127 of the embeddings and the counts and the three small operands whole; so what point t
  writes back is block t of ONE function of the operand arrays, `regOut`. The 32 blocks cover the result
  array (batch row p is in block p / 128), so the array ends holding `regOut` of the operands.
-/
import proofs.«215258_g80247168959020_cont_9to1_m_796_9_alg».proof.Proof.KIRegValSpec
import proofs.«215258_g80247168959020_cont_9to1_m_796_9_alg».proof.Proof.KIRegValBlk
import proofs.«215258_g80247168959020_cont_9to1_m_796_9_alg».proof.Proof.KIRegValPay

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Idealize.ShloMosaic.ValueIdx

variable (Vv : (d : Dev nD) → (b : Ref sig .tc) → Buf (Elt Ideal) ((d : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is block `t` of `regOut` of the operand arrays as the region finds them. -/
theorem flushed5_eq (d : Dev nD) (t : Fin cfg1.N) :
    (dats Vv 0 d).flushed 5 t = ((cfg1.win 5).blk t).view.read (Elt Ideal)
      (regOut (Vv d main_v4) (Vv d main_v2) (Vv d main_v3) (Vv d main_arg6) (Vv d main_v5)) := by
  show (cfg1.win 5).cut (grid1.coords t) ((dats Vv 0 d).after 5 t) = _
  rw [after1_5]
  unfold out1_5
  rw [View.canon_unit_zero hz2]
  simp only [View.ld_unit_zero (S := S128x100x128) hz3, View.ld_unit_zero (S := S128x1024) hz2,
    View.ld_unit_zero (S := S1024x64) hz2, View.ld_unit_zero (S := S64x64) hz2, View.ld_unit_zero (S := S1x64) hz2]
  funext y
  obtain ⟨r, n, rfl⟩ : ∃ (r : Fin 128) (n : Fin 64), y = ix2 r n := ⟨y 0, y 1, eq_ix2 y⟩
  have hq : 128 * t.val + r.val < 4096 := by have := N_lt t; have := r.isLt; omega
  refine (pay1_apply (iblk Vv d 0 t) (iblk Vv d 1 t) (iblk Vv d 2 t) (iblk Vv d 3 t) (iblk Vv d 4 t) r n).trans ?_
  refine (out_block_eq (Vv d main_v4) (Vv d main_v2) (Vv d main_v3) (Vv d main_arg6) (Vv d main_v5)
    (iblk Vv d 0 t) (iblk Vv d 1 t) (iblk Vv d 2 t) (iblk Vv d 3 t) (iblk Vv d 4 t) ⟨128 * t.val + r.val, hq⟩ r n
    (fun j c => iblk0_apply Vv d t r j c ⟨128 * t.val + r.val, hq⟩ rfl)
    (fun k => iblk1_apply Vv d t r k ⟨128 * t.val + r.val, hq⟩ rfl)
    (iblk2_eq Vv d t) (iblk3_eq Vv d t) (iblk4_eq Vv d t)).trans ?_
  show regOut (Vv d main_v4) (Vv d main_v2) (Vv d main_v3) (Vv d main_arg6) (Vv d main_v5) (ix2 ⟨128 * t.val + r.val, hq⟩ n)
    = regOut (Vv d main_v4) (Vv d main_v2) (Vv d main_v3) (Vv d main_arg6) (Vv d main_v5) (((cfg1.win 5).blk t).view.emb (ix2 r n))
  rw [blk5_emb t r n ⟨128 * t.val + r.val, hq⟩ rfl]

/-- The result array after the 32 write-backs: `regOut` of the operand arrays as the region finds them. -/
theorem region_value_blocks (d : Dev nD) :
    (dats Vv 0 d).arrAt 5 cfg1.N = regOut (Vv d main_v4) (Vv d main_v2) (Vv d main_v3) (Vv d main_arg6) (Vv d main_v5) :=
  (dats Vv 0 d).arrAt_eq_of_cover 5 _ (fun t _ => flushed5_eq Vv d t) cover5

/-- The same with the operands named: if the region is entered with the re-laid embeddings, the counts, the tables
    side by side, the projection matrix and the bias row at the five operand arrays, the result array ends at
    `regOut` of them. -/
theorem region_value (d : Dev nD) (emb3 : S4096x100x128.Idx → EReal) (cnt : S4096x1024.Idx → EReal)
    (hc : S1024x64.Idx → EReal) (W : S64x64.Idx → EReal) (b2 : S1x64.Idx → EReal)
    (h4 : (Vv d main_v4 : S4096x100x128.Idx → EReal) = emb3) (h2 : (Vv d main_v2 : S4096x1024.Idx → EReal) = cnt)
    (h3 : (Vv d main_v3 : S1024x64.Idx → EReal) = hc) (h6 : (Vv d main_arg6 : S64x64.Idx → EReal) = W)
    (h5 : (Vv d main_v5 : S1x64.Idx → EReal) = b2) :
    (dats Vv 0 d).arrAt 5 32 = regOut emb3 cnt hc W b2 := by
  subst h4 h2 h3 h6 h5
  exact region_value_blocks Vv d

end Cert.Proof.KernelIdealRun

end
-- ==== Proof.KIValsRead.lean ====
/-
  What the TensorCore region's operand arrays hold when the region is entered, entry by entry, in terms of the
  launch memory and of what the histogram call left in the flat counts array.

  The flat ids are the ids row by row (row p, position s at flat index 200 p + s). The counts array [4096, 1024]
  is the flat counts re-laid (row p, bucket k from flat index 1024 p + k). The embeddings [4096, 100, 128] are the
  embeddings [4096, 200, 64] re-laid: entry (p, j, e) for e < 64 is position 2 j, column e, and entry
  (p, j, e + 64) is position 2 j + 1, column e. The bias [1, 64] is the bias as one row. The projection matrix
  is an argument no operation writes.
-/
import proofs.«215258_g80247168959020_cont_9to1_m_796_9_alg».proof.Proof.KIVals
import Idealize.ShloMosaic.Lib.Pipeline.Value
import Idealize.ShloMosaic.Lib.ValueIdx

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.ValueIdx

variable {F : FTy → Type} [FloatOps F] [Named F]

variable (m : (ℓ : Loc nD τ sig) → Buf (Elt F) ℓ)

/-! ## The arrays after each re-laying -/

/-- After the counts are re-laid. -/
def U3 (d : Dev nD) (h : Buf (Elt F) (outLoc d)) : Valuation τ sig (Elt F) := (op2 (F := F)).result (V2 m d h)
/-- After the tables are set side by side. -/
def U4 (d : Dev nD) (h : Buf (Elt F) (outLoc d)) : Valuation τ sig (Elt F) := (op3 (F := F)).result (U3 m d h)
/-- After the embeddings are re-laid. -/
def U5 (d : Dev nD) (h : Buf (Elt F) (outLoc d)) : Valuation τ sig (Elt F) := (op4 (F := F)).result (U4 m d h)

theorem V6_eq (d : Dev nD) (h : Buf (Elt F) (outLoc d)) : V6 m d h = (op5 (F := F)).result (U5 m d h) := rfl

theorem V1_ne (d : Dev nD) (b : DevRef τ sig) (hb : b ≠ dr main_v0) : V1 m d b = m (d, b) :=
  (op0 (F := F)).result_of_not_mem _ (by rw [show (op0 (F := F)).writes = {dr main_v0} from rfl, Finset.mem_singleton]; exact hb)
theorem V2_ne (d : Dev nD) (h : Buf (Elt F) (outLoc d)) (b : DevRef τ sig) (hb : b ≠ dr main_v1) : V2 m d h b = V1 m d b :=
  Function.update_of_ne hb _ _
theorem U3_ne (d : Dev nD) (h : Buf (Elt F) (outLoc d)) (b : DevRef τ sig) (hb : b ≠ dr main_v2) : U3 m d h b = V2 m d h b :=
  (op2 (F := F)).result_of_not_mem _ (by rw [show (op2 (F := F)).writes = {dr main_v2} from rfl, Finset.mem_singleton]; exact hb)
theorem U4_ne (d : Dev nD) (h : Buf (Elt F) (outLoc d)) (b : DevRef τ sig) (hb : b ≠ dr main_v3) : U4 m d h b = U3 m d h b :=
  (op3 (F := F)).result_of_not_mem _ (by rw [show (op3 (F := F)).writes = {dr main_v3} from rfl, Finset.mem_singleton]; exact hb)
theorem U5_ne (d : Dev nD) (h : Buf (Elt F) (outLoc d)) (b : DevRef τ sig) (hb : b ≠ dr main_v4) : U5 m d h b = U4 m d h b :=
  (op4 (F := F)).result_of_not_mem _ (by rw [show (op4 (F := F)).writes = {dr main_v4} from rfl, Finset.mem_singleton]; exact hb)
theorem V6_ne (d : Dev nD) (h : Buf (Elt F) (outLoc d)) (b : DevRef τ sig) (hb : b ≠ dr main_v5) : V6 m d h b = U5 m d h b :=
  (op5 (F := F)).result_of_not_mem _ (by rw [show (op5 (F := F)).writes = {dr main_v5} from rfl, Finset.mem_singleton]; exact hb)

/-! ## Each operand array as one operation's result -/

/-- The flat ids: the ids re-laid as one row. -/
theorem Vids_eq (d : Dev nD) :
    (Vids m d : S819200.Idx → Elt F .i32) = shapeCast S819200 (m (d, dr main_arg0) : S4096x200.Idx → Elt F .i32) shapeCasts_S4096x200_S819200 := by
  unfold Vids V1 V0
  exact StableHlo.reshape_result main_arg0 main_v0 rfl shapeCasts_S4096x200_S819200 _ _ _

/-- The counts array: the flat counts re-laid. -/
theorem V6_v2 (d : Dev nD) (h : Buf (Elt F) (outLoc d)) :
    (V6 m d h (dr main_v2) : S4096x1024.Idx → Elt F .f32) = shapeCast S4096x1024 (h : S4194304.Idx → Elt F .f32) shapeCasts_S4194304_S4096x1024 := by
  rw [V6_ne m d h _ (by decide), U5_ne m d h _ (by decide), U4_ne m d h _ (by decide)]
  unfold U3
  refine (StableHlo.reshape_result main_v1 main_v2 rfl shapeCasts_S4194304_S4096x1024 _ _ _).trans ?_
  rw [V2_v1]
  rfl

/-- The embeddings' operand: the embeddings re-laid. -/
theorem V6_v4 (d : Dev nD) (h : Buf (Elt F) (outLoc d)) :
    (V6 m d h (dr main_v4) : S4096x100x128.Idx → Elt F .f32)
      = shapeCast S4096x100x128 (m (d, dr main_arg1) : S4096x200x64.Idx → Elt F .f32) shapeCasts_S4096x200x64_S4096x100x128 := by
  rw [V6_ne m d h _ (by decide)]
  unfold U5
  refine (StableHlo.reshape_result main_arg1 main_v4 rfl shapeCasts_S4096x200x64_S4096x100x128 _ _ _).trans ?_
  rw [U4_ne m d h _ (by decide), U3_ne m d h _ (by decide), V2_ne m d h _ (by decide), V1_ne m d _ (by decide)]
  rfl

/-- The bias's operand: the bias as one row. -/
theorem V6_v5 (d : Dev nD) (h : Buf (Elt F) (outLoc d)) :
    (V6 m d h (dr main_v5) : S1x64.Idx → Elt F .f32) = shapeCast S1x64 (m (d, dr main_arg7) : S64.Idx → Elt F .f32) shapeCasts_S64_S1x64 := by
  rw [V6_eq]
  refine (StableHlo.reshape_result main_arg7 main_v5 rfl shapeCasts_S64_S1x64 _ _ _).trans ?_
  rw [U5_ne m d h _ (by decide), U4_ne m d h _ (by decide), U3_ne m d h _ (by decide), V2_ne m d h _ (by decide), V1_ne m d _ (by decide)]
  rfl

/-- The tables' operand: the four tables side by side. -/
theorem V6_v3 (d : Dev nD) (h : Buf (Elt F) (outLoc d)) :
    (V6 m d h (dr main_v3) : S1024x64.Idx → Elt F .f32)
      = concatenate S1024x64 1 [⟨S1024x16, (m (d, dr main_arg2) : S1024x16.Idx → Elt F .f32)⟩, ⟨S1024x16, (m (d, dr main_arg3) : S1024x16.Idx → Elt F .f32)⟩,
          ⟨S1024x16, (m (d, dr main_arg4) : S1024x16.Idx → Elt F .f32)⟩, ⟨S1024x16, (m (d, dr main_arg5) : S1024x16.Idx → Elt F .f32)⟩]
          concatenates_S1024x16_S1024x16_S1024x16_S1024x16_S1024x64_d1 := by
  rw [V6_ne m d h _ (by decide), U5_ne m d h _ (by decide)]
  unfold U4
  refine (StableHlo.nary_result _ main_v3 _ _ _ _).trans ?_
  show concatenate S1024x64 1 [⟨S1024x16, U3 m d h (dr main_arg2)⟩, ⟨S1024x16, U3 m d h (dr main_arg3)⟩, ⟨S1024x16, U3 m d h (dr main_arg4)⟩, ⟨S1024x16, U3 m d h (dr main_arg5)⟩] _ = _
  rw [U3_ne m d h _ (by decide), U3_ne m d h _ (by decide), U3_ne m d h _ (by decide), U3_ne m d h _ (by decide),
    V2_ne m d h _ (by decide), V2_ne m d h _ (by decide), V2_ne m d h _ (by decide), V2_ne m d h _ (by decide),
    V1_ne m d _ (by decide), V1_ne m d _ (by decide), V1_ne m d _ (by decide), V1_ne m d _ (by decide)]

/-- The projection matrix: an argument no operation writes. -/
theorem V6_arg6 (d : Dev nD) (h : Buf (Elt F) (outLoc d)) : V6 m d h (dr main_arg6) = m (d, dr main_arg6) := by
  rw [V6_ne m d h _ (by decide), U5_ne m d h _ (by decide), U4_ne m d h _ (by decide), U3_ne m d h _ (by decide),
    V2_ne m d h _ (by decide), V1_ne m d _ (by decide)]

/-! ## The operand arrays entry by entry -/

/-- Flat index 200 p + s of the flat ids is id (p, s). -/
theorem Vids_apply (d : Dev nD) (p : Fin 4096) (s : Fin 200) :
    (Vids m d : S819200.Idx → Elt F .i32) (ix1 ⟨200 * p.val + s.val, by omega⟩)
      = (m (d, dr main_arg0) : S4096x200.Idx → Elt F .i32) (ix2 p s) := by
  rw [Vids_eq]
  exact shapeCast_apply _ _ (ix1 ⟨200 * p.val + s.val, by omega⟩) (ix2 p s) (by
    rw [Shape.rowMajor_val_two, Shape.rowMajor_val_one]; show p.val * 200 + s.val = 200 * p.val + s.val; omega)

/-- Entry (p, k) of the counts array is flat index 1024 p + k of what the call left. -/
theorem V6_v2_apply (d : Dev nD) (h : Buf (Elt F) (outLoc d)) (p : Fin 4096) (k : Fin 1024) :
    (V6 m d h (dr main_v2) : S4096x1024.Idx → Elt F .f32) (ix2 p k) = (h : S4194304.Idx → Elt F .f32) (ix1 ⟨1024 * p.val + k.val, by omega⟩) := by
  rw [V6_v2]
  exact shapeCast_apply _ _ (ix2 p k) (ix1 ⟨1024 * p.val + k.val, by omega⟩) (by
    rw [Shape.rowMajor_val_two, Shape.rowMajor_val_one]; show 1024 * p.val + k.val = p.val * 1024 + k.val; omega)

/-- Entry (p, j, e) of the re-laid embeddings, e < 64, is position 2 j, column e of row p. -/
theorem V6_v4_lo (d : Dev nD) (h : Buf (Elt F) (outLoc d)) (p : Fin 4096) (j : Fin 100) (e : Fin 64) :
    (V6 m d h (dr main_v4) : S4096x100x128.Idx → Elt F .f32) (ix3 p j ⟨e.val, by omega⟩)
      = (m (d, dr main_arg1) : S4096x200x64.Idx → Elt F .f32) (ix3 p (⟨2 * j.val, by omega⟩ : Fin 200) e) := by
  rw [V6_v4]
  exact shapeCast_apply _ _ (ix3 p j (⟨e.val, by omega⟩ : Fin 128)) (ix3 p (⟨2 * j.val, by omega⟩ : Fin 200) e) (by
    rw [Shape.rowMajor_val_three, Shape.rowMajor_val_three]
    show (p.val * 200 + 2 * j.val) * 64 + e.val = (p.val * 100 + j.val) * 128 + e.val; omega)

/-- Entry (p, j, e + 64) of the re-laid embeddings is position 2 j + 1, column e of row p. -/
theorem V6_v4_hi (d : Dev nD) (h : Buf (Elt F) (outLoc d)) (p : Fin 4096) (j : Fin 100) (e : Fin 64) :
    (V6 m d h (dr main_v4) : S4096x100x128.Idx → Elt F .f32) (ix3 p j ⟨e.val + 64, by omega⟩)
      = (m (d, dr main_arg1) : S4096x200x64.Idx → Elt F .f32) (ix3 p (⟨2 * j.val + 1, by omega⟩ : Fin 200) e) := by
  rw [V6_v4]
  exact shapeCast_apply _ _ (ix3 p j (⟨e.val + 64, by omega⟩ : Fin 128)) (ix3 p (⟨2 * j.val + 1, by omega⟩ : Fin 200) e) (by
    rw [Shape.rowMajor_val_three, Shape.rowMajor_val_three]
    show (p.val * 200 + (2 * j.val + 1)) * 64 + e.val = (p.val * 100 + j.val) * 128 + (e.val + 64); omega)

/-- Entry (0, n) of the bias row is entry n of the bias. -/
theorem V6_v5_apply (d : Dev nD) (h : Buf (Elt F) (outLoc d)) (n : Fin 64) :
    (V6 m d h (dr main_v5) : S1x64.Idx → Elt F .f32) (ix2 0 n) = (m (d, dr main_arg7) : S64.Idx → Elt F .f32) (ix1 n) := by
  rw [V6_v5]
  exact shapeCast_apply _ _ (ix2 (0 : Fin 1) n) (ix1 n) (by
    rw [Shape.rowMajor_val_two, Shape.rowMajor_val_one]; show n.val = 0 * 64 + n.val; omega)

end Cert.Proof.KernelIdealRun

end
-- ==== Proof.KIRegValBridge.lean ====
/-
  The region's function of its operands is the specification's kernel-order result, once the operands are
  what the program feeds the region: the embeddings re-laid so that entry (j, e) of a row is position 2 j,
  column e, and entry (j, e + 64) is position 2 j + 1, column e; the bucket counts; the four tables side by
  side; the bias as one row.
-/
import proofs.«215258_g80247168959020_cont_9to1_m_796_9_alg».proof.Proof.Spec
import proofs.«215258_g80247168959020_cont_9to1_m_796_9_alg».proof.Proof.KIRegValSpec

noncomputable section

open scoped BigOperators

namespace Cert.Proof.KernelIdealRun

open Cert.KernelIdeal Cert.Spec

open Idealize.ShloMosaic Idealize.ShloMosaic.ValueIdx

theorem regOut_eq_kerOut (ids : SIds.Idx → BitVec 32) (emb : SEmb.Idx → EReal) (H0 H1 H2 H3 : SH.Idx → EReal)
    (W : SW.Idx → EReal) (b : SB.Idx → EReal)
    (emb3 : S4096x100x128.Idx → EReal) (cntA : S4096x1024.Idx → EReal) (hc : S1024x64.Idx → EReal) (b2 : S1x64.Idx → EReal)
    (hlo : ∀ (p : Fin 4096) (j : Fin 100) (e : Fin 64), emb3 (ix3 p j ⟨e.val, by omega⟩) = emb (ix3 p (pos2 j 0) e))
    (hhi : ∀ (p : Fin 4096) (j : Fin 100) (e : Fin 64), emb3 (ix3 p j ⟨e.val + 64, by omega⟩) = emb (ix3 p (pos2 j 1) e))
    (hcnt : ∀ (p : Fin 4096) (k : Fin 1024), cntA (ix2 p k) = cnt ids p k)
    (hhc : ∀ (k : Fin 1024) (e : Fin 64), hc (ix2 k e) = hcat H0 H1 H2 H3 k e)
    (hb : ∀ n : Fin 64, b2 (ix2 0 n) = b (ix1 n)) :
    regOut emb3 cntA hc W b2 = kerOut ids emb H0 H1 H2 H3 W b := by
  funext i
  obtain ⟨p, n, rfl⟩ : ∃ (p : Fin 4096) (n : Fin 64), i = ix2 p n := ⟨i 0, i 1, eq_ix2 i⟩
  rw [regOut_apply]
  show _ = (∑ e : Fin 64, kerComb ids emb H0 H1 H2 H3 p e * W (ix2 n e)) + b (ix1 n)
  unfold regComb kerComb
  simp only [hlo, hhi, hcnt, hhc, hb]

end Cert.Proof.KernelIdealRun

end
-- ==== Proof.KIValsIdeal.lean ====
/-
  The TensorCore region's operands, as the region is entered, are what the specification's kernel-order result
  is written over: the tables side by side are the specification's `hcat` of the four tables, and, when the
  histogram call has left the bucket counts in the flat counts array, the region's function of its operands is
  the specification's result of the launch arguments.
-/
import proofs.«215258_g80247168959020_cont_9to1_m_796_9_alg».proof.Proof.KIValsRead
import proofs.«215258_g80247168959020_cont_9to1_m_796_9_alg».proof.Proof.KIRegValBridge

noncomputable section

open scoped BigOperators

namespace Cert.Proof.KernelIdealRun

open Cert.KernelIdeal Cert.KernelIdeal.Gen

open Idealize.ShloMosaic Idealize.ShloMosaic.TcCoe
open Idealize.ShloMosaic.SparseCore (S V T)
open Idealize.ShloMosaic.ValueIdx

variable (m : (ℓ : Loc nD τ sig) → Buf (Elt Ideal) ℓ)

/-- Entry (k, e) of the tables side by side is column e % 16 of table e / 16. -/
theorem V6_v3_apply (d : Dev nD) (h : Buf (Elt Ideal) (outLoc d)) (k : Fin 1024) (e : Fin 64) :
    (V6 m d h (dr main_v3) : S1024x64.Idx → EReal) (ix2 k e)
      = Cert.Spec.hcat (m (d, dr main_arg2)) (m (d, dr main_arg3)) (m (d, dr main_arg4)) (m (d, dr main_arg5)) k e := by
  rw [V6_v3]
  unfold Cert.Spec.hcat
  dsimp only
  have he : e.val < 64 := e.isLt
  have hi : ∀ b : Fin S1024x16.rank, b.cast (rfl : S1024x16.rank = S1024x64.rank) ≠ (1 : Fin 2)
      → ((ix2 k (⟨e.val % 16, Nat.mod_lt _ (by norm_num)⟩ : Fin 16) : S1024x16.Idx) b).val = ((ix2 k e : S1024x64.Idx) (b.cast rfl)).val := by
    intro b hb
    match b with
    | ⟨0, _⟩ => rfl
    | ⟨1, _⟩ => exact absurd rfl hb
  split_ifs with h1 h2 h3
  · refine concatenate_apply_piece (1 : Fin 2) _ _ (ix2 k e) 0 ?_ S1024x16 _ rfl rfl 0 rfl (ix2 k ⟨e.val % 16, Nat.mod_lt _ (by norm_num)⟩) hi ?_
    · show 0 < 4; decide
    · show 0 + e.val % 16 = e.val; omega
  · refine concatenate_apply_piece (1 : Fin 2) _ _ (ix2 k e) 1 ?_ S1024x16 _ rfl rfl 16 rfl (ix2 k ⟨e.val % 16, Nat.mod_lt _ (by norm_num)⟩) hi ?_
    · show 1 < 4; decide
    · show 16 + e.val % 16 = e.val; omega
  · refine concatenate_apply_piece (1 : Fin 2) _ _ (ix2 k e) 2 ?_ S1024x16 _ rfl rfl 32 rfl (ix2 k ⟨e.val % 16, Nat.mod_lt _ (by norm_num)⟩) hi ?_
    · show 2 < 4; decide
    · show 32 + e.val % 16 = e.val; omega
  · refine concatenate_apply_piece (1 : Fin 2) _ _ (ix2 k e) 3 ?_ S1024x16 _ rfl rfl 48 rfl (ix2 k ⟨e.val % 16, Nat.mod_lt _ (by norm_num)⟩) hi ?_
    · show 3 < 4; decide
    · show 48 + e.val % 16 = e.val; omega

/-- With the bucket counts of the ids in the flat counts array, the region's function of the operands it is
    entered with is the specification's kernel-order result of the launch arguments. -/
theorem kernel_value (d : Dev nD) (h : Buf (Elt Ideal) (outLoc d))
    (hh : ∀ (p : Fin 4096) (k : Fin 1024),
      (h : S4194304.Idx → EReal) (ix1 ⟨1024 * p.val + k.val, by omega⟩) = Cert.Spec.cnt (m (d, dr main_arg0)) p k) :
    regOut (V6 m d h (dr main_v4)) (V6 m d h (dr main_v2)) (V6 m d h (dr main_v3)) (V6 m d h (dr main_arg6)) (V6 m d h (dr main_v5))
      = Cert.Spec.kerOut (m (d, dr main_arg0)) (m (d, dr main_arg1)) (m (d, dr main_arg2)) (m (d, dr main_arg3))
          (m (d, dr main_arg4)) (m (d, dr main_arg5)) (m (d, dr main_arg6)) (m (d, dr main_arg7)) := by
  rw [V6_arg6 m d h]
  exact regOut_eq_kerOut (m (d, dr main_arg0)) (m (d, dr main_arg1)) (m (d, dr main_arg2)) (m (d, dr main_arg3))
    (m (d, dr main_arg4)) (m (d, dr main_arg5)) (m (d, dr main_arg6)) (m (d, dr main_arg7))
    (V6 m d h (dr main_v4)) (V6 m d h (dr main_v2)) (V6 m d h (dr main_v3)) (V6 m d h (dr main_v5))
    (fun p j e => V6_v4_lo m d h p j e) (fun p j e => V6_v4_hi m d h p j e)
    (fun p k => (V6_v2_apply m d h p k).trans (hh p k)) (fun k e => V6_v3_apply m d h k e) (fun n => V6_v5_apply m d h n)

end Cert.Proof.KernelIdealRun

end
-- ==== Proof.KIRegKernelValue.lean ====
/-
  The region's result array in terms of the launch arguments: if the region is entered with its five operand
  arrays at what the host operations and the histogram call left, and the flat counts array holds the bucket
  counts of the ids, the result array ends at the specification's kernel-order result.
-/
import proofs.«215258_g80247168959020_cont_9to1_m_796_9_alg».proof.Proof.KIRegVal
import proofs.«215258_g80247168959020_cont_9to1_m_796_9_alg».proof.Proof.KIValsIdeal

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.ValueIdx

variable (m : (ℓ : Loc nD τ sig) → Buf (Elt Ideal) ℓ)
variable (Vv : (d : Dev nD) → (b : Ref sig .tc) → Buf (Elt Ideal) ((d : Thread nD τ).loc b))

theorem region_kernel_value (d : Dev nD) (h : Buf (Elt Ideal) (outLoc d))
    (h4 : (Vv d main_v4 : S4096x100x128.Idx → EReal) = V6 m d h (dr main_v4))
    (h2 : (Vv d main_v2 : S4096x1024.Idx → EReal) = V6 m d h (dr main_v2))
    (h3 : (Vv d main_v3 : S1024x64.Idx → EReal) = V6 m d h (dr main_v3))
    (h6 : (Vv d main_arg6 : S64x64.Idx → EReal) = V6 m d h (dr main_arg6))
    (h5 : (Vv d main_v5 : S1x64.Idx → EReal) = V6 m d h (dr main_v5))
    (hh : ∀ (p : Fin 4096) (k : Fin 1024),
      (h : S4194304.Idx → EReal) (ix1 ⟨1024 * p.val + k.val, by omega⟩) = Cert.Spec.cnt (m (d, dr main_arg0)) p k) :
    (dats Vv 0 d).arrAt 5 32
      = Cert.Spec.kerOut (m (d, dr main_arg0)) (m (d, dr main_arg1)) (m (d, dr main_arg2)) (m (d, dr main_arg3))
          (m (d, dr main_arg4)) (m (d, dr main_arg5)) (m (d, dr main_arg6)) (m (d, dr main_arg7)) :=
  (region_value Vv d _ _ _ _ _ h4 h2 h3 h6 h5).trans (kernel_value m d h hh)

end Cert.Proof.KernelIdealRun

end
-- ==== Proof.KITileValLem.lean ====
/-
  The counting behind the histogram: what one adding scatter does to the count buffer, how the count of the
  positions read so far grows by one position, and how a chunk's finished buffer sits in the whole array.
-/
import proofs.«215258_g80247168959020_cont_9to1_m_796_9_alg».proof.Proof.KITileVal

noncomputable section

open scoped BigOperators

namespace Cert.HistPure

open Idealize.ShloMosaic Idealize.ShloMosaic.ValueIdx

/-! ## Rank-one indices and the filter of the positions read so far -/

/-- Two rank-one indices with the same coordinate are equal. -/
theorem idx1_ext {n : ℕ} (i j : (⟨1, ![n]⟩ : Shape).Idx) (h : (i 0).val = (j 0).val) : i = j := by
  funext a
  have ha : a = 0 := Subsingleton.elim _ _
  subst ha
  exact Fin.ext h

/-- Lane `k`'s multi-index has coordinate `k`. -/
theorem ofLane_val {d : Fin 1 → ℕ} (k : Fin (d 0)) : ((Shape.ofLane k : (⟨1, d⟩ : Shape).Idx) 0).val = k.val := by
  simp [Shape.ofLane]

/-- One more position: the positions below `n + 1` with a property are those below `n` with it, and `n` itself
    when it has the property. -/
theorem card_filter_succ (P : Fin 200 → Prop) [DecidablePred P] (n : ℕ) (hn : n < 200) :
    (Finset.univ.filter fun t : Fin 200 => t.val < n + 1 ∧ P t).card
      = (Finset.univ.filter fun t : Fin 200 => t.val < n ∧ P t).card + (if P ⟨n, hn⟩ then 1 else 0) := by
  by_cases hP : P ⟨n, hn⟩
  · rw [if_pos hP]
    have hins : (Finset.univ.filter fun t : Fin 200 => t.val < n + 1 ∧ P t)
        = insert (⟨n, hn⟩ : Fin 200) (Finset.univ.filter fun t : Fin 200 => t.val < n ∧ P t) := by
      ext t
      simp only [Finset.mem_filter, Finset.mem_univ, true_and, Finset.mem_insert]
      constructor
      · rintro ⟨h, hp⟩
        by_cases e : t.val = n
        · left; exact Fin.ext e
        · right; exact ⟨by omega, hp⟩
      · rintro (rfl | ⟨h, hp⟩)
        · exact ⟨Nat.lt_succ_self _, hP⟩
        · exact ⟨by omega, hp⟩
    rw [hins, Finset.card_insert_of_notMem]
    simp
  · rw [if_neg hP, add_zero]
    congr 1
    ext t
    simp only [Finset.mem_filter, Finset.mem_univ, true_and]
    constructor
    · rintro ⟨h, hp⟩
      refine ⟨?_, hp⟩
      by_contra hc
      have ht : t = ⟨n, hn⟩ := Fin.ext (show t.val = n by omega)
      exact hP (ht ▸ hp)
    · rintro ⟨h, hp⟩
      exact ⟨by omega, hp⟩

/-! ## One position of the adding scatter -/

section Step
variable {F : FTy → Type} [FloatOps F]

/-- Lane `k` of the 16 is the index with coordinate `k`. -/
theorem ofLane16 (k : Fin 16) : (Shape.ofLane (d := ![16]) k : S16.Idx) = ix1 k :=
  idx1_ext _ _ (ofLane_val (d := ![16]) k)

/-- At the position word `t`, lane `k` reads the id at `200 k + t`. -/
theorem loadIdx_gIdx (g : S3200.Idx → BitVec 32) (t : BitVec 32) (n : ℕ) (ht : t.toNat = n) (hn : n < 200)
    (h1 : ∀ a x, ((![gIdx t] : Fin 1 → IVec S16 32) a x).toNat < S3200.size a) (k : Fin 16) :
    loadIdx (F := F) (e := .i32) g ![gIdx t] h1 (ix1 k) = g (ix1 ⟨200 * k.val + n, by omega⟩) := by
  show g (idxAt ![gIdx t] h1 (ix1 k)) = _
  congr 1
  apply idx1_ext
  show (gIdx t (ix1 k)).toNat = 200 * k.val + n
  rw [gIdx_toNat t (by omega) (ix1 k), ht]

/-- The adding scatter of ones, read at row `l`, bucket `b`: the entry gains one exactly when lane `l`'s id
    falls in bucket `b`. The 16 lanes add in 16 different rows, so no entry is added to twice. -/
theorem scatter_ones_apply (X : IVec S16 32) (f : S16384.Idx → F .f32)
    (h2 : ∀ a y, ((![sIdx X] : Fin 1 → IVec S16 32) a y).toNat < S16384.size a) (l : Fin 16) (b : Fin 1024) :
    storeIdx (F := F) (e := .f32) f ![sIdx X] (broadcast S16 oneF) (fun _ => 1#1) true h2
        (ix1 ⟨1024 * l.val + b.val, by omega⟩)
      = if Cert.Spec.bucket (X (ix1 l)) = b then Elt.idxAdd .f32 (f (ix1 ⟨1024 * l.val + b.val, by omega⟩)) oneF
        else f (ix1 ⟨1024 * l.val + b.val, by omega⟩) := by
  have hT : ∀ k : Fin 16, ((idxAt (s := S16384) ![sIdx X] h2 (Shape.ofLane (d := ![16]) k)) 0).val
      = 1024 * k.val + (Cert.Spec.bucket (X (ix1 k))).val := by
    intro k
    show (sIdx X (Shape.ofLane (d := ![16]) k)).toNat = _
    rw [sIdx_toNat, ofLane16]
    rfl
  have hinj : Function.Injective fun k : Fin 16 => idxAt (s := S16384) ![sIdx X] h2 (Shape.ofLane (d := ![16]) k) := by
    intro k k' hkk
    have e : ((idxAt (s := S16384) ![sIdx X] h2 (Shape.ofLane (d := ![16]) k)) 0).val
        = ((idxAt (s := S16384) ![sIdx X] h2 (Shape.ofLane (d := ![16]) k')) 0).val :=
      congrArg (fun i : S16384.Idx => (i 0).val) hkk
    rw [hT k, hT k'] at e
    have hb1 := (Cert.Spec.bucket (X (ix1 k))).isLt
    have hb2 := (Cert.Spec.bucket (X (ix1 k'))).isLt
    exact Fin.ext (by omega)
  by_cases hb : Cert.Spec.bucket (X (ix1 l)) = b
  · rw [if_pos hb]
    have hj : (ix1 ⟨1024 * l.val + b.val, by omega⟩ : S16384.Idx)
        = idxAt (s := S16384) ![sIdx X] h2 (Shape.ofLane (d := ![16]) l) := by
      apply idx1_ext
      rw [hT l, hb]
    rw [hj]
    exact storeIdx_add_hit (F := F) (e := .f32) f ![sIdx X] (broadcast S16 oneF) h2 hinj l
  · rw [if_neg hb]
    apply storeIdx_add_miss
    intro k hk
    have e : ((idxAt (s := S16384) ![sIdx X] h2 (Shape.ofLane (d := ![16]) k)) 0).val = 1024 * l.val + b.val :=
      congrArg (fun i : S16384.Idx => (i 0).val) hk
    rw [hT k] at e
    have hb1 := (Cert.Spec.bucket (X (ix1 k))).isLt
    have hb2 := b.isLt
    have hkl : k = l := Fin.ext (by omega)
    subst hkl
    exact hb (Fin.ext (by omega))

/-- One more position read: the count buffer after the adding scatter of the position word `t = n` holds the
    histogram of the positions below `n + 1`. -/
theorem hist_step (g : S3200.Idx → BitVec 32) (f : S16384.Idx → F .f32) (t : BitVec 32) (n : ℕ) (ht : t.toNat = n)
    (hn : n < 200)
    (h1 : ∀ a x, ((![gIdx t] : Fin 1 → IVec S16 32) a x).toNat < S3200.size a)
    (h2 : ∀ a y, ((![sIdx (loadIdx (F := F) (e := .i32) g ![gIdx t] h1)] : Fin 1 → IVec S16 32) a y).toNat
      < S16384.size a)
    (hf : Hist g n f) :
    Hist g (n + 1) (storeIdx (F := F) (e := .f32) f ![sIdx (loadIdx (F := F) (e := .i32) g ![gIdx t] h1)]
      (broadcast S16 oneF) (fun _ => 1#1) true h2) := by
  intro l b
  rw [scatter_ones_apply, loadIdx_gIdx g t n ht hn h1 l, hf l b,
    card_filter_succ (fun s : Fin 200 => Cert.Spec.bucket (g (ix1 ⟨200 * l.val + s.val, by omega⟩)) = b) n hn]
  by_cases hb : Cert.Spec.bucket (g (ix1 ⟨200 * l.val + n, by omega⟩)) = b
  · rw [if_pos hb, if_pos hb]
    rfl
  · rw [if_neg hb, if_neg hb]
    rfl

end Step

/-! ## The zeroed buffer, the finished chunk -/

section Chunk
variable {F : FTy → Type} [FloatOps F]

/-- A count buffer that is zero below its whole length is the zero buffer. -/
theorem zeroBelow_all (f : S16384.Idx → F .f32) (hz : ZeroBelow 16384 f) : f = fun _ => zeroF :=
  funext fun j => hz j (j 0).isLt

/-- Before any position is read every count is zero. -/
theorem hist_zero (g : S3200.Idx → BitVec 32) : Hist (F := F) g 0 (fun _ => zeroF) := by
  intro l b
  have hempty : (Finset.univ.filter fun t : Fin 200 =>
      t.val < 0 ∧ Cert.Spec.bucket (g (ix1 ⟨200 * l.val + t.val, by omega⟩)) = b) = ∅ :=
    Finset.filter_eq_empty_iff.mpr fun t _ h => Nat.not_lt_zero _ h.1
  rw [hempty, Finset.card_empty]
  rfl

/-- The bucket test reads the same at two indices with one coordinate, against two buckets with one number. -/
theorem bucket_iff_of_eq (ids : IVec S819200 32) (i j : S819200.Idx) (b b' : Fin 1024) (hij : (i 0).val = (j 0).val)
    (hb : b.val = b'.val) : Cert.Spec.bucket (ids i) = b ↔ Cert.Spec.bucket (ids j) = b' := by
  rw [idx1_ext i j hij, Fin.ext hb]

/-- A chunk whose 16 rows are rows `R … R + 15` of the ids: once all 200 positions are read, its count buffer is
    the run of the whole array of counts that starts at `1024 R`. -/
theorem hist_chunk (ids : IVec S819200 32) (g : S3200.Idx → BitVec 32) (f : S16384.Idx → F .f32) (R : ℕ)
    (hR : R + 16 ≤ 4096)
    (hg : ∀ x : S3200.Idx, g x = ids (ix1 ⟨200 * R + (x 0).val, by
      have h : (x 0).val < 3200 := (x 0).isLt
      omega⟩))
    (hf : Hist g 200 f) :
    ∀ y : S16384.Idx, f y = histArr (F := F) ids (ix1 ⟨1024 * R + (y 0).val, by
      have h : (y 0).val < 16384 := (y 0).isLt
      omega⟩) := by
  intro y
  obtain ⟨l, b, rfl⟩ : ∃ (l : Fin 16) (b : Fin 1024), y = ix1 ⟨1024 * l.val + b.val, by omega⟩ :=
    ⟨⟨(y 0).val / 1024, by have hy0 : (y 0).val < 16384 := (y 0).isLt; omega⟩,
      ⟨(y 0).val % 1024, Nat.mod_lt _ (by norm_num)⟩,
      idx1_ext _ _ (by show (y 0).val = 1024 * ((y 0).val / 1024) + (y 0).val % 1024; omega)⟩
  rw [hf l b]
  refine congrArg cntF (congrArg Finset.card (Finset.filter_congr ?_))
  intro t _
  have hl : l.val < 16 := l.isLt
  have hb : b.val < 1024 := b.isLt
  have ht : t.val < 200 := t.isLt
  rw [hg]
  constructor
  · rintro ⟨_, h⟩
    refine (bucket_iff_of_eq ids _ _ _ _ ?_ ?_).mp h
    · show 200 * R + (200 * l.val + t.val) = 200 * ((1024 * R + (1024 * l.val + b.val)) / 1024) + t.val
      omega
    · show b.val = (1024 * R + (1024 * l.val + b.val)) % 1024
      omega
  · intro h
    refine ⟨ht, (bucket_iff_of_eq ids _ _ _ _ ?_ ?_).mpr h⟩
    · show 200 * R + (200 * l.val + t.val) = 200 * ((1024 * R + (1024 * l.val + b.val)) / 1024) + t.val
      omega
    · show b.val = (1024 * R + (1024 * l.val + b.val)) % 1024
      omega

end Chunk

/-! ## Zero stores widen the zeroed prefix -/

section Zeroing
variable {F : FTy → Type} [FloatOps F]

/-- Stores of zeros through a view: if the buffer read zero below `n`, every stored piece is zero, and the pieces
    cover the indices from `n` up to `m`, then the buffer reads zero below `m`. -/
theorem zeroBelow_writes {sig : RefSig} {κ : Kind} {sp : Space} (v : View sig κ sp S16384 .f32)
    (f : v.ty.Contents (Elt F)) (L : List (View.Piece (Elt F) S16384 .f32)) (n m : ℕ)
    (hz : ZeroBelow (F := F) n (fun y => v.read (Elt F) f y))
    (hL : ∀ p ∈ L, ∀ x, p.2 x = (zeroF : F .f32))
    (hcov : ∀ y : S16384.Idx, n ≤ (y 0).val → (y 0).val < m → ∃ p ∈ L, y ∈ p.1.set) :
    ZeroBelow (F := F) m (fun y => v.read (Elt F) (v.writes (Elt F) f L) y) := by
  intro y hy
  show v.read (Elt F) (v.writes (Elt F) f L) y = zeroF
  by_cases hc : ∃ p ∈ L, y ∈ p.1.set
  · exact View.read_writes_apply_of_pieces v f (fun _ => (zeroF : F .f32)) L (fun p hp x => hL p hp x) y hc
  · have hn : ∀ p ∈ L, y ∉ p.1.set := fun p hp hy' => hc ⟨p, hp, hy'⟩
    rw [View.read_writes_apply_of_forall_not_mem v f y L hn]
    refine hz y ?_
    by_contra hge
    exact hc (hcov y (by omega) hy)

end Zeroing

end Cert.HistPure

end
-- ==== Proof.KITileValIdeal.lean ====
/-
  The counts at the ideal instance: `n` ones added to zero are the number `n`, so the array of counts holds, as
  extended reals, the numbers of positions falling in each bucket.
-/
import proofs.«215258_g80247168959020_cont_9to1_m_796_9_alg».proof.Proof.KITileValLem

noncomputable section

open scoped BigOperators

namespace Cert.HistPure

open Idealize.ShloMosaic Idealize.ShloMosaic.ValueIdx

/-! ## Counts as extended reals -/

/-- The float zero is the number 0. -/
theorem zeroF_ideal : (zeroF : Ideal .f32) = 0 := by
  show Ideal.ofBits .f32 0x00000000#32 = 0
  simp [Ideal.ofBits, Ideal.ieee]

/-- The float one is the number 1. -/
theorem oneF_ideal : (oneF : Ideal .f32) = 1 := by
  show Ideal.ofBits .f32 0x3F800000#32 = 1
  simp [Ideal.ofBits, Ideal.ieee, -EReal.coe_mul]
  norm_num

/-- `n` ones added to zero make the number `n`. -/
theorem cntF_ideal (n : ℕ) : cntF (F := Ideal) n = ((n : ℝ) : EReal) := by
  induction n with
  | zero =>
    show (zeroF : Ideal .f32) = _
    rw [zeroF_ideal, Nat.cast_zero, EReal.coe_zero]
  | succ n ih =>
    show Elt.idxAdd (F := Ideal) .f32 (cntF (F := Ideal) n) (oneF (F := Ideal)) = _
    rw [Elt.idxAdd_f32, Ideal.idxAddf_def, ih, oneF_ideal, Nat.cast_succ, EReal.coe_add, EReal.coe_one]

/-- Entry `1024 r + b` of the array of counts is the number of row `r`'s 200 positions whose id falls in
    bucket `b`. -/
theorem histArr_apply (ids : IVec S819200 32) (r : Fin 4096) (b : Fin 1024) :
    histArr (F := Ideal) ids (ix1 ⟨1024 * r.val + b.val, by omega⟩)
      = (((Finset.univ.filter fun s : Fin 200 =>
          Cert.Spec.bucket (ids (ix1 ⟨200 * r.val + s.val, by omega⟩)) = b).card : ℝ) : EReal) := by
  rw [← cntF_ideal]
  refine congrArg cntF (congrArg Finset.card (Finset.filter_congr ?_))
  intro t _
  have hr : r.val < 4096 := r.isLt
  have hb : b.val < 1024 := b.isLt
  have ht : t.val < 200 := t.isLt
  refine bucket_iff_of_eq ids _ _ _ _ ?_ ?_
  · show 200 * ((1024 * r.val + b.val) / 1024) + t.val = 200 * r.val + t.val
    omega
  · show (1024 * r.val + b.val) % 1024 = b.val
    omega

end Cert.HistPure

end
-- ==== Proof.PreFacts.lean ====
/-
  What the input-domain predicate says when its value is 1: every float entry is a real number, and
  every id lies between 0 and 99999.

  The predicate is a conjunction of eight "all entries satisfy" tests. For a float array the test on an entry
  x is |x| < +∞; over the extended reals |x| = max x (-x), which is +∞ at both infinities, so the test holds
  exactly when x is a real number. For the ids the test is 0 ≤ x ≤ 99999 on the signed reading of the word,
  and a word whose signed reading is non-negative has that reading as its unsigned value.
-/
import proofs.«215258_g80247168959020_cont_9to1_m_796_9_alg».proof.Pre_input_domain
import proofs.«215258_g80247168959020_cont_9to1_m_796_9_alg».proof.Proof.Gen.Pre_input_domain
import proofs.«215258_g80247168959020_cont_9to1_m_796_9_alg».proof.Proof.Spec
import Idealize.ShloMosaic.Lib.ReduceAll

noncomputable section

namespace Cert.Spec

open Idealize.ShloMosaic Idealize.ShloMosaic.ValueIdx

/-- The scalar shape has one index. -/
instance : Subsingleton Cert.Pre_input_domain.S_.Idx := ⟨fun a b => funext fun d => d.elim0⟩

/-- The word 0x7F800000 read as an extended real is +∞. -/
theorem ofBits_inf : Ideal.ofBits .f32 0x7F800000#32 = (⊤ : EReal) := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- "All entries have absolute value below +∞", reduced to one bit that is 1, gives a real array. -/
theorem allReal_of_all {S : Shape} {axes : List (Fin S.rank)} (x : S.Idx → EReal)
    (hb : Cert.Pre_input_domain.S_.BroadcastsInDim S (![] : Fin 0 → Fin S.rank))
    (hr : S.ReducesTo axes Cert.Pre_input_domain.S_) (hu : 0 < Cert.Pre_input_domain.S_.numel)
    (init : Cert.Pre_input_domain.S_.Idx → BitVec 1) (j : Cert.Pre_input_domain.S_.Idx)
    (e : Host.reduce IntOp.andi
          (cmpf (F := Ideal) (φ := .f32) .olt (Host.absf x)
            (broadcastInDim S ![] hb (constant Cert.Pre_input_domain.S_ .f32 0x7F800000#32)))
          init hr hu j = 1#1) : AllReal x := by
  intro i
  have hi := Host.reduce_andi_all _ init hr hu j e i
  exact real_of_abs_lt_inf (x i) hi

theorem pre_facts [Cert.Pre_input_domain.Facts] (a0 : IVec Cert.Pre_input_domain.S4096x200 32)
    (a1 : FVec Ideal Cert.Pre_input_domain.S4096x200x64 .f32)
    (a2 a3 a4 a5 : FVec Ideal Cert.Pre_input_domain.S1024x16 .f32)
    (a6 : FVec Ideal Cert.Pre_input_domain.S64x64 .f32) (a7 : FVec Ideal Cert.Pre_input_domain.S64 .f32)
    (h : Cert.Pre_input_domain.fn (F := Ideal) a0 a1 a2 a3 a4 a5 a6 a7 = fun _ => 1#1) :
    AllReal a1 ∧ AllReal a2 ∧ AllReal a3 ∧ AllReal a4 ∧ AllReal a5 ∧ AllReal a6 ∧ AllReal a7
      ∧ ∀ i, (a0 i).toNat ≤ 99999 := by
  have h' := congrFun h ValueIdx.ix0
  dsimp only [Cert.Pre_input_domain.fn, Cert.Pre_input_domain.fn_part1, Cert.Pre_input_domain.fn_part2,
    Idealize.ShloMosaic.andi] at h'
  simp only [IntOp.andi_eq_one] at h'
  obtain ⟨⟨⟨⟨⟨⟨⟨e1, e2⟩, e3⟩, e4⟩, e5⟩, e6⟩, e7⟩, e0⟩ := h'
  refine ⟨allReal_of_all a1 _ _ _ _ _ e1, allReal_of_all a2 _ _ _ _ _ e2, allReal_of_all a3 _ _ _ _ _ e3,
    allReal_of_all a4 _ _ _ _ _ e4, allReal_of_all a5 _ _ _ _ _ e5, allReal_of_all a6 _ _ _ _ _ e6,
    allReal_of_all a7 _ _ _ _ _ e7, fun i => ?_⟩
  have hi := Host.reduce_andi_all _ _ _ _ _ e0 i
  have hi' : IntOp.andi (IntOp.cmpi .sge (a0 i) 0#32) (IntOp.cmpi .sle (a0 i) 99999#32) = 1#1 := hi
  rw [IntOp.andi_eq_one, IntOp.cmpi_sge, IntOp.cmpi_sle] at hi'
  obtain ⟨hlo, hhi⟩ := hi'
  have e := BitVec.toInt_eq_toNat_cond (a0 i)
  have hl := (a0 i).isLt
  have c0 : (0#32 : BitVec 32).toInt = 0 := by decide
  have c1 : (99999#32 : BitVec 32).toInt = 99999 := by decide
  rw [c0] at hlo
  rw [c1] at hhi
  omega

end Cert.Spec

end
-- ==== Proof.Law.lean ====
/-
  The two orders of computing the combined row entry agree when every float input is a real number.

  Three facts about finite sums of real numbers carry the proof:
    * a sum over 200 positions is the sum over the 100 even positions plus the sum over the 100 odd ones
      (the positions are the pairs (2 j, 2 j + 1));
    * weighting each bucket's table row by the number of positions that fall in the bucket and summing over
      buckets is the same as summing the looked-up rows over the positions (group the positions by bucket);
    * the factor 1/200 distributes over the sum of the two parts.
  Extended-real sums and products of real numbers are the real ones, so the identity is proved in ℝ.
-/
import proofs.«215258_g80247168959020_cont_9to1_m_796_9_alg».proof.Proof.Spec

noncomputable section

open scoped BigOperators

namespace Cert.Spec

open Idealize.ShloMosaic Idealize.ShloMosaic.ValueIdx

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The 200 positions are the 100 pairs (2 j, 2 j + 1). -/
def pairEquiv : Fin 100 × Fin 2 ≃ Fin 200 where
  toFun x := pos2 x.1 x.2
  invFun s := (⟨s.val / 2, by omega⟩, ⟨s.val % 2, by omega⟩)
  left_inv x := by
    rcases x with ⟨j, h⟩
    refine Prod.ext (Fin.ext ?_) (Fin.ext ?_)
    · show (2 * j.val + h.val) / 2 = j.val
      omega
    · show (2 * j.val + h.val) % 2 = h.val
      omega
  right_inv s := by
    refine Fin.ext ?_
    show 2 * (s.val / 2) + s.val % 2 = s.val
    omega

/-- A sum over the 200 positions splits into the even positions and the odd positions. -/
theorem sum_pos_split (f : Fin 200 → ℝ) :
    ∑ s : Fin 200, f s = (∑ j : Fin 100, f (pos2 j 0)) + ∑ j : Fin 100, f (pos2 j 1) := by
  rw [← Equiv.sum_comp pairEquiv f, Fintype.sum_prod_type, ← Finset.sum_add_distrib]
  refine Finset.sum_congr rfl fun j _ => ?_
  rw [Fin.sum_univ_two]
  rfl

/-- Grouping the positions by the bucket they fall in: the bucket counts against a table are the sum of
    the looked-up entries. -/
theorem sum_count_mul {n m : Nat} (b : Fin n → Fin m) (h : Fin m → ℝ) :
    ∑ k : Fin m, ((Finset.univ.filter fun s : Fin n => b s = k).card : ℝ) * h k = ∑ s : Fin n, h (b s) := by
  rw [← Finset.sum_fiberwise Finset.univ b fun s => h (b s)]
  refine Finset.sum_congr rfl fun k _ => ?_
  rw [Finset.sum_congr rfl (fun s hs => by rw [(Finset.mem_filter.mp hs).2] : ∀ s ∈ Finset.univ.filter (fun s : Fin n => b s = k), h (b s) = h k),
    Finset.sum_const, nsmul_eq_mul]

/-- The four tables side by side, over the reals. -/
def hcatR (h0 h1 h2 h3 : SH.Idx → ℝ) (k : Fin 1024) (e : Fin 64) : ℝ :=
  let c : Fin 16 := ⟨e.val % 16, Nat.mod_lt _ (by norm_num)⟩
  if e.val < 16 then h0 (ix2 k c) else if e.val < 32 then h1 (ix2 k c) else if e.val < 48 then h2 (ix2 k c) else h3 (ix2 k c)

theorem kerComb_eq_refComb (ids : SIds.Idx → BitVec 32) (emb : SEmb.Idx → EReal) (H0 H1 H2 H3 : SH.Idx → EReal)
    (hemb : AllReal emb) (h0 : AllReal H0) (h1 : AllReal H1) (h2 : AllReal H2) (h3 : AllReal H3)
    (p : Fin 4096) (e : Fin 64) :
    kerComb ids emb H0 H1 H2 H3 p e = refComb ids emb H0 H1 H2 H3 p e := by
  have hemb' : ∀ i, ∃ r : ℝ, emb i = (r : EReal) := hemb
  have h0' : ∀ i, ∃ r : ℝ, H0 i = (r : EReal) := h0
  have h1' : ∀ i, ∃ r : ℝ, H1 i = (r : EReal) := h1
  have h2' : ∀ i, ∃ r : ℝ, H2 i = (r : EReal) := h2
  have h3' : ∀ i, ∃ r : ℝ, H3 i = (r : EReal) := h3
  choose embR hembR using hemb'
  choose r0 hr0 using h0'
  choose r1 hr1 using h1'
  choose r2 hr2 using h2'
  choose r3 hr3 using h3'
  have hc : ∀ (k : Fin 1024) (e : Fin 64), hcat H0 H1 H2 H3 k e = ((hcatR r0 r1 r2 r3 k e : ℝ) : EReal) := by
    intro k e
    unfold hcat hcatR
    simp only [hr0, hr1, hr2, hr3]
    split_ifs <;> rfl
  unfold kerComb refComb cnt
  simp only [hembR, hc, ← EReal.coe_mul, coe_sum, ← EReal.coe_add]
  congr 1
  rw [sum_count_mul (fun s : Fin 200 => bucket (ids (ix2 p s))) (fun k => hcatR r0 r1 r2 r3 k e),
    sum_pos_split (fun s => embR (ix3 p s e))]
  ring

theorem kerOut_eq_refOut (ids : SIds.Idx → BitVec 32) (emb : SEmb.Idx → EReal) (H0 H1 H2 H3 : SH.Idx → EReal)
    (W : SW.Idx → EReal) (b : SB.Idx → EReal)
    (hemb : AllReal emb) (h0 : AllReal H0) (h1 : AllReal H1) (h2 : AllReal H2) (h3 : AllReal H3) :
    kerOut ids emb H0 H1 H2 H3 W b = refOut ids emb H0 H1 H2 H3 W b := by
  unfold kerOut refOut
  congr 1
  funext p e
  exact kerComb_eq_refComb ids emb H0 H1 H2 H3 hemb h0 h1 h2 h3 p e

end Cert.Spec

end
-- ==== Proof.RefRunOps.lean ====
/-
  The reference program's @main as ONE straight line of host operations: the calls of its outlined
  functions (the integer remainder, the four row look-ups, the selects inside them) replaced by the callee's
  operations over the buffers of that call, in order. A straight line runs to its end with every buffer at
  the fold of the operations' results over the launch contents.
-/
import proofs.«215258_g80247168959020_cont_9to1_m_796_9_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 146 operations in order, the calls unfolded: the constant 1024; the remainder's twenty-two (its
    inner select among them); then, per hash table, the look-up's twenty-four (its inner select among them), the sum over
    the 200 positions and the division by 200; the concatenation; the embeddings' sum and division; the sum of the two;
    the transposed weights, the contraction, the bias broadcast twice and the final sum. -/
abbrev ops : List (HloOp τ sig (Elt F)) :=
  [ nullary main_c (constantI S_ 32 1024#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096x200 ![] bcast_S_S4096x200),
    TRef.binary (.of main_arg0 : TRef sig ⟨S4096x200, .i32⟩) main_call0.v3 main_call0.v4 Host.remsi,
    TRef.nullary main_call0.c_1 (constantI S_ 32 0#32),
    TRef.unary main_call0.c_1 main_call0.v5 (broadcastInDim S4096x200 ![] bcast_S_S4096x200),
    TRef.binary main_call0.v4 main_call0.v5 main_call0.v6 (cmpi .ne),
    TRef.nullary main_call0.c_2 (constantI S_ 32 0#32),
    TRef.unary main_call0.c_2 main_call0.v7 (broadcastInDim S4096x200 ![] bcast_S_S4096x200),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096x200 ![] bcast_S_S4096x200),
    TRef.binary main_call0.v8 main_call0.v10 main_call0.v11 (cmpi .ne),
    TRef.binary main_call0.v11 main_call0.v6 main_call0.v12 andi,
    TRef.unary main_call0.call0.v0 main_call0.v13 (broadcastInDim S4096x200 ![] bcast_S_S4096x200),
    TRef.binary main_call0.v4 main_call0.v13 main_call0.v14 addi,
    TRef.ternary main_call0.v12 main_call0.v14 main_call0.v4 main_call0.v15 select,
    TRef.nullary main_call1.c (constantI S_ 32 0#32),
    TRef.unary main_call1.c main_call1.v0 (broadcastInDim S4096x200 ![] bcast_S_S4096x200),
    TRef.binary (.of main_v0 : TRef sig ⟨S4096x200, .i32⟩) main_call1.v0 main_call1.v1 (cmpi .slt),
    TRef.nullary main_call1.c_0 (constantI S_ 32 1024#32),
    TRef.unary main_call1.c_0 main_call1.v2 (broadcastInDim S4096x200 ![] bcast_S_S4096x200),
    TRef.binary (.of main_v0 : TRef sig ⟨S4096x200, .i32⟩) main_call1.v2 main_call1.v3 addi,
    TRef.ternary main_call1.v1 main_call1.v3 (.of main_v0 : TRef sig ⟨S4096x200, .i32⟩) main_call1.call0.v0 select,
    TRef.unary main_call1.call0.v0 main_call1.v5 (broadcastInDim S4096x200x1 ![0, 1] bcast_S4096x200_S4096x200x1_0_1),
    TRef.nullary main_call1.c_1 (constantI S1 32 1023#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg2 : TRef sig ⟨S1024x16, .f32⟩) main_call1.v5 main_call1.v13 (fun x i => Host.gather gather_S1024x16_S4096x200x1_S4096x200x16_2_0_n_n_0_2_116 x i),
    TRef.unary main_call1.v12 main_call1.v14 (broadcastInDim S4096x200x16 ![0, 1] bcast_S4096x200_S4096x200x16_0_1),
    TRef.nullary main_call1.cst (constant S_ .f32 0x7FC00000#32),
    TRef.unary main_call1.cst main_call1.v15 (broadcastInDim S4096x200x16 ![] bcast_S_S4096x200x16),
    TRef.ternary main_call1.v14 main_call1.v13 main_call1.v15 main_call1.v16 select,
    nullary main_cst (constant S_ .f32 0x00000000#32),
    binary main_v1 main_cst main_v2 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_0 (constant S_ .f32 0x43480000#32),
    unary main_cst_0 main_v3 (broadcastInDim S4096x16 ![] bcast_S_S4096x16 : (⟨S_, .f32⟩ : BufTy).Contents (Elt F) → (⟨S4096x16, .f32⟩ : BufTy).Contents (Elt F)),
    binary main_v2 main_v3 main_v4 (Host.divf : (⟨S4096x16, .f32⟩ : BufTy).Contents (Elt F) → (⟨S4096x16, .f32⟩ : BufTy).Contents (Elt F) → (⟨S4096x16, .f32⟩ : BufTy).Contents (Elt F)),
    TRef.nullary main_call2.c (constantI S_ 32 0#32),
    TRef.unary main_call2.c main_call2.v0 (broadcastInDim S4096x200 ![] bcast_S_S4096x200),
    TRef.binary (.of main_v0 : TRef sig ⟨S4096x200, .i32⟩) main_call2.v0 main_call2.v1 (cmpi .slt),
    TRef.nullary main_call2.c_0 (constantI S_ 32 1024#32),
    TRef.unary main_call2.c_0 main_call2.v2 (broadcastInDim S4096x200 ![] bcast_S_S4096x200),
    TRef.binary (.of main_v0 : TRef sig ⟨S4096x200, .i32⟩) main_call2.v2 main_call2.v3 addi,
    TRef.ternary main_call2.v1 main_call2.v3 (.of main_v0 : TRef sig ⟨S4096x200, .i32⟩) main_call2.call0.v0 select,
    TRef.unary main_call2.call0.v0 main_call2.v5 (broadcastInDim S4096x200x1 ![0, 1] bcast_S4096x200_S4096x200x1_0_1),
    TRef.nullary main_call2.c_1 (constantI S1 32 1023#32),
    TRef.nullary main_call2.c_2 (constantI S_ 32 0#32),
    TRef.unary main_call2.c_2 main_call2.v6 (broadcastInDim S4096x200x1 ![] bcast_S_S4096x200x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S4096x200x1 ![0, 1, 2] bcast_S1x1x1_S4096x200x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x200x1_S4096x200_d2 h_S_),
    TRef.binary (.of main_arg3 : TRef sig ⟨S1024x16, .f32⟩) main_call2.v5 main_call2.v13 (fun x i => Host.gather gather_S1024x16_S4096x200x1_S4096x200x16_2_0_n_n_0_2_116 x i),
    TRef.unary main_call2.v12 main_call2.v14 (broadcastInDim S4096x200x16 ![0, 1] bcast_S4096x200_S4096x200x16_0_1),
    TRef.nullary main_call2.cst (constant S_ .f32 0x7FC00000#32),
    TRef.unary main_call2.cst main_call2.v15 (broadcastInDim S4096x200x16 ![] bcast_S_S4096x200x16),
    TRef.ternary main_call2.v14 main_call2.v13 main_call2.v15 main_call2.v16 select,
    nullary main_cst_1 (constant S_ .f32 0x00000000#32),
    binary main_v5 main_cst_1 main_v6 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_2 (constant S_ .f32 0x43480000#32),
    unary main_cst_2 main_v7 (broadcastInDim S4096x16 ![] bcast_S_S4096x16 : (⟨S_, .f32⟩ : BufTy).Contents (Elt F) → (⟨S4096x16, .f32⟩ : BufTy).Contents (Elt F)),
    binary main_v6 main_v7 main_v8 (Host.divf : (⟨S4096x16, .f32⟩ : BufTy).Contents (Elt F) → (⟨S4096x16, .f32⟩ : BufTy).Contents (Elt F) → (⟨S4096x16, .f32⟩ : BufTy).Contents (Elt F)),
    TRef.nullary main_call3.c (constantI S_ 32 0#32),
    TRef.unary main_call3.c main_call3.v0 (broadcastInDim S4096x200 ![] bcast_S_S4096x200),
    TRef.binary (.of main_v0 : TRef sig ⟨S4096x200, .i32⟩) main_call3.v0 main_call3.v1 (cmpi .slt),
    TRef.nullary main_call3.c_0 (constantI S_ 32 1024#32),
    TRef.unary main_call3.c_0 main_call3.v2 (broadcastInDim S4096x200 ![] bcast_S_S4096x200),
    TRef.binary (.of main_v0 : TRef sig ⟨S4096x200, .i32⟩) main_call3.v2 main_call3.v3 addi,
    TRef.ternary main_call3.v1 main_call3.v3 (.of main_v0 : TRef sig ⟨S4096x200, .i32⟩) main_call3.call0.v0 select,
    TRef.unary main_call3.call0.v0 main_call3.v5 (broadcastInDim S4096x200x1 ![0, 1] bcast_S4096x200_S4096x200x1_0_1),
    TRef.nullary main_call3.c_1 (constantI S1 32 1023#32),
    TRef.nullary main_call3.c_2 (constantI S_ 32 0#32),
    TRef.unary main_call3.c_2 main_call3.v6 (broadcastInDim S4096x200x1 ![] bcast_S_S4096x200x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S4096x200x1 ![0, 1, 2] bcast_S1x1x1_S4096x200x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4096x200x1_S4096x200_d2 h_S_),
    TRef.binary (.of main_arg4 : TRef sig ⟨S1024x16, .f32⟩) main_call3.v5 main_call3.v13 (fun x i => Host.gather gather_S1024x16_S4096x200x1_S4096x200x16_2_0_n_n_0_2_116 x i),
    TRef.unary main_call3.v12 main_call3.v14 (broadcastInDim S4096x200x16 ![0, 1] bcast_S4096x200_S4096x200x16_0_1),
    TRef.nullary main_call3.cst (constant S_ .f32 0x7FC00000#32),
    TRef.unary main_call3.cst main_call3.v15 (broadcastInDim S4096x200x16 ![] bcast_S_S4096x200x16),
    TRef.ternary main_call3.v14 main_call3.v13 main_call3.v15 main_call3.v16 select,
    nullary main_cst_3 (constant S_ .f32 0x00000000#32),
    binary main_v9 main_cst_3 main_v10 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_4 (constant S_ .f32 0x43480000#32),
    unary main_cst_4 main_v11 (broadcastInDim S4096x16 ![] bcast_S_S4096x16 : (⟨S_, .f32⟩ : BufTy).Contents (Elt F) → (⟨S4096x16, .f32⟩ : BufTy).Contents (Elt F)),
    binary main_v10 main_v11 main_v12 (Host.divf : (⟨S4096x16, .f32⟩ : BufTy).Contents (Elt F) → (⟨S4096x16, .f32⟩ : BufTy).Contents (Elt F) → (⟨S4096x16, .f32⟩ : BufTy).Contents (Elt F)),
    TRef.nullary main_call4.c (constantI S_ 32 0#32),
    TRef.unary main_call4.c main_call4.v0 (broadcastInDim S4096x200 ![] bcast_S_S4096x200),
    TRef.binary (.of main_v0 : TRef sig ⟨S4096x200, .i32⟩) main_call4.v0 main_call4.v1 (cmpi .slt),
    TRef.nullary main_call4.c_0 (constantI S_ 32 1024#32),
    TRef.unary main_call4.c_0 main_call4.v2 (broadcastInDim S4096x200 ![] bcast_S_S4096x200),
    TRef.binary (.of main_v0 : TRef sig ⟨S4096x200, .i32⟩) main_call4.v2 main_call4.v3 addi,
    TRef.ternary main_call4.v1 main_call4.v3 (.of main_v0 : TRef sig ⟨S4096x200, .i32⟩) main_call4.call0.v0 select,
    TRef.unary main_call4.call0.v0 main_call4.v5 (broadcastInDim S4096x200x1 ![0, 1] bcast_S4096x200_S4096x200x1_0_1),
    TRef.nullary main_call4.c_1 (constantI S1 32 1023#32),
    TRef.nullary main_call4.c_2 (constantI S_ 32 0#32),
    TRef.unary main_call4.c_2 main_call4.v6 (broadcastInDim S4096x200x1 ![] bcast_S_S4096x200x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S4096x200x1 ![0, 1, 2] bcast_S1x1x1_S4096x200x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S4096x200x1_S4096x200_d2 h_S_),
    TRef.binary (.of main_arg5 : TRef sig ⟨S1024x16, .f32⟩) main_call4.v5 main_call4.v13 (fun x i => Host.gather gather_S1024x16_S4096x200x1_S4096x200x16_2_0_n_n_0_2_116 x i),
    TRef.unary main_call4.v12 main_call4.v14 (broadcastInDim S4096x200x16 ![0, 1] bcast_S4096x200_S4096x200x16_0_1),
    TRef.nullary main_call4.cst (constant S_ .f32 0x7FC00000#32),
    TRef.unary main_call4.cst main_call4.v15 (broadcastInDim S4096x200x16 ![] bcast_S_S4096x200x16),
    TRef.ternary main_call4.v14 main_call4.v13 main_call4.v15 main_call4.v16 select,
    nullary main_cst_5 (constant S_ .f32 0x00000000#32),
    binary main_v13 main_cst_5 main_v14 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_6 (constant S_ .f32 0x43480000#32),
    unary main_cst_6 main_v15 (broadcastInDim S4096x16 ![] bcast_S_S4096x16 : (⟨S_, .f32⟩ : BufTy).Contents (Elt F) → (⟨S4096x16, .f32⟩ : BufTy).Contents (Elt F)),
    binary main_v14 main_v15 main_v16 (Host.divf : (⟨S4096x16, .f32⟩ : BufTy).Contents (Elt F) → (⟨S4096x16, .f32⟩ : BufTy).Contents (Elt F) → (⟨S4096x16, .f32⟩ : BufTy).Contents (Elt F)),
    nary ![main_v4, main_v8, main_v12, main_v16] main_v17 (fun u => concatenate S4096x64 1 [⟨S4096x16, u 0⟩, ⟨S4096x16, u 1⟩, ⟨S4096x16, u 2⟩, ⟨S4096x16, u 3⟩] concatenates_S4096x16_S4096x16_S4096x16_S4096x16_S4096x64_d1),
    nullary main_cst_7 (constant S_ .f32 0x00000000#32),
    binary main_arg1 main_cst_7 main_v18 ((fun x v => Host.reduceAdd x v reducesTo_S4096x200x64_S4096x64_d1 h_S_) : (⟨S4096x200x64, .f32⟩ : BufTy).Contents (Elt F) → (⟨S_, .f32⟩ : BufTy).Contents (Elt F) → (⟨S4096x64, .f32⟩ : BufTy).Contents (Elt F)),
    nullary main_cst_8 (constant S_ .f32 0x43480000#32),
    unary main_cst_8 main_v19 (broadcastInDim S4096x64 ![] bcast_S_S4096x64 : (⟨S_, .f32⟩ : BufTy).Contents (Elt F) → (⟨S4096x64, .f32⟩ : BufTy).Contents (Elt F)),
    binary main_v18 main_v19 main_v20 (Host.divf : (⟨S4096x64, .f32⟩ : BufTy).Contents (Elt F) → (⟨S4096x64, .f32⟩ : BufTy).Contents (Elt F) → (⟨S4096x64, .f32⟩ : BufTy).Contents (Elt F)),
    binary main_v17 main_v20 main_v21 (addf : (⟨S4096x64, .f32⟩ : BufTy).Contents (Elt F) → (⟨S4096x64, .f32⟩ : BufTy).Contents (Elt F) → (⟨S4096x64, .f32⟩ : BufTy).Contents (Elt F)),
    unary main_arg6 main_v22 ((transpose S64x64 [1, 0] · transposes_S64x64_S64x64_1_0) : (⟨S64x64, .f32⟩ : BufTy).Contents (Elt F) → (⟨S64x64, .f32⟩ : BufTy).Contents (Elt F)),
    binary main_v21 main_v22 main_v23 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg7 main_v24 (broadcastInDim S1x64 ![1] bcast_S64_S1x64_1 : (⟨S64, .f32⟩ : BufTy).Contents (Elt F) → (⟨S1x64, .f32⟩ : BufTy).Contents (Elt F)),
    unary main_v24 main_v25 (broadcastInDim S4096x64 ![0, 1] bcast_S1x64_S4096x64_0_1 : (⟨S1x64, .f32⟩ : BufTy).Contents (Elt F) → (⟨S4096x64, .f32⟩ : BufTy).Contents (Elt F)),
    binary main_v23 main_v25 main_v26 (addf : (⟨S4096x64, .f32⟩ : BufTy).Contents (Elt F) → (⟨S4096x64, .f32⟩ : BufTy).Contents (Elt F) → (⟨S4096x64, .f32⟩ : BufTy).Contents (Elt F)) ]

set_option maxRecDepth 8192 in
/-- @main is that straight line: the functions' definitions unfolded at their calls, both sides are one chain of
    steps once sequencing is reassociated. -/
theorem main_eq (c : Dev nD) : main (F := F) c = seq ops := by
  simp only [main, fn_remainder.body, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., nary_bufs_sub .., nullary_bufs_sub .., binary_bufs_sub .., nullary_bufs_sub .., unary_bufs_sub .., binary_bufs_sub .., binary_bufs_sub .., unary_bufs_sub .., binary_bufs_sub .., unary_bufs_sub .., unary_bufs_sub .., binary_bufs_sub ..⟩

/-- From any memory with zero counters every weakly fair execution of @main terminates, and every final state has
    each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefSegs.lean ====
/-
  The reference's straight line cut in six pieces — the remainder; one per hash table (look-up, sum over the
  positions, division); the rest — and, per piece, the list of the buffers its operations write. The fold over
  the whole line is the pieces' folds one after the other.
-/
import proofs.«215258_g80247168959020_cont_9to1_m_796_9_alg».proof.Proof.RefRunOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The fold over two lines one after the other is the second's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation that writes the one buffer `y`, a member of the list `W`, writes inside `W`. -/
theorem writes_sub_of_mem {τ : Topo} {sig : RefSig} {Val : EltTy → Type} {W : List (Ref sig .tc)} {op : HloOp τ sig Val}
    {y : Ref sig .tc} (h : op.writes = {Proc.devRef .tc y}) (hy : y ∈ W) :
    op.writes ⊆ (W.map (Proc.devRef (τ := τ) .tc)).toFinset := by
  rw [h, Finset.singleton_subset_iff, List.mem_toFinset]
  exact List.mem_map_of_mem hy

abbrev seg0 : List (HloOp τ sig (Elt F)) :=
  [ nullary main_c (constantI S_ 32 1024#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096x200 ![] bcast_S_S4096x200),
    TRef.binary (.of main_arg0 : TRef sig ⟨S4096x200, .i32⟩) main_call0.v3 main_call0.v4 Host.remsi,
    TRef.nullary main_call0.c_1 (constantI S_ 32 0#32),
    TRef.unary main_call0.c_1 main_call0.v5 (broadcastInDim S4096x200 ![] bcast_S_S4096x200),
    TRef.binary main_call0.v4 main_call0.v5 main_call0.v6 (cmpi .ne),
    TRef.nullary main_call0.c_2 (constantI S_ 32 0#32),
    TRef.unary main_call0.c_2 main_call0.v7 (broadcastInDim S4096x200 ![] bcast_S_S4096x200),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096x200 ![] bcast_S_S4096x200),
    TRef.binary main_call0.v8 main_call0.v10 main_call0.v11 (cmpi .ne),
    TRef.binary main_call0.v11 main_call0.v6 main_call0.v12 andi,
    TRef.unary main_call0.call0.v0 main_call0.v13 (broadcastInDim S4096x200 ![] bcast_S_S4096x200),
    TRef.binary main_call0.v4 main_call0.v13 main_call0.v14 addi,
    TRef.ternary main_call0.v12 main_call0.v14 main_call0.v4 main_call0.v15 select ]

abbrev seg1 : List (HloOp τ sig (Elt F)) :=
  [ TRef.nullary main_call1.c (constantI S_ 32 0#32),
    TRef.unary main_call1.c main_call1.v0 (broadcastInDim S4096x200 ![] bcast_S_S4096x200),
    TRef.binary (.of main_v0 : TRef sig ⟨S4096x200, .i32⟩) main_call1.v0 main_call1.v1 (cmpi .slt),
    TRef.nullary main_call1.c_0 (constantI S_ 32 1024#32),
    TRef.unary main_call1.c_0 main_call1.v2 (broadcastInDim S4096x200 ![] bcast_S_S4096x200),
    TRef.binary (.of main_v0 : TRef sig ⟨S4096x200, .i32⟩) main_call1.v2 main_call1.v3 addi,
    TRef.ternary main_call1.v1 main_call1.v3 (.of main_v0 : TRef sig ⟨S4096x200, .i32⟩) main_call1.call0.v0 select,
    TRef.unary main_call1.call0.v0 main_call1.v5 (broadcastInDim S4096x200x1 ![0, 1] bcast_S4096x200_S4096x200x1_0_1),
    TRef.nullary main_call1.c_1 (constantI S1 32 1023#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg2 : TRef sig ⟨S1024x16, .f32⟩) main_call1.v5 main_call1.v13 (fun x i => Host.gather gather_S1024x16_S4096x200x1_S4096x200x16_2_0_n_n_0_2_116 x i),
    TRef.unary main_call1.v12 main_call1.v14 (broadcastInDim S4096x200x16 ![0, 1] bcast_S4096x200_S4096x200x16_0_1),
    TRef.nullary main_call1.cst (constant S_ .f32 0x7FC00000#32),
    TRef.unary main_call1.cst main_call1.v15 (broadcastInDim S4096x200x16 ![] bcast_S_S4096x200x16),
    TRef.ternary main_call1.v14 main_call1.v13 main_call1.v15 main_call1.v16 select,
    nullary main_cst (constant S_ .f32 0x00000000#32),
    binary main_v1 main_cst main_v2 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_0 (constant S_ .f32 0x43480000#32),
    unary main_cst_0 main_v3 (broadcastInDim S4096x16 ![] bcast_S_S4096x16 : (⟨S_, .f32⟩ : BufTy).Contents (Elt F) → (⟨S4096x16, .f32⟩ : BufTy).Contents (Elt F)),
    binary main_v2 main_v3 main_v4 (Host.divf : (⟨S4096x16, .f32⟩ : BufTy).Contents (Elt F) → (⟨S4096x16, .f32⟩ : BufTy).Contents (Elt F) → (⟨S4096x16, .f32⟩ : BufTy).Contents (Elt F)) ]

abbrev seg2 : List (HloOp τ sig (Elt F)) :=
  [ TRef.nullary main_call2.c (constantI S_ 32 0#32),
    TRef.unary main_call2.c main_call2.v0 (broadcastInDim S4096x200 ![] bcast_S_S4096x200),
    TRef.binary (.of main_v0 : TRef sig ⟨S4096x200, .i32⟩) main_call2.v0 main_call2.v1 (cmpi .slt),
    TRef.nullary main_call2.c_0 (constantI S_ 32 1024#32),
    TRef.unary main_call2.c_0 main_call2.v2 (broadcastInDim S4096x200 ![] bcast_S_S4096x200),
    TRef.binary (.of main_v0 : TRef sig ⟨S4096x200, .i32⟩) main_call2.v2 main_call2.v3 addi,
    TRef.ternary main_call2.v1 main_call2.v3 (.of main_v0 : TRef sig ⟨S4096x200, .i32⟩) main_call2.call0.v0 select,
    TRef.unary main_call2.call0.v0 main_call2.v5 (broadcastInDim S4096x200x1 ![0, 1] bcast_S4096x200_S4096x200x1_0_1),
    TRef.nullary main_call2.c_1 (constantI S1 32 1023#32),
    TRef.nullary main_call2.c_2 (constantI S_ 32 0#32),
    TRef.unary main_call2.c_2 main_call2.v6 (broadcastInDim S4096x200x1 ![] bcast_S_S4096x200x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S4096x200x1 ![0, 1, 2] bcast_S1x1x1_S4096x200x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x200x1_S4096x200_d2 h_S_),
    TRef.binary (.of main_arg3 : TRef sig ⟨S1024x16, .f32⟩) main_call2.v5 main_call2.v13 (fun x i => Host.gather gather_S1024x16_S4096x200x1_S4096x200x16_2_0_n_n_0_2_116 x i),
    TRef.unary main_call2.v12 main_call2.v14 (broadcastInDim S4096x200x16 ![0, 1] bcast_S4096x200_S4096x200x16_0_1),
    TRef.nullary main_call2.cst (constant S_ .f32 0x7FC00000#32),
    TRef.unary main_call2.cst main_call2.v15 (broadcastInDim S4096x200x16 ![] bcast_S_S4096x200x16),
    TRef.ternary main_call2.v14 main_call2.v13 main_call2.v15 main_call2.v16 select,
    nullary main_cst_1 (constant S_ .f32 0x00000000#32),
    binary main_v5 main_cst_1 main_v6 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_2 (constant S_ .f32 0x43480000#32),
    unary main_cst_2 main_v7 (broadcastInDim S4096x16 ![] bcast_S_S4096x16 : (⟨S_, .f32⟩ : BufTy).Contents (Elt F) → (⟨S4096x16, .f32⟩ : BufTy).Contents (Elt F)),
    binary main_v6 main_v7 main_v8 (Host.divf : (⟨S4096x16, .f32⟩ : BufTy).Contents (Elt F) → (⟨S4096x16, .f32⟩ : BufTy).Contents (Elt F) → (⟨S4096x16, .f32⟩ : BufTy).Contents (Elt F)) ]

abbrev seg3 : List (HloOp τ sig (Elt F)) :=
  [ TRef.nullary main_call3.c (constantI S_ 32 0#32),
    TRef.unary main_call3.c main_call3.v0 (broadcastInDim S4096x200 ![] bcast_S_S4096x200),
    TRef.binary (.of main_v0 : TRef sig ⟨S4096x200, .i32⟩) main_call3.v0 main_call3.v1 (cmpi .slt),
    TRef.nullary main_call3.c_0 (constantI S_ 32 1024#32),
    TRef.unary main_call3.c_0 main_call3.v2 (broadcastInDim S4096x200 ![] bcast_S_S4096x200),
    TRef.binary (.of main_v0 : TRef sig ⟨S4096x200, .i32⟩) main_call3.v2 main_call3.v3 addi,
    TRef.ternary main_call3.v1 main_call3.v3 (.of main_v0 : TRef sig ⟨S4096x200, .i32⟩) main_call3.call0.v0 select,
    TRef.unary main_call3.call0.v0 main_call3.v5 (broadcastInDim S4096x200x1 ![0, 1] bcast_S4096x200_S4096x200x1_0_1),
    TRef.nullary main_call3.c_1 (constantI S1 32 1023#32),
    TRef.nullary main_call3.c_2 (constantI S_ 32 0#32),
    TRef.unary main_call3.c_2 main_call3.v6 (broadcastInDim S4096x200x1 ![] bcast_S_S4096x200x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S4096x200x1 ![0, 1, 2] bcast_S1x1x1_S4096x200x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4096x200x1_S4096x200_d2 h_S_),
    TRef.binary (.of main_arg4 : TRef sig ⟨S1024x16, .f32⟩) main_call3.v5 main_call3.v13 (fun x i => Host.gather gather_S1024x16_S4096x200x1_S4096x200x16_2_0_n_n_0_2_116 x i),
    TRef.unary main_call3.v12 main_call3.v14 (broadcastInDim S4096x200x16 ![0, 1] bcast_S4096x200_S4096x200x16_0_1),
    TRef.nullary main_call3.cst (constant S_ .f32 0x7FC00000#32),
    TRef.unary main_call3.cst main_call3.v15 (broadcastInDim S4096x200x16 ![] bcast_S_S4096x200x16),
    TRef.ternary main_call3.v14 main_call3.v13 main_call3.v15 main_call3.v16 select,
    nullary main_cst_3 (constant S_ .f32 0x00000000#32),
    binary main_v9 main_cst_3 main_v10 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_4 (constant S_ .f32 0x43480000#32),
    unary main_cst_4 main_v11 (broadcastInDim S4096x16 ![] bcast_S_S4096x16 : (⟨S_, .f32⟩ : BufTy).Contents (Elt F) → (⟨S4096x16, .f32⟩ : BufTy).Contents (Elt F)),
    binary main_v10 main_v11 main_v12 (Host.divf : (⟨S4096x16, .f32⟩ : BufTy).Contents (Elt F) → (⟨S4096x16, .f32⟩ : BufTy).Contents (Elt F) → (⟨S4096x16, .f32⟩ : BufTy).Contents (Elt F)) ]

abbrev seg4 : List (HloOp τ sig (Elt F)) :=
  [ TRef.nullary main_call4.c (constantI S_ 32 0#32),
    TRef.unary main_call4.c main_call4.v0 (broadcastInDim S4096x200 ![] bcast_S_S4096x200),
    TRef.binary (.of main_v0 : TRef sig ⟨S4096x200, .i32⟩) main_call4.v0 main_call4.v1 (cmpi .slt),
    TRef.nullary main_call4.c_0 (constantI S_ 32 1024#32),
    TRef.unary main_call4.c_0 main_call4.v2 (broadcastInDim S4096x200 ![] bcast_S_S4096x200),
    TRef.binary (.of main_v0 : TRef sig ⟨S4096x200, .i32⟩) main_call4.v2 main_call4.v3 addi,
    TRef.ternary main_call4.v1 main_call4.v3 (.of main_v0 : TRef sig ⟨S4096x200, .i32⟩) main_call4.call0.v0 select,
    TRef.unary main_call4.call0.v0 main_call4.v5 (broadcastInDim S4096x200x1 ![0, 1] bcast_S4096x200_S4096x200x1_0_1),
    TRef.nullary main_call4.c_1 (constantI S1 32 1023#32),
    TRef.nullary main_call4.c_2 (constantI S_ 32 0#32),
    TRef.unary main_call4.c_2 main_call4.v6 (broadcastInDim S4096x200x1 ![] bcast_S_S4096x200x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S4096x200x1 ![0, 1, 2] bcast_S1x1x1_S4096x200x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S4096x200x1_S4096x200_d2 h_S_),
    TRef.binary (.of main_arg5 : TRef sig ⟨S1024x16, .f32⟩) main_call4.v5 main_call4.v13 (fun x i => Host.gather gather_S1024x16_S4096x200x1_S4096x200x16_2_0_n_n_0_2_116 x i),
    TRef.unary main_call4.v12 main_call4.v14 (broadcastInDim S4096x200x16 ![0, 1] bcast_S4096x200_S4096x200x16_0_1),
    TRef.nullary main_call4.cst (constant S_ .f32 0x7FC00000#32),
    TRef.unary main_call4.cst main_call4.v15 (broadcastInDim S4096x200x16 ![] bcast_S_S4096x200x16),
    TRef.ternary main_call4.v14 main_call4.v13 main_call4.v15 main_call4.v16 select,
    nullary main_cst_5 (constant S_ .f32 0x00000000#32),
    binary main_v13 main_cst_5 main_v14 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_6 (constant S_ .f32 0x43480000#32),
    unary main_cst_6 main_v15 (broadcastInDim S4096x16 ![] bcast_S_S4096x16 : (⟨S_, .f32⟩ : BufTy).Contents (Elt F) → (⟨S4096x16, .f32⟩ : BufTy).Contents (Elt F)),
    binary main_v14 main_v15 main_v16 (Host.divf : (⟨S4096x16, .f32⟩ : BufTy).Contents (Elt F) → (⟨S4096x16, .f32⟩ : BufTy).Contents (Elt F) → (⟨S4096x16, .f32⟩ : BufTy).Contents (Elt F)) ]

abbrev seg5 : List (HloOp τ sig (Elt F)) :=
  [ nary ![main_v4, main_v8, main_v12, main_v16] main_v17 (fun u => concatenate S4096x64 1 [⟨S4096x16, u 0⟩, ⟨S4096x16, u 1⟩, ⟨S4096x16, u 2⟩, ⟨S4096x16, u 3⟩] concatenates_S4096x16_S4096x16_S4096x16_S4096x16_S4096x64_d1),
    nullary main_cst_7 (constant S_ .f32 0x00000000#32),
    binary main_arg1 main_cst_7 main_v18 ((fun x v => Host.reduceAdd x v reducesTo_S4096x200x64_S4096x64_d1 h_S_) : (⟨S4096x200x64, .f32⟩ : BufTy).Contents (Elt F) → (⟨S_, .f32⟩ : BufTy).Contents (Elt F) → (⟨S4096x64, .f32⟩ : BufTy).Contents (Elt F)),
    nullary main_cst_8 (constant S_ .f32 0x43480000#32),
    unary main_cst_8 main_v19 (broadcastInDim S4096x64 ![] bcast_S_S4096x64 : (⟨S_, .f32⟩ : BufTy).Contents (Elt F) → (⟨S4096x64, .f32⟩ : BufTy).Contents (Elt F)),
    binary main_v18 main_v19 main_v20 (Host.divf : (⟨S4096x64, .f32⟩ : BufTy).Contents (Elt F) → (⟨S4096x64, .f32⟩ : BufTy).Contents (Elt F) → (⟨S4096x64, .f32⟩ : BufTy).Contents (Elt F)),
    binary main_v17 main_v20 main_v21 (addf : (⟨S4096x64, .f32⟩ : BufTy).Contents (Elt F) → (⟨S4096x64, .f32⟩ : BufTy).Contents (Elt F) → (⟨S4096x64, .f32⟩ : BufTy).Contents (Elt F)),
    unary main_arg6 main_v22 ((transpose S64x64 [1, 0] · transposes_S64x64_S64x64_1_0) : (⟨S64x64, .f32⟩ : BufTy).Contents (Elt F) → (⟨S64x64, .f32⟩ : BufTy).Contents (Elt F)),
    binary main_v21 main_v22 main_v23 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg7 main_v24 (broadcastInDim S1x64 ![1] bcast_S64_S1x64_1 : (⟨S64, .f32⟩ : BufTy).Contents (Elt F) → (⟨S1x64, .f32⟩ : BufTy).Contents (Elt F)),
    unary main_v24 main_v25 (broadcastInDim S4096x64 ![0, 1] bcast_S1x64_S4096x64_0_1 : (⟨S1x64, .f32⟩ : BufTy).Contents (Elt F) → (⟨S4096x64, .f32⟩ : BufTy).Contents (Elt F)),
    binary main_v23 main_v25 main_v26 (addf : (⟨S4096x64, .f32⟩ : BufTy).Contents (Elt F) → (⟨S4096x64, .f32⟩ : BufTy).Contents (Elt F) → (⟨S4096x64, .f32⟩ : BufTy).Contents (Elt F)) ]

abbrev W0 : List (Ref sig .tc) :=
  [main_c, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_call0.v15.ref]
abbrev W1 : List (Ref sig .tc) :=
  [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref, main_cst, main_v2, main_cst_0, main_v3, main_v4]
abbrev W2 : List (Ref sig .tc) :=
  [main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref, main_cst_1, main_v6, main_cst_2, main_v7, main_v8]
abbrev W3 : List (Ref sig .tc) :=
  [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref, main_cst_3, main_v10, main_cst_4, main_v11, main_v12]
abbrev W4 : List (Ref sig .tc) :=
  [main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.v14.ref, main_call4.cst.ref, main_call4.v15.ref, main_call4.v16.ref, main_cst_5, main_v14, main_cst_6, main_v15, main_v16]
abbrev W5 : List (Ref sig .tc) :=
  [main_v17, main_cst_7, main_v18, main_cst_8, main_v19, main_v20, main_v21, main_v22, main_v23, main_v24, main_v25, main_v26]

theorem ops_eq : (ops : List (HloOp τ sig (Elt F))) = seg0 ++ seg1 ++ seg2 ++ seg3 ++ seg4 ++ seg5 := rfl

end Cert.RefSide

end
-- ==== Proof.RefPres0.lean ====
/-
  Piece 0 of the reference's line writes only the buffers of its list: every other buffer keeps its contents
  across the piece.
-/
import proofs.«215258_g80247168959020_cont_9to1_m_796_9_alg».proof.Proof.RefSegs

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem hW0 : (seg0 : List (HloOp τ sig (Elt F))).Forall fun op => op.writes ⊆ (W0.map (Proc.devRef (τ := τ) .tc)).toFinset :=
  ⟨writes_sub_of_mem (y := main_c) rfl (by decide),
    writes_sub_of_mem (y := main_call0.v0.ref) rfl (by decide),
    writes_sub_of_mem (y := main_call0.c.ref) rfl (by decide),
    writes_sub_of_mem (y := main_call0.v1.ref) rfl (by decide),
    writes_sub_of_mem (y := main_call0.c_0.ref) rfl (by decide),
    writes_sub_of_mem (y := main_call0.call0.v0.ref) rfl (by decide),
    writes_sub_of_mem (y := main_call0.v3.ref) rfl (by decide),
    writes_sub_of_mem (y := main_call0.v4.ref) rfl (by decide),
    writes_sub_of_mem (y := main_call0.c_1.ref) rfl (by decide),
    writes_sub_of_mem (y := main_call0.v5.ref) rfl (by decide),
    writes_sub_of_mem (y := main_call0.v6.ref) rfl (by decide),
    writes_sub_of_mem (y := main_call0.c_2.ref) rfl (by decide),
    writes_sub_of_mem (y := main_call0.v7.ref) rfl (by decide),
    writes_sub_of_mem (y := main_call0.v8.ref) rfl (by decide),
    writes_sub_of_mem (y := main_call0.c_3.ref) rfl (by decide),
    writes_sub_of_mem (y := main_call0.v9.ref) rfl (by decide),
    writes_sub_of_mem (y := main_call0.v10.ref) rfl (by decide),
    writes_sub_of_mem (y := main_call0.v11.ref) rfl (by decide),
    writes_sub_of_mem (y := main_call0.v12.ref) rfl (by decide),
    writes_sub_of_mem (y := main_call0.v13.ref) rfl (by decide),
    writes_sub_of_mem (y := main_call0.v14.ref) rfl (by decide),
    writes_sub_of_mem (y := main_call0.v15.ref) rfl (by decide)⟩
theorem pres0 (V : Valuation τ sig (Elt F)) {r : Ref sig .tc} (hr : r ∉ W0) :
    after seg0 V (Proc.devRef .tc r) = V (Proc.devRef .tc r) := after_of_writes_sub seg0 V hW0 hr

end Cert.RefSide

end
-- ==== Proof.RefPres1.lean ====
/-
  Piece 1 of the reference's line writes only the buffers of its list: every other buffer keeps its contents
  across the piece.
-/
import proofs.«215258_g80247168959020_cont_9to1_m_796_9_alg».proof.Proof.RefSegs

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem hW1 : (seg1 : List (HloOp τ sig (Elt F))).Forall fun op => op.writes ⊆ (W1.map (Proc.devRef (τ := τ) .tc)).toFinset :=
  ⟨writes_sub_of_mem (y := main_call1.c.ref) rfl (by decide),
    writes_sub_of_mem (y := main_call1.v0.ref) rfl (by decide),
    writes_sub_of_mem (y := main_call1.v1.ref) rfl (by decide),
    writes_sub_of_mem (y := main_call1.c_0.ref) rfl (by decide),
    writes_sub_of_mem (y := main_call1.v2.ref) rfl (by decide),
    writes_sub_of_mem (y := main_call1.v3.ref) rfl (by decide),
    writes_sub_of_mem (y := main_call1.call0.v0.ref) rfl (by decide),
    writes_sub_of_mem (y := main_call1.v5.ref) rfl (by decide),
    writes_sub_of_mem (y := main_call1.c_1.ref) rfl (by decide),
    writes_sub_of_mem (y := main_call1.c_2.ref) rfl (by decide),
    writes_sub_of_mem (y := main_call1.v6.ref) rfl (by decide),
    writes_sub_of_mem (y := main_call1.v7.ref) rfl (by decide),
    writes_sub_of_mem (y := main_call1.v8.ref) rfl (by decide),
    writes_sub_of_mem (y := main_call1.v9.ref) rfl (by decide),
    writes_sub_of_mem (y := main_call1.v10.ref) rfl (by decide),
    writes_sub_of_mem (y := main_call1.v11.ref) rfl (by decide),
    writes_sub_of_mem (y := main_call1.c_3.ref) rfl (by decide),
    writes_sub_of_mem (y := main_call1.v12.ref) rfl (by decide),
    writes_sub_of_mem (y := main_call1.v13.ref) rfl (by decide),
    writes_sub_of_mem (y := main_call1.v14.ref) rfl (by decide),
    writes_sub_of_mem (y := main_call1.cst.ref) rfl (by decide),
    writes_sub_of_mem (y := main_call1.v15.ref) rfl (by decide),
    writes_sub_of_mem (y := main_call1.v16.ref) rfl (by decide),
    writes_sub_of_mem (y := main_cst) rfl (by decide),
    writes_sub_of_mem (y := main_v2) rfl (by decide),
    writes_sub_of_mem (y := main_cst_0) rfl (by decide),
    writes_sub_of_mem (y := main_v3) rfl (by decide),
    writes_sub_of_mem (y := main_v4) rfl (by decide)⟩
theorem pres1 (V : Valuation τ sig (Elt F)) {r : Ref sig .tc} (hr : r ∉ W1) :
    after seg1 V (Proc.devRef .tc r) = V (Proc.devRef .tc r) := after_of_writes_sub seg1 V hW1 hr

end Cert.RefSide

end
-- ==== Proof.RefPres2.lean ====
/-
  Piece 2 of the reference's line writes only the buffers of its list: every other buffer keeps its contents
  across the piece.
-/
import proofs.«215258_g80247168959020_cont_9to1_m_796_9_alg».proof.Proof.RefSegs

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem hW2 : (seg2 : List (HloOp τ sig (Elt F))).Forall fun op => op.writes ⊆ (W2.map (Proc.devRef (τ := τ) .tc)).toFinset :=
  ⟨writes_sub_of_mem (y := main_call2.c.ref) rfl (by decide),
    writes_sub_of_mem (y := main_call2.v0.ref) rfl (by decide),
    writes_sub_of_mem (y := main_call2.v1.ref) rfl (by decide),
    writes_sub_of_mem (y := main_call2.c_0.ref) rfl (by decide),
    writes_sub_of_mem (y := main_call2.v2.ref) rfl (by decide),
    writes_sub_of_mem (y := main_call2.v3.ref) rfl (by decide),
    writes_sub_of_mem (y := main_call2.call0.v0.ref) rfl (by decide),
    writes_sub_of_mem (y := main_call2.v5.ref) rfl (by decide),
    writes_sub_of_mem (y := main_call2.c_1.ref) rfl (by decide),
    writes_sub_of_mem (y := main_call2.c_2.ref) rfl (by decide),
    writes_sub_of_mem (y := main_call2.v6.ref) rfl (by decide),
    writes_sub_of_mem (y := main_call2.v7.ref) rfl (by decide),
    writes_sub_of_mem (y := main_call2.v8.ref) rfl (by decide),
    writes_sub_of_mem (y := main_call2.v9.ref) rfl (by decide),
    writes_sub_of_mem (y := main_call2.v10.ref) rfl (by decide),
    writes_sub_of_mem (y := main_call2.v11.ref) rfl (by decide),
    writes_sub_of_mem (y := main_call2.c_3.ref) rfl (by decide),
    writes_sub_of_mem (y := main_call2.v12.ref) rfl (by decide),
    writes_sub_of_mem (y := main_call2.v13.ref) rfl (by decide),
    writes_sub_of_mem (y := main_call2.v14.ref) rfl (by decide),
    writes_sub_of_mem (y := main_call2.cst.ref) rfl (by decide),
    writes_sub_of_mem (y := main_call2.v15.ref) rfl (by decide),
    writes_sub_of_mem (y := main_call2.v16.ref) rfl (by decide),
    writes_sub_of_mem (y := main_cst_1) rfl (by decide),
    writes_sub_of_mem (y := main_v6) rfl (by decide),
    writes_sub_of_mem (y := main_cst_2) rfl (by decide),
    writes_sub_of_mem (y := main_v7) rfl (by decide),
    writes_sub_of_mem (y := main_v8) rfl (by decide)⟩
theorem pres2 (V : Valuation τ sig (Elt F)) {r : Ref sig .tc} (hr : r ∉ W2) :
    after seg2 V (Proc.devRef .tc r) = V (Proc.devRef .tc r) := after_of_writes_sub seg2 V hW2 hr

end Cert.RefSide

end
-- ==== Proof.RefPres3.lean ====
/-
  Piece 3 of the reference's line writes only the buffers of its list: every other buffer keeps its contents
  across the piece.
-/
import proofs.«215258_g80247168959020_cont_9to1_m_796_9_alg».proof.Proof.RefSegs

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem hW3 : (seg3 : List (HloOp τ sig (Elt F))).Forall fun op => op.writes ⊆ (W3.map (Proc.devRef (τ := τ) .tc)).toFinset :=
  ⟨writes_sub_of_mem (y := main_call3.c.ref) rfl (by decide),
    writes_sub_of_mem (y := main_call3.v0.ref) rfl (by decide),
    writes_sub_of_mem (y := main_call3.v1.ref) rfl (by decide),
    writes_sub_of_mem (y := main_call3.c_0.ref) rfl (by decide),
    writes_sub_of_mem (y := main_call3.v2.ref) rfl (by decide),
    writes_sub_of_mem (y := main_call3.v3.ref) rfl (by decide),
    writes_sub_of_mem (y := main_call3.call0.v0.ref) rfl (by decide),
    writes_sub_of_mem (y := main_call3.v5.ref) rfl (by decide),
    writes_sub_of_mem (y := main_call3.c_1.ref) rfl (by decide),
    writes_sub_of_mem (y := main_call3.c_2.ref) rfl (by decide),
    writes_sub_of_mem (y := main_call3.v6.ref) rfl (by decide),
    writes_sub_of_mem (y := main_call3.v7.ref) rfl (by decide),
    writes_sub_of_mem (y := main_call3.v8.ref) rfl (by decide),
    writes_sub_of_mem (y := main_call3.v9.ref) rfl (by decide),
    writes_sub_of_mem (y := main_call3.v10.ref) rfl (by decide),
    writes_sub_of_mem (y := main_call3.v11.ref) rfl (by decide),
    writes_sub_of_mem (y := main_call3.c_3.ref) rfl (by decide),
    writes_sub_of_mem (y := main_call3.v12.ref) rfl (by decide),
    writes_sub_of_mem (y := main_call3.v13.ref) rfl (by decide),
    writes_sub_of_mem (y := main_call3.v14.ref) rfl (by decide),
    writes_sub_of_mem (y := main_call3.cst.ref) rfl (by decide),
    writes_sub_of_mem (y := main_call3.v15.ref) rfl (by decide),
    writes_sub_of_mem (y := main_call3.v16.ref) rfl (by decide),
    writes_sub_of_mem (y := main_cst_3) rfl (by decide),
    writes_sub_of_mem (y := main_v10) rfl (by decide),
    writes_sub_of_mem (y := main_cst_4) rfl (by decide),
    writes_sub_of_mem (y := main_v11) rfl (by decide),
    writes_sub_of_mem (y := main_v12) rfl (by decide)⟩
theorem pres3 (V : Valuation τ sig (Elt F)) {r : Ref sig .tc} (hr : r ∉ W3) :
    after seg3 V (Proc.devRef .tc r) = V (Proc.devRef .tc r) := after_of_writes_sub seg3 V hW3 hr

end Cert.RefSide

end
-- ==== Proof.RefPres4.lean ====
/-
  Piece 4 of the reference's line writes only the buffers of its list: every other buffer keeps its contents
  across the piece.
-/
import proofs.«215258_g80247168959020_cont_9to1_m_796_9_alg».proof.Proof.RefSegs

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem hW4 : (seg4 : List (HloOp τ sig (Elt F))).Forall fun op => op.writes ⊆ (W4.map (Proc.devRef (τ := τ) .tc)).toFinset :=
  ⟨writes_sub_of_mem (y := main_call4.c.ref) rfl (by decide),
    writes_sub_of_mem (y := main_call4.v0.ref) rfl (by decide),
    writes_sub_of_mem (y := main_call4.v1.ref) rfl (by decide),
    writes_sub_of_mem (y := main_call4.c_0.ref) rfl (by decide),
    writes_sub_of_mem (y := main_call4.v2.ref) rfl (by decide),
    writes_sub_of_mem (y := main_call4.v3.ref) rfl (by decide),
    writes_sub_of_mem (y := main_call4.call0.v0.ref) rfl (by decide),
    writes_sub_of_mem (y := main_call4.v5.ref) rfl (by decide),
    writes_sub_of_mem (y := main_call4.c_1.ref) rfl (by decide),
    writes_sub_of_mem (y := main_call4.c_2.ref) rfl (by decide),
    writes_sub_of_mem (y := main_call4.v6.ref) rfl (by decide),
    writes_sub_of_mem (y := main_call4.v7.ref) rfl (by decide),
    writes_sub_of_mem (y := main_call4.v8.ref) rfl (by decide),
    writes_sub_of_mem (y := main_call4.v9.ref) rfl (by decide),
    writes_sub_of_mem (y := main_call4.v10.ref) rfl (by decide),
    writes_sub_of_mem (y := main_call4.v11.ref) rfl (by decide),
    writes_sub_of_mem (y := main_call4.c_3.ref) rfl (by decide),
    writes_sub_of_mem (y := main_call4.v12.ref) rfl (by decide),
    writes_sub_of_mem (y := main_call4.v13.ref) rfl (by decide),
    writes_sub_of_mem (y := main_call4.v14.ref) rfl (by decide),
    writes_sub_of_mem (y := main_call4.cst.ref) rfl (by decide),
    writes_sub_of_mem (y := main_call4.v15.ref) rfl (by decide),
    writes_sub_of_mem (y := main_call4.v16.ref) rfl (by decide),
    writes_sub_of_mem (y := main_cst_5) rfl (by decide),
    writes_sub_of_mem (y := main_v14) rfl (by decide),
    writes_sub_of_mem (y := main_cst_6) rfl (by decide),
    writes_sub_of_mem (y := main_v15) rfl (by decide),
    writes_sub_of_mem (y := main_v16) rfl (by decide)⟩
theorem pres4 (V : Valuation τ sig (Elt F)) {r : Ref sig .tc} (hr : r ∉ W4) :
    after seg4 V (Proc.devRef .tc r) = V (Proc.devRef .tc r) := after_of_writes_sub seg4 V hW4 hr

end Cert.RefSide

end
-- ==== Proof.RefPres5.lean ====
/-
  Piece 5 of the reference's line writes only the buffers of its list: every other buffer keeps its contents
  across the piece.
-/
import proofs.«215258_g80247168959020_cont_9to1_m_796_9_alg».proof.Proof.RefSegs

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem hW5 : (seg5 : List (HloOp τ sig (Elt F))).Forall fun op => op.writes ⊆ (W5.map (Proc.devRef (τ := τ) .tc)).toFinset :=
  ⟨writes_sub_of_mem (y := main_v17) rfl (by decide),
    writes_sub_of_mem (y := main_cst_7) rfl (by decide),
    writes_sub_of_mem (y := main_v18) rfl (by decide),
    writes_sub_of_mem (y := main_cst_8) rfl (by decide),
    writes_sub_of_mem (y := main_v19) rfl (by decide),
    writes_sub_of_mem (y := main_v20) rfl (by decide),
    writes_sub_of_mem (y := main_v21) rfl (by decide),
    writes_sub_of_mem (y := main_v22) rfl (by decide),
    writes_sub_of_mem (y := main_v23) rfl (by decide),
    writes_sub_of_mem (y := main_v24) rfl (by decide),
    writes_sub_of_mem (y := main_v25) rfl (by decide),
    writes_sub_of_mem (y := main_v26) rfl (by decide)⟩
theorem pres5 (V : Valuation τ sig (Elt F)) {r : Ref sig .tc} (hr : r ∉ W5) :
    after seg5 V (Proc.devRef .tc r) = V (Proc.devRef .tc r) := after_of_writes_sub seg5 V hW5 hr

end Cert.RefSide

end
-- ==== Proof.RefTerms.lean ====
/-
  The reference's result as ONE term over its eight argument arrays: the operations' functions composed in
  the order the program applies them — jnp's remainder of the ids by 1024, the look-up of each hash table at
  it, the mean over the 200 positions, the four means side by side plus the embeddings' mean, the
  contraction against the transposed weights, the bias on every row.
-/
import proofs.«215258_g80247168959020_cont_9to1_m_796_9_alg».proof.Proof.Gen.ReferenceIdeal

noncomputable section

namespace Cert.RefSide

open Cert.ReferenceIdeal Cert.ReferenceIdeal.Gen Idealize.ShloMosaic Idealize.SL.Sem

variable {F : FTy → Type} [FloatOps F]

/-- The scalar divisor of the remainder: 1024, or 1 were it 0 (the guard jnp puts before an integer remainder). -/
def divisorT : IVec S_ 32 :=
  select (cmpi .eq (id (constantI S_ 32 1024#32)) (constantI S_ 32 0#32)) (constantI S_ 32 1#32) (id (constantI S_ 32 1024#32))

/-- jnp's remainder of every id by 1024: the truncated remainder, moved by the divisor where its sign differs from the
    divisor's and it is not zero. -/
def remT (x : IVec S4096x200 32) : IVec S4096x200 32 :=
  select
    (andi
      (cmpi .ne
        (cmpi .slt (Host.remsi x (broadcastInDim S4096x200 ![] bcast_S_S4096x200 divisorT)) (broadcastInDim S4096x200 ![] bcast_S_S4096x200 (constantI S_ 32 0#32)))
        (broadcastInDim S4096x200 ![] bcast_S_S4096x200 (cmpi .slt divisorT (constantI S_ 32 0#32))))
      (cmpi .ne (Host.remsi x (broadcastInDim S4096x200 ![] bcast_S_S4096x200 divisorT)) (broadcastInDim S4096x200 ![] bcast_S_S4096x200 (constantI S_ 32 0#32))))
    (addi (Host.remsi x (broadcastInDim S4096x200 ![] bcast_S_S4096x200 divisorT)) (broadcastInDim S4096x200 ![] bcast_S_S4096x200 divisorT))
    (Host.remsi x (broadcastInDim S4096x200 ![] bcast_S_S4096x200 divisorT))

/-- The look-up's index after jnp's normalisation: 1024 added to a negative one. -/
def normT (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 1024#32))) x

/-- The normalised index as a column of start indices. -/
def startT (x : IVec S4096x200 32) : IVec S4096x200x1 32 :=
  broadcastInDim S4096x200x1 ![0, 1] bcast_S4096x200_S4096x200x1_0_1 (normT x)

/-- Whether each start index lies in [0, 1023]. -/
def inRangeT (x : IVec S4096x200 32) : IVec S4096x200 1 :=
  Host.reduce IntOp.andi
    (andi (cmpi .sge (startT x) (broadcastInDim S4096x200x1 ![] bcast_S_S4096x200x1 (constantI S_ 32 0#32)))
      (cmpi .sle (startT x) (broadcastInDim S4096x200x1 ![0, 1, 2] bcast_S1x1x1_S4096x200x1_0_1_2 (broadcastInDim S1x1x1 ![2] bcast_S1_S1x1x1_2 (constantI S1 32 1023#32)))))
    (constantI S_ 1 1#1) reducesTo_S4096x200x1_S4096x200_d2 h_S_

/-- jnp.take(H, x, axis = 0): row x[p, s] of the table at [p, s, :], not-a-number where the index is out of range. -/
def takeT (H : FVec F S1024x16 .f32) (x : IVec S4096x200 32) : FVec F S4096x200x16 .f32 :=
  select (broadcastInDim S4096x200x16 ![0, 1] bcast_S4096x200_S4096x200x16_0_1 (inRangeT x))
    (Host.gather gather_S1024x16_S4096x200x1_S4096x200x16_2_0_n_n_0_2_116 H (startT x))
    (broadcastInDim S4096x200x16 ![] bcast_S_S4096x200x16 (constant S_ .f32 0x7FC00000#32))

/-- The mean over the 200 positions of a [4096, 200, 16] array: the sum from zero, divided by 200. -/
def mean16T (x : FVec F S4096x200x16 .f32) : FVec F S4096x16 .f32 :=
  Host.divf (Host.reduceAdd x (constant S_ .f32 0x00000000#32) reducesTo_S4096x200x16_S4096x16_d1 h_S_)
    (broadcastInDim S4096x16 ![] bcast_S_S4096x16 (constant S_ .f32 0x43480000#32))

/-- The mean over the 200 positions of a [4096, 200, 64] array. -/
def mean64T (x : FVec F S4096x200x64 .f32) : FVec F S4096x64 .f32 :=
  Host.divf (Host.reduceAdd x (constant S_ .f32 0x00000000#32) reducesTo_S4096x200x64_S4096x64_d1 h_S_)
    (broadcastInDim S4096x64 ![] bcast_S_S4096x64 (constant S_ .f32 0x43480000#32))

/-- What the program does with the four tables' means `a b c d`, the embeddings, the weights and the bias: the means side
    by side plus the embeddings' mean, against the transposed weights, plus the bias on every row. -/
def tailT (a b c d : FVec F S4096x16 .f32) (emb : FVec F S4096x200x64 .f32) (W : FVec F S64x64 .f32) (bias : FVec F S64 .f32) :
    FVec F S4096x64 .f32 :=
  addf
    (Host.dotGeneral dot_S4096x64_S64x64_S4096x64_1_0_0_1_n_n none
      (addf
        (concatenate S4096x64 1 [⟨S4096x16, a⟩, ⟨S4096x16, b⟩, ⟨S4096x16, c⟩, ⟨S4096x16, d⟩]
          concatenates_S4096x16_S4096x16_S4096x16_S4096x16_S4096x64_d1)
        (mean64T emb))
      (transpose S64x64 [1, 0] W transposes_S64x64_S64x64_1_0))
    (broadcastInDim S4096x64 ![0, 1] bcast_S1x64_S4096x64_0_1 (broadcastInDim S1x64 ![1] bcast_S64_S1x64_1 bias))

/-- The reference's result as a function of its eight arguments. -/
def outT (ids : IVec S4096x200 32) (emb : FVec F S4096x200x64 .f32) (H0 H1 H2 H3 : FVec F S1024x16 .f32)
    (W : FVec F S64x64 .f32) (b : FVec F S64 .f32) : FVec F S4096x64 .f32 :=
  tailT (mean16T (takeT H0 (remT ids))) (mean16T (takeT H1 (remT ids))) (mean16T (takeT H2 (remT ids)))
    (mean16T (takeT H3 (remT ids))) emb W b

end Cert.RefSide

end
-- ==== Proof.RefVal0.lean ====
/-
  The first piece of the reference's line leaves jnp's remainder of the ids by 1024 in the buffer the look-ups read.
-/
import proofs.«215258_g80247168959020_cont_9to1_m_796_9_alg».proof.Proof.RefSegs
import proofs.«215258_g80247168959020_cont_9to1_m_796_9_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather Host.reduceAdd concatenate transpose broadcastInDim Host.remsi Host.divf in
set_option maxRecDepth 16384 in
set_option maxHeartbeats 1600000 in
theorem val0 (V : Valuation τ sig (Elt F)) :
    after seg0 V (main_v0 : DevRef τ sig) = remT (V (main_arg0 : DevRef τ sig)) := by
  after_results_simp
  rfl

end Cert.RefSide

end
-- ==== Proof.RefTake.lean ====
/-
  The look-up, factored through its column of start indices: the range test and the guarded gather as functions of
  that column, so that the look-up's operations can be read in short stretches. Both are the look-up's own terms
  with the start indices named.
-/
import proofs.«215258_g80247168959020_cont_9to1_m_796_9_alg».proof.Proof.RefTerms

noncomputable section

namespace Cert.RefSide

open Cert.ReferenceIdeal Cert.ReferenceIdeal.Gen Idealize.ShloMosaic Idealize.SL.Sem

variable {F : FTy → Type} [FloatOps F]

/-- Whether each start index lies in [0, 1023]. -/
def inRangeOfT (s : IVec S4096x200x1 32) : IVec S4096x200 1 :=
  Host.reduce IntOp.andi
    (andi (cmpi .sge s (broadcastInDim S4096x200x1 ![] bcast_S_S4096x200x1 (constantI S_ 32 0#32)))
      (cmpi .sle s (broadcastInDim S4096x200x1 ![0, 1, 2] bcast_S1x1x1_S4096x200x1_0_1_2 (broadcastInDim S1x1x1 ![2] bcast_S1_S1x1x1_2 (constantI S1 32 1023#32)))))
    (constantI S_ 1 1#1) reducesTo_S4096x200x1_S4096x200_d2 h_S_

/-- The rows of a table at a column of start indices, not-a-number where the range test `r` fails. -/
def takeOfT (H : FVec F S1024x16 .f32) (s : IVec S4096x200x1 32) (r : IVec S4096x200 1) : FVec F S4096x200x16 .f32 :=
  select (broadcastInDim S4096x200x16 ![0, 1] bcast_S4096x200_S4096x200x16_0_1 r)
    (Host.gather gather_S1024x16_S4096x200x1_S4096x200x16_2_0_n_n_0_2_116 H s)
    (broadcastInDim S4096x200x16 ![] bcast_S_S4096x200x16 (constant S_ .f32 0x7FC00000#32))

theorem inRangeT_eq (x : IVec S4096x200 32) : inRangeT x = inRangeOfT (startT x) := rfl
theorem takeT_eq (H : FVec F S1024x16 .f32) (x : IVec S4096x200 32) : takeT H x = takeOfT H (startT x) (inRangeOfT (startT x)) := rfl

end Cert.RefSide

end
-- ==== Proof.RefVal1.lean ====
/-
  The piece of the reference's line that handles the first hash table, read in four stretches — the index
  normalised and laid out as a column of start indices; the range test; the guarded gather; the sum over the positions
  and the division — and put together: it leaves the mean over the positions of the table's looked-up rows in its
  result buffer.
-/
import proofs.«215258_g80247168959020_cont_9to1_m_796_9_alg».proof.Proof.RefSegs
import proofs.«215258_g80247168959020_cont_9to1_m_796_9_alg».proof.Proof.RefTerms
import proofs.«215258_g80247168959020_cont_9to1_m_796_9_alg».proof.Proof.RefTake

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

abbrev seg1A : List (HloOp τ sig (Elt F)) :=
  [ TRef.nullary main_call1.c (constantI S_ 32 0#32),
    TRef.unary main_call1.c main_call1.v0 (broadcastInDim S4096x200 ![] bcast_S_S4096x200),
    TRef.binary (.of main_v0 : TRef sig ⟨S4096x200, .i32⟩) main_call1.v0 main_call1.v1 (cmpi .slt),
    TRef.nullary main_call1.c_0 (constantI S_ 32 1024#32),
    TRef.unary main_call1.c_0 main_call1.v2 (broadcastInDim S4096x200 ![] bcast_S_S4096x200),
    TRef.binary (.of main_v0 : TRef sig ⟨S4096x200, .i32⟩) main_call1.v2 main_call1.v3 addi,
    TRef.ternary main_call1.v1 main_call1.v3 (.of main_v0 : TRef sig ⟨S4096x200, .i32⟩) main_call1.call0.v0 select,
    TRef.unary main_call1.call0.v0 main_call1.v5 (broadcastInDim S4096x200x1 ![0, 1] bcast_S4096x200_S4096x200x1_0_1) ]

abbrev seg1B : List (HloOp τ sig (Elt F)) :=
  [ TRef.nullary main_call1.c_1 (constantI S1 32 1023#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_) ]

abbrev seg1C : List (HloOp τ sig (Elt F)) :=
  [ TRef.binary (.of main_arg2 : TRef sig ⟨S1024x16, .f32⟩) main_call1.v5 main_call1.v13 (fun x i => Host.gather gather_S1024x16_S4096x200x1_S4096x200x16_2_0_n_n_0_2_116 x i),
    TRef.unary main_call1.v12 main_call1.v14 (broadcastInDim S4096x200x16 ![0, 1] bcast_S4096x200_S4096x200x16_0_1),
    TRef.nullary main_call1.cst (constant S_ .f32 0x7FC00000#32),
    TRef.unary main_call1.cst main_call1.v15 (broadcastInDim S4096x200x16 ![] bcast_S_S4096x200x16),
    TRef.ternary main_call1.v14 main_call1.v13 main_call1.v15 main_call1.v16 select ]

abbrev seg1D : List (HloOp τ sig (Elt F)) :=
  [ nullary main_cst (constant S_ .f32 0x00000000#32),
    binary main_v1 main_cst main_v2 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_0 (constant S_ .f32 0x43480000#32),
    unary main_cst_0 main_v3 (broadcastInDim S4096x16 ![] bcast_S_S4096x16 : (⟨S_, .f32⟩ : BufTy).Contents (Elt F) → (⟨S4096x16, .f32⟩ : BufTy).Contents (Elt F)),
    binary main_v2 main_v3 main_v4 (Host.divf : (⟨S4096x16, .f32⟩ : BufTy).Contents (Elt F) → (⟨S4096x16, .f32⟩ : BufTy).Contents (Elt F) → (⟨S4096x16, .f32⟩ : BufTy).Contents (Elt F)) ]

/-- The piece is its four stretches one after the other. -/
theorem seg1_eq : (seg1 : List (HloOp τ sig (Elt F))) = seg1A ++ seg1B ++ seg1C ++ seg1D := rfl

abbrev W1A : List (Ref sig .tc) :=
  [main_call1.c.ref, main_call1.v0.ref, main_call1.v1.ref, main_call1.c_0.ref, main_call1.v2.ref, main_call1.v3.ref, main_call1.call0.v0.ref, main_call1.v5.ref]
theorem hW1A : (seg1A : List (HloOp τ sig (Elt F))).Forall fun op => op.writes ⊆ (W1A.map (Proc.devRef (τ := τ) .tc)).toFinset :=
  ⟨writes_sub_of_mem (y := main_call1.c.ref) rfl (by decide),
    writes_sub_of_mem (y := main_call1.v0.ref) rfl (by decide),
    writes_sub_of_mem (y := main_call1.v1.ref) rfl (by decide),
    writes_sub_of_mem (y := main_call1.c_0.ref) rfl (by decide),
    writes_sub_of_mem (y := main_call1.v2.ref) rfl (by decide),
    writes_sub_of_mem (y := main_call1.v3.ref) rfl (by decide),
    writes_sub_of_mem (y := main_call1.call0.v0.ref) rfl (by decide),
    writes_sub_of_mem (y := main_call1.v5.ref) rfl (by decide)⟩
theorem pres1A (V : Valuation τ sig (Elt F)) {r : Ref sig .tc} (hr : r ∉ W1A) :
    after seg1A V (Proc.devRef .tc r) = V (Proc.devRef .tc r) := after_of_writes_sub seg1A V hW1A hr

abbrev W1B : List (Ref sig .tc) :=
  [main_call1.c_1.ref, main_call1.c_2.ref, main_call1.v6.ref, main_call1.v7.ref, main_call1.v8.ref, main_call1.v9.ref, main_call1.v10.ref, main_call1.v11.ref, main_call1.c_3.ref, main_call1.v12.ref]
theorem hW1B : (seg1B : List (HloOp τ sig (Elt F))).Forall fun op => op.writes ⊆ (W1B.map (Proc.devRef (τ := τ) .tc)).toFinset :=
  ⟨writes_sub_of_mem (y := main_call1.c_1.ref) rfl (by decide),
    writes_sub_of_mem (y := main_call1.c_2.ref) rfl (by decide),
    writes_sub_of_mem (y := main_call1.v6.ref) rfl (by decide),
    writes_sub_of_mem (y := main_call1.v7.ref) rfl (by decide),
    writes_sub_of_mem (y := main_call1.v8.ref) rfl (by decide),
    writes_sub_of_mem (y := main_call1.v9.ref) rfl (by decide),
    writes_sub_of_mem (y := main_call1.v10.ref) rfl (by decide),
    writes_sub_of_mem (y := main_call1.v11.ref) rfl (by decide),
    writes_sub_of_mem (y := main_call1.c_3.ref) rfl (by decide),
    writes_sub_of_mem (y := main_call1.v12.ref) rfl (by decide)⟩
theorem pres1B (V : Valuation τ sig (Elt F)) {r : Ref sig .tc} (hr : r ∉ W1B) :
    after seg1B V (Proc.devRef .tc r) = V (Proc.devRef .tc r) := after_of_writes_sub seg1B V hW1B hr

abbrev W1C : List (Ref sig .tc) :=
  [main_call1.v13.ref, main_call1.v14.ref, main_call1.cst.ref, main_call1.v15.ref, main_call1.v16.ref]
theorem hW1C : (seg1C : List (HloOp τ sig (Elt F))).Forall fun op => op.writes ⊆ (W1C.map (Proc.devRef (τ := τ) .tc)).toFinset :=
  ⟨writes_sub_of_mem (y := main_call1.v13.ref) rfl (by decide),
    writes_sub_of_mem (y := main_call1.v14.ref) rfl (by decide),
    writes_sub_of_mem (y := main_call1.cst.ref) rfl (by decide),
    writes_sub_of_mem (y := main_call1.v15.ref) rfl (by decide),
    writes_sub_of_mem (y := main_call1.v16.ref) rfl (by decide)⟩
theorem pres1C (V : Valuation τ sig (Elt F)) {r : Ref sig .tc} (hr : r ∉ W1C) :
    after seg1C V (Proc.devRef .tc r) = V (Proc.devRef .tc r) := after_of_writes_sub seg1C V hW1C hr

abbrev W1D : List (Ref sig .tc) :=
  [main_cst, main_v2, main_cst_0, main_v3, main_v4]
theorem hW1D : (seg1D : List (HloOp τ sig (Elt F))).Forall fun op => op.writes ⊆ (W1D.map (Proc.devRef (τ := τ) .tc)).toFinset :=
  ⟨writes_sub_of_mem (y := main_cst) rfl (by decide),
    writes_sub_of_mem (y := main_v2) rfl (by decide),
    writes_sub_of_mem (y := main_cst_0) rfl (by decide),
    writes_sub_of_mem (y := main_v3) rfl (by decide),
    writes_sub_of_mem (y := main_v4) rfl (by decide)⟩
theorem pres1D (V : Valuation τ sig (Elt F)) {r : Ref sig .tc} (hr : r ∉ W1D) :
    after seg1D V (Proc.devRef .tc r) = V (Proc.devRef .tc r) := after_of_writes_sub seg1D V hW1D hr

attribute [local irreducible] Host.reduce Host.gather Host.reduceAdd concatenate transpose broadcastInDim Host.remsi Host.divf in
set_option maxRecDepth 16384 in
set_option maxHeartbeats 1600000 in
theorem val1A (V : Valuation τ sig (Elt F)) :
    after seg1A V (main_call1.v5.ref : DevRef τ sig) = startT (V (main_v0 : DevRef τ sig)) := by
  after_results_simp
  rfl

attribute [local irreducible] Host.reduce Host.gather Host.reduceAdd concatenate transpose broadcastInDim Host.remsi Host.divf in
set_option maxRecDepth 16384 in
set_option maxHeartbeats 1600000 in
theorem val1B (V : Valuation τ sig (Elt F)) :
    after seg1B V (main_call1.v12.ref : DevRef τ sig) = inRangeOfT (V (main_call1.v5.ref : DevRef τ sig)) := by
  after_results_simp
  rfl

attribute [local irreducible] Host.reduce Host.gather Host.reduceAdd concatenate transpose broadcastInDim Host.remsi Host.divf in
set_option maxRecDepth 16384 in
set_option maxHeartbeats 1600000 in
theorem val1C (V : Valuation τ sig (Elt F)) :
    after seg1C V (main_v1 : DevRef τ sig) = takeOfT (V (main_arg2 : DevRef τ sig)) (V (main_call1.v5.ref : DevRef τ sig)) (V (main_call1.v12.ref : DevRef τ sig)) := by
  after_results_simp
  rfl

attribute [local irreducible] Host.reduce Host.gather Host.reduceAdd concatenate transpose broadcastInDim Host.remsi Host.divf in
set_option maxRecDepth 16384 in
set_option maxHeartbeats 1600000 in
theorem val1D (V : Valuation τ sig (Elt F)) :
    after seg1D V (main_v4 : DevRef τ sig) = mean16T (V (main_v1 : DevRef τ sig)) := by
  after_results_simp
  rfl

/-- The piece leaves the mean over the positions of the table's looked-up rows in its result buffer: its stretches read
    from the last, each at its own result, every other buffer read through it unchanged. -/
theorem val1 (V : Valuation τ sig (Elt F)) :
    after seg1 V (main_v4 : DevRef τ sig) = mean16T (takeT (V (main_arg2 : DevRef τ sig)) (V (main_v0 : DevRef τ sig))) := by
  rw [seg1_eq]
  simp only [after_append]
  rw [val1D]
  rw [val1C]
  rw [val1B, pres1B _ (r := main_arg2) (by decide), pres1B _ (r := main_call1.v5.ref) (by decide)]
  rw [val1A, pres1A _ (r := main_arg2) (by decide)]
  rw [takeT_eq]

end Cert.RefSide

end
-- ==== Proof.RefVal2.lean ====
/-
  The piece of the reference's line that handles the second hash table, read in four stretches — the index
  normalised and laid out as a column of start indices; the range test; the guarded gather; the sum over the positions
  and the division — and put together: it leaves the mean over the positions of the table's looked-up rows in its
  result buffer.
-/
import proofs.«215258_g80247168959020_cont_9to1_m_796_9_alg».proof.Proof.RefSegs
import proofs.«215258_g80247168959020_cont_9to1_m_796_9_alg».proof.Proof.RefTerms
import proofs.«215258_g80247168959020_cont_9to1_m_796_9_alg».proof.Proof.RefTake

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

abbrev seg2A : List (HloOp τ sig (Elt F)) :=
  [ TRef.nullary main_call2.c (constantI S_ 32 0#32),
    TRef.unary main_call2.c main_call2.v0 (broadcastInDim S4096x200 ![] bcast_S_S4096x200),
    TRef.binary (.of main_v0 : TRef sig ⟨S4096x200, .i32⟩) main_call2.v0 main_call2.v1 (cmpi .slt),
    TRef.nullary main_call2.c_0 (constantI S_ 32 1024#32),
    TRef.unary main_call2.c_0 main_call2.v2 (broadcastInDim S4096x200 ![] bcast_S_S4096x200),
    TRef.binary (.of main_v0 : TRef sig ⟨S4096x200, .i32⟩) main_call2.v2 main_call2.v3 addi,
    TRef.ternary main_call2.v1 main_call2.v3 (.of main_v0 : TRef sig ⟨S4096x200, .i32⟩) main_call2.call0.v0 select,
    TRef.unary main_call2.call0.v0 main_call2.v5 (broadcastInDim S4096x200x1 ![0, 1] bcast_S4096x200_S4096x200x1_0_1) ]

abbrev seg2B : List (HloOp τ sig (Elt F)) :=
  [ TRef.nullary main_call2.c_1 (constantI S1 32 1023#32),
    TRef.nullary main_call2.c_2 (constantI S_ 32 0#32),
    TRef.unary main_call2.c_2 main_call2.v6 (broadcastInDim S4096x200x1 ![] bcast_S_S4096x200x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S4096x200x1 ![0, 1, 2] bcast_S1x1x1_S4096x200x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x200x1_S4096x200_d2 h_S_) ]

abbrev seg2C : List (HloOp τ sig (Elt F)) :=
  [ TRef.binary (.of main_arg3 : TRef sig ⟨S1024x16, .f32⟩) main_call2.v5 main_call2.v13 (fun x i => Host.gather gather_S1024x16_S4096x200x1_S4096x200x16_2_0_n_n_0_2_116 x i),
    TRef.unary main_call2.v12 main_call2.v14 (broadcastInDim S4096x200x16 ![0, 1] bcast_S4096x200_S4096x200x16_0_1),
    TRef.nullary main_call2.cst (constant S_ .f32 0x7FC00000#32),
    TRef.unary main_call2.cst main_call2.v15 (broadcastInDim S4096x200x16 ![] bcast_S_S4096x200x16),
    TRef.ternary main_call2.v14 main_call2.v13 main_call2.v15 main_call2.v16 select ]

abbrev seg2D : List (HloOp τ sig (Elt F)) :=
  [ nullary main_cst_1 (constant S_ .f32 0x00000000#32),
    binary main_v5 main_cst_1 main_v6 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_2 (constant S_ .f32 0x43480000#32),
    unary main_cst_2 main_v7 (broadcastInDim S4096x16 ![] bcast_S_S4096x16 : (⟨S_, .f32⟩ : BufTy).Contents (Elt F) → (⟨S4096x16, .f32⟩ : BufTy).Contents (Elt F)),
    binary main_v6 main_v7 main_v8 (Host.divf : (⟨S4096x16, .f32⟩ : BufTy).Contents (Elt F) → (⟨S4096x16, .f32⟩ : BufTy).Contents (Elt F) → (⟨S4096x16, .f32⟩ : BufTy).Contents (Elt F)) ]

/-- The piece is its four stretches one after the other. -/
theorem seg2_eq : (seg2 : List (HloOp τ sig (Elt F))) = seg2A ++ seg2B ++ seg2C ++ seg2D := rfl

abbrev W2A : List (Ref sig .tc) :=
  [main_call2.c.ref, main_call2.v0.ref, main_call2.v1.ref, main_call2.c_0.ref, main_call2.v2.ref, main_call2.v3.ref, main_call2.call0.v0.ref, main_call2.v5.ref]
theorem hW2A : (seg2A : List (HloOp τ sig (Elt F))).Forall fun op => op.writes ⊆ (W2A.map (Proc.devRef (τ := τ) .tc)).toFinset :=
  ⟨writes_sub_of_mem (y := main_call2.c.ref) rfl (by decide),
    writes_sub_of_mem (y := main_call2.v0.ref) rfl (by decide),
    writes_sub_of_mem (y := main_call2.v1.ref) rfl (by decide),
    writes_sub_of_mem (y := main_call2.c_0.ref) rfl (by decide),
    writes_sub_of_mem (y := main_call2.v2.ref) rfl (by decide),
    writes_sub_of_mem (y := main_call2.v3.ref) rfl (by decide),
    writes_sub_of_mem (y := main_call2.call0.v0.ref) rfl (by decide),
    writes_sub_of_mem (y := main_call2.v5.ref) rfl (by decide)⟩
theorem pres2A (V : Valuation τ sig (Elt F)) {r : Ref sig .tc} (hr : r ∉ W2A) :
    after seg2A V (Proc.devRef .tc r) = V (Proc.devRef .tc r) := after_of_writes_sub seg2A V hW2A hr

abbrev W2B : List (Ref sig .tc) :=
  [main_call2.c_1.ref, main_call2.c_2.ref, main_call2.v6.ref, main_call2.v7.ref, main_call2.v8.ref, main_call2.v9.ref, main_call2.v10.ref, main_call2.v11.ref, main_call2.c_3.ref, main_call2.v12.ref]
theorem hW2B : (seg2B : List (HloOp τ sig (Elt F))).Forall fun op => op.writes ⊆ (W2B.map (Proc.devRef (τ := τ) .tc)).toFinset :=
  ⟨writes_sub_of_mem (y := main_call2.c_1.ref) rfl (by decide),
    writes_sub_of_mem (y := main_call2.c_2.ref) rfl (by decide),
    writes_sub_of_mem (y := main_call2.v6.ref) rfl (by decide),
    writes_sub_of_mem (y := main_call2.v7.ref) rfl (by decide),
    writes_sub_of_mem (y := main_call2.v8.ref) rfl (by decide),
    writes_sub_of_mem (y := main_call2.v9.ref) rfl (by decide),
    writes_sub_of_mem (y := main_call2.v10.ref) rfl (by decide),
    writes_sub_of_mem (y := main_call2.v11.ref) rfl (by decide),
    writes_sub_of_mem (y := main_call2.c_3.ref) rfl (by decide),
    writes_sub_of_mem (y := main_call2.v12.ref) rfl (by decide)⟩
theorem pres2B (V : Valuation τ sig (Elt F)) {r : Ref sig .tc} (hr : r ∉ W2B) :
    after seg2B V (Proc.devRef .tc r) = V (Proc.devRef .tc r) := after_of_writes_sub seg2B V hW2B hr

abbrev W2C : List (Ref sig .tc) :=
  [main_call2.v13.ref, main_call2.v14.ref, main_call2.cst.ref, main_call2.v15.ref, main_call2.v16.ref]
theorem hW2C : (seg2C : List (HloOp τ sig (Elt F))).Forall fun op => op.writes ⊆ (W2C.map (Proc.devRef (τ := τ) .tc)).toFinset :=
  ⟨writes_sub_of_mem (y := main_call2.v13.ref) rfl (by decide),
    writes_sub_of_mem (y := main_call2.v14.ref) rfl (by decide),
    writes_sub_of_mem (y := main_call2.cst.ref) rfl (by decide),
    writes_sub_of_mem (y := main_call2.v15.ref) rfl (by decide),
    writes_sub_of_mem (y := main_call2.v16.ref) rfl (by decide)⟩
theorem pres2C (V : Valuation τ sig (Elt F)) {r : Ref sig .tc} (hr : r ∉ W2C) :
    after seg2C V (Proc.devRef .tc r) = V (Proc.devRef .tc r) := after_of_writes_sub seg2C V hW2C hr

abbrev W2D : List (Ref sig .tc) :=
  [main_cst_1, main_v6, main_cst_2, main_v7, main_v8]
theorem hW2D : (seg2D : List (HloOp τ sig (Elt F))).Forall fun op => op.writes ⊆ (W2D.map (Proc.devRef (τ := τ) .tc)).toFinset :=
  ⟨writes_sub_of_mem (y := main_cst_1) rfl (by decide),
    writes_sub_of_mem (y := main_v6) rfl (by decide),
    writes_sub_of_mem (y := main_cst_2) rfl (by decide),
    writes_sub_of_mem (y := main_v7) rfl (by decide),
    writes_sub_of_mem (y := main_v8) rfl (by decide)⟩
theorem pres2D (V : Valuation τ sig (Elt F)) {r : Ref sig .tc} (hr : r ∉ W2D) :
    after seg2D V (Proc.devRef .tc r) = V (Proc.devRef .tc r) := after_of_writes_sub seg2D V hW2D hr

attribute [local irreducible] Host.reduce Host.gather Host.reduceAdd concatenate transpose broadcastInDim Host.remsi Host.divf in
set_option maxRecDepth 16384 in
set_option maxHeartbeats 1600000 in
theorem val2A (V : Valuation τ sig (Elt F)) :
    after seg2A V (main_call2.v5.ref : DevRef τ sig) = startT (V (main_v0 : DevRef τ sig)) := by
  after_results_simp
  rfl

attribute [local irreducible] Host.reduce Host.gather Host.reduceAdd concatenate transpose broadcastInDim Host.remsi Host.divf in
set_option maxRecDepth 16384 in
set_option maxHeartbeats 1600000 in
theorem val2B (V : Valuation τ sig (Elt F)) :
    after seg2B V (main_call2.v12.ref : DevRef τ sig) = inRangeOfT (V (main_call2.v5.ref : DevRef τ sig)) := by
  after_results_simp
  rfl

attribute [local irreducible] Host.reduce Host.gather Host.reduceAdd concatenate transpose broadcastInDim Host.remsi Host.divf in
set_option maxRecDepth 16384 in
set_option maxHeartbeats 1600000 in
theorem val2C (V : Valuation τ sig (Elt F)) :
    after seg2C V (main_v5 : DevRef τ sig) = takeOfT (V (main_arg3 : DevRef τ sig)) (V (main_call2.v5.ref : DevRef τ sig)) (V (main_call2.v12.ref : DevRef τ sig)) := by
  after_results_simp
  rfl

attribute [local irreducible] Host.reduce Host.gather Host.reduceAdd concatenate transpose broadcastInDim Host.remsi Host.divf in
set_option maxRecDepth 16384 in
set_option maxHeartbeats 1600000 in
theorem val2D (V : Valuation τ sig (Elt F)) :
    after seg2D V (main_v8 : DevRef τ sig) = mean16T (V (main_v5 : DevRef τ sig)) := by
  after_results_simp
  rfl

/-- The piece leaves the mean over the positions of the table's looked-up rows in its result buffer: its stretches read
    from the last, each at its own result, every other buffer read through it unchanged. -/
theorem val2 (V : Valuation τ sig (Elt F)) :
    after seg2 V (main_v8 : DevRef τ sig) = mean16T (takeT (V (main_arg3 : DevRef τ sig)) (V (main_v0 : DevRef τ sig))) := by
  rw [seg2_eq]
  simp only [after_append]
  rw [val2D]
  rw [val2C]
  rw [val2B, pres2B _ (r := main_arg3) (by decide), pres2B _ (r := main_call2.v5.ref) (by decide)]
  rw [val2A, pres2A _ (r := main_arg3) (by decide)]
  rw [takeT_eq]

end Cert.RefSide

end
-- ==== Proof.RefVal3.lean ====
/-
  The piece of the reference's line that handles the third hash table, read in four stretches — the index
  normalised and laid out as a column of start indices; the range test; the guarded gather; the sum over the positions
  and the division — and put together: it leaves the mean over the positions of the table's looked-up rows in its
  result buffer.
-/
import proofs.«215258_g80247168959020_cont_9to1_m_796_9_alg».proof.Proof.RefSegs
import proofs.«215258_g80247168959020_cont_9to1_m_796_9_alg».proof.Proof.RefTerms
import proofs.«215258_g80247168959020_cont_9to1_m_796_9_alg».proof.Proof.RefTake

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

abbrev seg3A : List (HloOp τ sig (Elt F)) :=
  [ TRef.nullary main_call3.c (constantI S_ 32 0#32),
    TRef.unary main_call3.c main_call3.v0 (broadcastInDim S4096x200 ![] bcast_S_S4096x200),
    TRef.binary (.of main_v0 : TRef sig ⟨S4096x200, .i32⟩) main_call3.v0 main_call3.v1 (cmpi .slt),
    TRef.nullary main_call3.c_0 (constantI S_ 32 1024#32),
    TRef.unary main_call3.c_0 main_call3.v2 (broadcastInDim S4096x200 ![] bcast_S_S4096x200),
    TRef.binary (.of main_v0 : TRef sig ⟨S4096x200, .i32⟩) main_call3.v2 main_call3.v3 addi,
    TRef.ternary main_call3.v1 main_call3.v3 (.of main_v0 : TRef sig ⟨S4096x200, .i32⟩) main_call3.call0.v0 select,
    TRef.unary main_call3.call0.v0 main_call3.v5 (broadcastInDim S4096x200x1 ![0, 1] bcast_S4096x200_S4096x200x1_0_1) ]

abbrev seg3B : List (HloOp τ sig (Elt F)) :=
  [ TRef.nullary main_call3.c_1 (constantI S1 32 1023#32),
    TRef.nullary main_call3.c_2 (constantI S_ 32 0#32),
    TRef.unary main_call3.c_2 main_call3.v6 (broadcastInDim S4096x200x1 ![] bcast_S_S4096x200x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S4096x200x1 ![0, 1, 2] bcast_S1x1x1_S4096x200x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4096x200x1_S4096x200_d2 h_S_) ]

abbrev seg3C : List (HloOp τ sig (Elt F)) :=
  [ TRef.binary (.of main_arg4 : TRef sig ⟨S1024x16, .f32⟩) main_call3.v5 main_call3.v13 (fun x i => Host.gather gather_S1024x16_S4096x200x1_S4096x200x16_2_0_n_n_0_2_116 x i),
    TRef.unary main_call3.v12 main_call3.v14 (broadcastInDim S4096x200x16 ![0, 1] bcast_S4096x200_S4096x200x16_0_1),
    TRef.nullary main_call3.cst (constant S_ .f32 0x7FC00000#32),
    TRef.unary main_call3.cst main_call3.v15 (broadcastInDim S4096x200x16 ![] bcast_S_S4096x200x16),
    TRef.ternary main_call3.v14 main_call3.v13 main_call3.v15 main_call3.v16 select ]

abbrev seg3D : List (HloOp τ sig (Elt F)) :=
  [ nullary main_cst_3 (constant S_ .f32 0x00000000#32),
    binary main_v9 main_cst_3 main_v10 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_4 (constant S_ .f32 0x43480000#32),
    unary main_cst_4 main_v11 (broadcastInDim S4096x16 ![] bcast_S_S4096x16 : (⟨S_, .f32⟩ : BufTy).Contents (Elt F) → (⟨S4096x16, .f32⟩ : BufTy).Contents (Elt F)),
    binary main_v10 main_v11 main_v12 (Host.divf : (⟨S4096x16, .f32⟩ : BufTy).Contents (Elt F) → (⟨S4096x16, .f32⟩ : BufTy).Contents (Elt F) → (⟨S4096x16, .f32⟩ : BufTy).Contents (Elt F)) ]

/-- The piece is its four stretches one after the other. -/
theorem seg3_eq : (seg3 : List (HloOp τ sig (Elt F))) = seg3A ++ seg3B ++ seg3C ++ seg3D := rfl

abbrev W3A : List (Ref sig .tc) :=
  [main_call3.c.ref, main_call3.v0.ref, main_call3.v1.ref, main_call3.c_0.ref, main_call3.v2.ref, main_call3.v3.ref, main_call3.call0.v0.ref, main_call3.v5.ref]
theorem hW3A : (seg3A : List (HloOp τ sig (Elt F))).Forall fun op => op.writes ⊆ (W3A.map (Proc.devRef (τ := τ) .tc)).toFinset :=
  ⟨writes_sub_of_mem (y := main_call3.c.ref) rfl (by decide),
    writes_sub_of_mem (y := main_call3.v0.ref) rfl (by decide),
    writes_sub_of_mem (y := main_call3.v1.ref) rfl (by decide),
    writes_sub_of_mem (y := main_call3.c_0.ref) rfl (by decide),
    writes_sub_of_mem (y := main_call3.v2.ref) rfl (by decide),
    writes_sub_of_mem (y := main_call3.v3.ref) rfl (by decide),
    writes_sub_of_mem (y := main_call3.call0.v0.ref) rfl (by decide),
    writes_sub_of_mem (y := main_call3.v5.ref) rfl (by decide)⟩
theorem pres3A (V : Valuation τ sig (Elt F)) {r : Ref sig .tc} (hr : r ∉ W3A) :
    after seg3A V (Proc.devRef .tc r) = V (Proc.devRef .tc r) := after_of_writes_sub seg3A V hW3A hr

abbrev W3B : List (Ref sig .tc) :=
  [main_call3.c_1.ref, main_call3.c_2.ref, main_call3.v6.ref, main_call3.v7.ref, main_call3.v8.ref, main_call3.v9.ref, main_call3.v10.ref, main_call3.v11.ref, main_call3.c_3.ref, main_call3.v12.ref]
theorem hW3B : (seg3B : List (HloOp τ sig (Elt F))).Forall fun op => op.writes ⊆ (W3B.map (Proc.devRef (τ := τ) .tc)).toFinset :=
  ⟨writes_sub_of_mem (y := main_call3.c_1.ref) rfl (by decide),
    writes_sub_of_mem (y := main_call3.c_2.ref) rfl (by decide),
    writes_sub_of_mem (y := main_call3.v6.ref) rfl (by decide),
    writes_sub_of_mem (y := main_call3.v7.ref) rfl (by decide),
    writes_sub_of_mem (y := main_call3.v8.ref) rfl (by decide),
    writes_sub_of_mem (y := main_call3.v9.ref) rfl (by decide),
    writes_sub_of_mem (y := main_call3.v10.ref) rfl (by decide),
    writes_sub_of_mem (y := main_call3.v11.ref) rfl (by decide),
    writes_sub_of_mem (y := main_call3.c_3.ref) rfl (by decide),
    writes_sub_of_mem (y := main_call3.v12.ref) rfl (by decide)⟩
theorem pres3B (V : Valuation τ sig (Elt F)) {r : Ref sig .tc} (hr : r ∉ W3B) :
    after seg3B V (Proc.devRef .tc r) = V (Proc.devRef .tc r) := after_of_writes_sub seg3B V hW3B hr

abbrev W3C : List (Ref sig .tc) :=
  [main_call3.v13.ref, main_call3.v14.ref, main_call3.cst.ref, main_call3.v15.ref, main_call3.v16.ref]
theorem hW3C : (seg3C : List (HloOp τ sig (Elt F))).Forall fun op => op.writes ⊆ (W3C.map (Proc.devRef (τ := τ) .tc)).toFinset :=
  ⟨writes_sub_of_mem (y := main_call3.v13.ref) rfl (by decide),
    writes_sub_of_mem (y := main_call3.v14.ref) rfl (by decide),
    writes_sub_of_mem (y := main_call3.cst.ref) rfl (by decide),
    writes_sub_of_mem (y := main_call3.v15.ref) rfl (by decide),
    writes_sub_of_mem (y := main_call3.v16.ref) rfl (by decide)⟩
theorem pres3C (V : Valuation τ sig (Elt F)) {r : Ref sig .tc} (hr : r ∉ W3C) :
    after seg3C V (Proc.devRef .tc r) = V (Proc.devRef .tc r) := after_of_writes_sub seg3C V hW3C hr

abbrev W3D : List (Ref sig .tc) :=
  [main_cst_3, main_v10, main_cst_4, main_v11, main_v12]
theorem hW3D : (seg3D : List (HloOp τ sig (Elt F))).Forall fun op => op.writes ⊆ (W3D.map (Proc.devRef (τ := τ) .tc)).toFinset :=
  ⟨writes_sub_of_mem (y := main_cst_3) rfl (by decide),
    writes_sub_of_mem (y := main_v10) rfl (by decide),
    writes_sub_of_mem (y := main_cst_4) rfl (by decide),
    writes_sub_of_mem (y := main_v11) rfl (by decide),
    writes_sub_of_mem (y := main_v12) rfl (by decide)⟩
theorem pres3D (V : Valuation τ sig (Elt F)) {r : Ref sig .tc} (hr : r ∉ W3D) :
    after seg3D V (Proc.devRef .tc r) = V (Proc.devRef .tc r) := after_of_writes_sub seg3D V hW3D hr

attribute [local irreducible] Host.reduce Host.gather Host.reduceAdd concatenate transpose broadcastInDim Host.remsi Host.divf in
set_option maxRecDepth 16384 in
set_option maxHeartbeats 1600000 in
theorem val3A (V : Valuation τ sig (Elt F)) :
    after seg3A V (main_call3.v5.ref : DevRef τ sig) = startT (V (main_v0 : DevRef τ sig)) := by
  after_results_simp
  rfl

attribute [local irreducible] Host.reduce Host.gather Host.reduceAdd concatenate transpose broadcastInDim Host.remsi Host.divf in
set_option maxRecDepth 16384 in
set_option maxHeartbeats 1600000 in
theorem val3B (V : Valuation τ sig (Elt F)) :
    after seg3B V (main_call3.v12.ref : DevRef τ sig) = inRangeOfT (V (main_call3.v5.ref : DevRef τ sig)) := by
  after_results_simp
  rfl

attribute [local irreducible] Host.reduce Host.gather Host.reduceAdd concatenate transpose broadcastInDim Host.remsi Host.divf in
set_option maxRecDepth 16384 in
set_option maxHeartbeats 1600000 in
theorem val3C (V : Valuation τ sig (Elt F)) :
    after seg3C V (main_v9 : DevRef τ sig) = takeOfT (V (main_arg4 : DevRef τ sig)) (V (main_call3.v5.ref : DevRef τ sig)) (V (main_call3.v12.ref : DevRef τ sig)) := by
  after_results_simp
  rfl

attribute [local irreducible] Host.reduce Host.gather Host.reduceAdd concatenate transpose broadcastInDim Host.remsi Host.divf in
set_option maxRecDepth 16384 in
set_option maxHeartbeats 1600000 in
theorem val3D (V : Valuation τ sig (Elt F)) :
    after seg3D V (main_v12 : DevRef τ sig) = mean16T (V (main_v9 : DevRef τ sig)) := by
  after_results_simp
  rfl

/-- The piece leaves the mean over the positions of the table's looked-up rows in its result buffer: its stretches read
    from the last, each at its own result, every other buffer read through it unchanged. -/
theorem val3 (V : Valuation τ sig (Elt F)) :
    after seg3 V (main_v12 : DevRef τ sig) = mean16T (takeT (V (main_arg4 : DevRef τ sig)) (V (main_v0 : DevRef τ sig))) := by
  rw [seg3_eq]
  simp only [after_append]
  rw [val3D]
  rw [val3C]
  rw [val3B, pres3B _ (r := main_arg4) (by decide), pres3B _ (r := main_call3.v5.ref) (by decide)]
  rw [val3A, pres3A _ (r := main_arg4) (by decide)]
  rw [takeT_eq]

end Cert.RefSide

end
-- ==== Proof.RefVal4.lean ====
/-
  The piece of the reference's line that handles the fourth hash table, read in four stretches — the index
  normalised and laid out as a column of start indices; the range test; the guarded gather; the sum over the positions
  and the division — and put together: it leaves the mean over the positions of the table's looked-up rows in its
  result buffer.
-/
import proofs.«215258_g80247168959020_cont_9to1_m_796_9_alg».proof.Proof.RefSegs
import proofs.«215258_g80247168959020_cont_9to1_m_796_9_alg».proof.Proof.RefTerms
import proofs.«215258_g80247168959020_cont_9to1_m_796_9_alg».proof.Proof.RefTake

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

abbrev seg4A : List (HloOp τ sig (Elt F)) :=
  [ TRef.nullary main_call4.c (constantI S_ 32 0#32),
    TRef.unary main_call4.c main_call4.v0 (broadcastInDim S4096x200 ![] bcast_S_S4096x200),
    TRef.binary (.of main_v0 : TRef sig ⟨S4096x200, .i32⟩) main_call4.v0 main_call4.v1 (cmpi .slt),
    TRef.nullary main_call4.c_0 (constantI S_ 32 1024#32),
    TRef.unary main_call4.c_0 main_call4.v2 (broadcastInDim S4096x200 ![] bcast_S_S4096x200),
    TRef.binary (.of main_v0 : TRef sig ⟨S4096x200, .i32⟩) main_call4.v2 main_call4.v3 addi,
    TRef.ternary main_call4.v1 main_call4.v3 (.of main_v0 : TRef sig ⟨S4096x200, .i32⟩) main_call4.call0.v0 select,
    TRef.unary main_call4.call0.v0 main_call4.v5 (broadcastInDim S4096x200x1 ![0, 1] bcast_S4096x200_S4096x200x1_0_1) ]

abbrev seg4B : List (HloOp τ sig (Elt F)) :=
  [ TRef.nullary main_call4.c_1 (constantI S1 32 1023#32),
    TRef.nullary main_call4.c_2 (constantI S_ 32 0#32),
    TRef.unary main_call4.c_2 main_call4.v6 (broadcastInDim S4096x200x1 ![] bcast_S_S4096x200x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S4096x200x1 ![0, 1, 2] bcast_S1x1x1_S4096x200x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S4096x200x1_S4096x200_d2 h_S_) ]

abbrev seg4C : List (HloOp τ sig (Elt F)) :=
  [ TRef.binary (.of main_arg5 : TRef sig ⟨S1024x16, .f32⟩) main_call4.v5 main_call4.v13 (fun x i => Host.gather gather_S1024x16_S4096x200x1_S4096x200x16_2_0_n_n_0_2_116 x i),
    TRef.unary main_call4.v12 main_call4.v14 (broadcastInDim S4096x200x16 ![0, 1] bcast_S4096x200_S4096x200x16_0_1),
    TRef.nullary main_call4.cst (constant S_ .f32 0x7FC00000#32),
    TRef.unary main_call4.cst main_call4.v15 (broadcastInDim S4096x200x16 ![] bcast_S_S4096x200x16),
    TRef.ternary main_call4.v14 main_call4.v13 main_call4.v15 main_call4.v16 select ]

abbrev seg4D : List (HloOp τ sig (Elt F)) :=
  [ nullary main_cst_5 (constant S_ .f32 0x00000000#32),
    binary main_v13 main_cst_5 main_v14 ((fun x v => Host.reduceAdd x v reducesTo_S4096x200x16_S4096x16_d1 h_S_) : (⟨S4096x200x16, .f32⟩ : BufTy).Contents (Elt F) → (⟨S_, .f32⟩ : BufTy).Contents (Elt F) → (⟨S4096x16, .f32⟩ : BufTy).Contents (Elt F)),
    nullary main_cst_6 (constant S_ .f32 0x43480000#32),
    unary main_cst_6 main_v15 (broadcastInDim S4096x16 ![] bcast_S_S4096x16 : (⟨S_, .f32⟩ : BufTy).Contents (Elt F) → (⟨S4096x16, .f32⟩ : BufTy).Contents (Elt F)),
    binary main_v14 main_v15 main_v16 (Host.divf : (⟨S4096x16, .f32⟩ : BufTy).Contents (Elt F) → (⟨S4096x16, .f32⟩ : BufTy).Contents (Elt F) → (⟨S4096x16, .f32⟩ : BufTy).Contents (Elt F)) ]

/-- The piece is its four stretches one after the other. -/
theorem seg4_eq : (seg4 : List (HloOp τ sig (Elt F))) = seg4A ++ seg4B ++ seg4C ++ seg4D := rfl

abbrev W4A : List (Ref sig .tc) :=
  [main_call4.c.ref, main_call4.v0.ref, main_call4.v1.ref, main_call4.c_0.ref, main_call4.v2.ref, main_call4.v3.ref, main_call4.call0.v0.ref, main_call4.v5.ref]
theorem hW4A : (seg4A : List (HloOp τ sig (Elt F))).Forall fun op => op.writes ⊆ (W4A.map (Proc.devRef (τ := τ) .tc)).toFinset :=
  ⟨writes_sub_of_mem (y := main_call4.c.ref) rfl (by decide),
    writes_sub_of_mem (y := main_call4.v0.ref) rfl (by decide),
    writes_sub_of_mem (y := main_call4.v1.ref) rfl (by decide),
    writes_sub_of_mem (y := main_call4.c_0.ref) rfl (by decide),
    writes_sub_of_mem (y := main_call4.v2.ref) rfl (by decide),
    writes_sub_of_mem (y := main_call4.v3.ref) rfl (by decide),
    writes_sub_of_mem (y := main_call4.call0.v0.ref) rfl (by decide),
    writes_sub_of_mem (y := main_call4.v5.ref) rfl (by decide)⟩
theorem pres4A (V : Valuation τ sig (Elt F)) {r : Ref sig .tc} (hr : r ∉ W4A) :
    after seg4A V (Proc.devRef .tc r) = V (Proc.devRef .tc r) := after_of_writes_sub seg4A V hW4A hr

abbrev W4B : List (Ref sig .tc) :=
  [main_call4.c_1.ref, main_call4.c_2.ref, main_call4.v6.ref, main_call4.v7.ref, main_call4.v8.ref, main_call4.v9.ref, main_call4.v10.ref, main_call4.v11.ref, main_call4.c_3.ref, main_call4.v12.ref]
theorem hW4B : (seg4B : List (HloOp τ sig (Elt F))).Forall fun op => op.writes ⊆ (W4B.map (Proc.devRef (τ := τ) .tc)).toFinset :=
  ⟨writes_sub_of_mem (y := main_call4.c_1.ref) rfl (by decide),
    writes_sub_of_mem (y := main_call4.c_2.ref) rfl (by decide),
    writes_sub_of_mem (y := main_call4.v6.ref) rfl (by decide),
    writes_sub_of_mem (y := main_call4.v7.ref) rfl (by decide),
    writes_sub_of_mem (y := main_call4.v8.ref) rfl (by decide),
    writes_sub_of_mem (y := main_call4.v9.ref) rfl (by decide),
    writes_sub_of_mem (y := main_call4.v10.ref) rfl (by decide),
    writes_sub_of_mem (y := main_call4.v11.ref) rfl (by decide),
    writes_sub_of_mem (y := main_call4.c_3.ref) rfl (by decide),
    writes_sub_of_mem (y := main_call4.v12.ref) rfl (by decide)⟩
theorem pres4B (V : Valuation τ sig (Elt F)) {r : Ref sig .tc} (hr : r ∉ W4B) :
    after seg4B V (Proc.devRef .tc r) = V (Proc.devRef .tc r) := after_of_writes_sub seg4B V hW4B hr

abbrev W4C : List (Ref sig .tc) :=
  [main_call4.v13.ref, main_call4.v14.ref, main_call4.cst.ref, main_call4.v15.ref, main_call4.v16.ref]
theorem hW4C : (seg4C : List (HloOp τ sig (Elt F))).Forall fun op => op.writes ⊆ (W4C.map (Proc.devRef (τ := τ) .tc)).toFinset :=
  ⟨writes_sub_of_mem (y := main_call4.v13.ref) rfl (by decide),
    writes_sub_of_mem (y := main_call4.v14.ref) rfl (by decide),
    writes_sub_of_mem (y := main_call4.cst.ref) rfl (by decide),
    writes_sub_of_mem (y := main_call4.v15.ref) rfl (by decide),
    writes_sub_of_mem (y := main_call4.v16.ref) rfl (by decide)⟩
theorem pres4C (V : Valuation τ sig (Elt F)) {r : Ref sig .tc} (hr : r ∉ W4C) :
    after seg4C V (Proc.devRef .tc r) = V (Proc.devRef .tc r) := after_of_writes_sub seg4C V hW4C hr

abbrev W4D : List (Ref sig .tc) :=
  [main_cst_5, main_v14, main_cst_6, main_v15, main_v16]
theorem hW4D : (seg4D : List (HloOp τ sig (Elt F))).Forall fun op => op.writes ⊆ (W4D.map (Proc.devRef (τ := τ) .tc)).toFinset :=
  ⟨writes_sub_of_mem (y := main_cst_5) rfl (by decide),
    writes_sub_of_mem (y := main_v14) rfl (by decide),
    writes_sub_of_mem (y := main_cst_6) rfl (by decide),
    writes_sub_of_mem (y := main_v15) rfl (by decide),
    writes_sub_of_mem (y := main_v16) rfl (by decide)⟩
theorem pres4D (V : Valuation τ sig (Elt F)) {r : Ref sig .tc} (hr : r ∉ W4D) :
    after seg4D V (Proc.devRef .tc r) = V (Proc.devRef .tc r) := after_of_writes_sub seg4D V hW4D hr

attribute [local irreducible] Host.reduce Host.gather Host.reduceAdd concatenate transpose broadcastInDim Host.remsi Host.divf in
set_option maxRecDepth 16384 in
set_option maxHeartbeats 1600000 in
theorem val4A (V : Valuation τ sig (Elt F)) :
    after seg4A V (main_call4.v5.ref : DevRef τ sig) = startT (V (main_v0 : DevRef τ sig)) := by
  after_results_simp
  rfl

attribute [local irreducible] Host.reduce Host.gather Host.reduceAdd concatenate transpose broadcastInDim Host.remsi Host.divf in
set_option maxRecDepth 16384 in
set_option maxHeartbeats 1600000 in
theorem val4B (V : Valuation τ sig (Elt F)) :
    after seg4B V (main_call4.v12.ref : DevRef τ sig) = inRangeOfT (V (main_call4.v5.ref : DevRef τ sig)) := by
  after_results_simp
  rfl

attribute [local irreducible] Host.reduce Host.gather Host.reduceAdd concatenate transpose broadcastInDim Host.remsi Host.divf in
set_option maxRecDepth 16384 in
set_option maxHeartbeats 1600000 in
theorem val4C (V : Valuation τ sig (Elt F)) :
    after seg4C V (main_v13 : DevRef τ sig) = takeOfT (V (main_arg5 : DevRef τ sig)) (V (main_call4.v5.ref : DevRef τ sig)) (V (main_call4.v12.ref : DevRef τ sig)) := by
  after_results_simp
  rfl

attribute [local irreducible] Host.reduce Host.gather Host.reduceAdd concatenate transpose broadcastInDim Host.remsi Host.divf in
set_option maxRecDepth 16384 in
set_option maxHeartbeats 1600000 in
theorem val4D (V : Valuation τ sig (Elt F)) :
    after seg4D V (main_v16 : DevRef τ sig) = mean16T (V (main_v13 : DevRef τ sig)) := by
  after_results_simp
  rfl

/-- The piece leaves the mean over the positions of the table's looked-up rows in its result buffer: its stretches read
    from the last, each at its own result, every other buffer read through it unchanged. -/
theorem val4 (V : Valuation τ sig (Elt F)) :
    after seg4 V (main_v16 : DevRef τ sig) = mean16T (takeT (V (main_arg5 : DevRef τ sig)) (V (main_v0 : DevRef τ sig))) := by
  rw [seg4_eq]
  simp only [after_append]
  rw [val4D]
  rw [val4C]
  rw [val4B, pres4B _ (r := main_arg5) (by decide), pres4B _ (r := main_call4.v5.ref) (by decide)]
  rw [val4A, pres4A _ (r := main_arg5) (by decide)]
  rw [takeT_eq]

end Cert.RefSide

end
-- ==== Proof.RefVal5.lean ====
/-
  The last piece leaves, in the result buffer, the four means side by side plus the embeddings' mean, contracted with
  the transposed weights, plus the bias on every row.
-/
import proofs.«215258_g80247168959020_cont_9to1_m_796_9_alg».proof.Proof.RefSegs
import proofs.«215258_g80247168959020_cont_9to1_m_796_9_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather Host.reduceAdd concatenate transpose broadcastInDim Host.remsi Host.divf in
set_option maxRecDepth 16384 in
set_option maxHeartbeats 1600000 in
theorem val5 (V : Valuation τ sig (Elt F)) :
    after seg5 V (main_v26 : DevRef τ sig)
      = tailT (V (main_v4 : DevRef τ sig)) (V (main_v8 : DevRef τ sig)) (V (main_v12 : DevRef τ sig)) (V (main_v16 : DevRef τ sig))
          (V (main_arg1 : DevRef τ sig)) (V (main_arg6 : DevRef τ sig)) (V (main_arg7 : DevRef τ sig)) := by
  after_results_simp
  rfl

end Cert.RefSide

end
-- ==== Proof.RefRun.lean ====
/-
  The reference's whole line: the fold of its operations at the result buffer is the composed term `outT` of the
  argument arrays' contents, no operation writes an argument array, and so the program's run ends with the result buffer
  at `outT` of the launch memory's arguments and the arguments unchanged.
-/
import proofs.«215258_g80247168959020_cont_9to1_m_796_9_alg».proof.Proof.RefPres0
import proofs.«215258_g80247168959020_cont_9to1_m_796_9_alg».proof.Proof.RefPres1
import proofs.«215258_g80247168959020_cont_9to1_m_796_9_alg».proof.Proof.RefPres2
import proofs.«215258_g80247168959020_cont_9to1_m_796_9_alg».proof.Proof.RefPres3
import proofs.«215258_g80247168959020_cont_9to1_m_796_9_alg».proof.Proof.RefPres4
import proofs.«215258_g80247168959020_cont_9to1_m_796_9_alg».proof.Proof.RefPres5
import proofs.«215258_g80247168959020_cont_9to1_m_796_9_alg».proof.Proof.RefVal0
import proofs.«215258_g80247168959020_cont_9to1_m_796_9_alg».proof.Proof.RefVal1
import proofs.«215258_g80247168959020_cont_9to1_m_796_9_alg».proof.Proof.RefVal2
import proofs.«215258_g80247168959020_cont_9to1_m_796_9_alg».proof.Proof.RefVal3
import proofs.«215258_g80247168959020_cont_9to1_m_796_9_alg».proof.Proof.RefVal4
import proofs.«215258_g80247168959020_cont_9to1_m_796_9_alg».proof.Proof.RefVal5

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The whole line -/

/-- The fold at the result buffer is `outT` of the arguments' contents: read piece by piece from the last, each piece's
    own result by its value lemma and every other buffer read through it unchanged. -/
theorem v26_eq (V : Valuation τ sig (Elt F)) :
    after ops V (main_v26 : DevRef τ sig)
      = outT (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [ops_eq]
  simp only [after_append]
  rw [val5]
  rw [val4, pres4 _ (r := main_v4) (by decide), pres4 _ (r := main_v8) (by decide), pres4 _ (r := main_v12) (by decide), pres4 _ (r := main_arg1) (by decide), pres4 _ (r := main_arg6) (by decide), pres4 _ (r := main_arg7) (by decide)]
  rw [val3, pres3 _ (r := main_v4) (by decide), pres3 _ (r := main_v8) (by decide), pres3 _ (r := main_arg1) (by decide), pres3 _ (r := main_arg6) (by decide), pres3 _ (r := main_arg7) (by decide), pres3 _ (r := main_arg5) (by decide), pres3 _ (r := main_v0) (by decide)]
  rw [val2, pres2 _ (r := main_v4) (by decide), pres2 _ (r := main_arg1) (by decide), pres2 _ (r := main_arg6) (by decide), pres2 _ (r := main_arg7) (by decide), pres2 _ (r := main_arg5) (by decide), pres2 _ (r := main_arg4) (by decide), pres2 _ (r := main_v0) (by decide)]
  rw [val1, pres1 _ (r := main_arg1) (by decide), pres1 _ (r := main_arg6) (by decide), pres1 _ (r := main_arg7) (by decide), pres1 _ (r := main_arg5) (by decide), pres1 _ (r := main_arg4) (by decide), pres1 _ (r := main_arg3) (by decide), pres1 _ (r := main_v0) (by decide)]
  rw [val0, pres0 _ (r := main_arg1) (by decide), pres0 _ (r := main_arg6) (by decide), pres0 _ (r := main_arg7) (by decide), pres0 _ (r := main_arg5) (by decide), pres0 _ (r := main_arg4) (by decide), pres0 _ (r := main_arg3) (by decide), pres0 _ (r := main_arg2) (by decide)]
  rfl

/-- No operation writes argument 0. -/
theorem arg0_eq (V : Valuation τ sig (Elt F)) :
    after ops V (main_arg0 : DevRef τ sig) = V (main_arg0 : DevRef τ sig) := by
  rw [ops_eq]
  simp only [after_append]
  rw [pres5 _ (r := main_arg0) (by decide), pres4 _ (r := main_arg0) (by decide), pres3 _ (r := main_arg0) (by decide), pres2 _ (r := main_arg0) (by decide), pres1 _ (r := main_arg0) (by decide), pres0 _ (r := main_arg0) (by decide)]

/-- No operation writes argument 1. -/
theorem arg1_eq (V : Valuation τ sig (Elt F)) :
    after ops V (main_arg1 : DevRef τ sig) = V (main_arg1 : DevRef τ sig) := by
  rw [ops_eq]
  simp only [after_append]
  rw [pres5 _ (r := main_arg1) (by decide), pres4 _ (r := main_arg1) (by decide), pres3 _ (r := main_arg1) (by decide), pres2 _ (r := main_arg1) (by decide), pres1 _ (r := main_arg1) (by decide), pres0 _ (r := main_arg1) (by decide)]

/-- No operation writes argument 2. -/
theorem arg2_eq (V : Valuation τ sig (Elt F)) :
    after ops V (main_arg2 : DevRef τ sig) = V (main_arg2 : DevRef τ sig) := by
  rw [ops_eq]
  simp only [after_append]
  rw [pres5 _ (r := main_arg2) (by decide), pres4 _ (r := main_arg2) (by decide), pres3 _ (r := main_arg2) (by decide), pres2 _ (r := main_arg2) (by decide), pres1 _ (r := main_arg2) (by decide), pres0 _ (r := main_arg2) (by decide)]

/-- No operation writes argument 3. -/
theorem arg3_eq (V : Valuation τ sig (Elt F)) :
    after ops V (main_arg3 : DevRef τ sig) = V (main_arg3 : DevRef τ sig) := by
  rw [ops_eq]
  simp only [after_append]
  rw [pres5 _ (r := main_arg3) (by decide), pres4 _ (r := main_arg3) (by decide), pres3 _ (r := main_arg3) (by decide), pres2 _ (r := main_arg3) (by decide), pres1 _ (r := main_arg3) (by decide), pres0 _ (r := main_arg3) (by decide)]

/-- No operation writes argument 4. -/
theorem arg4_eq (V : Valuation τ sig (Elt F)) :
    after ops V (main_arg4 : DevRef τ sig) = V (main_arg4 : DevRef τ sig) := by
  rw [ops_eq]
  simp only [after_append]
  rw [pres5 _ (r := main_arg4) (by decide), pres4 _ (r := main_arg4) (by decide), pres3 _ (r := main_arg4) (by decide), pres2 _ (r := main_arg4) (by decide), pres1 _ (r := main_arg4) (by decide), pres0 _ (r := main_arg4) (by decide)]

/-- No operation writes argument 5. -/
theorem arg5_eq (V : Valuation τ sig (Elt F)) :
    after ops V (main_arg5 : DevRef τ sig) = V (main_arg5 : DevRef τ sig) := by
  rw [ops_eq]
  simp only [after_append]
  rw [pres5 _ (r := main_arg5) (by decide), pres4 _ (r := main_arg5) (by decide), pres3 _ (r := main_arg5) (by decide), pres2 _ (r := main_arg5) (by decide), pres1 _ (r := main_arg5) (by decide), pres0 _ (r := main_arg5) (by decide)]

/-- No operation writes argument 6. -/
theorem arg6_eq (V : Valuation τ sig (Elt F)) :
    after ops V (main_arg6 : DevRef τ sig) = V (main_arg6 : DevRef τ sig) := by
  rw [ops_eq]
  simp only [after_append]
  rw [pres5 _ (r := main_arg6) (by decide), pres4 _ (r := main_arg6) (by decide), pres3 _ (r := main_arg6) (by decide), pres2 _ (r := main_arg6) (by decide), pres1 _ (r := main_arg6) (by decide), pres0 _ (r := main_arg6) (by decide)]

/-- No operation writes argument 7. -/
theorem arg7_eq (V : Valuation τ sig (Elt F)) :
    after ops V (main_arg7 : DevRef τ sig) = V (main_arg7 : DevRef τ sig) := by
  rw [ops_eq]
  simp only [after_append]
  rw [pres5 _ (r := main_arg7) (by decide), pres4 _ (r := main_arg7) (by decide), pres3 _ (r := main_arg7) (by decide), pres2 _ (r := main_arg7) (by decide), pres1 _ (r := main_arg7) (by decide), pres0 _ (r := main_arg7) (by decide)]

/-! ## The run -/

/-- From any memory with zero counters every weakly fair execution of the reference's @main terminates, and in every final
    state, on every device, the result buffer holds `outT` of the eight argument arrays as the launch memory has them,
    and the eight argument arrays are as the launch memory has them. -/
theorem refRun (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v26)
          = outT (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨(h c main_v26).trans (v26_eq _), (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.RefSide

end
-- ==== Proof.RefIsSpecWord.lean ====
/-
  Words: the sign-of-the-divisor remainder of a small non-negative id by 1024, and the look-up's range test, one word at a time.

  For an id `x` with `0 ≤ x ≤ 99999` the truncated remainder `r` of `x` by 1024 is the word of value `x mod 1024`.
  It is not negative, so the remainder's sign correction (add the divisor where the remainder's sign differs from the divisor's
  and the remainder is not zero) leaves it alone, the look-up's normalisation (add 1024 to a negative index) leaves it
  alone, and its range test `0 ≤ r ≤ 1023` holds; read signed and clamped into `[0, 1023]` it is `x mod 1024` still.
  Last, a conjunction over an axis (a reduction by `and` from the bit 1) of bits that are all 1 is 1.
-/
import Idealize.ShloMosaic.Lib.Affine
import Idealize.ShloMosaic.Lib.ValueIdx
import Idealize.ShloMosaic.PureOps.Reduce

namespace Cert.RefSide

open Idealize.ShloMosaic

/-- The truncated remainder by 1024 of an id in `[0, 99999]` has the value `x mod 1024`. -/
theorem rem1024_toNat (x : BitVec 32) (hx : x.toNat ≤ 99999) :
    (IntOp.remsi .host x 1024#32).toNat = x.toNat % 1024 :=
  IntOp.toNat_remsi .host (by omega) 1024 (by norm_num) (by norm_num)

/-- So it is below 1024. -/
theorem rem1024_lt (x : BitVec 32) (hx : x.toNat ≤ 99999) : (IntOp.remsi .host x 1024#32).toNat < 1024 := by
  rw [rem1024_toNat x hx]; exact Nat.mod_lt _ (by norm_num)

/-- A word below 1024 reads the same signed and unsigned. -/
theorem toInt_of_lt_1024 (r : BitVec 32) (hr : r.toNat < 1024) : r.toInt = (r.toNat : Int) :=
  BitVec.toInt_eq_toNat_of_lt (by omega)

/-- A word below 1024 is not negative. -/
theorem slt_zero_of_lt_1024 (r : BitVec 32) (hr : r.toNat < 1024) : IntOp.cmpi .slt r 0#32 = 0#1 := by
  apply ValueIdx.eq_zero_of_ne_one
  rw [IntOp.cmpi_slt, toInt_of_lt_1024 r hr, show (0#32 : BitVec 32).toInt = 0 from by decide]
  omega

/-- A word below 1024 is at least zero. -/
theorem sge_zero_of_lt_1024 (r : BitVec 32) (hr : r.toNat < 1024) : IntOp.cmpi .sge r 0#32 = 1#1 := by
  rw [IntOp.cmpi_sge, toInt_of_lt_1024 r hr, show (0#32 : BitVec 32).toInt = 0 from by decide]
  omega

/-- A word below 1024 is at most 1023. -/
theorem sle_1023_of_lt_1024 (r : BitVec 32) (hr : r.toNat < 1024) : IntOp.cmpi .sle r 1023#32 = 1#1 := by
  rw [IntOp.cmpi_sle, toInt_of_lt_1024 r hr, show (1023#32 : BitVec 32).toInt = 1023 from by decide]
  omega

/-- The sign-of-the-divisor remainder of an id in `[0, 99999]` by 1024: the sign correction does not fire, the truncated remainder
    stands. -/
theorem floorRem1024 (x : BitVec 32) (hx : x.toNat ≤ 99999) :
    Scalar.select
        (IntOp.andi
          (IntOp.cmpi .ne (IntOp.cmpi .slt (IntOp.remsi .host x 1024#32) 0#32) (IntOp.cmpi .slt 1024#32 0#32))
          (IntOp.cmpi .ne (IntOp.remsi .host x 1024#32) 0#32))
        (IntOp.addi (IntOp.remsi .host x 1024#32) 1024#32)
        (IntOp.remsi .host x 1024#32)
      = IntOp.remsi .host x 1024#32 := by
  rw [slt_zero_of_lt_1024 _ (rem1024_lt x hx), show IntOp.cmpi .slt 1024#32 0#32 = 0#1 from by decide,
    show IntOp.cmpi .ne 0#1 0#1 = 0#1 from by decide,
    (by decide : ∀ c : BitVec 1, IntOp.andi 0#1 c = 0#1) _]
  exact ValueIdx.select_zero _ _

/-- The look-up's normalisation of an index below 1024: nothing is added. -/
theorem normIdx_of_lt_1024 (r : BitVec 32) (hr : r.toNat < 1024) :
    Scalar.select (IntOp.cmpi .slt r 0#32) (IntOp.addi r 1024#32) r = r := by
  rw [slt_zero_of_lt_1024 r hr]; exact ValueIdx.select_zero _ _

/-- The look-up's range test of an index below 1024 holds. -/
theorem inRange_of_lt_1024 (r : BitVec 32) (hr : r.toNat < 1024) :
    IntOp.andi (IntOp.cmpi .sge r 0#32) (IntOp.cmpi .sle r 1023#32) = 1#1 := by
  rw [sge_zero_of_lt_1024 r hr, sle_1023_of_lt_1024 r hr]; decide

/-- An index below 1024, read signed and clamped into `[0, 1023]`, is itself. -/
theorem clamp_of_lt_1024 (r : BitVec 32) (hr : r.toNat < 1024) : min r.toInt.toNat (1024 - 1) = r.toNat := by
  rw [toInt_of_lt_1024 r hr, Int.toNat_natCast]; omega

/-- A left fold by `and` from the bit 1 over bits that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-- A reduction by `and` from the bit 1 of an array of bits that are all 1 is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

end Cert.RefSide
-- ==== Proof.RefIsSpecRem.lean ====
/-
  The remainder of the ids by 1024 and the look-up's index arithmetic, read at an index, for ids in `[0, 99999]`:
  the divisor is 1024, the remainder at `[p, s]` is the word of value `id mod 1024`, the normalisation of such indices
  changes nothing, the column of start indices at `[p, s, 0]` is the index at `[p, s]`, and the range test holds
  everywhere.
-/
import proofs.«215258_g80247168959020_cont_9to1_m_796_9_alg».proof.Proof.RefTerms
import proofs.«215258_g80247168959020_cont_9to1_m_796_9_alg».proof.Proof.RefIsSpecWord
import Idealize.ShloMosaic.Lib.Pipeline.Value

noncomputable section

namespace Cert.RefSide

open Cert.ReferenceIdeal Cert.ReferenceIdeal.Gen Idealize.ShloMosaic Idealize.ShloMosaic.ValueIdx

/-- The remainder's divisor is 1024: its guard against a zero divisor does not fire. -/
theorem divisorT_apply (j : S_.Idx) : divisorT j = 1024#32 := by
  show Scalar.select (IntOp.cmpi .eq 1024#32 0#32) 1#32 1024#32 = 1024#32
  decide

/-- The remainder of the ids by 1024 at an index: the truncated remainder of that id by 1024. -/
theorem remT_apply (ids : IVec S4096x200 32) (i : S4096x200.Idx) (hi : (ids i).toNat ≤ 99999) :
    remT ids i = IntOp.remsi .host (ids i) 1024#32 :=
  floorRem1024 (ids i) hi

/-- Its value: the id modulo 1024. -/
theorem remT_toNat (ids : IVec S4096x200 32) (i : S4096x200.Idx) (hi : (ids i).toNat ≤ 99999) :
    (remT ids i).toNat = (ids i).toNat % 1024 := by
  rw [remT_apply ids i hi]; exact rem1024_toNat (ids i) hi

/-- So it is below 1024. -/
theorem remT_lt (ids : IVec S4096x200 32) (i : S4096x200.Idx) (hi : (ids i).toNat ≤ 99999) :
    (remT ids i).toNat < 1024 := by
  rw [remT_toNat ids i hi]; exact Nat.mod_lt _ (by norm_num)

/-- The look-up's normalisation leaves an array of indices below 1024 alone. -/
theorem normT_of_lt (x : IVec S4096x200 32) (hx : ∀ i, (x i).toNat < 1024) : normT x = x :=
  funext fun i => normIdx_of_lt_1024 (x i) (hx i)

/-- The column of start indices at `[p, s, 0]` is the normalised index at `[p, s]`. -/
theorem startT_apply (x : IVec S4096x200 32) (p : Fin 4096) (s : Fin 200) (z : Fin 1) :
    startT x (ix3 p s z) = normT x (ix2 p s) :=
  broadcastInDim_apply _ _ _ _ (ix2 p s) fun a => by
    match a with
    | ⟨0, _⟩ => rfl
    | ⟨1, _⟩ => rfl

/-- The range test of an array of indices below 1024 holds everywhere. -/
theorem inRangeT_of_lt (x : IVec S4096x200 32) (hx : ∀ i, (x i).toNat < 1024) (j : S4096x200.Idx) :
    inRangeT x j = 1#1 := by
  have hn : normT x = x := normT_of_lt x hx
  refine reduce_andi_of_all _ _ _ _ (fun _ => rfl) (fun i => ?_) j
  obtain ⟨p, s, z, rfl⟩ : ∃ (p : Fin 4096) (s : Fin 200) (z : Fin 1), i = ix3 p s z := ⟨i 0, i 1, i 2, eq_ix3 i⟩
  have hs : startT x (ix3 p s z) = x (ix2 p s) := by rw [startT_apply, hn]
  show IntOp.andi (IntOp.cmpi .sge (startT x (ix3 p s z)) 0#32) (IntOp.cmpi .sle (startT x (ix3 p s z)) 1023#32) = 1#1
  rw [hs]
  exact inRange_of_lt_1024 _ (hx _)

end Cert.RefSide

end
-- ==== Proof.RefIsSpecGather.lean ====
/-
  The table look-up's gather, read at an index. The operand is a `[1024, 16]` table, the start indices a
  `[4096, 200, 1]` column, the result `[4096, 200, 16]`: result `[p, s, c]` reads row `idx[p, s, 0]` (signed, clamped
  into `[0, 1023]`) and column `c`.
-/
import proofs.«215258_g80247168959020_cont_9to1_m_796_9_alg».proof.Proof.RefTerms
import Idealize.ShloMosaic.Lib.Pipeline.Value
import Idealize.ShloMosaic.Lib.ValueIdx

noncomputable section

namespace Cert.RefSide

open Cert.ReferenceIdeal Cert.ReferenceIdeal.Gen Idealize.ShloMosaic Idealize.ShloMosaic.ValueIdx

/-- The table look-up's gather read at `[p, s, c]`: row `idx[p, s, 0]` (read signed and clamped into `[0, 1023]`),
    column `c` of the table. Operand axis 0 is collapsed and named by the start index map, so its coordinate is the
    clamped start; operand axis 1 is the one offset axis, so its coordinate is the result's last coordinate. -/
theorem gather_apply {α : Type} (x : S1024x16.Idx → α) (idx : IVec S4096x200x1 32) (p : Fin 4096) (s : Fin 200)
    (c : Fin 16) :
    Host.gather gather_S1024x16_S4096x200x1_S4096x200x16_2_0_n_n_0_2_116 x idx (ix3 p s c)
      = x (ix2 ⟨min (idx (ix3 p s 0)).toInt.toNat (1024 - 1), by omega⟩ c) := by
  unfold Host.gather
  refine congrArg x (funext fun a => Fin.ext ?_)
  match a with
  | ⟨0, _⟩ =>
    show gather_S1024x16_S4096x200x1_S4096x200x16_2_0_n_n_0_2_116.start (ix3 p s c) idx 0
        + gather_S1024x16_S4096x200x1_S4096x200x16_2_0_n_n_0_2_116.batchCoord (ix3 p s c) 0
        + gather_S1024x16_S4096x200x1_S4096x200x16_2_0_n_n_0_2_116.offCoord (ix3 p s c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x16_S4096x200x1_S4096x200x16_2_0_n_n_0_2_116.startIndexMap from
      List.mem_singleton.mpr rfl)]
    have hsi : gather_S1024x16_S4096x200x1_S4096x200x16_2_0_n_n_0_2_116.siIdx (ix3 p s c)
        ⟨List.idxOf (0 : Fin 2) gather_S1024x16_S4096x200x1_S4096x200x16_2_0_n_n_0_2_116.startIndexMap,
          List.idxOf_lt_length_iff.2 (List.mem_singleton.mpr rfl)⟩ = ix3 p s 0 := by
      funext b; refine Fin.ext ?_
      match b with
      | ⟨0, _⟩ => rfl
      | ⟨1, _⟩ => rfl
      | ⟨2, _⟩ => rfl
    rw [hsi]
    rfl
  | ⟨1, _⟩ =>
    show gather_S1024x16_S4096x200x1_S4096x200x16_2_0_n_n_0_2_116.start (ix3 p s c) idx 1
        + gather_S1024x16_S4096x200x1_S4096x200x16_2_0_n_n_0_2_116.batchCoord (ix3 p s c) 1
        + gather_S1024x16_S4096x200x1_S4096x200x16_2_0_n_n_0_2_116.offCoord (ix3 p s c) 1 = c.val
    rw [GatherDims.batchCoord_eq_zero _ _ _ List.not_mem_nil]
    have h1 : gather_S1024x16_S4096x200x1_S4096x200x16_2_0_n_n_0_2_116.start (ix3 p s c) idx 1 = 0 := by
      unfold GatherDims.start
      rw [dif_neg (show ¬ (1 : Fin 2) ∈ gather_S1024x16_S4096x200x1_S4096x200x16_2_0_n_n_0_2_116.startIndexMap from
        fun h => absurd (List.mem_singleton.mp h) (by decide))]
    have h2 : gather_S1024x16_S4096x200x1_S4096x200x16_2_0_n_n_0_2_116.offCoord (ix3 p s c) 1 = c.val := by
      unfold GatherDims.offCoord
      rw [dif_pos (show (1 : Fin 2) ∈ gather_S1024x16_S4096x200x1_S4096x200x16_2_0_n_n_0_2_116.sKept from
        (GatherDims.mem_sKept _ _).mpr
          ⟨fun h => absurd (List.mem_singleton.mp h) (by decide), List.not_mem_nil⟩)]
      rfl
    rw [h1, h2]
    omega

/-- The same with the row named: if the clamped start index at `[p, s, 0]` is `r`, the gather at `[p, s, c]` reads the
    table at `[r, c]`. -/
theorem gather_apply_of_eq {α : Type} (x : S1024x16.Idx → α) (idx : IVec S4096x200x1 32) (p : Fin 4096) (s : Fin 200)
    (c : Fin 16) (r : Fin 1024) (hr : min (idx (ix3 p s 0)).toInt.toNat (1024 - 1) = r.val) :
    Host.gather gather_S1024x16_S4096x200x1_S4096x200x16_2_0_n_n_0_2_116 x idx (ix3 p s c) = x (ix2 r c) := by
  rw [gather_apply]
  exact congrArg (fun q => x (ix2 q c)) (Fin.ext hr)

end Cert.RefSide

end
-- ==== Proof.RefIsSpecTake.lean ====
/-
  The look-up of a hash table at the ids' remainders by 1024, read at an index, for ids in `[0, 99999]`: at
  `[p, s, c]` it is the table at `[bucket (ids [p, s]), c]`, the bucket being the id modulo 1024.
-/
import proofs.«215258_g80247168959020_cont_9to1_m_796_9_alg».proof.Proof.RefTerms
import proofs.«215258_g80247168959020_cont_9to1_m_796_9_alg».proof.Proof.Spec
import proofs.«215258_g80247168959020_cont_9to1_m_796_9_alg».proof.Proof.RefIsSpecWord
import proofs.«215258_g80247168959020_cont_9to1_m_796_9_alg».proof.Proof.RefIsSpecRem
import proofs.«215258_g80247168959020_cont_9to1_m_796_9_alg».proof.Proof.RefIsSpecGather
import Idealize.ShloMosaic.Lib.Pipeline.Value

noncomputable section

namespace Cert.RefSide

open Cert.ReferenceIdeal Cert.ReferenceIdeal.Gen Idealize.ShloMosaic Idealize.ShloMosaic.ValueIdx

variable {F : FTy → Type} [FloatOps F]

/-- A `[4096, 200]` array broadcast along a new last axis of 16 reads, at `[p, s, c]`, the array at `[p, s]`. -/
theorem bcastLast_apply {α : Type} (m : S4096x200.Idx → α) (p : Fin 4096) (s : Fin 200) (c : Fin 16) :
    broadcastInDim S4096x200x16 ![0, 1] bcast_S4096x200_S4096x200x16_0_1 m (ix3 p s c) = m (ix2 p s) :=
  broadcastInDim_apply ![0, 1] bcast_S4096x200_S4096x200x16_0_1 m (ix3 p s c) (ix2 p s) fun a => by
    match a with
    | ⟨0, _⟩ => rfl
    | ⟨1, _⟩ => rfl

/-- The look-up of a table at the ids' remainders, read at `[p, s, c]`, for ids in `[0, 99999]`: the range test holds,
    so the not-a-number fill is never taken, and the gather reads row `id mod 1024` — the id's bucket — at column `c`. -/
theorem takeT_apply (H : FVec F S1024x16 .f32) (ids : IVec S4096x200 32) (hids : ∀ i, (ids i).toNat ≤ 99999)
    (p : Fin 4096) (s : Fin 200) (c : Fin 16) :
    takeT H (remT ids) (ix3 p s c) = H (ix2 (Cert.Spec.bucket (ids (ix2 p s))) c) := by
  have hlt : ∀ i, (remT ids i).toNat < 1024 := fun i => remT_lt ids i (hids i)
  have h1 : broadcastInDim S4096x200x16 ![0, 1] bcast_S4096x200_S4096x200x16_0_1 (inRangeT (remT ids)) (ix3 p s c) = 1#1 := by
    rw [bcastLast_apply]
    exact inRangeT_of_lt (remT ids) hlt (ix2 p s)
  have hs : startT (remT ids) (ix3 p s (0 : Fin 1)) = remT ids (ix2 p s) := by
    rw [startT_apply, normT_of_lt (remT ids) hlt]
  unfold takeT
  rw [select_apply, h1, select_one]
  refine gather_apply_of_eq H _ p s c (Cert.Spec.bucket (ids (ix2 p s))) ?_
  rw [hs, clamp_of_lt_1024 _ (hlt _), remT_toNat ids _ (hids _)]
  rfl

end Cert.RefSide

end
-- ==== Proof.RefIsSpecDiv.lean ====
/-
  The mean's divisor: the float word 0x43480000 is the real 200, and at the extended reals division by 200 is
  multiplication by the real 1/200 — at every extended real, the infinities included, since 200 is not zero and the
  inverse of the real 200 is the real 1/200.
-/
import Idealize.ShloMosaic.PureOps.Ideal

namespace Cert.RefSide

open Idealize.ShloMosaic

/-- The float word 0x43480000 denotes 200: sign 0, exponent 134, significand 2^23 + 4718592, so 13107200 · 2^(-16). -/
theorem ofBits_200 : Ideal.ofBits .f32 0x43480000#32 = ((200 : ℝ) : EReal) := by
  simp [Ideal.ofBits, Ideal.ieee, -EReal.coe_mul]; norm_num

/-- Division by the word 200.0 is multiplication by the real 1/200. -/
theorem div_200 (x : EReal) :
    Ideal.div x (Ideal.ofBits .f32 0x43480000#32) = x * ((1 / 200 : ℝ) : EReal) := by
  rw [ofBits_200]
  unfold Ideal.div
  rw [if_neg (EReal.coe_ne_zero.2 (by norm_num)), ← EReal.coe_inv, one_div]

end Cert.RefSide
-- ==== Proof.RefIsSpecMean.lean ====
/-
  The means over the 200 positions, read at an index at the extended reals: the sum from zero over the positions
  `k` of the array at `[p, k, c]`, divided by the word 200.0 — that is, the sum times the real 1/200.
-/
import proofs.«215258_g80247168959020_cont_9to1_m_796_9_alg».proof.Proof.RefTerms
import proofs.«215258_g80247168959020_cont_9to1_m_796_9_alg».proof.Proof.RefIsSpecDiv
import Idealize.ShloMosaic.PureOps.Ideal.Laws
import Idealize.ShloMosaic.Lib.ValueIdx

noncomputable section

namespace Cert.RefSide

open Cert.ReferenceIdeal Cert.ReferenceIdeal.Gen Idealize.ShloMosaic Idealize.ShloMosaic.ValueIdx

open scoped BigOperators

/-- The mean over the 200 positions of a `[4096, 200, 16]` array at `[p, c]`: the sum from zero over the positions,
    divided by 200, is the sum times the real 1/200. -/
theorem mean16T_apply (x : FVec Ideal S4096x200x16 .f32) (p : Fin 4096) (c : Fin 16) :
    mean16T (F := Ideal) x (ix2 p c) = (∑ k : Fin 200, x (ix3 p k c)) * ((1 / 200 : ℝ) : EReal) := by
  have hR : S4096x200x16.Reduces [1] S4096x16 := by decide
  show Ideal.div
      (Ideal.hostReduceAdd reducesTo_S4096x200x16_S4096x16_d1 x (Ideal.ofBits .f32 0x00000000#32) (ix2 p c))
      (Ideal.ofBits .f32 0x43480000#32) = _
  rw [div_200, Ideal.hostReduceAdd_single _ hR, Ideal.ofBits_zero_f32, zero_add]
  refine congrArg (· * _) ?_
  show ∑ k : Fin 200, x (hR.lift (ix2 p c) k) = _
  refine Finset.sum_congr rfl fun k _ => congrArg x (funext fun a => Fin.ext ?_)
  match a with
  | ⟨0, _⟩ => rfl
  | ⟨1, _⟩ => rfl
  | ⟨2, _⟩ => rfl

/-- The mean over the 200 positions of a `[4096, 200, 64]` array at `[p, e]`: the sum times the real 1/200. -/
theorem mean64T_apply (x : FVec Ideal S4096x200x64 .f32) (p : Fin 4096) (e : Fin 64) :
    mean64T (F := Ideal) x (ix2 p e) = (∑ k : Fin 200, x (ix3 p k e)) * ((1 / 200 : ℝ) : EReal) := by
  have hR : S4096x200x64.Reduces [1] S4096x64 := by decide
  show Ideal.div
      (Ideal.hostReduceAdd reducesTo_S4096x200x64_S4096x64_d1 x (Ideal.ofBits .f32 0x00000000#32) (ix2 p e))
      (Ideal.ofBits .f32 0x43480000#32) = _
  rw [div_200, Ideal.hostReduceAdd_single _ hR, Ideal.ofBits_zero_f32, zero_add]
  refine congrArg (· * _) ?_
  show ∑ k : Fin 200, x (hR.lift (ix2 p e) k) = _
  refine Finset.sum_congr rfl fun k _ => congrArg x (funext fun a => Fin.ext ?_)
  match a with
  | ⟨0, _⟩ => rfl
  | ⟨1, _⟩ => rfl
  | ⟨2, _⟩ => rfl

end Cert.RefSide

end
-- ==== Proof.RefIsSpecTail.lean ====
/-
  The reference's last steps read at an index at the extended reals: four `[4096, 16]` arrays side by side (column
  `e` is column `e mod 16` of array `e / 16`), the contraction against the transposed weights (the plain matrix
  product, whose right factor at `[e, n]` is `W[n, e]`), and the bias on every row.
-/
import proofs.«215258_g80247168959020_cont_9to1_m_796_9_alg».proof.Proof.RefTerms
import Idealize.ShloMosaic.Lib.Pipeline.Value
import Idealize.ShloMosaic.Lib.StackMember
import Idealize.ShloMosaic.Lib.ValueLayout

noncomputable section

namespace Cert.RefSide

open Cert.ReferenceIdeal Cert.ReferenceIdeal.Gen Idealize.ShloMosaic Idealize.ShloMosaic.ValueIdx

open scoped BigOperators

/-- Four `[4096, 16]` arrays side by side, read at `[p, e]`: column `e mod 16` of the array `e / 16`. -/
theorem concat4_apply {α : Type} (a b c d : S4096x16.Idx → α) (p : Fin 4096) (e : Fin 64) :
    concatenate S4096x64 1 [⟨S4096x16, a⟩, ⟨S4096x16, b⟩, ⟨S4096x16, c⟩, ⟨S4096x16, d⟩]
        concatenates_S4096x16_S4096x16_S4096x16_S4096x16_S4096x64_d1 (ix2 p e)
      = if e.val < 16 then a (ix2 p ⟨e.val % 16, Nat.mod_lt _ (by norm_num)⟩)
        else if e.val < 32 then b (ix2 p ⟨e.val % 16, Nat.mod_lt _ (by norm_num)⟩)
        else if e.val < 48 then c (ix2 p ⟨e.val % 16, Nat.mod_lt _ (by norm_num)⟩)
        else d (ix2 p ⟨e.val % 16, Nat.mod_lt _ (by norm_num)⟩) := by
  have he : e.val < 64 := e.isLt
  have hi : ∀ b' : Fin S4096x16.rank, b'.cast (rfl : S4096x16.rank = S4096x64.rank) ≠ (1 : Fin S4096x64.rank) →
      ((ix2 p (⟨e.val % 16, Nat.mod_lt _ (by norm_num)⟩ : Fin 16) : S4096x16.Idx) b').val
        = ((ix2 p e : S4096x64.Idx) (b'.cast rfl)).val := fun b' hb => by
    match b' with
    | ⟨0, _⟩ => rfl
    | ⟨1, _⟩ => exact absurd rfl hb
  by_cases h1 : e.val < 16
  · rw [if_pos h1]
    exact concatenate_apply_piece 1 [⟨S4096x16, a⟩, ⟨S4096x16, b⟩, ⟨S4096x16, c⟩, ⟨S4096x16, d⟩]
      concatenates_S4096x16_S4096x16_S4096x16_S4096x16_S4096x64_d1 (ix2 p e) 0 (show 0 < 4 by omega) S4096x16 a rfl rfl 0 rfl _ hi
      (by show 0 + e.val % 16 = e.val; omega)
  rw [if_neg h1]
  by_cases h2 : e.val < 32
  · rw [if_pos h2]
    exact concatenate_apply_piece 1 [⟨S4096x16, a⟩, ⟨S4096x16, b⟩, ⟨S4096x16, c⟩, ⟨S4096x16, d⟩]
      concatenates_S4096x16_S4096x16_S4096x16_S4096x16_S4096x64_d1 (ix2 p e) 1 (show 1 < 4 by omega) S4096x16 b rfl rfl 16 rfl _ hi
      (by show 16 + e.val % 16 = e.val; omega)
  rw [if_neg h2]
  by_cases h3 : e.val < 48
  · rw [if_pos h3]
    exact concatenate_apply_piece 1 [⟨S4096x16, a⟩, ⟨S4096x16, b⟩, ⟨S4096x16, c⟩, ⟨S4096x16, d⟩]
      concatenates_S4096x16_S4096x16_S4096x16_S4096x16_S4096x64_d1 (ix2 p e) 2 (show 2 < 4 by omega) S4096x16 c rfl rfl 32 rfl _ hi
      (by show 32 + e.val % 16 = e.val; omega)
  rw [if_neg h3]
  exact concatenate_apply_piece 1 [⟨S4096x16, a⟩, ⟨S4096x16, b⟩, ⟨S4096x16, c⟩, ⟨S4096x16, d⟩]
      concatenates_S4096x16_S4096x16_S4096x16_S4096x16_S4096x64_d1 (ix2 p e) 3 (show 3 < 4 by omega) S4096x16 d rfl rfl 48 rfl _ hi
    (by show 48 + e.val % 16 = e.val; omega)

/-- The bias broadcast to one row and then down the 4096 rows reads `bias n` at `[p, n]`. -/
theorem biasRows_apply {α : Type} (bias : S64.Idx → α) (p : Fin 4096) (n : Fin 64) :
    broadcastInDim S4096x64 ![0, 1] bcast_S1x64_S4096x64_0_1 (broadcastInDim S1x64 ![1] bcast_S64_S1x64_1 bias) (ix2 p n)
      = bias (ix1 n) := by
  rw [broadcastInDim_apply ![0, 1] bcast_S1x64_S4096x64_0_1 _ (ix2 p n) (ix2 (0 : Fin 1) n) fun a => by
    match a with
    | ⟨0, _⟩ => rfl
    | ⟨1, _⟩ => rfl]
  exact broadcastInDim_apply ![1] bcast_S64_S1x64_1 bias (ix2 (0 : Fin 1) n) (ix1 n) fun a => by
    match a with
    | ⟨0, _⟩ => rfl

/-- The reference's last steps at `[p, n]`: the sum over the 64 columns `e` of (the four means side by side plus the
    embeddings' mean) at `[p, e]` times `W[n, e]`, plus `bias n`. The contraction is the plain matrix product
    against the transposed weights, and the transpose at `[e, n]` reads `W[n, e]`. -/
theorem tailT_apply (a b c d : FVec Ideal S4096x16 .f32) (emb : FVec Ideal S4096x200x64 .f32)
    (W : FVec Ideal S64x64 .f32) (bias : FVec Ideal S64 .f32) (p : Fin 4096) (n : Fin 64) :
    tailT (F := Ideal) a b c d emb W bias (ix2 p n)
      = (∑ e : Fin 64,
          (concatenate S4096x64 1 [⟨S4096x16, a⟩, ⟨S4096x16, b⟩, ⟨S4096x16, c⟩, ⟨S4096x16, d⟩]
              concatenates_S4096x16_S4096x16_S4096x16_S4096x16_S4096x64_d1 (ix2 p e)
            + mean64T (F := Ideal) emb (ix2 p e)) * W (ix2 n e))
        + bias (ix1 n) := by
  have hdot := StackMember.dotGeneral_plain_apply (m := 4096) (n := 64) (k := 64) (φ₁ := .f32) (φ₂ := .f32) none
    (addf
      (concatenate S4096x64 1 [⟨S4096x16, a⟩, ⟨S4096x16, b⟩, ⟨S4096x16, c⟩, ⟨S4096x16, d⟩]
        concatenates_S4096x16_S4096x16_S4096x16_S4096x16_S4096x64_d1)
      (mean64T (F := Ideal) emb))
    (transpose S64x64 [1, 0] W transposes_S64x64_S64x64_1_0) p n
  show Host.dotGeneral dot_S4096x64_S64x64_S4096x64_1_0_0_1_n_n none _ _ (ix2 p n)
      + broadcastInDim S4096x64 ![0, 1] bcast_S1x64_S4096x64_0_1 (broadcastInDim S1x64 ![1] bcast_S64_S1x64_1 bias) (ix2 p n) = _
  rw [biasRows_apply]
  refine congrArg (· + _) (Eq.trans hdot (Finset.sum_congr rfl fun e _ => ?_))
  rw [transpose_ix2_apply]
  rfl

end Cert.RefSide

end
-- ==== Proof.RefIsSpec.lean ====
/-
  The reference's term is the specification, index by index, for ids in `[0, 99999]`.

  At `[p, n]` the reference's last steps give the sum over the 64 columns `e` of (the four tables' means side by side
  plus the embeddings' mean) at `[p, e]` times `W[n, e]`, plus `b n`. Column `e` of the four means side by side is
  table `e / 16`'s mean at column `e mod 16`: the sum over the 200 positions `s` of that table's row
  `bucket (ids [p, s])`, times 1/200 — the look-up reads the id's remainder by 1024, which for an id in
  `[0, 99999]` is its bucket, and the mean's division by 200 is multiplication by 1/200 at every extended real. That
  is the specification's combined entry: the sum over the positions of the four tables side by side at the bucket,
  times 1/200, plus the embeddings' sum times 1/200. No finiteness of any array is used.
-/
import proofs.«215258_g80247168959020_cont_9to1_m_796_9_alg».proof.Proof.RefTerms
import proofs.«215258_g80247168959020_cont_9to1_m_796_9_alg».proof.Proof.Spec
import proofs.«215258_g80247168959020_cont_9to1_m_796_9_alg».proof.Proof.RefIsSpecTake
import proofs.«215258_g80247168959020_cont_9to1_m_796_9_alg».proof.Proof.RefIsSpecMean
import proofs.«215258_g80247168959020_cont_9to1_m_796_9_alg».proof.Proof.RefIsSpecTail

noncomputable section

namespace Cert.RefSide

open Cert.ReferenceIdeal Cert.ReferenceIdeal.Gen Idealize.ShloMosaic Idealize.ShloMosaic.ValueIdx

open scoped BigOperators

/-- One table's mean at `[p, q]`, for ids in `[0, 99999]`: the sum over the positions `s` of the table at
    `[bucket (ids [p, s]), q]`, times the real 1/200. -/
theorem tableMean_apply (H : FVec Ideal S1024x16 .f32) (ids : IVec S4096x200 32) (hids : ∀ i, (ids i).toNat ≤ 99999)
    (p : Fin 4096) (q : Fin 16) :
    mean16T (F := Ideal) (takeT H (remT ids)) (ix2 p q)
      = (∑ s : Fin 200, H (ix2 (Cert.Spec.bucket (ids (ix2 p s))) q)) * ((1 / 200 : ℝ) : EReal) := by
  rw [mean16T_apply]
  exact congrArg (· * ((1 / 200 : ℝ) : EReal)) (Finset.sum_congr rfl fun s _ => takeT_apply H ids hids p s q)

/-- Column `e` of the four tables side by side, by the quarter `e` lies in. -/
theorem hcat_q0 (H0 H1 H2 H3 : FVec Ideal S1024x16 .f32) (k : Fin 1024) (e : Fin 64) (h1 : e.val < 16) :
    Cert.Spec.hcat H0 H1 H2 H3 k e = H0 (ix2 k ⟨e.val % 16, Nat.mod_lt _ (by norm_num)⟩) := if_pos h1
theorem hcat_q1 (H0 H1 H2 H3 : FVec Ideal S1024x16 .f32) (k : Fin 1024) (e : Fin 64) (h1 : ¬e.val < 16)
    (h2 : e.val < 32) : Cert.Spec.hcat H0 H1 H2 H3 k e = H1 (ix2 k ⟨e.val % 16, Nat.mod_lt _ (by norm_num)⟩) :=
  (if_neg h1).trans (if_pos h2)
theorem hcat_q2 (H0 H1 H2 H3 : FVec Ideal S1024x16 .f32) (k : Fin 1024) (e : Fin 64) (h1 : ¬e.val < 16)
    (h2 : ¬e.val < 32) (h3 : e.val < 48) :
    Cert.Spec.hcat H0 H1 H2 H3 k e = H2 (ix2 k ⟨e.val % 16, Nat.mod_lt _ (by norm_num)⟩) :=
  (if_neg h1).trans ((if_neg h2).trans (if_pos h3))
theorem hcat_q3 (H0 H1 H2 H3 : FVec Ideal S1024x16 .f32) (k : Fin 1024) (e : Fin 64) (h1 : ¬e.val < 16)
    (h2 : ¬e.val < 32) (h3 : ¬e.val < 48) :
    Cert.Spec.hcat H0 H1 H2 H3 k e = H3 (ix2 k ⟨e.val % 16, Nat.mod_lt _ (by norm_num)⟩) :=
  (if_neg h1).trans ((if_neg h2).trans (if_neg h3))

/-- The four tables' means side by side at `[p, e]` are the mean over the positions of the four tables side by side
    at the id's bucket: column `e` lies in one table, and that table's mean at `[p, e mod 16]` is the sum over the
    positions of its row `bucket (ids [p, s])`, times 1/200. -/
theorem hashMeans_apply (ids : IVec S4096x200 32) (H0 H1 H2 H3 : FVec Ideal S1024x16 .f32)
    (hids : ∀ i, (ids i).toNat ≤ 99999) (p : Fin 4096) (e : Fin 64) :
    concatenate S4096x64 1
        [⟨S4096x16, mean16T (F := Ideal) (takeT H0 (remT ids))⟩, ⟨S4096x16, mean16T (F := Ideal) (takeT H1 (remT ids))⟩,
          ⟨S4096x16, mean16T (F := Ideal) (takeT H2 (remT ids))⟩, ⟨S4096x16, mean16T (F := Ideal) (takeT H3 (remT ids))⟩]
        concatenates_S4096x16_S4096x16_S4096x16_S4096x16_S4096x64_d1 (ix2 p e)
      = (∑ s : Fin 200, Cert.Spec.hcat H0 H1 H2 H3 (Cert.Spec.bucket (ids (ix2 p s))) e) * ((1 / 200 : ℝ) : EReal) := by
  rw [concat4_apply]
  by_cases h1 : e.val < 16
  · rw [if_pos h1, tableMean_apply H0 ids hids]
    exact congrArg (· * ((1 / 200 : ℝ) : EReal))
      (Finset.sum_congr rfl fun s _ => (hcat_q0 H0 H1 H2 H3 _ e h1).symm)
  rw [if_neg h1]
  by_cases h2 : e.val < 32
  · rw [if_pos h2, tableMean_apply H1 ids hids]
    exact congrArg (· * ((1 / 200 : ℝ) : EReal))
      (Finset.sum_congr rfl fun s _ => (hcat_q1 H0 H1 H2 H3 _ e h1 h2).symm)
  rw [if_neg h2]
  by_cases h3 : e.val < 48
  · rw [if_pos h3, tableMean_apply H2 ids hids]
    exact congrArg (· * ((1 / 200 : ℝ) : EReal))
      (Finset.sum_congr rfl fun s _ => (hcat_q2 H0 H1 H2 H3 _ e h1 h2 h3).symm)
  rw [if_neg h3, tableMean_apply H3 ids hids]
  exact congrArg (· * ((1 / 200 : ℝ) : EReal))
    (Finset.sum_congr rfl fun s _ => (hcat_q3 H0 H1 H2 H3 _ e h1 h2 h3).symm)

/-- The combined row entry: the four means side by side plus the embeddings' mean, at `[p, e]`, is the
    specification's. -/
theorem comb_apply (ids : IVec S4096x200 32) (emb : FVec Ideal S4096x200x64 .f32)
    (H0 H1 H2 H3 : FVec Ideal S1024x16 .f32) (hids : ∀ i, (ids i).toNat ≤ 99999) (p : Fin 4096) (e : Fin 64) :
    concatenate S4096x64 1
        [⟨S4096x16, mean16T (F := Ideal) (takeT H0 (remT ids))⟩, ⟨S4096x16, mean16T (F := Ideal) (takeT H1 (remT ids))⟩,
          ⟨S4096x16, mean16T (F := Ideal) (takeT H2 (remT ids))⟩, ⟨S4096x16, mean16T (F := Ideal) (takeT H3 (remT ids))⟩]
        concatenates_S4096x16_S4096x16_S4096x16_S4096x16_S4096x64_d1 (ix2 p e)
      + mean64T (F := Ideal) emb (ix2 p e)
      = Cert.Spec.refComb ids emb H0 H1 H2 H3 p e := by
  rw [hashMeans_apply ids H0 H1 H2 H3 hids, mean64T_apply]
  rfl

/-- THE REFERENCE'S TERM IS THE SPECIFICATION, for ids in `[0, 99999]`: at `[p, n]` both are the sum over the 64
    columns `e` of (the mean of the looked-up table rows plus the mean of the embeddings) at `[p, e]` times `W[n, e]`,
    plus `b n`. No finiteness is used: division by 200 is multiplication by 1/200 at every extended real, and the
    specification divides the hash part and the embedding part apart, as the reference does. -/
theorem outT_eq_refOut (ids : IVec S4096x200 32) (emb : FVec Ideal S4096x200x64 .f32)
    (H0 H1 H2 H3 : FVec Ideal S1024x16 .f32) (W : FVec Ideal S64x64 .f32) (b : FVec Ideal S64 .f32)
    (hids : ∀ i, (ids i).toNat ≤ 99999) :
    outT (F := Ideal) ids emb H0 H1 H2 H3 W b = Cert.Spec.refOut ids emb H0 H1 H2 H3 W b := by
  funext i
  obtain ⟨p, n, rfl⟩ : ∃ (p : Fin 4096) (n : Fin 64), i = ix2 p n := ⟨i 0, i 1, eq_ix2 i⟩
  show _ = (∑ e : Fin 64, Cert.Spec.refComb ids emb H0 H1 H2 H3 p e * W (ix2 n e)) + b (ix1 n)
  unfold outT
  rw [tailT_apply]
  exact congrArg (· + b (ix1 n))
    (Finset.sum_congr rfl fun e _ => congrArg (· * W (ix2 n e)) (comb_apply ids emb H0 H1 H2 H3 hids p e))

end Cert.RefSide

end
-- ==== Proof.RefAlg.lean ====
/-
  The reference's run read at the specification: where every id lies between 0 and 99999 the composed term of the
  reference's operations is the specification's function of the argument arrays, so the run ends with the result buffer
  at that function of the launch memory's arguments, and the arguments unchanged.
-/
import proofs.«215258_g80247168959020_cont_9to1_m_796_9_alg».proof.Proof.RefRun
import proofs.«215258_g80247168959020_cont_9to1_m_796_9_alg».proof.Proof.RefIsSpec

noncomputable section

namespace Cert.RefSide

open Cert.ReferenceIdeal Cert.ReferenceIdeal.Gen Idealize.ShloMosaic Idealize.ShloMosaic.TcCoe Idealize.SL.Sem

theorem refRun_refOut (m : (ℓ : Loc nD τ sig) → Buf (Elt Ideal) ℓ) (ρ : Dev nD → PrngReg)
    (hids : ∀ (c : Dev nD) (i : S4096x200.Idx), ((m ((c.tc : Thread nD τ).loc main_arg0) : IVec S4096x200 32) i).toNat ≤ 99999) :
    θ_run (defs (F := Ideal)) (onTc (τ := τ) (main (F := Ideal))) ⟨m, fun _ => 0, ρ⟩ (fun r => ∀ c : Dev nD,
      r.2.mem ((c.tc : Thread nD τ).loc main_v26)
          = Cert.Spec.refOut (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨(h c).1.trans (outT_eq_refOut _ _ _ _ _ _ _ _ (hids c)), (h c).2⟩)
    (refRun (F := Ideal) m ρ)

end Cert.RefSide

end
-- ==== Proof.KIClaims.lean ====
/-
  The two claims about the idealized kernel program: its frame, and that its result equals the reference's.

  The histogram call leaves, at flat index 1024 p + k of the counts, the number of positions of row p whose id falls
  in bucket k; the TensorCore region, entered with the embeddings, the counts, the tables, W and the bias re-laid,
  leaves the kernel's order of computing the result; with every float input a real number that is the reference's
  order; and the reference's run leaves the reference's order of the arguments the two memories share.
-/
import proofs.«215258_g80247168959020_cont_9to1_m_796_9_alg».proof.Defs
import proofs.«215258_g80247168959020_cont_9to1_m_796_9_alg».proof.Proof.KIWhole
import proofs.«215258_g80247168959020_cont_9to1_m_796_9_alg».proof.Proof.KIRegKernelValue
import proofs.«215258_g80247168959020_cont_9to1_m_796_9_alg».proof.Proof.KIValsRead
import proofs.«215258_g80247168959020_cont_9to1_m_796_9_alg».proof.Proof.KITileValIdeal
import proofs.«215258_g80247168959020_cont_9to1_m_796_9_alg».proof.Proof.PreFacts
import proofs.«215258_g80247168959020_cont_9to1_m_796_9_alg».proof.Proof.Law
import proofs.«215258_g80247168959020_cont_9to1_m_796_9_alg».proof.Proof.RefAlg
import proofs.«215258_g80247168959020_cont_9to1_m_796_9_alg».proof.Proof.Gen.Pre_input_domain

noncomputable section

namespace Cert.Proof.KernelIdealRun

open Cert.KernelIdeal Cert.KernelIdeal.Gen

open Idealize.ShloMosaic Idealize.ShloMosaic.TcCoe Idealize.SL.Sem
open Idealize.ShloMosaic.SparseCore (S V T)
open Idealize.ShloMosaic.ValueIdx

variable (m : (ℓ : Loc nD τ sig) → Buf (Elt Ideal) ℓ)

/-- The counts the call leaves, read row by row: entry (p, k) is the number of row p's positions in bucket k. -/
theorem hist_cnt (c : Dev nD) (p : Fin 4096) (k : Fin 1024) :
    (HfH (F := Ideal) m c : S4194304.Idx → EReal) (ix1 ⟨1024 * p.val + k.val, by omega⟩) = Cert.Spec.cnt (m (c, dr main_arg0)) p k := by
  unfold Cert.Spec.cnt
  rw [show (HfH (F := Ideal) m c : S4194304.Idx → EReal) = Cert.HistPure.histArr (F := Ideal) (Vids m c) from rfl,
    Cert.HistPure.histArr_apply]
  simp only [Vids_apply]

/-- The result array the region leaves is the kernel's order of computing the result. -/
theorem res_kerOut (c : Dev nD) :
    ResH (F := Ideal) m c
      = Cert.Spec.kerOut (m (c, dr main_arg0)) (m (c, dr main_arg1)) (m (c, dr main_arg2)) (m (c, dr main_arg3))
          (m (c, dr main_arg4)) (m (c, dr main_arg5)) (m (c, dr main_arg6)) (m (c, dr main_arg7)) :=
  region_kernel_value m (VvR m (HfH m)) c (HfH m c) rfl rfl rfl rfl rfl (hist_cnt m c)

theorem frame_KI (hbody : TileBody (F := Ideal)) :
    Cert.frame_KernelIdeal (hKernelIdeal := Cert.KernelIdeal.Gen.facts) (hPre_input_domain := Cert.Pre_input_domain.Gen.facts) :=
  fun m ρ _ => (θ_run (Cert.KernelIdeal.defs (F := Ideal)) _ _).mono (fun r h c => (h c).2) (run_claim (F := Ideal) m ρ hbody)

theorem algebraic (hbody : TileBody (F := Ideal)) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m ρ m' ρ' hpre hagree
  have hfacts := fun c => Cert.Spec.pre_facts _ _ _ _ _ _ _ _ (hpre c)
  refine ⟨fun c => ResH (F := Ideal) m c, run_claim (F := Ideal) m ρ hbody, ?_⟩
  refine (θ_run (Cert.ReferenceIdeal.defs (F := Ideal)) _ _).mono (fun r h c => ⟨(h c).1.trans ?_, (h c).2⟩)
    (Cert.RefSide.refRun_refOut m' ρ' (fun c i => by rw [(hagree c).1]; exact (hfacts c).2.2.2.2.2.2.2 i))
  obtain ⟨he, h0, h1, h2, h3, -, -, -⟩ := hfacts c
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  rw [← Cert.Spec.kerOut_eq_refOut _ _ _ _ _ _ _ _ he h0 h1 h2 h3]
  exact (res_kerOut m c).symm

end Cert.Proof.KernelIdealRun

end
-- ==== Proof.KITileView.lean ====
/-
  The two loop bodies of a chunk, read off the count buffer. One position's gather and adding scatter carries the
  histogram of the positions read so far one position on; one trip of the zeroing loop widens the zeroed prefix of
  the buffer by 256. Each is stated once per count buffer.
-/
import proofs.«215258_g80247168959020_cont_9to1_m_796_9_alg».proof.Proof.KISetup
import proofs.«215258_g80247168959020_cont_9to1_m_796_9_alg».proof.Proof.KITileValLem

noncomputable section

namespace Cert.Proof.KernelIdealRun

open Cert.KernelIdeal Cert.KernelIdeal.Gen

open Idealize.ShloMosaic

open Cert.HistPure (zeroF oneF ZeroBelow Hist gIdx sIdx tWord)

variable {F : FTy → Type} [FloatOps F] [Named F]

/-! ## The first count buffer -/

/-- A store of the whole count buffer leaves what was stored. -/
theorem writes_whole_A (f w : HistPure.S16384.Idx → F .f32) :
    (sA).view.writes (Elt F) f [⟨Rect.whole S16384, w⟩] = w :=
  Memref.write_access_whole_univ (Elt F) cc0_scratch1 f w

/-- One position: the gather of the 16 ids at the position word `t = n` and the adding scatter of ones at their
    rows' buckets carry the histogram of the positions below `n` to that of the positions below `n + 1`. -/
theorem hist_step_A (g : HistPure.S3200.Idx → BitVec 32) (f : HistPure.S16384.Idx → F .f32) (t : BitVec 32) (n : ℕ)
    (ht : t.toNat = n) (hn : n < 200)
    (h1 : ∀ a x, ((![gIdx t] : Fin 1 → IVec S16 32) a x).toNat < S3200.size a) (I : IVec S16 32)
    (hI : I = sIdx (loadIdx (F := F) (e := .i32) (View.readAt (Elt F) (sI).view (LoadRect.whole S3200) g) ![gIdx t] h1))
    (v : Vec F S16 .f32) (hv : v = broadcast S16 oneF)
    (h2 : ∀ a y, ((![I] : Fin 1 → IVec S16 32) a y).toNat < S16384.size a) (hf : Hist g n f) :
    Hist g (n + 1) ((sA).view.writes (Elt F) f [⟨Rect.whole S16384,
      storeIdx (View.readAt (Elt F) (sA).view (LoadRect.whole S16384) f) ![I] v (fun _ => 1#1) true h2⟩]) := by
  subst hI
  subst hv
  rw [writes_whole_A]
  have eI : View.readAt (Elt F) (sI).view (LoadRect.whole S3200) g = g := Memref.readAt_whole (Elt F) cc0_scratch0 g
  have eX : View.readAt (Elt F) (sA).view (LoadRect.whole S16384) f = f := Memref.readAt_whole (Elt F) cc0_scratch1 f
  have key : ∀ (g' : HistPure.S3200.Idx → BitVec 32) (f' : HistPure.S16384.Idx → F .f32) (_ : g' = g) (_ : f' = f)
      (h2' : ∀ a y, ((![sIdx (loadIdx (F := F) (e := .i32) g' ![gIdx t] h1)] : Fin 1 → IVec S16 32) a y).toNat
        < S16384.size a),
      Hist g (n + 1) (storeIdx (F := F) (e := .f32) f' ![sIdx (loadIdx (F := F) (e := .i32) g' ![gIdx t] h1)]
        (broadcast S16 oneF) (fun _ => 1#1) true h2') := by
    intro g' f' hg' hf' h2'
    subst hg'
    subst hf'
    exact HistPure.hist_step g' f' t n ht hn h1 h2' hf
  exact key _ _ eI eX h2

/-- Stores of zeros through the count buffer widen its zeroed prefix over what they cover. -/
theorem zeroBelow_writes_A (f : HistPure.S16384.Idx → F .f32) (L : List (View.Piece (Elt F) S16384 .f32)) (n m : ℕ)
    (hz : ZeroBelow n f) (hL : ∀ p ∈ L, ∀ x, p.2 x = (zeroF : F .f32))
    (hcov : ∀ y : HistPure.S16384.Idx, n ≤ (y 0).val → (y 0).val < m → ∃ p ∈ L, y ∈ p.1.set) :
    ZeroBelow m ((sA).view.writes (Elt F) f L) :=
  HistPure.zeroBelow_writes (F := F) (sA).view f L n m hz hL hcov

/-- One trip of the zeroing loop: its 16 stores of 16 zeros, at `256 k + 16 r` for `r = 0 … 15`, widen the zeroed
    prefix from `256 k` to `256 (k + 1)`. -/
theorem zero_trip_A (f : HistPure.S16384.Idx → F .f32) (k : ℕ) (off : BitVec 32 → Fin 1 → ℕ)
    (hoff : ∀ r : Fin 16, off (BitVec.ofNat 32 r.val) = ![256 * k + 16 * r.val])
    (hin : ∀ (r : Fin 16) a, off (BitVec.ofNat 32 r.val) a + S16.size a ≤ S16384.size a)
    (pay : S16.Idx → F .f32) (hpay : ∀ x, pay x = zeroF) (hf : ZeroBelow (256 * k) f) :
    ZeroBelow (256 * (k + 1)) ((sA).view.writes (Elt F) f
      [ ⟨Rect.unit (off 15#32) S16.size (hin 15), pay⟩,
        ⟨Rect.unit (off 14#32) S16.size (hin 14), pay⟩,
        ⟨Rect.unit (off 13#32) S16.size (hin 13), pay⟩,
        ⟨Rect.unit (off 12#32) S16.size (hin 12), pay⟩,
        ⟨Rect.unit (off 11#32) S16.size (hin 11), pay⟩,
        ⟨Rect.unit (off 10#32) S16.size (hin 10), pay⟩,
        ⟨Rect.unit (off 9#32) S16.size (hin 9), pay⟩,
        ⟨Rect.unit (off 8#32) S16.size (hin 8), pay⟩,
        ⟨Rect.unit (off 7#32) S16.size (hin 7), pay⟩,
        ⟨Rect.unit (off 6#32) S16.size (hin 6), pay⟩,
        ⟨Rect.unit (off 5#32) S16.size (hin 5), pay⟩,
        ⟨Rect.unit (off 4#32) S16.size (hin 4), pay⟩,
        ⟨Rect.unit (off 3#32) S16.size (hin 3), pay⟩,
        ⟨Rect.unit (off 2#32) S16.size (hin 2), pay⟩,
        ⟨Rect.unit (off 1#32) S16.size (hin 1), pay⟩,
        ⟨Rect.unit (off 0#32) S16.size (hin 0), pay⟩]) := by
  refine zeroBelow_writes_A f _ (256 * k) (256 * (k + 1)) hf ?_ ?_
  · intro p hp x
    simp only [List.mem_cons, List.mem_nil_iff, or_false] at hp
    rcases hp with rfl | rfl | rfl | rfl | rfl | rfl | rfl | rfl | rfl | rfl | rfl | rfl | rfl | rfl | rfl | rfl <;>
      exact hpay x
  · intro y hlo hhi
    obtain ⟨r, hr1, hr2⟩ : ∃ r : Fin 16, 256 * k + 16 * r.val ≤ (y 0).val ∧ (y 0).val < 256 * k + 16 * r.val + 16 :=
      ⟨⟨((y 0).val - 256 * k) / 16, by omega⟩,
        by show 256 * k + 16 * (((y 0).val - 256 * k) / 16) ≤ (y 0).val; omega,
        by show (y 0).val < 256 * k + 16 * (((y 0).val - 256 * k) / 16) + 16; omega⟩
    refine ⟨⟨Rect.unit (off (BitVec.ofNat 32 r.val)) S16.size (hin r), pay⟩, ?_, ?_⟩
    · fin_cases r <;> repeat (first | exact List.mem_cons_self | apply List.mem_cons_of_mem)
    · show y ∈ (Rect.unit (s := S16384) (off (BitVec.ofNat 32 r.val)) S16.size (hin r)).set
      rw [Rect.mem_set_unit]
      intro a
      have ha : a = 0 := Subsingleton.elim _ _
      subst ha
      rw [hoff r]
      show 256 * k + 16 * r.val ≤ (y 0).val ∧ (y 0).val < 256 * k + 16 * r.val + 16
      exact ⟨hr1, hr2⟩

/-! ## The second count buffer -/

/-- A store of the whole count buffer leaves what was stored. -/
theorem writes_whole_B (f w : HistPure.S16384.Idx → F .f32) :
    (sB).view.writes (Elt F) f [⟨Rect.whole S16384, w⟩] = w :=
  Memref.write_access_whole_univ (Elt F) cc0_scratch2 f w

/-- One position: the gather of the 16 ids at the position word `t = n` and the adding scatter of ones at their
    rows' buckets carry the histogram of the positions below `n` to that of the positions below `n + 1`. -/
theorem hist_step_B (g : HistPure.S3200.Idx → BitVec 32) (f : HistPure.S16384.Idx → F .f32) (t : BitVec 32) (n : ℕ)
    (ht : t.toNat = n) (hn : n < 200)
    (h1 : ∀ a x, ((![gIdx t] : Fin 1 → IVec S16 32) a x).toNat < S3200.size a) (I : IVec S16 32)
    (hI : I = sIdx (loadIdx (F := F) (e := .i32) (View.readAt (Elt F) (sI).view (LoadRect.whole S3200) g) ![gIdx t] h1))
    (v : Vec F S16 .f32) (hv : v = broadcast S16 oneF)
    (h2 : ∀ a y, ((![I] : Fin 1 → IVec S16 32) a y).toNat < S16384.size a) (hf : Hist g n f) :
    Hist g (n + 1) ((sB).view.writes (Elt F) f [⟨Rect.whole S16384,
      storeIdx (View.readAt (Elt F) (sB).view (LoadRect.whole S16384) f) ![I] v (fun _ => 1#1) true h2⟩]) := by
  subst hI
  subst hv
  rw [writes_whole_B]
  have eI : View.readAt (Elt F) (sI).view (LoadRect.whole S3200) g = g := Memref.readAt_whole (Elt F) cc0_scratch0 g
  have eX : View.readAt (Elt F) (sB).view (LoadRect.whole S16384) f = f := Memref.readAt_whole (Elt F) cc0_scratch2 f
  have key : ∀ (g' : HistPure.S3200.Idx → BitVec 32) (f' : HistPure.S16384.Idx → F .f32) (_ : g' = g) (_ : f' = f)
      (h2' : ∀ a y, ((![sIdx (loadIdx (F := F) (e := .i32) g' ![gIdx t] h1)] : Fin 1 → IVec S16 32) a y).toNat
        < S16384.size a),
      Hist g (n + 1) (storeIdx (F := F) (e := .f32) f' ![sIdx (loadIdx (F := F) (e := .i32) g' ![gIdx t] h1)]
        (broadcast S16 oneF) (fun _ => 1#1) true h2') := by
    intro g' f' hg' hf' h2'
    subst hg'
    subst hf'
    exact HistPure.hist_step g' f' t n ht hn h1 h2' hf
  exact key _ _ eI eX h2

/-- Stores of zeros through the count buffer widen its zeroed prefix over what they cover. -/
theorem zeroBelow_writes_B (f : HistPure.S16384.Idx → F .f32) (L : List (View.Piece (Elt F) S16384 .f32)) (n m : ℕ)
    (hz : ZeroBelow n f) (hL : ∀ p ∈ L, ∀ x, p.2 x = (zeroF : F .f32))
    (hcov : ∀ y : HistPure.S16384.Idx, n ≤ (y 0).val → (y 0).val < m → ∃ p ∈ L, y ∈ p.1.set) :
    ZeroBelow m ((sB).view.writes (Elt F) f L) :=
  HistPure.zeroBelow_writes (F := F) (sB).view f L n m hz hL hcov

/-- One trip of the zeroing loop: its 16 stores of 16 zeros, at `256 k + 16 r` for `r = 0 … 15`, widen the zeroed
    prefix from `256 k` to `256 (k + 1)`. -/
theorem zero_trip_B (f : HistPure.S16384.Idx → F .f32) (k : ℕ) (off : BitVec 32 → Fin 1 → ℕ)
    (hoff : ∀ r : Fin 16, off (BitVec.ofNat 32 r.val) = ![256 * k + 16 * r.val])
    (hin : ∀ (r : Fin 16) a, off (BitVec.ofNat 32 r.val) a + S16.size a ≤ S16384.size a)
    (pay : S16.Idx → F .f32) (hpay : ∀ x, pay x = zeroF) (hf : ZeroBelow (256 * k) f) :
    ZeroBelow (256 * (k + 1)) ((sB).view.writes (Elt F) f
      [ ⟨Rect.unit (off 15#32) S16.size (hin 15), pay⟩,
        ⟨Rect.unit (off 14#32) S16.size (hin 14), pay⟩,
        ⟨Rect.unit (off 13#32) S16.size (hin 13), pay⟩,
        ⟨Rect.unit (off 12#32) S16.size (hin 12), pay⟩,
        ⟨Rect.unit (off 11#32) S16.size (hin 11), pay⟩,
        ⟨Rect.unit (off 10#32) S16.size (hin 10), pay⟩,
        ⟨Rect.unit (off 9#32) S16.size (hin 9), pay⟩,
        ⟨Rect.unit (off 8#32) S16.size (hin 8), pay⟩,
        ⟨Rect.unit (off 7#32) S16.size (hin 7), pay⟩,
        ⟨Rect.unit (off 6#32) S16.size (hin 6), pay⟩,
        ⟨Rect.unit (off 5#32) S16.size (hin 5), pay⟩,
        ⟨Rect.unit (off 4#32) S16.size (hin 4), pay⟩,
        ⟨Rect.unit (off 3#32) S16.size (hin 3), pay⟩,
        ⟨Rect.unit (off 2#32) S16.size (hin 2), pay⟩,
        ⟨Rect.unit (off 1#32) S16.size (hin 1), pay⟩,
        ⟨Rect.unit (off 0#32) S16.size (hin 0), pay⟩]) := by
  refine zeroBelow_writes_B f _ (256 * k) (256 * (k + 1)) hf ?_ ?_
  · intro p hp x
    simp only [List.mem_cons, List.mem_nil_iff, or_false] at hp
    rcases hp with rfl | rfl | rfl | rfl | rfl | rfl | rfl | rfl | rfl | rfl | rfl | rfl | rfl | rfl | rfl | rfl <;>
      exact hpay x
  · intro y hlo hhi
    obtain ⟨r, hr1, hr2⟩ : ∃ r : Fin 16, 256 * k + 16 * r.val ≤ (y 0).val ∧ (y 0).val < 256 * k + 16 * r.val + 16 :=
      ⟨⟨((y 0).val - 256 * k) / 16, by omega⟩,
        by show 256 * k + 16 * (((y 0).val - 256 * k) / 16) ≤ (y 0).val; omega,
        by show (y 0).val < 256 * k + 16 * (((y 0).val - 256 * k) / 16) + 16; omega⟩
    refine ⟨⟨Rect.unit (off (BitVec.ofNat 32 r.val)) S16.size (hin r), pay⟩, ?_, ?_⟩
    · fin_cases r <;> repeat (first | exact List.mem_cons_self | apply List.mem_cons_of_mem)
    · show y ∈ (Rect.unit (s := S16384) (off (BitVec.ofNat 32 r.val)) S16.size (hin r)).set
      rw [Rect.mem_set_unit]
      intro a
      have ha : a = 0 := Subsingleton.elim _ _
      subst ha
      rw [hoff r]
      show 256 * k + 16 * r.val ≤ (y 0).val ∧ (y 0).val < 256 * k + 16 * r.val + 16
      exact ⟨hr1, hr2⟩

end Cert.Proof.KernelIdealRun

end
-- ==== Proof.KITileLand.lean ====
/-
  Where a chunk lands. Chunk `r` of the task at grid point `L` works on rows `R … R + 15` of the ids,
  `R = 256 (L 1) + 128 (L 0) + 16 r`: the 3200 ids it copies in are the flat ids from `200 R` on, and the 16384
  counts it copies out go to the flat counts from `1024 R` on. So once the count buffer holds the histogram of all
  200 positions of those ids, the slice of the counts the copy-out fills holds the whole array of counts there.
-/
import proofs.«215258_g80247168959020_cont_9to1_m_796_9_alg».proof.Proof.KITileView
import proofs.«215258_g80247168959020_cont_9to1_m_796_9_alg».proof.Proof.KITileRes

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.HistPure (zeroF oneF ZeroBelow Hist gIdx sIdx tWord histArr)

variable {F : FTy → Type} [FloatOps F] [Named F]

local notation "𝕄" => MT nD τ sig (HIx 1) (Elt F) ℕ UU ℕ

section Tile
variable (d : Dev nD) (L : grid0.Coords)

/-- Id `x` of chunk `r` sits at `51200 (L 1) + 25600 (L 0) + 3200 r + x` of the flat ids. -/
theorem idsChunk_emb_val (r : Fin 8) (x : S3200.Idx) :
    (((idsV.slice (Rect.unit (s := S819200) (k0_off1 L (BitVec.ofNat 32 (16 * r.val))) S3200.size (k0_off1_inb L r)) (fun _ => rfl)).view.emb x : S819200.Idx) 0).val = 51200 * (L 1).val + 25600 * (L 0).val + 3200 * r.val + (x 0).val := by
  show (k0_off1 L (BitVec.ofNat 32 (16 * r.val))) 0 + 1 * (x 0).val = _
  rw [k0_off1_eq]
  simp

/-- Count `y` of chunk `r` sits at `262144 (L 1) + 131072 (L 0) + 16384 r + y` of the flat counts. -/
theorem outChunk_emb_val (r : Fin 8) (y : S16384.Idx) :
    (((outV.slice (Rect.unit (s := S4194304) (k0_off3 L (BitVec.ofNat 32 (16 * r.val))) S16384.size (k0_off3_inb L r)) (fun _ => rfl)).view.emb y : S4194304.Idx) 0).val = 262144 * (L 1).val + 131072 * (L 0).val + 16384 * r.val + (y 0).val := by
  show (k0_off3 L (BitVec.ofNat 32 (16 * r.val))) 0 + 1 * (y 0).val = _
  rw [k0_off3_eq]
  simp

/-- After chunk `r`'s copy-out the slice of the counts it fills holds the array of counts of the ids. -/
theorem landed_out (r : Fin 8) (fi : Buf (Elt F) (idsLoc d)) (gp g : HistPure.S3200.Idx → BitVec 32)
    (wI : S3200.Idx → Elt F .i32)
    (hwI : wI = ReadAs.same.apply (View.read (Elt F) (idsV.slice (Rect.unit (s := S819200) (k0_off1 L (BitVec.ofNat 32 (16 * r.val))) S3200.size (k0_off1_inb L r)) (fun _ => rfl)).view fi))
    (hg : View.write (Elt F) (sI).view gp wI Finset.univ = g)
    (fh : HistPure.S16384.Idx → F .f32) (hh : Hist g 200 fh)
    (X : (outV.slice (Rect.unit (s := S4194304) (k0_off3 L (BitVec.ofNat 32 (16 * r.val))) S16384.size (k0_off3_inb L r)) (fun _ => rfl)).view.ty.Contents (Elt F))
    (w : (Rect.whole (Rect.unit (s := S4194304) (k0_off3 L (BitVec.ofNat 32 (16 * r.val))) S16384.size (k0_off3_inb L r)).shape).shape.Idx → Elt F .f32)
    (hw : ∀ y, w y = fh y) :
    ((outV.slice (Rect.unit (s := S4194304) (k0_off3 L (BitVec.ofNat 32 (16 * r.val))) S16384.size (k0_off3_inb L r)) (fun _ => rfl)).view.loc (V d (cV L) (jV L)) ↦[(outV.slice (Rect.unit (s := S4194304) (k0_off3 L (BitVec.ofNat 32 (16 * r.val))) S16384.size (k0_off3_inb L r)) (fun _ => rfl)).view.set]{fullShare}
        (outV.slice (Rect.unit (s := S4194304) (k0_off3 L (BitVec.ofNat 32 (16 * r.val))) S16384.size (k0_off3_inb L r)) (fun _ => rfl)).view.writes (Elt F) X [⟨Rect.whole _, w⟩] : sProp 𝕄)
      = ((outV.slice (Rect.unit (s := S4194304) (k0_off3 L (BitVec.ofNat 32 (16 * r.val))) S16384.size (k0_off3_inb L r)) (fun _ => rfl)).view.loc (V d (cV L) (jV L)) ↦[(outV.slice (Rect.unit (s := S4194304) (k0_off3 L (BitVec.ofNat 32 (16 * r.val))) S16384.size (k0_off3_inb L r)) (fun _ => rfl)).view.set]{fullShare} histArr (F := F) fi) := by
  have h0 : (L 0).val < 2 := (L 0).isLt
  have h1 : (L 1).val < 16 := (L 1).isLt
  have hr : r.val < 8 := r.isLt
  refine pointsTo_congr ?_
  intro i hi
  obtain ⟨y, -, rfl⟩ := Finset.mem_map.mp hi
  have hy : (y 0).val < 16384 := (y 0).isLt
  -- the one whole piece, read at `y`
  have hread := View.read_writes_cons_emb (outV.slice (Rect.unit (s := S4194304) (k0_off3 L (BitVec.ofNat 32 (16 * r.val))) S16384.size (k0_off3_inb L r)) (fun _ => rfl)).view X (Rect.whole _) w [] y
  rw [Rect.emb_whole_apply, View.read_apply, cast_eq] at hread
  rw [hread, hw y]
  -- the ids of the chunk are the flat ids from `200 R` on
  have hgx : ∀ x : HistPure.S3200.Idx, g x = fi (ix1 ⟨200 * (256 * (L 1).val + 128 * (L 0).val + 16 * r.val) + (x 0).val, by
      have hx : (x 0).val < 3200 := (x 0).isLt
      omega⟩) := by
    intro x
    have hx : (x 0).val < 3200 := (x 0).isLt
    rw [← hg, hwI]
    show View.write (Elt F) (View.whole cc0_scratch0) gp ((idsV.slice (Rect.unit (s := S819200) (k0_off1 L (BitVec.ofNat 32 (16 * r.val))) S3200.size (k0_off1_inb L r)) (fun _ => rfl)).view.read (Elt F) fi) Finset.univ x = _
    rw [View.write_whole_univ, View.read_apply, cast_eq]
    have e : ((idsV.slice (Rect.unit (s := S819200) (k0_off1 L (BitVec.ofNat 32 (16 * r.val))) S3200.size (k0_off1_inb L r)) (fun _ => rfl)).view.emb x : S819200.Idx) = ix1 ⟨200 * (256 * (L 1).val + 128 * (L 0).val + 16 * r.val) + (x 0).val, by omega⟩ := by
      apply HistPure.idx1_ext
      rw [idsChunk_emb_val]
      show _ = 200 * (256 * (L 1).val + 128 * (L 0).val + 16 * r.val) + (x 0).val
      omega
    rw [e]
  rw [HistPure.hist_chunk fi g fh (256 * (L 1).val + 128 * (L 0).val + 16 * r.val) (by omega) hgx hh y]
  have e : ((outV.slice (Rect.unit (s := S4194304) (k0_off3 L (BitVec.ofNat 32 (16 * r.val))) S16384.size (k0_off3_inb L r)) (fun _ => rfl)).view.emb y : S4194304.Idx) = ix1 ⟨1024 * (256 * (L 1).val + 128 * (L 0).val + 16 * r.val) + (y 0).val, by omega⟩ := by
    apply HistPure.idx1_ext
    rw [outChunk_emb_val]
    show _ = 1024 * (256 * (L 1).val + 128 * (L 0).val + 16 * r.val) + (y 0).val
    omega
  rw [e]

end Tile

end Cert.Proof.KernelIdealRun

end
-- ==== Proof.KITileBody.lean ====
/-
  The body of one task of the histogram kernel, run once at a symbolic place.

  The task works through its eight chunks of 16 rows. For each chunk it waits until the count buffer it is about
  to reuse has been copied out, copies the chunk's 3200 ids in, zeroes the count buffer (64 trips of 16 stores of
  the zero vector: after trip k the first 256 k floats are zero), and then for each of the 200 positions gathers
  the 16 rows' ids at that position and adds one at row-and-bucket (50 trips of 4: after trip k the buffer holds
  the histogram of the first 4 k positions); the buffer is then copied out to the chunk's slice of the counts. Two
  count buffers alternate, each with its own semaphore, so a buffer is never touched while its copy is in flight.
  At the end both last copies are waited for, every slice of the counts holds the histogram of the ids, every
  semaphore is back at zero and the scratch buffers are whole.
-/
import proofs.«215258_g80247168959020_cont_9to1_m_796_9_alg».proof.Proof.KITileRes
import proofs.«215258_g80247168959020_cont_9to1_m_796_9_alg».proof.Proof.KITileView
import proofs.«215258_g80247168959020_cont_9to1_m_796_9_alg».proof.Proof.KITileLand

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Cert.HistPure (zeroF oneF ZeroBelow Hist gIdx sIdx tWord histArr)

/-- Waits recorded at the index of local waits keep the waits fact. -/
theorem wok_refl (W : Waits sig (HIx 1)) : ∀ p ∈ W, p ∈ W ∨ p.2 = none := fun _ hp => .inl hp

theorem wok_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

section Landing
variable (d : Dev nD) (L : grid0.Coords)

/-- A chunk's slice of the counts after the copy out of count buffer A has landed, the chunk named by its word
    `u = 16 r`: it holds the histogram of the ids. -/
theorem landed_litA (r : Fin 8) (u : BitVec 32) (hu : u = BitVec.ofNat 32 (16 * r.val))
    (hin1 : ∀ a, k0_off1 L u a + S3200.size a ≤ S819200.size a) (hin3 : ∀ a, k0_off3 L u a + S16384.size a ≤ S4194304.size a)
    (fi : Buf (Elt F) (idsLoc d)) (gp g : HistPure.S3200.Idx → BitVec 32) (wI : S3200.Idx → Elt F .i32)
    (hwI : wI = ReadAs.same.apply (View.read (Elt F) (idsV.slice (Rect.unit (s := S819200) (k0_off1 L u) S3200.size hin1) (fun _ => rfl)).view fi))
    (hg : View.write (Elt F) (sI).view gp wI Finset.univ = g) (fh : HistPure.S16384.Idx → F .f32) (hh : Hist g 200 fh)
    (X : (outV.slice (Rect.unit (s := S4194304) (k0_off3 L u) S16384.size hin3) (fun _ => rfl)).view.ty.Contents (Elt F)) :
    ((outV.slice (Rect.unit (s := S4194304) (k0_off3 L u) S16384.size hin3) (fun _ => rfl)).view.loc (V d (cV L) (jV L))
        ↦[(outV.slice (Rect.unit (s := S4194304) (k0_off3 L u) S16384.size hin3) (fun _ => rfl)).view.set]{fullShare}
          (outV.slice (Rect.unit (s := S4194304) (k0_off3 L u) S16384.size hin3) (fun _ => rfl)).view.writes (Elt F) X
            [⟨Rect.whole _, ReadAs.same.apply (View.read (Elt F) (sA).view fh)⟩] : sProp 𝕄)
      = ((outV.slice (Rect.unit (s := S4194304) (k0_off3 L u) S16384.size hin3) (fun _ => rfl)).view.loc (V d (cV L) (jV L))
        ↦[(outV.slice (Rect.unit (s := S4194304) (k0_off3 L u) S16384.size hin3) (fun _ => rfl)).view.set]{fullShare} histArr (F := F) fi) := by
  subst hu
  exact landed_out d L r fi gp g wI hwI hg fh hh X _ (fun _ => rfl)

/-- A chunk's slice of the counts after the copy out of count buffer B has landed, the chunk named by its word
    `u = 16 r`: it holds the histogram of the ids. -/
theorem landed_litB (r : Fin 8) (u : BitVec 32) (hu : u = BitVec.ofNat 32 (16 * r.val))
    (hin1 : ∀ a, k0_off1 L u a + S3200.size a ≤ S819200.size a) (hin3 : ∀ a, k0_off3 L u a + S16384.size a ≤ S4194304.size a)
    (fi : Buf (Elt F) (idsLoc d)) (gp g : HistPure.S3200.Idx → BitVec 32) (wI : S3200.Idx → Elt F .i32)
    (hwI : wI = ReadAs.same.apply (View.read (Elt F) (idsV.slice (Rect.unit (s := S819200) (k0_off1 L u) S3200.size hin1) (fun _ => rfl)).view fi))
    (hg : View.write (Elt F) (sI).view gp wI Finset.univ = g) (fh : HistPure.S16384.Idx → F .f32) (hh : Hist g 200 fh)
    (X : (outV.slice (Rect.unit (s := S4194304) (k0_off3 L u) S16384.size hin3) (fun _ => rfl)).view.ty.Contents (Elt F)) :
    ((outV.slice (Rect.unit (s := S4194304) (k0_off3 L u) S16384.size hin3) (fun _ => rfl)).view.loc (V d (cV L) (jV L))
        ↦[(outV.slice (Rect.unit (s := S4194304) (k0_off3 L u) S16384.size hin3) (fun _ => rfl)).view.set]{fullShare}
          (outV.slice (Rect.unit (s := S4194304) (k0_off3 L u) S16384.size hin3) (fun _ => rfl)).view.writes (Elt F) X
            [⟨Rect.whole _, ReadAs.same.apply (View.read (Elt F) (sB).view fh)⟩] : sProp 𝕄)
      = ((outV.slice (Rect.unit (s := S4194304) (k0_off3 L u) S16384.size hin3) (fun _ => rfl)).view.loc (V d (cV L) (jV L))
        ↦[(outV.slice (Rect.unit (s := S4194304) (k0_off3 L u) S16384.size hin3) (fun _ => rfl)).view.set]{fullShare} histArr (F := F) fi) := by
  subst hu
  exact landed_out d L r fi gp g wI hwI hg fh hh X _ (fun _ => rfl)

end Landing

set_option maxHeartbeats 40000000 in
theorem tile_body : TileBody (F := F) := by
  intro d L hF O W hO fi fo
  simp only [cc0__sc_hist_body_eq_skeleton]; unfold cc0__sc_hist_body_skel
  rw [(K (F := F)).scopedBufs_V hF d (cV L) (jV L), SparseCore.Cfg.scopedSems0_V (Val := Elt F) d (cV L) (jV L), taskSems0, ownBufs_V]
  unfold taskRes
  iintro ⟨#Hlv, ⟨Hi0, Hi1, Hi2, Hi3, Hi4, Hi5, Hi6, Hi7, Ho0, Ho1, Ho2, Ho3, Ho4, Ho5, Ho6, Ho7⟩,
    ⟨⟨%fI, HsI⟩, ⟨%fA, HsA⟩, ⟨%fB, HsB⟩, Hbufs⟩, ⟨⟨Hm3, Hm4, Hs0, Hs1, Hs2, Hs3, Hs4, Hs5, Hs6, Hs7⟩, Hsems⟩, HO⟩
  ihave Hmw := ((K (F := F)).mayWaits_none (thr := (V d (cV L) (jV L))) hO) $$ Hlv
  ihave HsI := (Entails.of_eq (show (((V d (cV L) (jV L))).loc cc0_scratch0 ↦{fullShare} fI : sProp 𝕄) = ((sI).view.loc (V d (cV L) (jV L)) ↦{fullShare} fI) from rfl)) $$ HsI
  ihave HsA := (Entails.of_eq (show (((V d (cV L) (jV L))).loc cc0_scratch1 ↦{fullShare} fA : sProp 𝕄) = ((sA).view.loc (V d (cV L) (jV L)) ↦{fullShare} fA) from rfl)) $$ HsA
  ihave HsB := (Entails.of_eq (show (((V d (cV L) (jV L))).loc cc0_scratch2 ↦{fullShare} fB : sProp 𝕄) = ((sB).view.loc (V d (cV L) (jV L)) ↦{fullShare} fB) from rfl)) $$ HsB
  -- chunk 0: its ids are in; zero the count buffer A, then add the 200 positions
  sl_exec_parts
  generalize hg0 : View.write (Elt F) (sI).view _ _ Finset.univ = g0
  sl_for (fun (k : Nat) (_ : BitVec 32) => (iprop(∃ f, ⌜ZeroBelow (256 * k) f⌝ ∗ (sA).view.loc (V d (cV L) (jV L)) ↦{fullShare} f) : sProp 𝕄)) $$ [HsA]
  case region =>
    intro k a
    iintro ⟨%f, %hf, HsA⟩
    sl_exec
    sl_step
    iexists _
    isplitr
    rotate_left
    · iexact HsA
    · ipureintro
      exact zero_trip_A f k.val (k0_off2 k) (k0_off2_eq k) (k0_off2_inb k) _ (fun _ => rfl) hf
  · iexists _; isplitr
    rotate_left
    · iexact HsA
    · ipureintro; intro j hj; exact absurd hj (by omega)
  iintro %a0 ⟨%fz0, %hz0, HsA⟩
  have hzz0 : fz0 = fun _ => zeroF := Cert.HistPure.zeroBelow_all fz0 (by
    have e : 256 * Scf.trips k0_t1_loop.lb k0_t1_loop.ub k0_t1_loop.st = 16384 := by decide
    rw [e] at hz0; exact hz0)
  sl_exec_parts
  sl_for (fun (k : Nat) (_ : BitVec 32) => (iprop((∃ f, ⌜Hist g0 (4 * k) f⌝ ∗ (sA).view.loc (V d (cV L) (jV L)) ↦{fullShare} f) ∗ ((sI).view.loc (V d (cV L) (jV L)) ↦{fullShare} g0)) : sProp 𝕄)) $$ [HsA HsI]
  case region =>
    intro k a
    iintro ⟨⟨%f, %hf0, HsA⟩, HsI⟩
    have hk : k.val < 50 := lt_of_lt_of_le k.isLt (by decide)
    have hf : Hist g0 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sA).view.writes (Elt F) f _ = f1
    have hf1 : Hist g0 (4 * k.val + 0 + 1) f1 := by
      rw [← hfx0]
      refine hist_step_A g0 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sA).view.writes (Elt F) f1 _ = f2
    have hf2 : Hist g0 (4 * k.val + 1 + 1) f2 := by
      rw [← hfx1]
      refine hist_step_A g0 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sA).view.writes (Elt F) f2 _ = f3
    have hf3 : Hist g0 (4 * k.val + 2 + 1) f3 := by
      rw [← hfx2]
      refine hist_step_A g0 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sA).view.writes (Elt F) f3 _ = f4
    have hf4 : Hist g0 (4 * k.val + 3 + 1) f4 := by
      rw [← hfx3]
      refine hist_step_A g0 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsA]
    · iexists f4
      isplitr
      · ipureintro
        have e4 : 4 * (k.val + 1) = 4 * k.val + 3 + 1 := by omega
        rw [e4]; exact hf4
      · iexact HsA
    · iexact HsI
  · isplitl [HsA]
    · iexists fz0; isplitr
      · ipureintro; rw [hzz0]; exact Cert.HistPure.hist_zero g0
      · iexact HsA
    · iexact HsI
  iintro %b0 ⟨⟨%fh0, %hh0, HsA⟩, HsI⟩
  have hh0' : Hist g0 200 fh0 := by
    have e : 4 * Scf.trips k0_t2_loop.lb k0_t2_loop.ub k0_t2_loop.st = 200 := by decide
    rw [e] at hh0; exact hh0
  -- chunk 1: its ids are in; zero the count buffer B, then add the 200 positions
  sl_exec_parts
  generalize hg1 : View.write (Elt F) (sI).view _ _ Finset.univ = g1
  sl_for (fun (k : Nat) (_ : BitVec 32) => (iprop(∃ f, ⌜ZeroBelow (256 * k) f⌝ ∗ (sB).view.loc (V d (cV L) (jV L)) ↦{fullShare} f) : sProp 𝕄)) $$ [HsB]
  case region =>
    intro k a
    iintro ⟨%f, %hf, HsB⟩
    sl_exec
    sl_step
    iexists _
    isplitr
    rotate_left
    · iexact HsB
    · ipureintro
      exact zero_trip_B f k.val (k0_off4 k) (k0_off4_eq k) (k0_off4_inb k) _ (fun _ => rfl) hf
  · iexists _; isplitr
    rotate_left
    · iexact HsB
    · ipureintro; intro j hj; exact absurd hj (by omega)
  iintro %a1 ⟨%fz1, %hz1, HsB⟩
  have hzz1 : fz1 = fun _ => zeroF := Cert.HistPure.zeroBelow_all fz1 (by
    have e : 256 * Scf.trips k0_t3_loop.lb k0_t3_loop.ub k0_t3_loop.st = 16384 := by decide
    rw [e] at hz1; exact hz1)
  sl_exec_parts
  sl_for (fun (k : Nat) (_ : BitVec 32) => (iprop((∃ f, ⌜Hist g1 (4 * k) f⌝ ∗ (sB).view.loc (V d (cV L) (jV L)) ↦{fullShare} f) ∗ ((sI).view.loc (V d (cV L) (jV L)) ↦{fullShare} g1)) : sProp 𝕄)) $$ [HsB HsI]
  case region =>
    intro k a
    iintro ⟨⟨%f, %hf0, HsB⟩, HsI⟩
    have hk : k.val < 50 := lt_of_lt_of_le k.isLt (by decide)
    have hf : Hist g1 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sB).view.writes (Elt F) f _ = f1
    have hf1 : Hist g1 (4 * k.val + 0 + 1) f1 := by
      rw [← hfx0]
      refine hist_step_B g1 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sB).view.writes (Elt F) f1 _ = f2
    have hf2 : Hist g1 (4 * k.val + 1 + 1) f2 := by
      rw [← hfx1]
      refine hist_step_B g1 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sB).view.writes (Elt F) f2 _ = f3
    have hf3 : Hist g1 (4 * k.val + 2 + 1) f3 := by
      rw [← hfx2]
      refine hist_step_B g1 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sB).view.writes (Elt F) f3 _ = f4
    have hf4 : Hist g1 (4 * k.val + 3 + 1) f4 := by
      rw [← hfx3]
      refine hist_step_B g1 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsB]
    · iexists f4
      isplitr
      · ipureintro
        have e4 : 4 * (k.val + 1) = 4 * k.val + 3 + 1 := by omega
        rw [e4]; exact hf4
      · iexact HsB
    · iexact HsI
  · isplitl [HsB]
    · iexists fz1; isplitr
      · ipureintro; rw [hzz1]; exact Cert.HistPure.hist_zero g1
      · iexact HsB
    · iexact HsI
  iintro %b1 ⟨⟨%fh1, %hh1, HsB⟩, HsI⟩
  have hh1' : Hist g1 200 fh1 := by
    have e : 4 * Scf.trips k0_t4_loop.lb k0_t4_loop.ub k0_t4_loop.st = 200 := by decide
    rw [e] at hh1; exact hh1
  -- chunk 2: its ids are in; zero the count buffer A, then add the 200 positions
  sl_exec_parts
  generalize hg2 : View.write (Elt F) (sI).view _ _ Finset.univ = g2
  sl_for (fun (k : Nat) (_ : BitVec 32) => (iprop(∃ f, ⌜ZeroBelow (256 * k) f⌝ ∗ (sA).view.loc (V d (cV L) (jV L)) ↦{fullShare} f) : sProp 𝕄)) $$ [HsA]
  case region =>
    intro k a
    iintro ⟨%f, %hf, HsA⟩
    sl_exec
    sl_step
    iexists _
    isplitr
    rotate_left
    · iexact HsA
    · ipureintro
      exact zero_trip_A f k.val (k0_off5 k) (k0_off5_eq k) (k0_off5_inb k) _ (fun _ => rfl) hf
  · iexists _; isplitr
    rotate_left
    · iexact HsA
    · ipureintro; intro j hj; exact absurd hj (by omega)
  iintro %a2 ⟨%fz2, %hz2, HsA⟩
  have hzz2 : fz2 = fun _ => zeroF := Cert.HistPure.zeroBelow_all fz2 (by
    have e : 256 * Scf.trips k0_t5_loop.lb k0_t5_loop.ub k0_t5_loop.st = 16384 := by decide
    rw [e] at hz2; exact hz2)
  sl_exec_parts
  sl_for (fun (k : Nat) (_ : BitVec 32) => (iprop((∃ f, ⌜Hist g2 (4 * k) f⌝ ∗ (sA).view.loc (V d (cV L) (jV L)) ↦{fullShare} f) ∗ ((sI).view.loc (V d (cV L) (jV L)) ↦{fullShare} g2)) : sProp 𝕄)) $$ [HsA HsI]
  case region =>
    intro k a
    iintro ⟨⟨%f, %hf0, HsA⟩, HsI⟩
    have hk : k.val < 50 := lt_of_lt_of_le k.isLt (by decide)
    have hf : Hist g2 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sA).view.writes (Elt F) f _ = f1
    have hf1 : Hist g2 (4 * k.val + 0 + 1) f1 := by
      rw [← hfx0]
      refine hist_step_A g2 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sA).view.writes (Elt F) f1 _ = f2
    have hf2 : Hist g2 (4 * k.val + 1 + 1) f2 := by
      rw [← hfx1]
      refine hist_step_A g2 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sA).view.writes (Elt F) f2 _ = f3
    have hf3 : Hist g2 (4 * k.val + 2 + 1) f3 := by
      rw [← hfx2]
      refine hist_step_A g2 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sA).view.writes (Elt F) f3 _ = f4
    have hf4 : Hist g2 (4 * k.val + 3 + 1) f4 := by
      rw [← hfx3]
      refine hist_step_A g2 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsA]
    · iexists f4
      isplitr
      · ipureintro
        have e4 : 4 * (k.val + 1) = 4 * k.val + 3 + 1 := by omega
        rw [e4]; exact hf4
      · iexact HsA
    · iexact HsI
  · isplitl [HsA]
    · iexists fz2; isplitr
      · ipureintro; rw [hzz2]; exact Cert.HistPure.hist_zero g2
      · iexact HsA
    · iexact HsI
  iintro %b2 ⟨⟨%fh2, %hh2, HsA⟩, HsI⟩
  have hh2' : Hist g2 200 fh2 := by
    have e : 4 * Scf.trips k0_t6_loop.lb k0_t6_loop.ub k0_t6_loop.st = 200 := by decide
    rw [e] at hh2; exact hh2
  -- chunk 3: its ids are in; zero the count buffer B, then add the 200 positions
  sl_exec_parts
  generalize hg3 : View.write (Elt F) (sI).view _ _ Finset.univ = g3
  sl_for (fun (k : Nat) (_ : BitVec 32) => (iprop(∃ f, ⌜ZeroBelow (256 * k) f⌝ ∗ (sB).view.loc (V d (cV L) (jV L)) ↦{fullShare} f) : sProp 𝕄)) $$ [HsB]
  case region =>
    intro k a
    iintro ⟨%f, %hf, HsB⟩
    sl_exec
    sl_step
    iexists _
    isplitr
    rotate_left
    · iexact HsB
    · ipureintro
      exact zero_trip_B f k.val (k0_off6 k) (k0_off6_eq k) (k0_off6_inb k) _ (fun _ => rfl) hf
  · iexists _; isplitr
    rotate_left
    · iexact HsB
    · ipureintro; intro j hj; exact absurd hj (by omega)
  iintro %a3 ⟨%fz3, %hz3, HsB⟩
  have hzz3 : fz3 = fun _ => zeroF := Cert.HistPure.zeroBelow_all fz3 (by
    have e : 256 * Scf.trips k0_t7_loop.lb k0_t7_loop.ub k0_t7_loop.st = 16384 := by decide
    rw [e] at hz3; exact hz3)
  sl_exec_parts
  sl_for (fun (k : Nat) (_ : BitVec 32) => (iprop((∃ f, ⌜Hist g3 (4 * k) f⌝ ∗ (sB).view.loc (V d (cV L) (jV L)) ↦{fullShare} f) ∗ ((sI).view.loc (V d (cV L) (jV L)) ↦{fullShare} g3)) : sProp 𝕄)) $$ [HsB HsI]
  case region =>
    intro k a
    iintro ⟨⟨%f, %hf0, HsB⟩, HsI⟩
    have hk : k.val < 50 := lt_of_lt_of_le k.isLt (by decide)
    have hf : Hist g3 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sB).view.writes (Elt F) f _ = f1
    have hf1 : Hist g3 (4 * k.val + 0 + 1) f1 := by
      rw [← hfx0]
      refine hist_step_B g3 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sB).view.writes (Elt F) f1 _ = f2
    have hf2 : Hist g3 (4 * k.val + 1 + 1) f2 := by
      rw [← hfx1]
      refine hist_step_B g3 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sB).view.writes (Elt F) f2 _ = f3
    have hf3 : Hist g3 (4 * k.val + 2 + 1) f3 := by
      rw [← hfx2]
      refine hist_step_B g3 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sB).view.writes (Elt F) f3 _ = f4
    have hf4 : Hist g3 (4 * k.val + 3 + 1) f4 := by
      rw [← hfx3]
      refine hist_step_B g3 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsB]
    · iexists f4
      isplitr
      · ipureintro
        have e4 : 4 * (k.val + 1) = 4 * k.val + 3 + 1 := by omega
        rw [e4]; exact hf4
      · iexact HsB
    · iexact HsI
  · isplitl [HsB]
    · iexists fz3; isplitr
      · ipureintro; rw [hzz3]; exact Cert.HistPure.hist_zero g3
      · iexact HsB
    · iexact HsI
  iintro %b3 ⟨⟨%fh3, %hh3, HsB⟩, HsI⟩
  have hh3' : Hist g3 200 fh3 := by
    have e : 4 * Scf.trips k0_t8_loop.lb k0_t8_loop.ub k0_t8_loop.st = 200 := by decide
    rw [e] at hh3; exact hh3
  -- chunk 4: its ids are in; zero the count buffer A, then add the 200 positions
  sl_exec_parts
  generalize hg4 : View.write (Elt F) (sI).view _ _ Finset.univ = g4
  sl_for (fun (k : Nat) (_ : BitVec 32) => (iprop(∃ f, ⌜ZeroBelow (256 * k) f⌝ ∗ (sA).view.loc (V d (cV L) (jV L)) ↦{fullShare} f) : sProp 𝕄)) $$ [HsA]
  case region =>
    intro k a
    iintro ⟨%f, %hf, HsA⟩
    sl_exec
    sl_step
    iexists _
    isplitr
    rotate_left
    · iexact HsA
    · ipureintro
      exact zero_trip_A f k.val (k0_off7 k) (k0_off7_eq k) (k0_off7_inb k) _ (fun _ => rfl) hf
  · iexists _; isplitr
    rotate_left
    · iexact HsA
    · ipureintro; intro j hj; exact absurd hj (by omega)
  iintro %a4 ⟨%fz4, %hz4, HsA⟩
  have hzz4 : fz4 = fun _ => zeroF := Cert.HistPure.zeroBelow_all fz4 (by
    have e : 256 * Scf.trips k0_t9_loop.lb k0_t9_loop.ub k0_t9_loop.st = 16384 := by decide
    rw [e] at hz4; exact hz4)
  sl_exec_parts
  sl_for (fun (k : Nat) (_ : BitVec 32) => (iprop((∃ f, ⌜Hist g4 (4 * k) f⌝ ∗ (sA).view.loc (V d (cV L) (jV L)) ↦{fullShare} f) ∗ ((sI).view.loc (V d (cV L) (jV L)) ↦{fullShare} g4)) : sProp 𝕄)) $$ [HsA HsI]
  case region =>
    intro k a
    iintro ⟨⟨%f, %hf0, HsA⟩, HsI⟩
    have hk : k.val < 50 := lt_of_lt_of_le k.isLt (by decide)
    have hf : Hist g4 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sA).view.writes (Elt F) f _ = f1
    have hf1 : Hist g4 (4 * k.val + 0 + 1) f1 := by
      rw [← hfx0]
      refine hist_step_A g4 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sA).view.writes (Elt F) f1 _ = f2
    have hf2 : Hist g4 (4 * k.val + 1 + 1) f2 := by
      rw [← hfx1]
      refine hist_step_A g4 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sA).view.writes (Elt F) f2 _ = f3
    have hf3 : Hist g4 (4 * k.val + 2 + 1) f3 := by
      rw [← hfx2]
      refine hist_step_A g4 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sA).view.writes (Elt F) f3 _ = f4
    have hf4 : Hist g4 (4 * k.val + 3 + 1) f4 := by
      rw [← hfx3]
      refine hist_step_A g4 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsA]
    · iexists f4
      isplitr
      · ipureintro
        have e4 : 4 * (k.val + 1) = 4 * k.val + 3 + 1 := by omega
        rw [e4]; exact hf4
      · iexact HsA
    · iexact HsI
  · isplitl [HsA]
    · iexists fz4; isplitr
      · ipureintro; rw [hzz4]; exact Cert.HistPure.hist_zero g4
      · iexact HsA
    · iexact HsI
  iintro %b4 ⟨⟨%fh4, %hh4, HsA⟩, HsI⟩
  have hh4' : Hist g4 200 fh4 := by
    have e : 4 * Scf.trips k0_t10_loop.lb k0_t10_loop.ub k0_t10_loop.st = 200 := by decide
    rw [e] at hh4; exact hh4
  -- chunk 5: its ids are in; zero the count buffer B, then add the 200 positions
  sl_exec_parts
  generalize hg5 : View.write (Elt F) (sI).view _ _ Finset.univ = g5
  sl_for (fun (k : Nat) (_ : BitVec 32) => (iprop(∃ f, ⌜ZeroBelow (256 * k) f⌝ ∗ (sB).view.loc (V d (cV L) (jV L)) ↦{fullShare} f) : sProp 𝕄)) $$ [HsB]
  case region =>
    intro k a
    iintro ⟨%f, %hf, HsB⟩
    sl_exec
    sl_step
    iexists _
    isplitr
    rotate_left
    · iexact HsB
    · ipureintro
      exact zero_trip_B f k.val (k0_off8 k) (k0_off8_eq k) (k0_off8_inb k) _ (fun _ => rfl) hf
  · iexists _; isplitr
    rotate_left
    · iexact HsB
    · ipureintro; intro j hj; exact absurd hj (by omega)
  iintro %a5 ⟨%fz5, %hz5, HsB⟩
  have hzz5 : fz5 = fun _ => zeroF := Cert.HistPure.zeroBelow_all fz5 (by
    have e : 256 * Scf.trips k0_t11_loop.lb k0_t11_loop.ub k0_t11_loop.st = 16384 := by decide
    rw [e] at hz5; exact hz5)
  sl_exec_parts
  sl_for (fun (k : Nat) (_ : BitVec 32) => (iprop((∃ f, ⌜Hist g5 (4 * k) f⌝ ∗ (sB).view.loc (V d (cV L) (jV L)) ↦{fullShare} f) ∗ ((sI).view.loc (V d (cV L) (jV L)) ↦{fullShare} g5)) : sProp 𝕄)) $$ [HsB HsI]
  case region =>
    intro k a
    iintro ⟨⟨%f, %hf0, HsB⟩, HsI⟩
    have hk : k.val < 50 := lt_of_lt_of_le k.isLt (by decide)
    have hf : Hist g5 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sB).view.writes (Elt F) f _ = f1
    have hf1 : Hist g5 (4 * k.val + 0 + 1) f1 := by
      rw [← hfx0]
      refine hist_step_B g5 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sB).view.writes (Elt F) f1 _ = f2
    have hf2 : Hist g5 (4 * k.val + 1 + 1) f2 := by
      rw [← hfx1]
      refine hist_step_B g5 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sB).view.writes (Elt F) f2 _ = f3
    have hf3 : Hist g5 (4 * k.val + 2 + 1) f3 := by
      rw [← hfx2]
      refine hist_step_B g5 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sB).view.writes (Elt F) f3 _ = f4
    have hf4 : Hist g5 (4 * k.val + 3 + 1) f4 := by
      rw [← hfx3]
      refine hist_step_B g5 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsB]
    · iexists f4
      isplitr
      · ipureintro
        have e4 : 4 * (k.val + 1) = 4 * k.val + 3 + 1 := by omega
        rw [e4]; exact hf4
      · iexact HsB
    · iexact HsI
  · isplitl [HsB]
    · iexists fz5; isplitr
      · ipureintro; rw [hzz5]; exact Cert.HistPure.hist_zero g5
      · iexact HsB
    · iexact HsI
  iintro %b5 ⟨⟨%fh5, %hh5, HsB⟩, HsI⟩
  have hh5' : Hist g5 200 fh5 := by
    have e : 4 * Scf.trips k0_t12_loop.lb k0_t12_loop.ub k0_t12_loop.st = 200 := by decide
    rw [e] at hh5; exact hh5
  -- chunk 6: its ids are in; zero the count buffer A, then add the 200 positions
  sl_exec_parts
  generalize hg6 : View.write (Elt F) (sI).view _ _ Finset.univ = g6
  sl_for (fun (k : Nat) (_ : BitVec 32) => (iprop(∃ f, ⌜ZeroBelow (256 * k) f⌝ ∗ (sA).view.loc (V d (cV L) (jV L)) ↦{fullShare} f) : sProp 𝕄)) $$ [HsA]
  case region =>
    intro k a
    iintro ⟨%f, %hf, HsA⟩
    sl_exec
    sl_step
    iexists _
    isplitr
    rotate_left
    · iexact HsA
    · ipureintro
      exact zero_trip_A f k.val (k0_off9 k) (k0_off9_eq k) (k0_off9_inb k) _ (fun _ => rfl) hf
  · iexists _; isplitr
    rotate_left
    · iexact HsA
    · ipureintro; intro j hj; exact absurd hj (by omega)
  iintro %a6 ⟨%fz6, %hz6, HsA⟩
  have hzz6 : fz6 = fun _ => zeroF := Cert.HistPure.zeroBelow_all fz6 (by
    have e : 256 * Scf.trips k0_t13_loop.lb k0_t13_loop.ub k0_t13_loop.st = 16384 := by decide
    rw [e] at hz6; exact hz6)
  sl_exec_parts
  sl_for (fun (k : Nat) (_ : BitVec 32) => (iprop((∃ f, ⌜Hist g6 (4 * k) f⌝ ∗ (sA).view.loc (V d (cV L) (jV L)) ↦{fullShare} f) ∗ ((sI).view.loc (V d (cV L) (jV L)) ↦{fullShare} g6)) : sProp 𝕄)) $$ [HsA HsI]
  case region =>
    intro k a
    iintro ⟨⟨%f, %hf0, HsA⟩, HsI⟩
    have hk : k.val < 50 := lt_of_lt_of_le k.isLt (by decide)
    have hf : Hist g6 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sA).view.writes (Elt F) f _ = f1
    have hf1 : Hist g6 (4 * k.val + 0 + 1) f1 := by
      rw [← hfx0]
      refine hist_step_A g6 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sA).view.writes (Elt F) f1 _ = f2
    have hf2 : Hist g6 (4 * k.val + 1 + 1) f2 := by
      rw [← hfx1]
      refine hist_step_A g6 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sA).view.writes (Elt F) f2 _ = f3
    have hf3 : Hist g6 (4 * k.val + 2 + 1) f3 := by
      rw [← hfx2]
      refine hist_step_A g6 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sA).view.writes (Elt F) f3 _ = f4
    have hf4 : Hist g6 (4 * k.val + 3 + 1) f4 := by
      rw [← hfx3]
      refine hist_step_A g6 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsA]
    · iexists f4
      isplitr
      · ipureintro
        have e4 : 4 * (k.val + 1) = 4 * k.val + 3 + 1 := by omega
        rw [e4]; exact hf4
      · iexact HsA
    · iexact HsI
  · isplitl [HsA]
    · iexists fz6; isplitr
      · ipureintro; rw [hzz6]; exact Cert.HistPure.hist_zero g6
      · iexact HsA
    · iexact HsI
  iintro %b6 ⟨⟨%fh6, %hh6, HsA⟩, HsI⟩
  have hh6' : Hist g6 200 fh6 := by
    have e : 4 * Scf.trips k0_t14_loop.lb k0_t14_loop.ub k0_t14_loop.st = 200 := by decide
    rw [e] at hh6; exact hh6
  -- chunk 7: its ids are in; zero the count buffer B, then add the 200 positions
  sl_exec_parts
  generalize hg7 : View.write (Elt F) (sI).view _ _ Finset.univ = g7
  sl_for (fun (k : Nat) (_ : BitVec 32) => (iprop(∃ f, ⌜ZeroBelow (256 * k) f⌝ ∗ (sB).view.loc (V d (cV L) (jV L)) ↦{fullShare} f) : sProp 𝕄)) $$ [HsB]
  case region =>
    intro k a
    iintro ⟨%f, %hf, HsB⟩
    sl_exec
    sl_step
    iexists _
    isplitr
    rotate_left
    · iexact HsB
    · ipureintro
      exact zero_trip_B f k.val (k0_off10 k) (k0_off10_eq k) (k0_off10_inb k) _ (fun _ => rfl) hf
  · iexists _; isplitr
    rotate_left
    · iexact HsB
    · ipureintro; intro j hj; exact absurd hj (by omega)
  iintro %a7 ⟨%fz7, %hz7, HsB⟩
  have hzz7 : fz7 = fun _ => zeroF := Cert.HistPure.zeroBelow_all fz7 (by
    have e : 256 * Scf.trips k0_t15_loop.lb k0_t15_loop.ub k0_t15_loop.st = 16384 := by decide
    rw [e] at hz7; exact hz7)
  sl_exec_parts
  sl_for (fun (k : Nat) (_ : BitVec 32) => (iprop((∃ f, ⌜Hist g7 (4 * k) f⌝ ∗ (sB).view.loc (V d (cV L) (jV L)) ↦{fullShare} f) ∗ ((sI).view.loc (V d (cV L) (jV L)) ↦{fullShare} g7)) : sProp 𝕄)) $$ [HsB HsI]
  case region =>
    intro k a
    iintro ⟨⟨%f, %hf0, HsB⟩, HsI⟩
    have hk : k.val < 50 := lt_of_lt_of_le k.isLt (by decide)
    have hf : Hist g7 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sB).view.writes (Elt F) f _ = f1
    have hf1 : Hist g7 (4 * k.val + 0 + 1) f1 := by
      rw [← hfx0]
      refine hist_step_B g7 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sB).view.writes (Elt F) f1 _ = f2
    have hf2 : Hist g7 (4 * k.val + 1 + 1) f2 := by
      rw [← hfx1]
      refine hist_step_B g7 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sB).view.writes (Elt F) f2 _ = f3
    have hf3 : Hist g7 (4 * k.val + 2 + 1) f3 := by
      rw [← hfx2]
      refine hist_step_B g7 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sB).view.writes (Elt F) f3 _ = f4
    have hf4 : Hist g7 (4 * k.val + 3 + 1) f4 := by
      rw [← hfx3]
      refine hist_step_B g7 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsB]
    · iexists f4
      isplitr
      · ipureintro
        have e4 : 4 * (k.val + 1) = 4 * k.val + 3 + 1 := by omega
        rw [e4]; exact hf4
      · iexact HsB
    · iexact HsI
  · isplitl [HsB]
    · iexists fz7; isplitr
      · ipureintro; rw [hzz7]; exact Cert.HistPure.hist_zero g7
      · iexact HsB
    · iexact HsI
  iintro %b7 ⟨⟨%fh7, %hh7, HsB⟩, HsI⟩
  have hh7' : Hist g7 200 fh7 := by
    have e : 4 * Scf.trips k0_t16_loop.lb k0_t16_loop.ub k0_t16_loop.st = 200 := by decide
    rw [e] at hh7; exact hh7
  -- the last copy out, the two last waits, and the return
  sl_exec_parts
  sl_step
  isplitl [Hi0 Hi1 Hi2 Hi3 Hi4 Hi5 Hi6 Hi7 Ho0 Ho1 Ho2 Ho3 Ho4 Ho5 Ho6 Ho7]
  · -- the ids as found; every slice of the counts at the histogram of the ids
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    isplitl [Ho0]
    · iapply (Entails.of_eq (landed_litA d L (0 : Fin 8) 0#32 rfl (k0_off1_inb L 0) (k0_off3_inb L 0) fi fI g0 _ (by rfl) hg0 fh0 hh0' _))
      iexact Ho0
    isplitl [Ho1]
    · iapply (Entails.of_eq (landed_litB d L (1 : Fin 8) 16#32 rfl (k0_off1_inb L 1) (k0_off3_inb L 1) fi g0 g1 _ (by rfl) hg1 fh1 hh1' _))
      iexact Ho1
    isplitl [Ho2]
    · iapply (Entails.of_eq (landed_litA d L (2 : Fin 8) 32#32 rfl (k0_off1_inb L 2) (k0_off3_inb L 2) fi g1 g2 _ (by rfl) hg2 fh2 hh2' _))
      iexact Ho2
    isplitl [Ho3]
    · iapply (Entails.of_eq (landed_litB d L (3 : Fin 8) 48#32 rfl (k0_off1_inb L 3) (k0_off3_inb L 3) fi g2 g3 _ (by rfl) hg3 fh3 hh3' _))
      iexact Ho3
    isplitl [Ho4]
    · iapply (Entails.of_eq (landed_litA d L (4 : Fin 8) 64#32 rfl (k0_off1_inb L 4) (k0_off3_inb L 4) fi g3 g4 _ (by rfl) hg4 fh4 hh4' _))
      iexact Ho4
    isplitl [Ho5]
    · iapply (Entails.of_eq (landed_litB d L (5 : Fin 8) 80#32 rfl (k0_off1_inb L 5) (k0_off3_inb L 5) fi g4 g5 _ (by rfl) hg5 fh5 hh5' _))
      iexact Ho5
    isplitl [Ho6]
    · iapply (Entails.of_eq (landed_litA d L (6 : Fin 8) 96#32 rfl (k0_off1_inb L 6) (k0_off3_inb L 6) fi g5 g6 _ (by rfl) hg6 fh6 hh6' _))
      iexact Ho6
    iapply (Entails.of_eq (landed_litB d L (7 : Fin 8) 112#32 rfl (k0_off1_inb L 7) (k0_off3_inb L 7) fi g6 g7 _ (by rfl) hg7 fh7 hh7' _))
    iexact Ho7
  isplitl [HsI HsA HsB Hbufs]
  · isplitl [HsI]; · iexists _; iexact HsI
    isplitl [HsA]; · iexists _; iexact HsA
    isplitl [HsB]; · iexists _; iexact HsB
    iexact Hbufs
  isplitl [Hm3 Hm4 Hs0 Hs1 Hs2 Hs3 Hs4 Hs5 Hs6 Hs7 Hsems]
  · isplitl [Hm3 Hm4 Hs0 Hs1 Hs2 Hs3 Hs4 Hs5 Hs6 Hs7]
    · isplitl [Hm3]; · iexact Hm3
      isplitl [Hm4]; · iexact Hm4
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    · iexact Hsems
  iexists _
  isplitr
  rotate_left
  · iexact HO
  · ipureintro
    repeat apply wok_insert
    exact wok_refl W

end Cert.Proof.KernelIdealRun

end
-- ==== Proof.KSetup.lean ====
/-
  The kernel program (as printed) as the SparseCore launch theorem sees it: one vector-subcore call on
  2 SparseCores × 16 subcores followed by one TensorCore pipeline; the ghost state (the launch
  handshakes' rounds, the TensorCore pipeline's staging cells, the transfer counters of local copies);
  the arrays the tasks share; and how a task's own semaphores split off its ten DMA semaphores.
-/
import proofs.«215258_g80247168959020_cont_9to1_m_796_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215258_g80247168959020_cont_9to1_m_796_9_alg».proof.Proof.Gen.Kernel
import proofs.«215258_g80247168959020_cont_9to1_m_796_9_alg».proof.Proof.Gen.Kernel.Skeleton

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

variable [FloatOps F]

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev idsLoc (d : Dev nD) : Loc nD τ sig := (SparseCore.T d).loc main_v0
abbrev outLoc (d : Dev nD) : Loc nD τ sig := (SparseCore.T d).loc main_v1

abbrev idsV : Memref sig .scVector .hbm S819200 .i32 := Memref.whole main_v0_scv
abbrev outV : Memref sig .scVector .hbm S4194304 .f32 := Memref.whole main_v1_scv
abbrev sI : Memref sig .scVector .vmem S3200 .i32 := Memref.whole cc0_scratch0
abbrev sA : Memref sig .scVector .vmem S16384 .f32 := Memref.whole cc0_scratch1
abbrev sB : Memref sig .scVector .vmem S16384 .f32 := Memref.whole cc0_scratch2

/-- The ten DMA semaphores a task uses: two for the copies out (one per count buffer), eight for the copies in. -/
abbrev taskSems : Finset (SemLoc sig) :=
  {SemLoc.dma cc0_scratch3.sem, SemLoc.dma cc0_scratch4.sem, SemLoc.dma cc0_scoped0.sem, SemLoc.dma cc0_scoped1.sem, SemLoc.dma cc0_scoped2.sem, SemLoc.dma cc0_scoped3.sem, SemLoc.dma cc0_scoped4.sem, SemLoc.dma cc0_scoped5.sem, SemLoc.dma cc0_scoped6.sem, SemLoc.dma cc0_scoped7.sem}

omit [FloatOps F] in
/-- A thread's own semaphores at zero: those of a set of scoped ones, and the rest. -/
theorem ownSems0_split (thr : Thread nD τ) (s : Finset (SemLoc sig)) (hs : ∀ sm ∈ s, sm.isScoped thr.2.kind = true) :
    (ownSems0 thr : sProp 𝕄)
      = iprop((bigSep s fun sm => semVal ((thr, sm) : GSem nD τ sig) 0) ∗ bigSep (ownCells thr \ s.image fun sm => ((thr, sm) : GSem nD τ sig)) fun g => semVal g 0) := by
  unfold SparseCore.Cfg.ownSems0
  rw [SparseCore.bigSep_sdiff_split' (t := s.image fun sm => ((thr, sm) : GSem nD τ sig)) (by
      intro g hg
      obtain ⟨sm, hsm, rfl⟩ := Finset.mem_image.mp hg
      exact mem_ownCells.mpr ⟨rfl, hs sm hsm⟩),
    SparseCore.bigSep_image_of_injOn (fun a _ b _ e => (Prod.mk.inj e).2)]

end Cert.Proof.KernelRun

end
-- ==== Proof.KPay.lean ====
/-
  What the one SparseCore call carries. The 32 tasks of the histogram kernel (subcore i of SparseCore c is
  task 2 i + c) cut the flat array of ids into 32 equal runs of 25600 words (128 rows of 200) and the flat array
  of counts into 32 equal runs of 131072 floats (128 rows of 1024). Task w reads run w of the ids and
  writes run w of the counts. The call takes the two arrays cut that way and brings them back, the ids as they
  were and every run of the counts at the one whole-array function `Hf` of the ids.
-/
import proofs.«215258_g80247168959020_cont_9to1_m_796_9_alg».proof.Proof.KSetup

noncomputable section

namespace Cert.Proof.KernelRun

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem hdivI : 32 ∣ S819200.size 0 := ⟨25600, rfl⟩
theorem hdivO : 32 ∣ S4194304.size 0 := ⟨131072, rfl⟩

/-- The task that runs on subcore `i` of SparseCore `c`: number `2 i + c`. -/
def widN (c i : ℕ) : Fin 32 := ⟨(2 * i + c) % 32, Nat.mod_lt _ (by norm_num)⟩

/-- Run `w` of the flat ids: words `25600 w` … `25600 w + 25599`. -/
abbrev idsPart (w : Fin 32) : Rect S819200 := Rect.part (s := S819200) (a₀ := 0) hdivI w
/-- Run `w` of the flat counts: floats `131072 w` … `131072 w + 131071`. -/
abbrev outPart (w : Fin 32) : Rect S4194304 := Rect.part (s := S4194304) (a₀ := 0) hdivO w
abbrev idsSet (w : Fin 32) : Finset S819200.Idx := ((idsV : Memref sig .scVector .hbm S819200 .i32).view.slice (idsPart w)).set
abbrev outSet (w : Fin 32) : Finset S4194304.Idx := ((outV : Memref sig .scVector .hbm S4194304 .f32).view.slice (outPart w)).set

variable (Vids : (d : Dev nD) → Buf (Elt F) (idsLoc d)) (Hf : (d : Dev nD) → Buf (Elt F) (outLoc d))

/-- What task `w` of device `d` starts from: its run of the ids, and its run of the counts at anything. -/
def taskPre (d : Dev nD) (w : Fin 32) : sProp 𝕄 :=
  iprop((idsLoc d ↦[idsSet w]{fullShare} Vids d) ∗ ∃ f, outLoc d ↦[outSet w]{fullShare} f)
/-- What it leaves: its run of the ids as found, its run of the counts at `Hf`. -/
def taskPost (d : Dev nD) (w : Fin 32) : sProp 𝕄 :=
  iprop((idsLoc d ↦[idsSet w]{fullShare} Vids d) ∗ outLoc d ↦[outSet w]{fullShare} Hf d)

/-- The call hands SparseCore `c` the runs of its sixteen tasks and takes them back. -/
def P : (K (F := F)).Pay (nD := nD) (Val := Elt F) (Name := ℕ) (U := UU) where
  st := fun _ d c => bigSep (Finset.univ : Finset (Fin 16)) fun i => taskPre Vids d (widN c.val i.val)
  dn := fun _ d c => bigSep (Finset.univ : Finset (Fin 16)) fun i => taskPost Vids Hf d (widN c.val i.val)
  go := fun _ d c i => taskPre Vids d (widN c.val i.val)
  td := fun _ d c i => taskPost Vids Hf d (widN c.val i.val)
  x := fun _ _ => iprop(emp)

instance taskPre_storable (d : Dev nD) (w : Fin 32) : BI.Storable (upEmb : UEmb _ 𝕄) (taskPre Vids d w) := by
  unfold taskPre; infer_instance
instance taskPost_storable (d : Dev nD) (w : Fin 32) : BI.Storable (upEmb : UEmb _ 𝕄) (taskPost Vids Hf d w) := by
  unfold taskPost; infer_instance

instance P_storable : (P (F := F) Vids Hf).IsStorable where
  st _ d c := by unfold P; infer_instance
  dn _ d c := by unfold P; infer_instance
  go _ _ _ _ := by unfold P; infer_instance
  td _ _ _ _ := by unfold P; infer_instance

theorem P_ox : (P (F := F) Vids Hf).ox = fun _ _ => 0 := rfl
theorem P_x (q : Fin 1) (thr : Thread nD τ) : (P (F := F) Vids Hf).x q thr = iprop(emp) := rfl
theorem P_go (q : Fin 1) (d : Dev nD) (c : Fin ((K (F := F)).nCore q)) (i : Fin ((K (F := F)).nSub q)) :
    (P (F := F) Vids Hf).go q d c i = taskPre Vids d (widN c.val i.val) := rfl
theorem P_td (q : Fin 1) (d : Dev nD) (c : Fin ((K (F := F)).nCore q)) (i : Fin ((K (F := F)).nSub q)) :
    (P (F := F) Vids Hf).td q d c i = taskPost Vids Hf d (widN c.val i.val) := rfl

/-- The sixteen tasks of a SparseCore take exactly what the call hands it, and give back what it takes back. -/
theorem vecSplit : (K (F := F)).VecSplit' (P Vids Hf) 0 := by
  intro d c
  show (bigSep (Finset.univ : Finset (Fin 16)) fun i => taskPre Vids d (widN c.val i.val)) ⊢ |={Set.univ}=> iprop(
      (bigSep (Finset.univ : Finset (Fin 16)) fun i => taskPre Vids d (widN c.val i.val))
      ∗ ((bigSep (Finset.univ : Finset (Fin 16)) fun i => taskPost Vids Hf d (widN c.val i.val))
          -∗ bigSep (Finset.univ : Finset (Fin 16)) fun i => taskPost Vids Hf d (widN c.val i.val)))
  iintro H; imodintro
  isplitl [H]; · iexact H
  iintro H; iexact H

end Cert.Proof.KernelRun

end
-- ==== Proof.KVals.lean ====
/-
  The contents of the TensorCore's arrays along @main of the kernel program: the launch memory; after the ids are
  flattened; after the histogram call has left its result in the counts array; after the counts are re-laid as
  [4096, 1024], the four tables set side by side, the embeddings re-laid as [4096, 100, 128] and the bias as [1, 64].
  Every array no operation writes keeps its launch contents. Also: the flat ids and the flat counts cut into the
  32 tasks' runs, SparseCore by SparseCore.
-/
import proofs.«215258_g80247168959020_cont_9to1_m_796_9_alg».proof.Proof.KPay

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ)

/-- The result array of @main, as a location of device `d`. -/
abbrev resLoc (d : Dev nD) : Loc nD τ sig := (SparseCore.T d).loc main_v6

/-- A TensorCore array as the device's buffer. -/
abbrev dr (b : Ref sig .tc) : DevRef τ sig := Proc.devRef .tc b

/-- The arrays of @main: its arguments and the values it computes. -/
abbrev Sall : Finset (DevRef τ sig) := (Finset.univ.filter fun b : Ref sig .tc => ¬ b.isScoped).image dr

omit [FloatOps F] in
theorem held_Sall (d : Dev nD) (W : Valuation τ sig (Elt F)) :
    (held (SparseCore.T d) Sall W : sProp 𝕄) = unscopedBufs d (fun b => W (dr b)) := by
  unfold held Sall unscopedBufs
  rw [SparseCore.bigSep_image_of_injOn (f := dr) (fun a _ b _ e => Proc.devRef_injective _ e)]

/-! ## The host operations of @main -/

abbrev op0 : HloOp τ sig (Elt F) := StableHlo.reshape main_arg0 main_v0 rfl shapeCasts_S4096x200_S819200
abbrev op2 : HloOp τ sig (Elt F) := StableHlo.reshape main_v1 main_v2 rfl shapeCasts_S4194304_S4096x1024
abbrev op3 : HloOp τ sig (Elt F) :=
  StableHlo.nary ![main_arg2, main_arg3, main_arg4, main_arg5] main_v3 (fun u => concatenate S1024x64 1 [⟨S1024x16, u 0⟩, ⟨S1024x16, u 1⟩, ⟨S1024x16, u 2⟩, ⟨S1024x16, u 3⟩] concatenates_S1024x16_S1024x16_S1024x16_S1024x16_S1024x64_d1)
abbrev op4 : HloOp τ sig (Elt F) := StableHlo.reshape main_arg1 main_v4 rfl shapeCasts_S4096x200x64_S4096x100x128
abbrev op5 : HloOp τ sig (Elt F) := StableHlo.reshape main_arg7 main_v5 rfl shapeCasts_S64_S1x64

theorem op0_sub : (op0 (F := F)).bufs ⊆ Sall :=
  show ({dr main_arg0, dr main_v0} : Finset (DevRef τ sig)) ⊆ Sall by decide
theorem op2_sub : (op2 (F := F)).bufs ⊆ Sall :=
  show ({dr main_v1, dr main_v2} : Finset (DevRef τ sig)) ⊆ Sall by decide
theorem op3_sub : (op3 (F := F)).bufs ⊆ Sall :=
  show (insert (dr main_v3) (Finset.univ.image fun k : Fin 4 => dr ((![main_arg2, main_arg3, main_arg4, main_arg5] : Fin 4 → Ref sig .tc) k))) ⊆ Sall by decide
theorem op4_sub : (op4 (F := F)).bufs ⊆ Sall :=
  show ({dr main_arg1, dr main_v4} : Finset (DevRef τ sig)) ⊆ Sall by decide
theorem op5_sub : (op5 (F := F)).bufs ⊆ Sall :=
  show ({dr main_arg7, dr main_v5} : Finset (DevRef τ sig)) ⊆ Sall by decide

/-! ## The arrays' contents along @main -/

/-- At launch. -/
def V0 (d : Dev nD) : Valuation τ sig (Elt F) := fun b => m (d, b)
/-- After the ids are flattened. -/
def V1 (d : Dev nD) : Valuation τ sig (Elt F) := (op0 (F := F)).result (V0 m d)
/-- The flat ids the histogram call reads. -/
def Vids (d : Dev nD) : Buf (Elt F) (idsLoc d) := V1 m d (dr main_v0)
/-- After the call has left `h` in the counts array. -/
def V2 (d : Dev nD) (h : Buf (Elt F) (outLoc d)) : Valuation τ sig (Elt F) := Function.update (V1 m d) (dr main_v1) h
/-- After the four re-layings and the concatenation: what the TensorCore region is entered with. -/
def V6 (d : Dev nD) (h : Buf (Elt F) (outLoc d)) : Valuation τ sig (Elt F) :=
  (op5 (F := F)).result ((op4 (F := F)).result ((op3 (F := F)).result ((op2 (F := F)).result (V2 m d h))))
/-- After the region has left `r` in the result array. -/
def V7 (d : Dev nD) (h : Buf (Elt F) (outLoc d)) (r : Buf (Elt F) (resLoc d)) : Valuation τ sig (Elt F) :=
  Function.update (V6 m d h) (dr main_v6) r

/-- An array none of the operations, the call or the region writes keeps its launch contents. -/
theorem V7_kept (d : Dev nD) (h : Buf (Elt F) (outLoc d)) (r : Buf (Elt F) (resLoc d)) (b : DevRef τ sig)
    (hb : b ∉ ({dr main_v0, dr main_v1, dr main_v2, dr main_v3, dr main_v4, dr main_v5, dr main_v6} : Finset (DevRef τ sig))) :
    V7 m d h r b = m (d, b) := by
  simp only [Finset.mem_insert, Finset.mem_singleton, not_or] at hb
  obtain ⟨h0, h1, h2, h3, h4, h5, h6⟩ := hb
  unfold V7 V6 V2 V1 V0
  rw [Function.update_of_ne h6,
    (op5 (F := F)).result_of_not_mem _ (by rw [show (op5 (F := F)).writes = {dr main_v5} from rfl, Finset.mem_singleton]; exact h5),
    (op4 (F := F)).result_of_not_mem _ (by rw [show (op4 (F := F)).writes = {dr main_v4} from rfl, Finset.mem_singleton]; exact h4),
    (op3 (F := F)).result_of_not_mem _ (by rw [show (op3 (F := F)).writes = {dr main_v3} from rfl, Finset.mem_singleton]; exact h3),
    (op2 (F := F)).result_of_not_mem _ (by rw [show (op2 (F := F)).writes = {dr main_v2} from rfl, Finset.mem_singleton]; exact h2),
    Function.update_of_ne h1,
    (op0 (F := F)).result_of_not_mem _ (by rw [show (op0 (F := F)).writes = {dr main_v0} from rfl, Finset.mem_singleton]; exact h0)]

theorem V7_v6 (d : Dev nD) (h : Buf (Elt F) (outLoc d)) (r : Buf (Elt F) (resLoc d)) : V7 m d h r (dr main_v6) = r :=
  Function.update_self _ _ _

theorem V2_v1 (d : Dev nD) (h : Buf (Elt F) (outLoc d)) : V2 m d h (dr main_v1) = h := Function.update_self _ _ _
theorem V2_v0 (d : Dev nD) (h : Buf (Elt F) (outLoc d)) : V2 m d h (dr main_v0) = Vids m d :=
  Function.update_of_ne (show dr main_v0 ≠ dr main_v1 by decide) _ _
theorem V2_rest (d : Dev nD) (h : Buf (Elt F) (outLoc d)) (b : DevRef τ sig) (hb : b ∈ Sall \ {dr main_v0, dr main_v1}) :
    V2 m d h b = V1 m d b := by
  have hne : b ≠ dr main_v1 := fun e => by
    rw [e] at hb; exact absurd hb (by decide)
  exact Function.update_of_ne hne _ _

/-! ## The two flat arrays cut into the tasks' runs -/

omit [FloatOps F] in
theorem idsSet_eq (w : Fin 32) : idsSet w = (idsPart w).set := by
  show ((View.whole (main_v0_scv : Ref sig .scVector)).slice (idsPart w)).set = _
  rw [View.set_slice]; exact Finset.map_refl
omit [FloatOps F] in
theorem outSet_eq (w : Fin 32) : outSet w = (outPart w).set := by
  show ((View.whole (main_v1_scv : Ref sig .scVector)).slice (outPart w)).set = _
  rw [View.set_slice]; exact Finset.map_refl

omit [FloatOps F] in
theorem ids_disjoint : ∀ i ∈ (Finset.univ : Finset (Fin 32)), ∀ j ∈ (Finset.univ : Finset (Fin 32)), i ≠ j → Disjoint (idsSet i) (idsSet j) :=
  fun i _ j _ h => by rw [idsSet_eq, idsSet_eq]; exact Rect.part_disjoint hdivI h
omit [FloatOps F] in
theorem ids_cover : (Finset.univ : Finset (Fin 32)).biUnion idsSet = Finset.univ :=
  (Finset.biUnion_congr rfl fun i _ => idsSet_eq i).trans (Rect.biUnion_part hdivI)
omit [FloatOps F] in
theorem out_disjoint : ∀ i ∈ (Finset.univ : Finset (Fin 32)), ∀ j ∈ (Finset.univ : Finset (Fin 32)), i ≠ j → Disjoint (outSet i) (outSet j) :=
  fun i _ j _ h => by rw [outSet_eq, outSet_eq]; exact Rect.part_disjoint hdivO h
omit [FloatOps F] in
theorem out_cover : (Finset.univ : Finset (Fin 32)).biUnion outSet = Finset.univ :=
  (Finset.biUnion_congr rfl fun i _ => outSet_eq i).trans (Rect.biUnion_part hdivO)

omit [FloatOps F] in
/-- A family over the 32 tasks, taken SparseCore by SparseCore and subcore by subcore. -/
theorem bigSep_tasks (Φ : Fin 32 → sProp 𝕄) :
    bigSep (Finset.univ : Finset (Fin 32)) Φ
      = bigSep (Finset.univ : Finset (Fin 2)) fun c => bigSep (Finset.univ : Finset (Fin 16)) fun i => Φ (widN c.val i.val) := by
  rw [show (Finset.univ : Finset (Fin 32)) = ((Finset.univ : Finset (Fin 2)) ×ˢ (Finset.univ : Finset (Fin 16))).image (fun p => widN p.1.val p.2.val) by decide,
    SparseCore.bigSep_image_of_injOn (by decide), SparseCore.bigSep_product]

omit [FloatOps F] in
theorem ids_tasks (d : Dev nD) (f : Buf (Elt F) (idsLoc d)) :
    (idsLoc d ↦{fullShare} f : sProp 𝕄)
      = bigSep (Finset.univ : Finset (Fin 2)) fun c => bigSep (Finset.univ : Finset (Fin 16)) fun i => idsLoc d ↦[idsSet (widN c.val i.val)]{fullShare} f := by
  rw [← bigSep_tasks (fun w => idsLoc d ↦[idsSet w]{fullShare} f), ← pointsTo_biUnion Finset.univ (ℓ := idsLoc d) idsSet ids_disjoint, ids_cover]; try rfl
omit [FloatOps F] in
theorem out_tasks (d : Dev nD) (f : Buf (Elt F) (outLoc d)) :
    (outLoc d ↦{fullShare} f : sProp 𝕄)
      = bigSep (Finset.univ : Finset (Fin 2)) fun c => bigSep (Finset.univ : Finset (Fin 16)) fun i => outLoc d ↦[outSet (widN c.val i.val)]{fullShare} f := by
  rw [← bigSep_tasks (fun w => outLoc d ↦[outSet w]{fullShare} f), ← pointsTo_biUnion Finset.univ (ℓ := outLoc d) outSet out_disjoint, out_cover]; try rfl

end Cert.Proof.KernelRun

end
-- ==== Proof.KLaunch.lean ====
/-
  @main of the kernel program on a device's TensorCore, from what the launch deals it: the ids are flattened; the
  histogram call takes the flat ids and the flat counts cut into the 32 tasks' runs and brings them back, the counts
  at the whole-array function `Hf` of the ids; four host operations re-lay the counts, the tables, the embeddings and
  the bias; the TensorCore region takes five of those arrays and the result array and brings them back, the result at
  `Res`. Every array of @main then holds its launch contents or what the one operation that writes it left, and the
  final memory is read off those.
-/
import proofs.«215258_g80247168959020_cont_9to1_m_796_9_alg».proof.Proof.KVals
import Idealize.ShloMosaic.Init

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (Hf : (d : Dev nD) → Buf (Elt F) (outLoc d)) (Res : (d : Dev nD) → Buf (Elt F) (resLoc d))

/-! ## The call's operands and results -/

theorem st_intro (d : Dev nD) (f : Buf (Elt F) (outLoc d)) :
    iprop((idsLoc d ↦{fullShare} Vids m d) ∗ outLoc d ↦{fullShare} f)
      ⊢ (bigSep Finset.univ fun c : Fin ((K (F := F)).nCore 0) => (P (Vids m) Hf).st 0 d c : sProp 𝕄) := by
  show _ ⊢ bigSep (Finset.univ : Finset (Fin 2)) fun c => bigSep (Finset.univ : Finset (Fin 16)) fun i => taskPre (Vids m) d (widN c.val i.val)
  unfold taskPre
  rw [ids_tasks, out_tasks]
  simp only [bigSep_sep']
  exact BIClass.sep_mono (BI.Entails.refl _) (bigSep_mono fun c _ => bigSep_mono fun i _ =>
    exists_intro (Φ := fun f : Buf (Elt F) (outLoc d) => (outLoc d ↦[outSet (widN c.val i.val)]{fullShare} f : sProp 𝕄)) f)

theorem dn_elim (d : Dev nD) :
    (bigSep Finset.univ fun c : Fin ((K (F := F)).nCore 0) => (P (Vids m) Hf).dn 0 d c : sProp 𝕄)
      ⊢ iprop((idsLoc d ↦{fullShare} Vids m d) ∗ outLoc d ↦{fullShare} Hf d) := by
  show (bigSep (Finset.univ : Finset (Fin 2)) fun c => bigSep (Finset.univ : Finset (Fin 16)) fun i => taskPost (Vids m) Hf d (widN c.val i.val)) ⊢ _
  unfold taskPost
  rw [ids_tasks, out_tasks]
  simp only [bigSep_sep']
  exact BI.Entails.refl _

/-! ## The arrays a step takes out of the whole set -/

abbrev IO : Finset (DevRef τ sig) := {dr main_v0, dr main_v1}
abbrev R6 : Finset (DevRef τ sig) := {dr main_v4, dr main_v2, dr main_v3, dr main_arg6, dr main_v5, dr main_v6}

omit [FloatOps F] in
theorem held_IO (d : Dev nD) (W : Valuation τ sig (Elt F)) :
    (held (SparseCore.T d) IO W : sProp 𝕄) = iprop((idsLoc d ↦{fullShare} W (dr main_v0)) ∗ outLoc d ↦{fullShare} W (dr main_v1)) := by
  unfold held IO
  rw [SparseCore.bigSep_insert' (by decide), bigSep_singleton]

omit [FloatOps F] in
theorem held_R6 (d : Dev nD) (W : Valuation τ sig (Elt F)) :
    (held (SparseCore.T d) R6 W : sProp 𝕄)
      = iprop((((d : Thread nD τ).loc main_v4) ↦{fullShare} W (dr main_v4)) ∗ (((d : Thread nD τ).loc main_v2) ↦{fullShare} W (dr main_v2))
          ∗ (((d : Thread nD τ).loc main_v3) ↦{fullShare} W (dr main_v3)) ∗ (((d : Thread nD τ).loc main_arg6) ↦{fullShare} W (dr main_arg6))
          ∗ (((d : Thread nD τ).loc main_v5) ↦{fullShare} W (dr main_v5)) ∗ (((d : Thread nD τ).loc main_v6) ↦{fullShare} W (dr main_v6))) := by
  unfold held R6
  rw [SparseCore.bigSep_insert' (by decide), SparseCore.bigSep_insert' (by decide), SparseCore.bigSep_insert' (by decide),
    SparseCore.bigSep_insert' (by decide), SparseCore.bigSep_insert' (by decide), bigSep_singleton]

/-! ## Taking the call's and the region's arrays out of the whole set, and putting them back -/

theorem held_before_call (d : Dev nD) :
    (held (SparseCore.T d) Sall (V1 m d) : sProp 𝕄)
      ⊢ iprop((idsLoc d ↦{fullShare} Vids m d) ∗ (outLoc d ↦{fullShare} V1 m d (dr main_v1)) ∗ held (SparseCore.T d) (Sall \ IO) (V1 m d)) := by
  rw [held_sub_split (SparseCore.T d) (T := IO) (S := Sall) (by decide) (V1 m d), held_IO]
  iintro ⟨⟨Hi, Ho⟩, Hr⟩
  isplitl [Hi]; · iexact Hi
  isplitl [Ho]; · iexact Ho
  iexact Hr

theorem held_after_call (d : Dev nD) (h : Buf (Elt F) (outLoc d)) :
    iprop((idsLoc d ↦{fullShare} Vids m d) ∗ (outLoc d ↦{fullShare} h) ∗ held (SparseCore.T d) (Sall \ IO) (V1 m d))
      ⊢ (held (SparseCore.T d) Sall (V2 m d h) : sProp 𝕄) := by
  rw [held_sub_split (SparseCore.T d) (T := IO) (S := Sall) (by decide) (V2 m d h), held_IO, V2_v0, V2_v1,
    held_congr (SparseCore.T d) (fun b hb => V2_rest m d h b hb)]
  iintro ⟨Hi, Ho, Hr⟩
  isplitl [Hi Ho]
  · isplitl [Hi]; · iexact Hi
    iexact Ho
  iexact Hr

theorem V7_rest (d : Dev nD) (h : Buf (Elt F) (outLoc d)) (r : Buf (Elt F) (resLoc d)) (b : DevRef τ sig) (hb : b ≠ dr main_v6) :
    V7 m d h r b = V6 m d h b := Function.update_of_ne hb _ _

theorem held_after_region (d : Dev nD) (h : Buf (Elt F) (outLoc d)) (r : Buf (Elt F) (resLoc d)) :
    iprop(((((d : Thread nD τ).loc main_v4) ↦{fullShare} V6 m d h (dr main_v4)) ∗ (((d : Thread nD τ).loc main_v2) ↦{fullShare} V6 m d h (dr main_v2))
        ∗ (((d : Thread nD τ).loc main_v3) ↦{fullShare} V6 m d h (dr main_v3)) ∗ (((d : Thread nD τ).loc main_arg6) ↦{fullShare} V6 m d h (dr main_arg6))
        ∗ (((d : Thread nD τ).loc main_v5) ↦{fullShare} V6 m d h (dr main_v5)) ∗ (((d : Thread nD τ).loc main_v6) ↦{fullShare} r))
        ∗ held (SparseCore.T d) (Sall \ R6) (V6 m d h))
      ⊢ (held (SparseCore.T d) Sall (V7 m d h r) : sProp 𝕄) := by
  rw [held_sub_split (SparseCore.T d) (T := R6) (S := Sall) (by decide) (V7 m d h r), held_R6,
    V7_rest m d h r _ (show dr main_v4 ≠ dr main_v6 by decide), V7_rest m d h r _ (show dr main_v2 ≠ dr main_v6 by decide),
    V7_rest m d h r _ (show dr main_v3 ≠ dr main_v6 by decide), V7_rest m d h r _ (show dr main_arg6 ≠ dr main_v6 by decide),
    V7_rest m d h r _ (show dr main_v5 ≠ dr main_v6 by decide), V7_v6,
    held_congr (SparseCore.T d) (fun b hb => V7_rest m d h r b (fun e => by rw [e] at hb; exact absurd hb (by decide)))]

/-! ## The region's interface -/

/-- What the region is entered from: five operand arrays and the result array whole, the TensorCore owing nothing,
    its recorded waits at levels up to 8. -/
def RPre (d : Dev nD) : sProp 𝕄 :=
  iprop((((d : Thread nD τ).loc main_v4) ↦{fullShare} V6 m d (Hf d) (dr main_v4)) ∗ (((d : Thread nD τ).loc main_v2) ↦{fullShare} V6 m d (Hf d) (dr main_v2))
    ∗ (((d : Thread nD τ).loc main_v3) ↦{fullShare} V6 m d (Hf d) (dr main_v3)) ∗ (((d : Thread nD τ).loc main_arg6) ↦{fullShare} V6 m d (Hf d) (dr main_arg6))
    ∗ (((d : Thread nD τ).loc main_v5) ↦{fullShare} V6 m d (Hf d) (dr main_v5)) ∗ (((d : Thread nD τ).loc main_v6) ↦{fullShare} V6 m d (Hf d) (dr main_v6))
    ∗ ∃ W, ⌜(K (F := F)).WBelow (SparseCore.T d) W 8⌝ ∗ owes (SparseCore.T d) (0 : CellTallies nD τ sig (HIx 1)) W)

/-- What it leaves: the operands as found, the result array at `Res`. -/
def RPost (d : Dev nD) : sProp 𝕄 :=
  iprop((((d : Thread nD τ).loc main_v4) ↦{fullShare} V6 m d (Hf d) (dr main_v4)) ∗ (((d : Thread nD τ).loc main_v2) ↦{fullShare} V6 m d (Hf d) (dr main_v2))
    ∗ (((d : Thread nD τ).loc main_v3) ↦{fullShare} V6 m d (Hf d) (dr main_v3)) ∗ (((d : Thread nD τ).loc main_arg6) ↦{fullShare} V6 m d (Hf d) (dr main_arg6))
    ∗ (((d : Thread nD τ).loc main_v5) ↦{fullShare} V6 m d (Hf d) (dr main_v5)) ∗ (((d : Thread nD τ).loc main_v6) ↦{fullShare} Res d)
    ∗ ∃ W, ⌜(K (F := F)).WBelow (SparseCore.T d) W 8⌝ ∗ owes (SparseCore.T d) (0 : CellTallies nD τ sig (HIx 1)) W)

/-! ## The TensorCore's handshake state after the one call -/

/-- The part of the TensorCore's state after the call that is not its debt. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt EH d 1 : sProp 𝕄)
      = iprop((∃ W, ⌜(K (F := F)).WBelow (SparseCore.T d) W 8⌝ ∗ owes (SparseCore.T d) (0 : CellTallies nD τ sig (HIx 1)) W) ∗ tcTail d) := by
  unfold SparseCore.Cfg.tcSt tcTail
  rw [(K (F := F)).Otc_end d (le_refl 1)]

/-! ## What @main leaves -/

/-- Every array of @main at its final contents. -/
abbrev FIN (d : Dev nD) : sProp 𝕄 := held (SparseCore.T d) Sall (V7 m d (Hf d) (Res d))

set_option maxHeartbeats 1600000 in
/-- @main on device `d`'s TensorCore. -/
theorem hmain (GR : Dev nD → sProp 𝕄)
    (hreg : ∀ (d : Dev nD) (Φ : PUnit → sProp 𝕄),
      iprop((iprop(boundary (SparseCore.T d) ∗ RPost m Hf Res d) -∗ Φ ⟨⟩) ∗ boundary (SparseCore.T d) ∗ RPre m Hf d ∗ levAts (K (F := F)).L (K (F := F)).lev ∗ GR d)
        ⊢ wp frame (wpE ((K (F := F)).defs (D (F := F))) 𝒱 (SparseCore.T d) none) Set.univ
            (Prog.lift (.customCall (SparseCore.inner (Pipeline.entry 0)) ())) Φ)
    (κ : GSem nD τ sig → ℕ) (d : Dev nD) :
    iprop((K (F := F)).ctx EH (P (Vids m) Hf) κ ∗ (K (F := F)).tcSt EH d 0 ∗ (K (F := F)).tcRes m ρ d ∗ GR d)
      ⊢ wp frame (wpE ((K (F := F)).defs (D (F := F))) 𝒱 (SparseCore.T d) none) Set.univ (main d)
          fun _ => iprop((K (F := F)).tcSt EH d 1 ∗ FIN m Hf Res d) := by
  unfold SparseCore.Cfg.tcRes
  rw [show (unscopedBufs d (fun b => m ((SparseCore.T d).loc b)) : sProp 𝕄) = held (SparseCore.T d) Sall (V0 m d) from (held_Sall (F := F) d (V0 m d)).symm]
  simp only [main, wp_bind, wp_pure]
  iintro ⟨#Hctx, Hst, ⟨Hb, Hheld, -, -⟩, HG⟩
  -- the ids flattened
  iapply (wp_hlo_within 𝒱 (SparseCore.T d) none Set.univ (op := op0) (S := Sall) op0_sub (V := V0 m d)) $$ [Hb Hheld]
  · isplitl [Hb]; · iexact Hb
    iexact Hheld
  iintro ⟨Hb, Hheld⟩
  rw [wp_ret]; imodintro
  -- the histogram call: the flat ids and the flat counts go out cut into the tasks' runs and come back
  ihave Hheld := (Entails.of_eq (show (held (SparseCore.T d) Sall ((op0 (F := F)).result (V0 m d)) : sProp 𝕄) = held (SparseCore.T d) Sall (V1 m d) from rfl)) $$ Hheld
  ihave Hh := (held_before_call m d) $$ Hheld
  icases Hh with ⟨Hi, Ho, Hrest⟩
  iapply ((K (F := F)).wp_run (D (F := F)) 𝒱 (EH := EH) (P := P (Vids m) Hf) κ d 0) $$ [Hst Hi Ho Hb Hrest HG]
  isplitr; · iexact Hctx
  isplitl [Hst]; · iexact Hst
  isplitl [Hi Ho]
  · iapply (st_intro m Hf d _)
    isplitl [Hi]; · iexact Hi
    iexact Ho
  iintro ⟨Hst, Hdn⟩
  ihave Hdn' := (dn_elim m Hf d) $$ Hdn
  icases Hdn' with ⟨Hi, Ho⟩
  ihave Hheld := (held_after_call m d (Hf d)) $$ [Hi Ho Hrest]
  · isplitl [Hi]; · iexact Hi
    isplitl [Ho]; · iexact Ho
    iexact Hrest
  -- the counts re-laid, the tables side by side, the embeddings and the bias re-laid
  iapply (wp_hlo_within 𝒱 (SparseCore.T d) none Set.univ (op := op2) (S := Sall) op2_sub (V := V2 m d (Hf d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := Sall) op3_sub (V := (op2 (F := F)).result (V2 m d (Hf d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := Sall) op4_sub (V := (op3 (F := F)).result ((op2 (F := F)).result (V2 m d (Hf d))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := Sall) op5_sub
    (V := (op4 (F := F)).result ((op3 (F := F)).result ((op2 (F := F)).result (V2 m d (Hf d)))))) $$ [Hb Hheld]
  · isplitl [Hb]; · iexact Hb
    iexact Hheld
  iintro ⟨Hb, Hheld⟩
  rw [wp_ret]; imodintro
  -- the TensorCore region
  ihave Hheld := (Entails.of_eq (show (held (SparseCore.T d) Sall ((op5 (F := F)).result ((op4 (F := F)).result ((op3 (F := F)).result ((op2 (F := F)).result (V2 m d (Hf d)))))) : sProp 𝕄)
    = held (SparseCore.T d) Sall (V6 m d (Hf d)) from rfl)) $$ Hheld
  ihave Hh := (Entails.of_eq ((held_sub_split (SparseCore.T d) (T := R6) (S := Sall) (by decide) (V6 m d (Hf d))).trans
    (congrArg (fun X => iprop(X ∗ held (SparseCore.T d) (Sall \ R6) (V6 m d (Hf d)))) (held_R6 (F := F) d (V6 m d (Hf d)))))) $$ Hheld
  icases Hh with ⟨⟨H4, H2, H3, H6a, H5, H6⟩, Hrest⟩
  ihave Hst := (Entails.of_eq (show ((K (F := F)).tcSt EH d ((0 : Fin 1).val + 1) : sProp 𝕄) = (K (F := F)).tcSt EH d 1 from rfl)) $$ Hst
  ihave Hst' := (Entails.of_eq (tcSt_one (F := F) d)) $$ Hst
  icases Hst' with ⟨HO, Htail⟩
  iapply (hreg d _) $$ [Hb H4 H2 H3 H6a H5 H6 HO HG Hrest Htail]
  isplitl [Hrest Htail]
  · iintro ⟨Hb, Hpost⟩
    unfold RPost
    icases Hpost with ⟨H4, H2, H3, H6a, H5, H6, HO⟩
    imodintro
    isplitl [HO Htail]
    · iapply (Entails.of_eq (tcSt_one (F := F) d).symm)
      isplitl [HO]; · iexact HO
      iexact Htail
    iapply (held_after_region m d (Hf d) (Res d))
    isplitl [H4 H2 H3 H6a H5 H6]
    · isplitl [H4]; · iexact H4
      isplitl [H2]; · iexact H2
      isplitl [H3]; · iexact H3
      isplitl [H6a]; · iexact H6a
      isplitl [H5]; · iexact H5
      iexact H6
    iexact Hrest
  isplitl [Hb]; · iexact Hb
  isplitl [H4 H2 H3 H6a H5 H6 HO]
  · unfold RPre
    isplitl [H4]; · iexact H4
    isplitl [H2]; · iexact H2
    isplitl [H3]; · iexact H3
    isplitl [H6a]; · iexact H6a
    isplitl [H5]; · iexact H5
    isplitl [H6]; · iexact H6
    iexact HO
  isplitr
  · iapply (SparseCore.Cfg.ctx_levAts κ); iexact Hctx
  iexact HG

/-! ## The final memory -/

/-- Device `d`'s arrays in the final memory are what @main left. -/
def fq (d : Dev nD) (s' : Phys nD τ sig (Elt F)) : Prop :=
  ∀ b ∈ Sall, s'.mem.mem ((d, b) : Loc nD τ sig) = V7 m d (Hf d) (Res d) b

theorem hfin (d : Dev nD) (s' : Phys nD τ sig (Elt F)) : iprop(FIN m Hf Res d ∗ SI s') ⊢ (⌜fq m Hf Res d s'⌝ : sProp 𝕄) := by
  unfold fq FIN held
  refine posts_pure (Φ := fun b : DevRef τ sig => (((SparseCore.T d : Thread nD τ).1, b) ↦{fullShare} V7 m d (Hf d) (Res d) b : sProp 𝕄))
    (q := fun b s' => s'.mem.mem ((d, b) : Loc nD τ sig) = V7 m d (Hf d) (Res d) b) Sall (fun b s' => ?_) s'
  iintro ⟨Hp, HSI⟩
  ihave H := (SI_pointsTo_agree (st := s') (ℓ := ((d, b) : Loc nD τ sig)) (I := Finset.univ) (q := fullShare) (f := V7 m d (Hf d) (Res d) b)) $$ [HSI Hp]
  · isplitl [HSI] <;> iassumption
  icases H with %hx
  ipureintro; exact funext fun i => hx i (Finset.mem_univ i)

end Cert.Proof.KernelRun

end
-- ==== Proof.KRun.lean ====
/-
  The kernel program's run: every weakly fair execution of the device's threads from a memory whose semaphores read
  zero terminates, nothing faulting, and every array of @main ends at what @main's steps left in it: the arguments at
  their launch contents, the result array at what the TensorCore region computed from the re-laid operands. The launch
  theorem for a SparseCore program supplies the run from: the one task's proof, the cut of a SparseCore's operands into
  its tasks', @main on the TensorCore, the launch's ghost state, and the reading of the final memory.
-/
import proofs.«215258_g80247168959020_cont_9to1_m_796_9_alg».proof.Proof.KLaunch

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (Hf : (d : Dev nD) → Buf (Elt F) (outLoc d)) (Res : (d : Dev nD) → Buf (Elt F) (resLoc d))

/-- Every array of @main, on every device, at its final contents. -/
def QC : PUnit × MemSt nD τ sig (Elt F) → Prop :=
  fun r => ∀ c : Dev nD, ∀ b ∈ Sall, r.2.mem ((c, b) : Loc nD τ sig) = V7 m c (Hf c) (Res c) b

theorem run_main [∀ e, Nonempty (Elt F e)] (GR : Dev nD → sProp 𝕄) (u₀ : UU)
    (hu₀ : iprop(ownU u₀ ∗ (P (Vids m) Hf).oxCred ∗ (K (F := F)).freeSems0)
      ⊢ |={Set.univ}=> iprop(BI.own (EH (initOf (K (F := F)).hsCells (K (F := F)).hsToks)) ∗ (bigSep Finset.univ fun d : Dev nD => GR d)
        ∗ bigSep Finset.univ fun thr : Thread nD τ => bigSep Finset.univ fun q : Fin 1 => (P (Vids m) Hf).x q thr))
    (hreg : ∀ (d : Dev nD) (Φ : PUnit → sProp 𝕄),
      iprop((iprop(boundary (SparseCore.T d) ∗ RPost m Hf Res d) -∗ Φ ⟨⟩) ∗ boundary (SparseCore.T d) ∗ RPre m Hf d ∗ levAts (K (F := F)).L (K (F := F)).lev ∗ GR d)
        ⊢ wp frame (wpE ((K (F := F)).defs (D (F := F))) 𝒱 (SparseCore.T d) none) Set.univ
            (Prog.lift (.customCall (SparseCore.inner (Pipeline.entry 0)) ())) Φ)
    (htile : (K (F := F)).TileObl (D (F := F)) 𝒱 (P (Vids m) Hf) v₀ 0) :
    θ_run (Cert.Kernel.defs (F := F)) (Cert.Kernel.threads (F := F)) ⟨m, fun _ => 0, ρ⟩ (QC m Hf Res) :=
  SparseCore.Cfg.θ_run_sc (K := K (F := F)) (D := D (F := F)) (𝒱 := 𝒱) (EH := EH) (P := P (Vids m) Hf) facts v₀
    (fun q hq => match q with | 0 => nomatch hq)
    (fun q _ => match q with | 0 => htile)
    (fun q _ => match q with | 0 => SparseCore.Cfg.VecSplit.of_plain (vecSplit (Vids m) Hf))
    m ρ main GR (FIN m Hf Res) u₀ hu₀ (hmain m ρ Hf Res GR hreg) (fq m Hf Res) (hfin m Hf Res) (QC m Hf Res) (fun _ h => h)

/-- In that final memory an argument array holds its launch contents. -/
theorem QC_arg {r : PUnit × MemSt nD τ sig (Elt F)} (h : QC m Hf Res r) (c : Dev nD) (b : DevRef τ sig) (hb : b ∈ Sall)
    (hn : b ∉ ({dr main_v0, dr main_v1, dr main_v2, dr main_v3, dr main_v4, dr main_v5, dr main_v6} : Finset (DevRef τ sig))) :
    r.2.mem ((c, b) : Loc nD τ sig) = m (c, b) :=
  (h c b hb).trans (V7_kept m c (Hf c) (Res c) b hn)

/-- and the result array holds what the region left. -/
theorem QC_res {r : PUnit × MemSt nD τ sig (Elt F)} (h : QC m Hf Res r) (c : Dev nD) :
    r.2.mem ((c, dr main_v6) : Loc nD τ sig) = Res c :=
  (h c (dr main_v6) (by decide)).trans (V7_v6 m c (Hf c) (Res c))

end Cert.Proof.KernelRun

end
-- ==== Proof.KRegBody.lean ====
/-
  The TensorCore region of the kernel program: six windows over a grid of 32 points, each point loading its
  blocks whole, computing one block of the result from them, and storing it whole.

  At point t the body finds in each input window's buffer block t of that window's array (for the three arrays
  staged once, the whole array), and leaves in the result window's buffer one function of those blocks. The
  region therefore ends with the five operand arrays as it found them and the result array, block by block,
  at that function of the operands' blocks.
-/
import proofs.«215258_g80247168959020_cont_9to1_m_796_9_alg».proof.Proof.KSetup
import proofs.«215258_g80247168959020_cont_9to1_m_796_9_alg».proof.Proof.Gen.Kernel.Launch
import proofs.«215258_g80247168959020_cont_9to1_m_796_9_alg».proof.Proof.Gen.Kernel.Points
import Idealize.ShloMosaic.Lib.Pipeline.Regions
import Idealize.ShloMosaic.Lib.Pipeline.FrameBody
import Idealize.ShloMosaic.Lib.Ring
import Idealize.ShloMosaic.Lib.Tactic

set_option maxRecDepth 16384

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The one admissible table of the pipeline: it has none. -/
abbrev adm : (p : Fin 1) → (pcfgs (F := F) p).Adm := fun p => (cfgs p).toPCfg_adm

/-- The pipeline's staging cells live in the middle component of the ghost state. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ (MT nD τ sig (HIx 1) (Elt F) ℕ UU ℕ)) := by
  unfold EP embR; infer_instance

variable (Vv : (d : Dev nD) → (b : Ref sig .tc) → Buf (Elt F) ((d : Thread nD τ).loc b))

/-! ## The windows' blocks -/

/-- Window w's block at point t, read off its array. -/
def iblk (d : Dev nD) (w : Fin cfg1.W) (t : Fin cfg1.N) : ((cfg1.win w).xblock (cfg1.grid.coords t)).Idx → Elt F (cfg1.win w).elt :=
  ((cfg1.win w).blk t).view.read (Elt F) (Vv d (Pipeline.arrRef spec1 w))

/-! ## What the body leaves in the result window's buffer -/

abbrev r1_0 : Rect S128x100x128 := Rect.unit (s := S128x100x128) ![0, 0, 0] S128x100x128.size Facts₀.inb_S128x100x128_S128x100x128_0_0_0
abbrev r1_1 : Rect S128x1024 := Rect.unit (s := S128x1024) ![0, 0] S128x1024.size Facts₀.inb_S128x1024_S128x1024_0_0
abbrev r1_2 : Rect S1024x64 := Rect.unit (s := S1024x64) ![0, 0] S1024x64.size Facts₀.inb_S1024x64_S1024x64_0_0
abbrev r1_3 : Rect S64x64 := Rect.unit (s := S64x64) ![0, 0] S64x64.size Facts₀.inb_S64x64_S64x64_0_0
abbrev r1_4 : Rect S1x64 := Rect.unit (s := S1x64) ![0, 0] S1x64.size Facts₀.inb_S1x64_S1x64_0_0
abbrev r1_5 : Rect S128x64 := Rect.unit (s := S128x64) ![0, 0] S128x64.size Facts₀.inb_S128x64_S128x64_0_0

/-- The result window's buffer after the body, from the five input blocks: its one store, which covers it. -/
def out1_5 (x0 : Vec F S128x100x128 .f32) (x1 : Vec F S128x1024 .f32) (x2 : Vec F S1024x64 .f32) (x3 : Vec F S64x64 .f32)
    (x4 : Vec F S1x64 .f32) : Vec F S128x64 .f32 :=
  View.canon [⟨r1_5, k1_pay1 (View.ld x0 r1_0) (View.ld x1 r1_1) (View.ld x2 r1_2) (View.ld x3 r1_3) (View.ld x4 r1_4)⟩]

theorem cover1_5 (p0 : Vec F S128x64 .f32) (y : S128x64.Idx) :
    ∃ pc ∈ ([⟨r1_5, p0⟩] : List (View.Piece (Elt F) S128x64 .f32)), y ∈ pc.1.set :=
  View.cover_of_tiled [⟨r1_5, p0⟩] S128x64.size (by rfl) y

/-! ## The body's triple -/

set_option maxHeartbeats 1000000 in
/-- The body on whole buffers, the inputs' at read contents and the result's at anything, runs to the continuation
    holding the inputs' as they were and the result's at `out1_5` of the inputs'. -/
theorem sound_kernel (c : Dev nD) (E : Set ℕ) (i : grid1.Coords)
    (arg1 : Memref sig .tc .vmem S128x100x128 .f32) (harg1 : arg1.IsWhole) (arg2 : Memref sig .tc .vmem S128x1024 .f32) (harg2 : arg2.IsWhole)
    (arg3 : Memref sig .tc .vmem S1024x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S128x64 .f32) (harg6 : arg6.IsWhole)
    (x0 : Vec F S128x100x128 .f32) (x1 : Vec F S128x1024 .f32) (x2 : Vec F S1024x64 .f32) (x3 : Vec F S64x64 .f32) (x4 : Vec F S1x64 .f32)
    (Kk : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d5, owns (c : Thread nD τ) arg6 fullShare d5)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ Kk ⟨⟩))
      ⊢ wp frame (wpE (defs₀ (F := F)) Variants.none c none) E (cc1__tc_body i arg1 harg1 arg2 harg2 arg3 harg3 arg4 harg4 arg5 harg5 arg6 harg6) Kk := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data on core d: the arrays as the region finds them; after the body each input's buffer at its
    block and the result's at `out1_5` of the input blocks; nothing of the body's own between points; nothing owed;
    the waits recorded so far all at levels the handshakes allow. -/
def dats (_ : Fin 1) (d : Dev nD) : Dat τ (Elt F) (HIx 1) ℕ UU ℕ cfg1 d where
  A w := Vv d (Pipeline.arrRef spec1 w)
  after w t := match w with
    | ⟨0, _⟩ => iblk Vv d 0 t
    | ⟨1, _⟩ => iblk Vv d 1 t
    | ⟨2, _⟩ => iblk Vv d 2 t
    | ⟨3, _⟩ => iblk Vv d 3 t
    | ⟨4, _⟩ => iblk Vv d 4 t
    | ⟨5, _⟩ => out1_5 (iblk Vv d 0 t) (iblk Vv d 1 t) (iblk Vv d 2 t) (iblk Vv d 3 t) (iblk Vv d 4 t)
  Φ _ := (Pipeline.scopedRest spec1 d : sProp (MT nD τ sig (HIx 1) (Elt F) ℕ UU ℕ))
  q _ := fullShare
  owed _ := 0
  recorded _ := {p | (K (F := F)).lev ((d : Thread nD τ), p.1) p.2 ≤ 8}

theorem A_eq (d : Dev nD) (w : Fin cfg1.W) : (dats Vv 0 d).A w = Vv d (Pipeline.arrRef spec1 w) := by dsimp only [dats]

theorem after1_0 (d : Dev nD) (t : Fin cfg1.N) : (dats Vv 0 d).after 0 t = iblk Vv d 0 t := by dsimp only [dats]
theorem after1_1 (d : Dev nD) (t : Fin cfg1.N) : (dats Vv 0 d).after 1 t = iblk Vv d 1 t := by dsimp only [dats]
theorem after1_2 (d : Dev nD) (t : Fin cfg1.N) : (dats Vv 0 d).after 2 t = iblk Vv d 2 t := by dsimp only [dats]
theorem after1_3 (d : Dev nD) (t : Fin cfg1.N) : (dats Vv 0 d).after 3 t = iblk Vv d 3 t := by dsimp only [dats]
theorem after1_4 (d : Dev nD) (t : Fin cfg1.N) : (dats Vv 0 d).after 4 t = iblk Vv d 4 t := by dsimp only [dats]
theorem after1_5 (d : Dev nD) (t : Fin cfg1.N) :
    (dats Vv 0 d).after 5 t = out1_5 (iblk Vv d 0 t) (iblk Vv d 1 t) (iblk Vv d 2 t) (iblk Vv d 3 t) (iblk Vv d 4 t) := by dsimp only [dats]

/-- Each input window's current buffer holds its block at every point, fetched there or not (a window fetched
    once keeps its block: its index does not move). -/
theorem before1_0 (d : Dev nD) (t : Fin cfg1.N) (dd) : (dats Vv 0 d).before 0 t dd = iblk Vv d 0 t :=
  ((dats Vv 0 d).before_in_eq_fetched 0 rfl (fun _ => rfl) (fun _ _ _ => rfl)
      (fun t => by rw [after1_0]; unfold Dat.blockOf iblk; rw [A_eq]; try rfl) t dd).trans
    (by unfold Dat.fetched Dat.blockOf iblk; rw [A_eq]; try rfl)
theorem before1_1 (d : Dev nD) (t : Fin cfg1.N) (dd) : (dats Vv 0 d).before 1 t dd = iblk Vv d 1 t :=
  ((dats Vv 0 d).before_in_eq_fetched 1 rfl (fun _ => rfl) (fun _ _ _ => rfl)
      (fun t => by rw [after1_1]; unfold Dat.blockOf iblk; rw [A_eq]; try rfl) t dd).trans
    (by unfold Dat.fetched Dat.blockOf iblk; rw [A_eq]; try rfl)
theorem before1_2 (d : Dev nD) (t : Fin cfg1.N) (dd) : (dats Vv 0 d).before 2 t dd = iblk Vv d 2 t :=
  ((dats Vv 0 d).before_in_eq_fetched 2 rfl (fun _ => rfl) (fun _ _ _ => rfl)
      (fun t => by rw [after1_2]; unfold Dat.blockOf iblk; rw [A_eq]; try rfl) t dd).trans
    (by unfold Dat.fetched Dat.blockOf iblk; rw [A_eq]; try rfl)
theorem before1_3 (d : Dev nD) (t : Fin cfg1.N) (dd) : (dats Vv 0 d).before 3 t dd = iblk Vv d 3 t :=
  ((dats Vv 0 d).before_in_eq_fetched 3 rfl (fun _ => rfl) (fun _ _ _ => rfl)
      (fun t => by rw [after1_3]; unfold Dat.blockOf iblk; rw [A_eq]; try rfl) t dd).trans
    (by unfold Dat.fetched Dat.blockOf iblk; rw [A_eq]; try rfl)
theorem before1_4 (d : Dev nD) (t : Fin cfg1.N) (dd) : (dats Vv 0 d).before 4 t dd = iblk Vv d 4 t :=
  ((dats Vv 0 d).before_in_eq_fetched 4 rfl (fun _ => rfl) (fun _ _ _ => rfl)
      (fun t => by rw [after1_4]; unfold Dat.blockOf iblk; rw [A_eq]; try rfl) t dd).trans
    (by unfold Dat.fetched Dat.blockOf iblk; rw [A_eq]; try rfl)

/-! ## The body obligation -/

def bodyPre (d : Dev nD) (t : Fin cfg1.N) : sProp 𝕄 :=
  iprop((dats Vv 0 d).Φ t.castSucc ∗ (dats Vv 0 d).owesAt none t.castSucc
    ∗ (∃ dd, owns (d : Thread nD τ) (st1_0 t) fullShare ((dats Vv 0 d).before 0 t dd))
    ∗ (∃ dd, owns (d : Thread nD τ) (st1_1 t) fullShare ((dats Vv 0 d).before 1 t dd))
    ∗ (∃ dd, owns (d : Thread nD τ) (st1_2 t) fullShare ((dats Vv 0 d).before 2 t dd))
    ∗ (∃ dd, owns (d : Thread nD τ) (st1_3 t) fullShare ((dats Vv 0 d).before 3 t dd))
    ∗ (∃ dd, owns (d : Thread nD τ) (st1_4 t) fullShare ((dats Vv 0 d).before 4 t dd))
    ∗ (∃ dd, owns (d : Thread nD τ) (st1_5 t) fullShare ((dats Vv 0 d).before 5 t dd)))

def bodyPost (d : Dev nD) (t : Fin cfg1.N) : sProp 𝕄 :=
  iprop((dats Vv 0 d).Φ t.succ ∗ (dats Vv 0 d).owesAt none t.succ
    ∗ owns (d : Thread nD τ) (st1_0 t) fullShare ((dats Vv 0 d).after 0 t)
    ∗ owns (d : Thread nD τ) (st1_1 t) fullShare ((dats Vv 0 d).after 1 t)
    ∗ owns (d : Thread nD τ) (st1_2 t) fullShare ((dats Vv 0 d).after 2 t)
    ∗ owns (d : Thread nD τ) (st1_3 t) fullShare ((dats Vv 0 d).after 3 t)
    ∗ owns (d : Thread nD τ) (st1_4 t) fullShare ((dats Vv 0 d).after 4 t)
    ∗ owns (d : Thread nD τ) (st1_5 t) fullShare ((dats Vv 0 d).after 5 t))

theorem sound_body (d : Dev nD) (t : Fin cfg1.N) :
    bodyPre Vv d t ⊢ wp frame (wpE (defs₀ (F := F)) Variants.none d none) Set.univ (bodyAt1 t) (fun _ => bodyPost Vv d t) := by
  unfold bodyPre bodyPost bodyAt1
  simp only [before1_0, before1_1, before1_2, before1_3, before1_4]
  rw [show (dats Vv 0 d).Φ t.succ = (dats Vv 0 d).Φ t.castSucc from rfl,
    show (dats Vv 0 d).owesAt none t.succ = (dats Vv 0 d).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel d Set.univ (grid1.coords t) _ _ _ _ _ _ _ _ _ _ _ _ (iblk Vv d 0 t) (iblk Vv d 1 t) (iblk Vv d 2 t) (iblk Vv d 3 t) (iblk Vv d 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (d : Dev nD) : BodyObligation (dats (F := F) Vv 0 d) (defs₀ (F := F)) Variants.none none Set.univ := fun t => by
  rw [bigSep_W1, bigSep_W1]
  exact sound_body Vv d t

end Cert.Proof.KernelRun

end
-- ==== Proof.KRegSeg.lean ====
/-
  The TensorCore region as one segment of the program: what it is entered from and what it leaves, and the
  record of how the six arrays and the core's debt pass through the pipeline's own entry and exit.
-/
import proofs.«215258_g80247168959020_cont_9to1_m_796_9_alg».proof.Proof.KRegBody

set_option maxRecDepth 16384

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (Vv : (d : Dev nD) → (b : Ref sig .tc) → Buf (Elt F) ((d : Thread nD τ).loc b))

/-! ## The region -/

/-- What the region is entered from: the six arrays whole, and what the core owes (nothing), its recorded waits
    at levels up to 8. -/
def regionPre (d : Dev nD) : sProp 𝕄 :=
  iprop((((d : Thread nD τ).loc main_v4) ↦{fullShare} Vv d main_v4) ∗ (((d : Thread nD τ).loc main_v2) ↦{fullShare} Vv d main_v2)
    ∗ (((d : Thread nD τ).loc main_v3) ↦{fullShare} Vv d main_v3) ∗ (((d : Thread nD τ).loc main_arg6) ↦{fullShare} Vv d main_arg6)
    ∗ (((d : Thread nD τ).loc main_v5) ↦{fullShare} Vv d main_v5) ∗ (((d : Thread nD τ).loc main_v6) ↦{fullShare} Vv d main_v6)
    ∗ ∃ W, ⌜(K (F := F)).WBelow (T d) W 8⌝ ∗ owes (T d) (0 : CellTallies nD τ sig (HIx 1)) W)

/-- What it leaves: the five operands as found, the result array at what the 32 write-backs left, the core owing
    nothing, its recorded waits still at levels up to 8. -/
def regionPost (d : Dev nD) : sProp 𝕄 :=
  iprop((((d : Thread nD τ).loc main_v4) ↦{fullShare} Vv d main_v4) ∗ (((d : Thread nD τ).loc main_v2) ↦{fullShare} Vv d main_v2)
    ∗ (((d : Thread nD τ).loc main_v3) ↦{fullShare} Vv d main_v3) ∗ (((d : Thread nD τ).loc main_arg6) ↦{fullShare} Vv d main_arg6)
    ∗ (((d : Thread nD τ).loc main_v5) ↦{fullShare} Vv d main_v5) ∗ (((d : Thread nD τ).loc main_v6) ↦{fullShare} (dats Vv 0 d).arrAt 5 32)
    ∗ ∃ W, ⌜(K (F := F)).WBelow (T d) W 8⌝ ∗ owes (T d) (0 : CellTallies nD τ sig (HIx 1)) W)

/-- The region's record: the layout decided at launch, no semaphore of the body's own, the body obligation, and
    how the six arrays and the core's debt enter and leave. -/
def reg1 (lv : GSem nD τ sig → HIx 1 → ℕ) :
    Pipeline.RegionSeg (pcfgs (F := F)) adm (dats Vv) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation Vv c).loose
  hwaits := Pipeline.hwaits_of_owed_zero _ _ _ _ _ lv 0 fun _ _ => rfl
  pre c := regionPre Vv c
  post c := regionPost Vv c
  X _ := BI.emp
  Y _ := BI.emp
  Z _ := BI.emp
  hentry c := by
    rw [Pipeline.arrays_eq (Pipeline.pin (pcfgs (F := F)) adm) (dats Vv) 0 c launch1.arr_whole ((dats Vv 0 c).share_full fun _ => rfl), bigSep_W1]
    unfold regionPre
    iintro ⟨⟨H0, H1, H2, H3, H4, H5, %W, %hW, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl <;> iempintro
  hin c := by
    rw [show (dats Vv 0 c).Φ 0 = (Pipeline.scopedRest spec1 c : sProp (MT nD τ sig (HIx 1) (Elt F) ℕ UU ℕ)) from rfl]
    iintro ⟨-, -, Hr⟩
    iexact Hr
  hout c := by
    rw [show (dats Vv 0 c).Φ (Fin.last cfg1.N) = (Pipeline.scopedRest spec1 c : sProp (MT nD τ sig (HIx 1) (Elt F) ℕ UU ℕ)) from rfl]
    iintro Hr
    isplitr; · iempintro
    isplitr; · unfold Pipeline.ownSems0; rw [show (Finset.univ : Finset PEmpty) = ∅ from Finset.univ_eq_empty, BI.bigSep_empty]; iempintro
    iexact Hr
  hexit c := by
    rw [Pipeline.arrays_eq (Pipeline.pin (pcfgs (F := F)) adm) (dats Vv) 0 c launch1.arr_whole ((dats Vv 0 c).share_full fun _ => rfl), bigSep_W1]
    unfold regionPost
    have e0 := ((dats Vv 0 c).arrAt_in 0 rfl cfg1.N).trans (A_eq Vv c 0)
    have e1 := ((dats Vv 0 c).arrAt_in 1 rfl cfg1.N).trans (A_eq Vv c 1)
    have e2 := ((dats Vv 0 c).arrAt_in 2 rfl cfg1.N).trans (A_eq Vv c 2)
    have e3 := ((dats Vv 0 c).arrAt_in 3 rfl cfg1.N).trans (A_eq Vv c 3)
    have e4 := ((dats Vv 0 c).arrAt_in 4 rfl cfg1.N).trans (A_eq Vv c 4)
    iintro ⟨⟨H0, H1, H2, H3, H4, H5⟩, HO, -, -⟩
    imodintro
    isplitl [H0]; · rw [← e0]; iexact H0
    isplitl [H1]; · rw [← e1]; iexact H1
    isplitl [H2]; · rw [← e2]; iexact H2
    isplitl [H3]; · rw [← e3]; iexact H3
    isplitl [H4]; · rw [← e4]; iexact H4
    isplitl [H5]; · iexact H5
    unfold Pipeline.Dat.owesAt Pipeline.owesWithin
    icases HO with ⟨%W, %hW, HO⟩
    iexists W; isplitr
    · ipureintro
      intro p hp
      rcases hW hp with h | ⟨w, s, rfl⟩
      · exact h
      · exact Nat.zero_le _
    iexact HO

end Cert.Proof.KernelRun

end
-- ==== Proof.KRegWp.lean ====
/-
  The call of the TensorCore region, run: under the pipeline's own table and under the whole program's, and the
  launch's funding of the pipeline's staging cells dealt per device.
-/
import proofs.«215258_g80247168959020_cont_9to1_m_796_9_alg».proof.Proof.KRegSeg

set_option maxRecDepth 16384

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (Vv : (d : Dev nD) → (b : Ref sig .tc) → Buf (Elt F) ((d : Thread nD τ).loc b))

set_option backward.isDefEq.respectTransparency.types false in
set_option maxHeartbeats 1000000 in
/-- The region as a program of the pipeline's own table: from the boundary, the six arrays, the core owing nothing,
    the level facts and the pipeline's staging cells as the launch funds them, the call of the region runs to the
    boundary and `regionPost`. -/
theorem wp_region_inner (lv : GSem nD τ sig → HIx 1 → ℕ) (d : Dev nD) (Φ : PUnit → sProp 𝕄) :
    iprop((iprop(boundary (T d) ∗ regionPost Vv d) -∗ Φ ⟨⟩) ∗ boundary (T d) ∗ regionPre Vv d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ
          (Prog.op (.customCall (Pipeline.entry (0 : Fin 1)) ()) fun _ => Prog.ret PUnit.unit) Φ := by
  refine BIBase.Entails.trans ?_ (Pipeline.RegionSeg.wp (pcfgs (F := F)) adm (dats Vv) none cellOf_inj EP defs₀ 𝒱₀ (K (F := F)).L lv
    (reg1 Vv lv) d none (fun _ h => nomatch h) (fun _ => Prog.ret PUnit.unit) Φ)
  iintro ⟨Hk, Hrest⟩
  isplitl [Hk]
  · iintro H
    rw [wp_ret]
    imodintro
    iapply Hk
    iexact H
  iexact Hrest

set_option backward.isDefEq.respectTransparency.types false in
set_option maxHeartbeats 1000000 in
/-- The same under the whole program's table: a call of the region there is the lift of the call here. -/
theorem wp_region (lv : GSem nD τ sig → HIx 1 → ℕ) (d : Dev nD) (Φ : PUnit → sProp 𝕄) :
    iprop((iprop(boundary (T d) ∗ regionPost Vv d) -∗ Φ ⟨⟩) ∗ boundary (T d) ∗ regionPre Vv d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ
          (Prog.lift (.customCall (SparseCore.inner (Pipeline.entry 0)) ())) Φ :=
  (wp_region_inner Vv lv d Φ).trans
    ((K (F := F)).wp_liftProg D 𝒱 (T d) Set.univ none
      (Prog.op (.customCall (Pipeline.entry (0 : Fin 1)) ()) fun _ => Prog.ret PUnit.unit) Φ)

/-- The launch's funding of the pipeline's staging cells, dealt per device. -/
theorem fund_region :
    BI.own ((EP (F := F)) (initOf (Pipeline.cells (nD := nD) (τ := τ) (Pipeline.pin (pcfgs (F := F)) adm) cellOf_inj)
        (Pipeline.launchToks (nD := nD) (τ := τ) (Pipeline.pin (pcfgs (F := F)) adm) cellOf_inj)))
      ⊢ iprop(|==> bigSep Finset.univ fun d : Dev nD =>
          iprop(Pipeline.cellsGhost (Pipeline.pin (pcfgs (F := F)) adm) EP 0 d ∗ Pipeline.toksInit (Pipeline.pin (pcfgs (F := F)) adm) EP 0 d)) := by
  have h1 : ∀ (X : Fin 1 → sProp 𝕄), bigSep (Finset.univ : Finset (Fin 1)) X = X 0 := fun X => by
    rw [show (Finset.univ : Finset (Fin 1)) = {0} from rfl, BI.bigSep_singleton]
  have hf := Pipeline.fund_ghost (nD := nD) (τ := τ) (Pipeline.pin (pcfgs (F := F)) adm) (EP (F := F)) cellOf_inj
  simp only [h1] at hf ⊢
  exact hf

end Cert.Proof.KernelRun

end
-- ==== Proof.KLaunchU.lean ====
/-
  The launch element of the kernel program's ghost state: the launch handshakes' rounds, the TensorCore pipeline's
  staging cells, and the transfer counters. The handshakes' part goes to the launch as it is; the pipeline's
  part funds, device by device, the staging cells' ghost state the TensorCore region is entered with; the
  counters are not used. The call's record holds nothing of its own per thread.
-/
import proofs.«215258_g80247168959020_cont_9to1_m_796_9_alg».proof.Proof.KRegWp
import proofs.«215258_g80247168959020_cont_9to1_m_796_9_alg».proof.Proof.KPay

set_option maxRecDepth 16384

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (Vids : (d : Dev nD) → Buf (Elt F) (idsLoc d)) (Hf : (d : Dev nD) → Buf (Elt F) (outLoc d))

/-- The launch element: the handshakes' cells at their first round, the pipeline's staging cells at theirs, no
    transfer counted. -/
def u₀ : UU :=
  (initOf (K (F := F)).hsCells (K (F := F)).hsToks,
    (initOf (Pipeline.cells (nD := nD) (τ := τ) (Pipeline.pin (pcfgs (F := F)) adm) cellOf_inj)
      (Pipeline.launchToks (nD := nD) (τ := τ) (Pipeline.pin (pcfgs (F := F)) adm) cellOf_inj), 1))

/-- What the launch deals device `d` for the TensorCore region: the staging cells' ghost state and tokens. -/
def GR (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

/-- The launch element splits into the handshakes' rounds, each device's share for the region, and nothing per
    thread. -/
theorem hu₀ :
    iprop(ownU (u₀ (F := F)) ∗ (P Vids Hf).oxCred ∗ (K (F := F)).freeSems0)
      ⊢ |={Set.univ}=> iprop(BI.own (EH (initOf (K (F := F)).hsCells (K (F := F)).hsToks))
          ∗ (bigSep Finset.univ fun d : Dev nD => GR (F := F) d)
          ∗ bigSep Finset.univ fun thr : Thread nD τ => bigSep Finset.univ fun q : Fin 1 => (P Vids Hf).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  imod (fund_region (F := F)) $$ HP with HG
  imodintro
  isplitl [HH]; · iexact HH
  isplitl [HG]; · unfold GR; iexact HG
  rw [show (bigSep Finset.univ fun thr : Thread nD τ => bigSep Finset.univ fun q : Fin 1 => (P Vids Hf).x q thr)
      = (iprop(emp) : sProp 𝕄) from by
    simp only [P_x]
    rw [bigSep_congr fun _ _ => bigSep_emp' _, bigSep_emp']]
  iempintro

end Cert.Proof.KernelRun

end
-- ==== Proof.KLaunchR.lean ====
/-
  The TensorCore region as @main meets it: entered with the five operand arrays at what the host operations and
  the histogram call left, it runs to the same arrays and the result array at what the 32 write-backs leave.
-/
import proofs.«215258_g80247168959020_cont_9to1_m_796_9_alg».proof.Proof.KLaunch
import proofs.«215258_g80247168959020_cont_9to1_m_796_9_alg».proof.Proof.KLaunchU

set_option maxRecDepth 16384

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (Hf : (d : Dev nD) → Buf (Elt F) (outLoc d))

/-- The TensorCore's arrays as the region is entered. -/
abbrev VvR (d : Dev nD) (b : Ref sig .tc) : Buf (Elt F) ((d : Thread nD τ).loc b) := V6 m d (Hf d) (dr b)

/-- What the region leaves in the result array. -/
def ResR (d : Dev nD) : Buf (Elt F) (resLoc d) := (dats (VvR m Hf) 0 d).arrAt 5 32

theorem RPre_eq (d : Dev nD) : (RPre m Hf d : sProp 𝕄) = regionPre (VvR m Hf) d := rfl
theorem RPost_eq (d : Dev nD) : (RPost m Hf (ResR m Hf) d : sProp 𝕄) = regionPost (VvR m Hf) d := rfl

/-- The call of the region, from what @main holds when it reaches it. -/
theorem hreg (d : Dev nD) (Φ : PUnit → sProp 𝕄) :
    iprop((iprop(boundary (SparseCore.T d) ∗ RPost m Hf (ResR m Hf) d) -∗ Φ ⟨⟩) ∗ boundary (SparseCore.T d) ∗ RPre m Hf d
        ∗ levAts (K (F := F)).L (K (F := F)).lev ∗ GR (F := F) d)
      ⊢ wp frame (wpE ((K (F := F)).defs (D (F := F))) 𝒱 (SparseCore.T d) none) Set.univ
          (Prog.lift (.customCall (SparseCore.inner (Pipeline.entry 0)) ())) Φ := by
  rw [RPre_eq, RPost_eq]
  unfold GR
  exact wp_region (VvR m Hf) (K (F := F)).lev d Φ

end Cert.Proof.KernelRun

end
-- ==== Proof.KTileRes.lean ====
/-
  One task of the histogram kernel, at a symbolic place: what it is handed (its eight chunks of the ids and of
  the counts, each chunk the slice the program itself cuts), how its own ten semaphores and three scratch buffers
  split off the subcore's, and the statement of its body: from the chunks of the counts at anything to the same
  chunks at the histogram of the ids.
-/
import proofs.«215258_g80247168959020_cont_9to1_m_796_9_alg».proof.Proof.KPay
import proofs.«215258_g80247168959020_cont_9to1_m_796_9_alg».proof.Proof.KITileVal

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile
variable (d : Dev nD) (L : grid0.Coords)

/-- The SparseCore and the subcore a grid point runs on. -/
abbrev cV (L : grid0.Coords) : Fin τ.nSC := (L 0).castLE hcore0
abbrev jV (L : grid0.Coords) : Fin τ.nSub := (L 1).castLE hsub0

omit [FloatOps F] in
theorem taskSems0 :
    (ownSems0 (V d (cV L) (jV L)) : sProp 𝕄)
      = iprop((semVal ((V d (cV L) (jV L), SemLoc.dma cc0_scratch3.sem) : GSem nD τ sig) 0 ∗ semVal ((V d (cV L) (jV L), SemLoc.dma cc0_scratch4.sem) : GSem nD τ sig) 0 ∗ semVal ((V d (cV L) (jV L), SemLoc.dma cc0_scoped0.sem) : GSem nD τ sig) 0 ∗ semVal ((V d (cV L) (jV L), SemLoc.dma cc0_scoped1.sem) : GSem nD τ sig) 0 ∗ semVal ((V d (cV L) (jV L), SemLoc.dma cc0_scoped2.sem) : GSem nD τ sig) 0 ∗ semVal ((V d (cV L) (jV L), SemLoc.dma cc0_scoped3.sem) : GSem nD τ sig) 0 ∗ semVal ((V d (cV L) (jV L), SemLoc.dma cc0_scoped4.sem) : GSem nD τ sig) 0 ∗ semVal ((V d (cV L) (jV L), SemLoc.dma cc0_scoped5.sem) : GSem nD τ sig) 0 ∗ semVal ((V d (cV L) (jV L), SemLoc.dma cc0_scoped6.sem) : GSem nD τ sig) 0 ∗ semVal ((V d (cV L) (jV L), SemLoc.dma cc0_scoped7.sem) : GSem nD τ sig) 0)
          ∗ bigSep (ownCells (V d (cV L) (jV L)) \ taskSems.image fun sm => ((V d (cV L) (jV L), sm) : GSem nD τ sig)) fun g => semVal g 0) := by
  rw [ownSems0_split (V d (cV L) (jV L)) taskSems (show ∀ sm ∈ taskSems, SemLoc.isScoped Kind.scVector sm = true by decide)]
  unfold taskSems
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- What a task is handed: its eight chunks of the ids (at contents `fi`) and of the counts (at `fo`). -/
def taskRes (fi : Buf (Elt F) (idsLoc d)) (fo : Buf (Elt F) (outLoc d)) : sProp 𝕄 :=
  iprop((((idsV).slice (Rect.unit (s := S819200) (k0_off1 L 0#32) S3200.size (k0_off1_inb L 0)) (fun _ => rfl)).view.loc (V d (cV L) (jV L)) ↦[((idsV).slice (Rect.unit (s := S819200) (k0_off1 L 0#32) S3200.size (k0_off1_inb L 0)) (fun _ => rfl)).view.set]{fullShare} fi)
    ∗ (((idsV).slice (Rect.unit (s := S819200) (k0_off1 L 16#32) S3200.size (k0_off1_inb L 1)) (fun _ => rfl)).view.loc (V d (cV L) (jV L)) ↦[((idsV).slice (Rect.unit (s := S819200) (k0_off1 L 16#32) S3200.size (k0_off1_inb L 1)) (fun _ => rfl)).view.set]{fullShare} fi)
    ∗ (((idsV).slice (Rect.unit (s := S819200) (k0_off1 L 32#32) S3200.size (k0_off1_inb L 2)) (fun _ => rfl)).view.loc (V d (cV L) (jV L)) ↦[((idsV).slice (Rect.unit (s := S819200) (k0_off1 L 32#32) S3200.size (k0_off1_inb L 2)) (fun _ => rfl)).view.set]{fullShare} fi)
    ∗ (((idsV).slice (Rect.unit (s := S819200) (k0_off1 L 48#32) S3200.size (k0_off1_inb L 3)) (fun _ => rfl)).view.loc (V d (cV L) (jV L)) ↦[((idsV).slice (Rect.unit (s := S819200) (k0_off1 L 48#32) S3200.size (k0_off1_inb L 3)) (fun _ => rfl)).view.set]{fullShare} fi)
    ∗ (((idsV).slice (Rect.unit (s := S819200) (k0_off1 L 64#32) S3200.size (k0_off1_inb L 4)) (fun _ => rfl)).view.loc (V d (cV L) (jV L)) ↦[((idsV).slice (Rect.unit (s := S819200) (k0_off1 L 64#32) S3200.size (k0_off1_inb L 4)) (fun _ => rfl)).view.set]{fullShare} fi)
    ∗ (((idsV).slice (Rect.unit (s := S819200) (k0_off1 L 80#32) S3200.size (k0_off1_inb L 5)) (fun _ => rfl)).view.loc (V d (cV L) (jV L)) ↦[((idsV).slice (Rect.unit (s := S819200) (k0_off1 L 80#32) S3200.size (k0_off1_inb L 5)) (fun _ => rfl)).view.set]{fullShare} fi)
    ∗ (((idsV).slice (Rect.unit (s := S819200) (k0_off1 L 96#32) S3200.size (k0_off1_inb L 6)) (fun _ => rfl)).view.loc (V d (cV L) (jV L)) ↦[((idsV).slice (Rect.unit (s := S819200) (k0_off1 L 96#32) S3200.size (k0_off1_inb L 6)) (fun _ => rfl)).view.set]{fullShare} fi)
    ∗ (((idsV).slice (Rect.unit (s := S819200) (k0_off1 L 112#32) S3200.size (k0_off1_inb L 7)) (fun _ => rfl)).view.loc (V d (cV L) (jV L)) ↦[((idsV).slice (Rect.unit (s := S819200) (k0_off1 L 112#32) S3200.size (k0_off1_inb L 7)) (fun _ => rfl)).view.set]{fullShare} fi)
    ∗ (((outV).slice (Rect.unit (s := S4194304) (k0_off3 L 0#32) S16384.size (k0_off3_inb L 0)) (fun _ => rfl)).view.loc (V d (cV L) (jV L)) ↦[((outV).slice (Rect.unit (s := S4194304) (k0_off3 L 0#32) S16384.size (k0_off3_inb L 0)) (fun _ => rfl)).view.set]{fullShare} fo)
    ∗ (((outV).slice (Rect.unit (s := S4194304) (k0_off3 L 16#32) S16384.size (k0_off3_inb L 1)) (fun _ => rfl)).view.loc (V d (cV L) (jV L)) ↦[((outV).slice (Rect.unit (s := S4194304) (k0_off3 L 16#32) S16384.size (k0_off3_inb L 1)) (fun _ => rfl)).view.set]{fullShare} fo)
    ∗ (((outV).slice (Rect.unit (s := S4194304) (k0_off3 L 32#32) S16384.size (k0_off3_inb L 2)) (fun _ => rfl)).view.loc (V d (cV L) (jV L)) ↦[((outV).slice (Rect.unit (s := S4194304) (k0_off3 L 32#32) S16384.size (k0_off3_inb L 2)) (fun _ => rfl)).view.set]{fullShare} fo)
    ∗ (((outV).slice (Rect.unit (s := S4194304) (k0_off3 L 48#32) S16384.size (k0_off3_inb L 3)) (fun _ => rfl)).view.loc (V d (cV L) (jV L)) ↦[((outV).slice (Rect.unit (s := S4194304) (k0_off3 L 48#32) S16384.size (k0_off3_inb L 3)) (fun _ => rfl)).view.set]{fullShare} fo)
    ∗ (((outV).slice (Rect.unit (s := S4194304) (k0_off3 L 64#32) S16384.size (k0_off3_inb L 4)) (fun _ => rfl)).view.loc (V d (cV L) (jV L)) ↦[((outV).slice (Rect.unit (s := S4194304) (k0_off3 L 64#32) S16384.size (k0_off3_inb L 4)) (fun _ => rfl)).view.set]{fullShare} fo)
    ∗ (((outV).slice (Rect.unit (s := S4194304) (k0_off3 L 80#32) S16384.size (k0_off3_inb L 5)) (fun _ => rfl)).view.loc (V d (cV L) (jV L)) ↦[((outV).slice (Rect.unit (s := S4194304) (k0_off3 L 80#32) S16384.size (k0_off3_inb L 5)) (fun _ => rfl)).view.set]{fullShare} fo)
    ∗ (((outV).slice (Rect.unit (s := S4194304) (k0_off3 L 96#32) S16384.size (k0_off3_inb L 6)) (fun _ => rfl)).view.loc (V d (cV L) (jV L)) ↦[((outV).slice (Rect.unit (s := S4194304) (k0_off3 L 96#32) S16384.size (k0_off3_inb L 6)) (fun _ => rfl)).view.set]{fullShare} fo)
    ∗ (((outV).slice (Rect.unit (s := S4194304) (k0_off3 L 112#32) S16384.size (k0_off3_inb L 7)) (fun _ => rfl)).view.loc (V d (cV L) (jV L)) ↦[((outV).slice (Rect.unit (s := S4194304) (k0_off3 L 112#32) S16384.size (k0_off3_inb L 7)) (fun _ => rfl)).view.set]{fullShare} fo))

open Cert.HistPure (histArr)

/-- The body of one task: handed its chunks of the ids at `fi` and of the counts at anything, with the subcore's
    scratch buffers and semaphores, it ends with the chunks of the counts at the histogram of `fi`, everything
    else as it was, and every wait it made recorded at the index of local waits. -/
def TileBody : Prop :=
  ∀ (d : Dev nD) (L : grid0.Coords), (K (F := F)).Facts → ∀ (O : CellTallies nD τ sig (HIx 1)) (W : Waits sig (HIx 1)), (∀ g, O g none = 0) →
    ∀ (fi : Buf (Elt F) (idsLoc d)) (fo : Buf (Elt F) (outLoc d)),
    (iprop(levAts (K (F := F)).L (K (F := F)).lev ∗ taskRes d L fi fo
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_hist_body L idsV (Memref.isWhole_whole _) outV (Memref.isWhole_whole _)
            sI (Memref.isWhole_whole _) sA (Memref.isWhole_whole _) sB (Memref.isWhole_whole _) cc0_scratch3 cc0_scratch4
            cc0_scoped0 cc0_scoped1 cc0_scoped2 cc0_scoped3 cc0_scoped4 cc0_scoped5 cc0_scoped6 cc0_scoped7)
          fun _ => iprop(taskRes d L fi (histArr (F := F) fi) ∗ scopedBufs (V d (cV L) (jV L)) ∗ scopedSems0 (V d (cV L) (jV L))
            ∗ ∃ W', ⌜∀ p ∈ W', p ∈ W ∨ p.2 = none⌝ ∗ owes (V d (cV L) (jV L)) O W')

end Tile

end Cert.Proof.KernelRun

end
-- ==== Proof.KTileObl.lean ====
/-
  The launch-side obligation of one task of the histogram kernel. A task's run of the flat ids (25600 words) is
  the disjoint union of the eight chunks of 3200 words the program slices, and its run of the flat counts
  (131072 floats) the disjoint union of its eight chunks of 16384: chunk r of task w starts at 25600 w + 3200 r,
  resp. 131072 w + 16384 r, where w = 2 (L 1) + (L 0) at grid point L. So what the call hands a task is what the
  body's statement takes, and what the body leaves is what the call takes back; with that the body's theorem is
  the obligation of the task as the launch theorem states it.
-/
import proofs.«215258_g80247168959020_cont_9to1_m_796_9_alg».proof.Proof.KTileRes

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.HistPure (histArr)

variable {F : FTy → Type} [FloatOps F]

local notation "𝕄" => MT nD τ sig (HIx 1) (Elt F) ℕ UU ℕ

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

omit [FloatOps F] in
theorem sep_assoc_eq (A B C : sProp 𝕄) : iprop((A ∗ B) ∗ C) = iprop(A ∗ B ∗ C) :=
  BI.Entails.antisymm (Idealize.SL.BI.sep_assoc (P := A) (Q := B) (R := C)) Idealize.SL.BI.sep_assoc'

/-- The task a grid point runs. -/
abbrev wL (L : grid0.Coords) : Fin 32 := widN (cV L).val (jV L).val

/-- Chunk `r` of the ids of the task at `L`, as the program cuts it. -/
abbrev idsChunk (L : grid0.Coords) (r : Fin 8) : Rect S819200 :=
  Rect.unit (s := S819200) (k0_off1 L (BitVec.ofNat 32 (16 * r.val))) S3200.size (k0_off1_inb L r)
/-- Chunk `r` of the counts of the task at `L`, as the program cuts it. -/
abbrev outChunk (L : grid0.Coords) (r : Fin 8) : Rect S4194304 :=
  Rect.unit (s := S4194304) (k0_off3 L (BitVec.ofNat 32 (16 * r.val))) S16384.size (k0_off3_inb L r)

theorem wL_val (L : grid0.Coords) : (wL L).val = 2 * (L 1).val + (L 0).val := by
  have h0 : (L 0).val < 2 := (L 0).isLt
  have h1 : (L 1).val < 16 := (L 1).isLt
  show (2 * (L 1).val + (L 0).val) % 32 = _
  omega

theorem mem_idsSet (w : Fin 32) (i : S819200.Idx) : i ∈ idsSet w ↔ 25600 * w.val ≤ (i 0).val ∧ (i 0).val < 25600 * w.val + 25600 := by
  have e : idsSet w = (idsPart w).set := View.set_slice_whole (main_v0_scv : Ref sig .scVector) (idsPart w)
  rw [e, Rect.mem_set_unit]
  simp [Shape.partIx, Shape.partSize, Fin.forall_fin_one]
  omega

theorem mem_idsChunk (L : grid0.Coords) (r : Fin 8) (i : S819200.Idx) :
    i ∈ (idsChunk L r).set ↔ 25600 * (wL L).val + 3200 * r.val ≤ (i 0).val ∧ (i 0).val < 25600 * (wL L).val + 3200 * r.val + 3200 := by
  rw [Rect.mem_set_unit, k0_off1_eq, wL_val]
  simp [Fin.forall_fin_one]
  omega

theorem idsChunks_disjoint (L : grid0.Coords) : ∀ r ∈ (Finset.univ : Finset (Fin 8)), ∀ r' ∈ (Finset.univ : Finset (Fin 8)), r ≠ r' →
    Disjoint (idsChunk L r).set (idsChunk L r').set := by
  intro r _ r' _ h
  rw [Finset.disjoint_left]; intro i hi hi'
  rw [mem_idsChunk] at hi hi'
  have : r.val ≠ r'.val := fun e => h (Fin.ext e)
  omega

theorem idsChunks_cover (L : grid0.Coords) : (Finset.univ : Finset (Fin 8)).biUnion (fun r => (idsChunk L r).set) = idsSet (wL L) := by
  ext i
  simp only [Finset.mem_biUnion, Finset.mem_univ, true_and, mem_idsChunk, mem_idsSet]
  constructor
  · rintro ⟨r, h1, h2⟩; have := r.isLt; omega
  · intro ⟨h1, h2⟩
    refine ⟨⟨((i 0).val - 25600 * (wL L).val) / 3200, by omega⟩, ?_⟩
    simp only; omega

theorem mem_outSet (w : Fin 32) (i : S4194304.Idx) : i ∈ outSet w ↔ 131072 * w.val ≤ (i 0).val ∧ (i 0).val < 131072 * w.val + 131072 := by
  have e : outSet w = (outPart w).set := View.set_slice_whole (main_v1_scv : Ref sig .scVector) (outPart w)
  rw [e, Rect.mem_set_unit]
  simp [Shape.partIx, Shape.partSize, Fin.forall_fin_one]
  omega

theorem mem_outChunk (L : grid0.Coords) (r : Fin 8) (i : S4194304.Idx) :
    i ∈ (outChunk L r).set ↔ 131072 * (wL L).val + 16384 * r.val ≤ (i 0).val ∧ (i 0).val < 131072 * (wL L).val + 16384 * r.val + 16384 := by
  rw [Rect.mem_set_unit, k0_off3_eq, wL_val]
  simp [Fin.forall_fin_one]
  omega

theorem outChunks_disjoint (L : grid0.Coords) : ∀ r ∈ (Finset.univ : Finset (Fin 8)), ∀ r' ∈ (Finset.univ : Finset (Fin 8)), r ≠ r' →
    Disjoint (outChunk L r).set (outChunk L r').set := by
  intro r _ r' _ h
  rw [Finset.disjoint_left]; intro i hi hi'
  rw [mem_outChunk] at hi hi'
  have : r.val ≠ r'.val := fun e => h (Fin.ext e)
  omega

theorem outChunks_cover (L : grid0.Coords) : (Finset.univ : Finset (Fin 8)).biUnion (fun r => (outChunk L r).set) = outSet (wL L) := by
  ext i
  simp only [Finset.mem_biUnion, Finset.mem_univ, true_and, mem_outChunk, mem_outSet]
  constructor
  · rintro ⟨r, h1, h2⟩; have := r.isLt; omega
  · intro ⟨h1, h2⟩
    refine ⟨⟨((i 0).val - 131072 * (wL L).val) / 16384, by omega⟩, ?_⟩
    simp only; omega

section Tile
variable (d : Dev nD) (L : grid0.Coords)

omit [FloatOps F] in
/-- A task's run of the ids is its eight chunks, each spelt as the program slices it. -/
theorem idsPts_chunks (f : Buf (Elt F) (idsLoc d)) :
    (idsLoc d ↦[idsSet (wL L)]{fullShare} f : sProp 𝕄)
      = bigSep Finset.univ fun r : Fin 8 =>
          ((idsV).slice (idsChunk L r) (fun _ => rfl)).view.loc (V d (cV L) (jV L)) ↦[((idsV).slice (idsChunk L r) (fun _ => rfl)).view.set]{fullShare} f := by
  rw [← idsChunks_cover, pointsTo_biUnion Finset.univ (ℓ := idsLoc d) (fun r : Fin 8 => (idsChunk L r).set) (idsChunks_disjoint L)]
  refine bigSep_congr fun r _ => ?_
  have e : ((idsV).slice (idsChunk L r) (fun _ => rfl)).view.set = (idsChunk L r).set := View.set_slice_whole (main_v0_scv : Ref sig .scVector) (idsChunk L r)
  rw [e]

omit [FloatOps F] in
/-- A task's run of the counts is its eight chunks, each spelt as the program slices it. -/
theorem outPts_chunks (f : Buf (Elt F) (outLoc d)) :
    (outLoc d ↦[outSet (wL L)]{fullShare} f : sProp 𝕄)
      = bigSep Finset.univ fun r : Fin 8 =>
          ((outV).slice (outChunk L r) (fun _ => rfl)).view.loc (V d (cV L) (jV L)) ↦[((outV).slice (outChunk L r) (fun _ => rfl)).view.set]{fullShare} f := by
  rw [← outChunks_cover, pointsTo_biUnion Finset.univ (ℓ := outLoc d) (fun r : Fin 8 => (outChunk L r).set) (outChunks_disjoint L)]
  refine bigSep_congr fun r _ => ?_
  have e : ((outV).slice (outChunk L r) (fun _ => rfl)).view.set = (outChunk L r).set := View.set_slice_whole (main_v1_scv : Ref sig .scVector) (outChunk L r)
  rw [e]

/-- What a task is handed is its run of the ids and its run of the counts. -/
theorem taskRes_eq (fi : Buf (Elt F) (idsLoc d)) (fo : Buf (Elt F) (outLoc d)) :
    (taskRes d L fi fo : sProp 𝕄) = iprop((idsLoc d ↦[idsSet (wL L)]{fullShare} fi) ∗ outLoc d ↦[outSet (wL L)]{fullShare} fo) := by
  rw [idsPts_chunks, outPts_chunks, bigSep_fin8, bigSep_fin8]
  simp only [sep_assoc_eq]
  rfl

variable (Vids : (d : Dev nD) → Buf (Elt F) (idsLoc d))

theorem taskRes_of_pre : taskPre Vids d (wL L) ⊢ iprop(∃ fo, taskRes d L (Vids d) fo) := by
  unfold taskPre
  iintro ⟨Hi, %f, Ho⟩
  iexists f
  rw [taskRes_eq]
  isplitl [Hi]
  · iexact Hi
  · iexact Ho

theorem taskPost_of_res :
    taskRes d L (Vids d) (histArr (F := F) (Vids d)) ⊢ taskPost Vids (fun d => histArr (F := F) (Vids d)) d (wL L) := by
  rw [taskRes_eq]; unfold taskPost; exact .rfl

end Tile

/-! ## The launch theorem's obligation -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_hist_body (coordsV c s)
          idsV (Memref.isWhole_whole _) outV (Memref.isWhole_whole _)
          sI (Memref.isWhole_whole _) sA (Memref.isWhole_whole _) sB (Memref.isWhole_whole _) cc0_scratch3 cc0_scratch4
          cc0_scoped0 cc0_scoped1 cc0_scoped2 cc0_scoped3 cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (Vids : (d : Dev nD) → Buf (Elt F) (idsLoc d))

omit [FloatOps F] in
theorem sep_head_mono {A A' R : sProp 𝕄} (h : A ⊢ A') : iprop(A ∗ R) ⊢ iprop(A' ∗ R) := by
  iintro ⟨HA, HR⟩
  isplitl [HA]
  · iapply h $$ HA
  · iexact HR

/-- The body's result, read as what the call takes back, the waits fact weakened to the launch theorem's. -/
theorem tile_post (d : Dev nD) (L : grid0.Coords) {thr : Thread nD τ} {B C : sProp 𝕄} {O : CellTallies nD τ sig (HIx 1)} {W : Waits sig (HIx 1)} {q : Fin 1} :
    iprop(taskRes d L (Vids d) (histArr (F := F) (Vids d)) ∗ B ∗ C ∗ ∃ W', ⌜∀ p ∈ W', p ∈ W ∨ p.2 = none⌝ ∗ owes thr O W')
      ⊢ iprop(taskPost Vids (fun d => histArr (F := F) (Vids d)) d (wL L) ∗ B ∗ C ∗ ∃ W', ⌜∀ p ∈ W', p ∈ W ∨ p.2 = none ∨ p.2 = some q⌝ ∗ owes thr O W') :=
  (sep_head_mono (taskPost_of_res d L Vids)).trans obl_post

/-- The task at grid point `L`, from what the call hands it to what the call takes back. -/
theorem tile_task (hbody : TileBody (F := F)) (hF : (K (F := F)).Facts) (d : Dev nD) (L : grid0.Coords)
    (O : CellTallies nD τ sig (HIx 1)) (W : Waits sig (HIx 1)) (hO : ∀ g, O g none = 0) :
    (iprop(levAts (K (F := F)).L (K (F := F)).lev ∗ emp ∗ taskPre Vids d (wL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_hist_body L idsV (Memref.isWhole_whole _) outV (Memref.isWhole_whole _)
            sI (Memref.isWhole_whole _) sA (Memref.isWhole_whole _) sB (Memref.isWhole_whole _) cc0_scratch3 cc0_scratch4
            cc0_scoped0 cc0_scoped1 cc0_scoped2 cc0_scoped3 cc0_scoped4 cc0_scoped5 cc0_scoped6 cc0_scoped7)
          fun _ => iprop(taskPost Vids (fun d => histArr (F := F) (Vids d)) d (wL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  iintro ⟨Hlv, -, Hgo, Hb, Hs, HO⟩
  ihave Hr := (taskRes_of_pre d L Vids) $$ Hgo
  icases Hr with ⟨%fo, Hr⟩
  iapply ((hbody d L hF O W hO (Vids d) fo).trans (wp_mono frame _ _ fun _ => tile_post Vids d L)) $$ [Hlv Hr Hb Hs HO]
  isplitl [Hlv]; · iexact Hlv
  isplitl [Hr]; · iexact Hr
  isplitl [Hb]; · iexact Hb
  isplitl [Hs]; · iexact Hs
  iexact HO

theorem tileObl (hbody : TileBody (F := F)) (hF : (K (F := F)).Facts) :
    (K (F := F)).TileObl (D (F := F)) 𝒱 (P Vids (fun d => histArr (F := F) (Vids d))) v₀ 0 := by
  intro d c i O W hO _ _
  simp only [P_ox, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  exact tile_task Vids hbody hF d (coordsV ⟨_, hc.1⟩ ⟨_, hc.2⟩) O W hO

end Cert.Proof.KernelRun

end
-- ==== Proof.KWhole.lean ====
/-
  The kernel program's run with its two results named: the counts array at the histogram of the flat ids (one
  whole-array function), the result array at what the TensorCore region computes from @main's re-laid arrays. From
  the proof of one task's body, every weakly fair execution of the device's threads terminates, nothing faulting, with
  the eight argument arrays at their launch contents and the result array at that value.
-/
import proofs.«215258_g80247168959020_cont_9to1_m_796_9_alg».proof.Proof.KRun
import proofs.«215258_g80247168959020_cont_9to1_m_796_9_alg».proof.Proof.KLaunchU
import proofs.«215258_g80247168959020_cont_9to1_m_796_9_alg».proof.Proof.KLaunchR
import proofs.«215258_g80247168959020_cont_9to1_m_796_9_alg».proof.Proof.KTileObl

noncomputable section

namespace Cert.Proof.KernelRun

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F]

local notation "𝕄" => MT nD τ sig (HIx 1) (Elt F) ℕ UU ℕ

open Cert.HistPure (histArr)

variable (m : (ℓ : Loc nD τ sig) → Buf (Elt F) ℓ) (ρ : Dev nD → PrngReg)

/-- The counts array the histogram call leaves: the histogram of the flat ids. -/
abbrev HfH (d : Dev nD) : Buf (Elt F) (outLoc d) := histArr (F := F) (Vids m d)

/-- The result array the region leaves. -/
abbrev ResH (d : Dev nD) : Buf (Elt F) (resLoc d) := ResR m (HfH m) d

theorem run_hist [∀ e, Nonempty (Elt F e)] (hbody : TileBody (F := F)) :
    θ_run (Cert.Kernel.defs (F := F)) (Cert.Kernel.threads (F := F)) ⟨m, fun _ => 0, ρ⟩ (QC m (HfH m) (ResH m)) :=
  run_main m ρ (HfH m) (ResH m) (GR (F := F)) (u₀ (F := F)) (hu₀ (Vids m) (HfH m)) (hreg m (HfH m))
    (tileObl (Vids := Vids m) hbody facts)

/-- The run as the claims read it: the result array named, the eight argument arrays unchanged. -/
theorem run_claim [∀ e, Nonempty (Elt F e)] (hbody : TileBody (F := F)) :
    θ_run (Cert.Kernel.defs (F := F)) (Cert.Kernel.threads (F := F)) ⟨m, fun _ => 0, ρ⟩ (fun r => ∀ c : Dev nD,
      r.2.mem ((c.tc : Thread nD τ).loc main_v6) = ResH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.Kernel.defs (F := F)) _ _).mono (fun r h c =>
    ⟨QC_res m (HfH m) (ResH m) h c,
      QC_arg m (HfH m) (ResH m) h c (dr main_arg0) (by decide) (by decide), QC_arg m (HfH m) (ResH m) h c (dr main_arg1) (by decide) (by decide),
      QC_arg m (HfH m) (ResH m) h c (dr main_arg2) (by decide) (by decide), QC_arg m (HfH m) (ResH m) h c (dr main_arg3) (by decide) (by decide),
      QC_arg m (HfH m) (ResH m) h c (dr main_arg4) (by decide) (by decide), QC_arg m (HfH m) (ResH m) h c (dr main_arg5) (by decide) (by decide),
      QC_arg m (HfH m) (ResH m) h c (dr main_arg6) (by decide) (by decide), QC_arg m (HfH m) (ResH m) h c (dr main_arg7) (by decide) (by decide)⟩)
    (run_hist m ρ hbody)

end Cert.Proof.KernelRun

end
-- ==== Proof.KClaims.lean ====
/-
  The kernel program as printed: every weakly fair execution of the device's threads terminates, nothing
  faulting, with the eight argument arrays at their launch contents — from the proof of one task's body.
-/
import proofs.«215258_g80247168959020_cont_9to1_m_796_9_alg».proof.Defs
import proofs.«215258_g80247168959020_cont_9to1_m_796_9_alg».proof.Proof.Gen.Pre_input_domain
import proofs.«215258_g80247168959020_cont_9to1_m_796_9_alg».proof.Proof.KWhole

noncomputable section

namespace Cert.Proof.KernelRun

open Idealize.ShloMosaic Idealize.SL.Sem

theorem frame_K (hbody : TileBody (F := Bits)) :
    Cert.frame_Kernel (hKernel := Cert.Kernel.Gen.facts) (hPre_input_domain := Cert.Pre_input_domain.Gen.facts) :=
  fun m ρ _ => (θ_run (Cert.Kernel.defs (F := Bits)) _ _).mono (fun r h c => (h c).2) (run_claim (F := Bits) m ρ hbody)

end Cert.Proof.KernelRun

end
-- ==== Proof.KTileView.lean ====
/-
  The two loop bodies of a chunk, read off the count buffer. One position's gather and adding scatter carries the
  histogram of the positions read so far one position on; one trip of the zeroing loop widens the zeroed prefix of
  the buffer by 256. Each is stated once per count buffer.
-/
import proofs.«215258_g80247168959020_cont_9to1_m_796_9_alg».proof.Proof.KSetup
import proofs.«215258_g80247168959020_cont_9to1_m_796_9_alg».proof.Proof.KITileValLem

noncomputable section

namespace Cert.Proof.KernelRun

open Cert.Kernel Cert.Kernel.Gen

open Idealize.ShloMosaic

open Cert.HistPure (zeroF oneF ZeroBelow Hist gIdx sIdx tWord)

variable {F : FTy → Type} [FloatOps F]

/-! ## The first count buffer -/

/-- A store of the whole count buffer leaves what was stored. -/
theorem writes_whole_A (f w : HistPure.S16384.Idx → F .f32) :
    (sA).view.writes (Elt F) f [⟨Rect.whole S16384, w⟩] = w :=
  Memref.write_access_whole_univ (Elt F) cc0_scratch1 f w

/-- One position: the gather of the 16 ids at the position word `t = n` and the adding scatter of ones at their
    rows' buckets carry the histogram of the positions below `n` to that of the positions below `n + 1`. -/
theorem hist_step_A (g : HistPure.S3200.Idx → BitVec 32) (f : HistPure.S16384.Idx → F .f32) (t : BitVec 32) (n : ℕ)
    (ht : t.toNat = n) (hn : n < 200)
    (h1 : ∀ a x, ((![gIdx t] : Fin 1 → IVec S16 32) a x).toNat < S3200.size a) (I : IVec S16 32)
    (hI : I = sIdx (loadIdx (F := F) (e := .i32) (View.readAt (Elt F) (sI).view (LoadRect.whole S3200) g) ![gIdx t] h1))
    (v : Vec F S16 .f32) (hv : v = broadcast S16 oneF)
    (h2 : ∀ a y, ((![I] : Fin 1 → IVec S16 32) a y).toNat < S16384.size a) (hf : Hist g n f) :
    Hist g (n + 1) ((sA).view.writes (Elt F) f [⟨Rect.whole S16384,
      storeIdx (View.readAt (Elt F) (sA).view (LoadRect.whole S16384) f) ![I] v (fun _ => 1#1) true h2⟩]) := by
  subst hI
  subst hv
  rw [writes_whole_A]
  have eI : View.readAt (Elt F) (sI).view (LoadRect.whole S3200) g = g := Memref.readAt_whole (Elt F) cc0_scratch0 g
  have eX : View.readAt (Elt F) (sA).view (LoadRect.whole S16384) f = f := Memref.readAt_whole (Elt F) cc0_scratch1 f
  have key : ∀ (g' : HistPure.S3200.Idx → BitVec 32) (f' : HistPure.S16384.Idx → F .f32) (_ : g' = g) (_ : f' = f)
      (h2' : ∀ a y, ((![sIdx (loadIdx (F := F) (e := .i32) g' ![gIdx t] h1)] : Fin 1 → IVec S16 32) a y).toNat
        < S16384.size a),
      Hist g (n + 1) (storeIdx (F := F) (e := .f32) f' ![sIdx (loadIdx (F := F) (e := .i32) g' ![gIdx t] h1)]
        (broadcast S16 oneF) (fun _ => 1#1) true h2') := by
    intro g' f' hg' hf' h2'
    subst hg'
    subst hf'
    exact HistPure.hist_step g' f' t n ht hn h1 h2' hf
  exact key _ _ eI eX h2

/-- Stores of zeros through the count buffer widen its zeroed prefix over what they cover. -/
theorem zeroBelow_writes_A (f : HistPure.S16384.Idx → F .f32) (L : List (View.Piece (Elt F) S16384 .f32)) (n m : ℕ)
    (hz : ZeroBelow n f) (hL : ∀ p ∈ L, ∀ x, p.2 x = (zeroF : F .f32))
    (hcov : ∀ y : HistPure.S16384.Idx, n ≤ (y 0).val → (y 0).val < m → ∃ p ∈ L, y ∈ p.1.set) :
    ZeroBelow m ((sA).view.writes (Elt F) f L) :=
  HistPure.zeroBelow_writes (F := F) (sA).view f L n m hz hL hcov

/-- One trip of the zeroing loop: its 16 stores of 16 zeros, at `256 k + 16 r` for `r = 0 … 15`, widen the zeroed
    prefix from `256 k` to `256 (k + 1)`. -/
theorem zero_trip_A (f : HistPure.S16384.Idx → F .f32) (k : ℕ) (off : BitVec 32 → Fin 1 → ℕ)
    (hoff : ∀ r : Fin 16, off (BitVec.ofNat 32 r.val) = ![256 * k + 16 * r.val])
    (hin : ∀ (r : Fin 16) a, off (BitVec.ofNat 32 r.val) a + S16.size a ≤ S16384.size a)
    (pay : S16.Idx → F .f32) (hpay : ∀ x, pay x = zeroF) (hf : ZeroBelow (256 * k) f) :
    ZeroBelow (256 * (k + 1)) ((sA).view.writes (Elt F) f
      [ ⟨Rect.unit (off 15#32) S16.size (hin 15), pay⟩,
        ⟨Rect.unit (off 14#32) S16.size (hin 14), pay⟩,
        ⟨Rect.unit (off 13#32) S16.size (hin 13), pay⟩,
        ⟨Rect.unit (off 12#32) S16.size (hin 12), pay⟩,
        ⟨Rect.unit (off 11#32) S16.size (hin 11), pay⟩,
        ⟨Rect.unit (off 10#32) S16.size (hin 10), pay⟩,
        ⟨Rect.unit (off 9#32) S16.size (hin 9), pay⟩,
        ⟨Rect.unit (off 8#32) S16.size (hin 8), pay⟩,
        ⟨Rect.unit (off 7#32) S16.size (hin 7), pay⟩,
        ⟨Rect.unit (off 6#32) S16.size (hin 6), pay⟩,
        ⟨Rect.unit (off 5#32) S16.size (hin 5), pay⟩,
        ⟨Rect.unit (off 4#32) S16.size (hin 4), pay⟩,
        ⟨Rect.unit (off 3#32) S16.size (hin 3), pay⟩,
        ⟨Rect.unit (off 2#32) S16.size (hin 2), pay⟩,
        ⟨Rect.unit (off 1#32) S16.size (hin 1), pay⟩,
        ⟨Rect.unit (off 0#32) S16.size (hin 0), pay⟩]) := by
  refine zeroBelow_writes_A f _ (256 * k) (256 * (k + 1)) hf ?_ ?_
  · intro p hp x
    simp only [List.mem_cons, List.mem_nil_iff, or_false] at hp
    rcases hp with rfl | rfl | rfl | rfl | rfl | rfl | rfl | rfl | rfl | rfl | rfl | rfl | rfl | rfl | rfl | rfl <;>
      exact hpay x
  · intro y hlo hhi
    obtain ⟨r, hr1, hr2⟩ : ∃ r : Fin 16, 256 * k + 16 * r.val ≤ (y 0).val ∧ (y 0).val < 256 * k + 16 * r.val + 16 :=
      ⟨⟨((y 0).val - 256 * k) / 16, by omega⟩,
        by show 256 * k + 16 * (((y 0).val - 256 * k) / 16) ≤ (y 0).val; omega,
        by show (y 0).val < 256 * k + 16 * (((y 0).val - 256 * k) / 16) + 16; omega⟩
    refine ⟨⟨Rect.unit (off (BitVec.ofNat 32 r.val)) S16.size (hin r), pay⟩, ?_, ?_⟩
    · fin_cases r <;> repeat (first | exact List.mem_cons_self | apply List.mem_cons_of_mem)
    · show y ∈ (Rect.unit (s := S16384) (off (BitVec.ofNat 32 r.val)) S16.size (hin r)).set
      rw [Rect.mem_set_unit]
      intro a
      have ha : a = 0 := Subsingleton.elim _ _
      subst ha
      rw [hoff r]
      show 256 * k + 16 * r.val ≤ (y 0).val ∧ (y 0).val < 256 * k + 16 * r.val + 16
      exact ⟨hr1, hr2⟩

/-! ## The second count buffer -/

/-- A store of the whole count buffer leaves what was stored. -/
theorem writes_whole_B (f w : HistPure.S16384.Idx → F .f32) :
    (sB).view.writes (Elt F) f [⟨Rect.whole S16384, w⟩] = w :=
  Memref.write_access_whole_univ (Elt F) cc0_scratch2 f w

/-- One position: the gather of the 16 ids at the position word `t = n` and the adding scatter of ones at their
    rows' buckets carry the histogram of the positions below `n` to that of the positions below `n + 1`. -/
theorem hist_step_B (g : HistPure.S3200.Idx → BitVec 32) (f : HistPure.S16384.Idx → F .f32) (t : BitVec 32) (n : ℕ)
    (ht : t.toNat = n) (hn : n < 200)
    (h1 : ∀ a x, ((![gIdx t] : Fin 1 → IVec S16 32) a x).toNat < S3200.size a) (I : IVec S16 32)
    (hI : I = sIdx (loadIdx (F := F) (e := .i32) (View.readAt (Elt F) (sI).view (LoadRect.whole S3200) g) ![gIdx t] h1))
    (v : Vec F S16 .f32) (hv : v = broadcast S16 oneF)
    (h2 : ∀ a y, ((![I] : Fin 1 → IVec S16 32) a y).toNat < S16384.size a) (hf : Hist g n f) :
    Hist g (n + 1) ((sB).view.writes (Elt F) f [⟨Rect.whole S16384,
      storeIdx (View.readAt (Elt F) (sB).view (LoadRect.whole S16384) f) ![I] v (fun _ => 1#1) true h2⟩]) := by
  subst hI
  subst hv
  rw [writes_whole_B]
  have eI : View.readAt (Elt F) (sI).view (LoadRect.whole S3200) g = g := Memref.readAt_whole (Elt F) cc0_scratch0 g
  have eX : View.readAt (Elt F) (sB).view (LoadRect.whole S16384) f = f := Memref.readAt_whole (Elt F) cc0_scratch2 f
  have key : ∀ (g' : HistPure.S3200.Idx → BitVec 32) (f' : HistPure.S16384.Idx → F .f32) (_ : g' = g) (_ : f' = f)
      (h2' : ∀ a y, ((![sIdx (loadIdx (F := F) (e := .i32) g' ![gIdx t] h1)] : Fin 1 → IVec S16 32) a y).toNat
        < S16384.size a),
      Hist g (n + 1) (storeIdx (F := F) (e := .f32) f' ![sIdx (loadIdx (F := F) (e := .i32) g' ![gIdx t] h1)]
        (broadcast S16 oneF) (fun _ => 1#1) true h2') := by
    intro g' f' hg' hf' h2'
    subst hg'
    subst hf'
    exact HistPure.hist_step g' f' t n ht hn h1 h2' hf
  exact key _ _ eI eX h2

/-- Stores of zeros through the count buffer widen its zeroed prefix over what they cover. -/
theorem zeroBelow_writes_B (f : HistPure.S16384.Idx → F .f32) (L : List (View.Piece (Elt F) S16384 .f32)) (n m : ℕ)
    (hz : ZeroBelow n f) (hL : ∀ p ∈ L, ∀ x, p.2 x = (zeroF : F .f32))
    (hcov : ∀ y : HistPure.S16384.Idx, n ≤ (y 0).val → (y 0).val < m → ∃ p ∈ L, y ∈ p.1.set) :
    ZeroBelow m ((sB).view.writes (Elt F) f L) :=
  HistPure.zeroBelow_writes (F := F) (sB).view f L n m hz hL hcov

/-- One trip of the zeroing loop: its 16 stores of 16 zeros, at `256 k + 16 r` for `r = 0 … 15`, widen the zeroed
    prefix from `256 k` to `256 (k + 1)`. -/
theorem zero_trip_B (f : HistPure.S16384.Idx → F .f32) (k : ℕ) (off : BitVec 32 → Fin 1 → ℕ)
    (hoff : ∀ r : Fin 16, off (BitVec.ofNat 32 r.val) = ![256 * k + 16 * r.val])
    (hin : ∀ (r : Fin 16) a, off (BitVec.ofNat 32 r.val) a + S16.size a ≤ S16384.size a)
    (pay : S16.Idx → F .f32) (hpay : ∀ x, pay x = zeroF) (hf : ZeroBelow (256 * k) f) :
    ZeroBelow (256 * (k + 1)) ((sB).view.writes (Elt F) f
      [ ⟨Rect.unit (off 15#32) S16.size (hin 15), pay⟩,
        ⟨Rect.unit (off 14#32) S16.size (hin 14), pay⟩,
        ⟨Rect.unit (off 13#32) S16.size (hin 13), pay⟩,
        ⟨Rect.unit (off 12#32) S16.size (hin 12), pay⟩,
        ⟨Rect.unit (off 11#32) S16.size (hin 11), pay⟩,
        ⟨Rect.unit (off 10#32) S16.size (hin 10), pay⟩,
        ⟨Rect.unit (off 9#32) S16.size (hin 9), pay⟩,
        ⟨Rect.unit (off 8#32) S16.size (hin 8), pay⟩,
        ⟨Rect.unit (off 7#32) S16.size (hin 7), pay⟩,
        ⟨Rect.unit (off 6#32) S16.size (hin 6), pay⟩,
        ⟨Rect.unit (off 5#32) S16.size (hin 5), pay⟩,
        ⟨Rect.unit (off 4#32) S16.size (hin 4), pay⟩,
        ⟨Rect.unit (off 3#32) S16.size (hin 3), pay⟩,
        ⟨Rect.unit (off 2#32) S16.size (hin 2), pay⟩,
        ⟨Rect.unit (off 1#32) S16.size (hin 1), pay⟩,
        ⟨Rect.unit (off 0#32) S16.size (hin 0), pay⟩]) := by
  refine zeroBelow_writes_B f _ (256 * k) (256 * (k + 1)) hf ?_ ?_
  · intro p hp x
    simp only [List.mem_cons, List.mem_nil_iff, or_false] at hp
    rcases hp with rfl | rfl | rfl | rfl | rfl | rfl | rfl | rfl | rfl | rfl | rfl | rfl | rfl | rfl | rfl | rfl <;>
      exact hpay x
  · intro y hlo hhi
    obtain ⟨r, hr1, hr2⟩ : ∃ r : Fin 16, 256 * k + 16 * r.val ≤ (y 0).val ∧ (y 0).val < 256 * k + 16 * r.val + 16 :=
      ⟨⟨((y 0).val - 256 * k) / 16, by omega⟩,
        by show 256 * k + 16 * (((y 0).val - 256 * k) / 16) ≤ (y 0).val; omega,
        by show (y 0).val < 256 * k + 16 * (((y 0).val - 256 * k) / 16) + 16; omega⟩
    refine ⟨⟨Rect.unit (off (BitVec.ofNat 32 r.val)) S16.size (hin r), pay⟩, ?_, ?_⟩
    · fin_cases r <;> repeat (first | exact List.mem_cons_self | apply List.mem_cons_of_mem)
    · show y ∈ (Rect.unit (s := S16384) (off (BitVec.ofNat 32 r.val)) S16.size (hin r)).set
      rw [Rect.mem_set_unit]
      intro a
      have ha : a = 0 := Subsingleton.elim _ _
      subst ha
      rw [hoff r]
      show 256 * k + 16 * r.val ≤ (y 0).val ∧ (y 0).val < 256 * k + 16 * r.val + 16
      exact ⟨hr1, hr2⟩

end Cert.Proof.KernelRun

end
-- ==== Proof.KTileLand.lean ====
/-
  Where a chunk lands. Chunk `r` of the task at grid point `L` works on rows `R … R + 15` of the ids,
  `R = 256 (L 1) + 128 (L 0) + 16 r`: the 3200 ids it copies in are the flat ids from `200 R` on, and the 16384
  counts it copies out go to the flat counts from `1024 R` on. So once the count buffer holds the histogram of all
  200 positions of those ids, the slice of the counts the copy-out fills holds the whole array of counts there.
-/
import proofs.«215258_g80247168959020_cont_9to1_m_796_9_alg».proof.Proof.KTileView
import proofs.«215258_g80247168959020_cont_9to1_m_796_9_alg».proof.Proof.KTileRes

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.HistPure (zeroF oneF ZeroBelow Hist gIdx sIdx tWord histArr)

variable {F : FTy → Type} [FloatOps F]

local notation "𝕄" => MT nD τ sig (HIx 1) (Elt F) ℕ UU ℕ

section Tile
variable (d : Dev nD) (L : grid0.Coords)

/-- Id `x` of chunk `r` sits at `51200 (L 1) + 25600 (L 0) + 3200 r + x` of the flat ids. -/
theorem idsChunk_emb_val (r : Fin 8) (x : S3200.Idx) :
    (((idsV.slice (Rect.unit (s := S819200) (k0_off1 L (BitVec.ofNat 32 (16 * r.val))) S3200.size (k0_off1_inb L r)) (fun _ => rfl)).view.emb x : S819200.Idx) 0).val = 51200 * (L 1).val + 25600 * (L 0).val + 3200 * r.val + (x 0).val := by
  show (k0_off1 L (BitVec.ofNat 32 (16 * r.val))) 0 + 1 * (x 0).val = _
  rw [k0_off1_eq]
  simp

/-- Count `y` of chunk `r` sits at `262144 (L 1) + 131072 (L 0) + 16384 r + y` of the flat counts. -/
theorem outChunk_emb_val (r : Fin 8) (y : S16384.Idx) :
    (((outV.slice (Rect.unit (s := S4194304) (k0_off3 L (BitVec.ofNat 32 (16 * r.val))) S16384.size (k0_off3_inb L r)) (fun _ => rfl)).view.emb y : S4194304.Idx) 0).val = 262144 * (L 1).val + 131072 * (L 0).val + 16384 * r.val + (y 0).val := by
  show (k0_off3 L (BitVec.ofNat 32 (16 * r.val))) 0 + 1 * (y 0).val = _
  rw [k0_off3_eq]
  simp

/-- After chunk `r`'s copy-out the slice of the counts it fills holds the array of counts of the ids. -/
theorem landed_out (r : Fin 8) (fi : Buf (Elt F) (idsLoc d)) (gp g : HistPure.S3200.Idx → BitVec 32)
    (wI : S3200.Idx → Elt F .i32)
    (hwI : wI = ReadAs.same.apply (View.read (Elt F) (idsV.slice (Rect.unit (s := S819200) (k0_off1 L (BitVec.ofNat 32 (16 * r.val))) S3200.size (k0_off1_inb L r)) (fun _ => rfl)).view fi))
    (hg : View.write (Elt F) (sI).view gp wI Finset.univ = g)
    (fh : HistPure.S16384.Idx → F .f32) (hh : Hist g 200 fh)
    (X : (outV.slice (Rect.unit (s := S4194304) (k0_off3 L (BitVec.ofNat 32 (16 * r.val))) S16384.size (k0_off3_inb L r)) (fun _ => rfl)).view.ty.Contents (Elt F))
    (w : (Rect.whole (Rect.unit (s := S4194304) (k0_off3 L (BitVec.ofNat 32 (16 * r.val))) S16384.size (k0_off3_inb L r)).shape).shape.Idx → Elt F .f32)
    (hw : ∀ y, w y = fh y) :
    ((outV.slice (Rect.unit (s := S4194304) (k0_off3 L (BitVec.ofNat 32 (16 * r.val))) S16384.size (k0_off3_inb L r)) (fun _ => rfl)).view.loc (V d (cV L) (jV L)) ↦[(outV.slice (Rect.unit (s := S4194304) (k0_off3 L (BitVec.ofNat 32 (16 * r.val))) S16384.size (k0_off3_inb L r)) (fun _ => rfl)).view.set]{fullShare}
        (outV.slice (Rect.unit (s := S4194304) (k0_off3 L (BitVec.ofNat 32 (16 * r.val))) S16384.size (k0_off3_inb L r)) (fun _ => rfl)).view.writes (Elt F) X [⟨Rect.whole _, w⟩] : sProp 𝕄)
      = ((outV.slice (Rect.unit (s := S4194304) (k0_off3 L (BitVec.ofNat 32 (16 * r.val))) S16384.size (k0_off3_inb L r)) (fun _ => rfl)).view.loc (V d (cV L) (jV L)) ↦[(outV.slice (Rect.unit (s := S4194304) (k0_off3 L (BitVec.ofNat 32 (16 * r.val))) S16384.size (k0_off3_inb L r)) (fun _ => rfl)).view.set]{fullShare} histArr (F := F) fi) := by
  have h0 : (L 0).val < 2 := (L 0).isLt
  have h1 : (L 1).val < 16 := (L 1).isLt
  have hr : r.val < 8 := r.isLt
  refine pointsTo_congr ?_
  intro i hi
  obtain ⟨y, -, rfl⟩ := Finset.mem_map.mp hi
  have hy : (y 0).val < 16384 := (y 0).isLt
  -- the one whole piece, read at `y`
  have hread := View.read_writes_cons_emb (outV.slice (Rect.unit (s := S4194304) (k0_off3 L (BitVec.ofNat 32 (16 * r.val))) S16384.size (k0_off3_inb L r)) (fun _ => rfl)).view X (Rect.whole _) w [] y
  rw [Rect.emb_whole_apply, View.read_apply, cast_eq] at hread
  rw [hread, hw y]
  -- the ids of the chunk are the flat ids from `200 R` on
  have hgx : ∀ x : HistPure.S3200.Idx, g x = fi (ix1 ⟨200 * (256 * (L 1).val + 128 * (L 0).val + 16 * r.val) + (x 0).val, by
      have hx : (x 0).val < 3200 := (x 0).isLt
      omega⟩) := by
    intro x
    have hx : (x 0).val < 3200 := (x 0).isLt
    rw [← hg, hwI]
    show View.write (Elt F) (View.whole cc0_scratch0) gp ((idsV.slice (Rect.unit (s := S819200) (k0_off1 L (BitVec.ofNat 32 (16 * r.val))) S3200.size (k0_off1_inb L r)) (fun _ => rfl)).view.read (Elt F) fi) Finset.univ x = _
    rw [View.write_whole_univ, View.read_apply, cast_eq]
    have e : ((idsV.slice (Rect.unit (s := S819200) (k0_off1 L (BitVec.ofNat 32 (16 * r.val))) S3200.size (k0_off1_inb L r)) (fun _ => rfl)).view.emb x : S819200.Idx) = ix1 ⟨200 * (256 * (L 1).val + 128 * (L 0).val + 16 * r.val) + (x 0).val, by omega⟩ := by
      apply HistPure.idx1_ext
      rw [idsChunk_emb_val]
      show _ = 200 * (256 * (L 1).val + 128 * (L 0).val + 16 * r.val) + (x 0).val
      omega
    rw [e]
  rw [HistPure.hist_chunk fi g fh (256 * (L 1).val + 128 * (L 0).val + 16 * r.val) (by omega) hgx hh y]
  have e : ((outV.slice (Rect.unit (s := S4194304) (k0_off3 L (BitVec.ofNat 32 (16 * r.val))) S16384.size (k0_off3_inb L r)) (fun _ => rfl)).view.emb y : S4194304.Idx) = ix1 ⟨1024 * (256 * (L 1).val + 128 * (L 0).val + 16 * r.val) + (y 0).val, by omega⟩ := by
    apply HistPure.idx1_ext
    rw [outChunk_emb_val]
    show _ = 1024 * (256 * (L 1).val + 128 * (L 0).val + 16 * r.val) + (y 0).val
    omega
  rw [e]

end Tile

end Cert.Proof.KernelRun

end
-- ==== Proof.KTileBody.lean ====
/-
  The body of one task of the histogram kernel, run once at a symbolic place.

  The task works through its eight chunks of 16 rows. For each chunk it waits until the count buffer it is about
  to reuse has been copied out, copies the chunk's 3200 ids in, zeroes the count buffer (64 trips of 16 stores of
  the zero vector: after trip k the first 256 k floats are zero), and then for each of the 200 positions gathers
  the 16 rows' ids at that position and adds one at row-and-bucket (50 trips of 4: after trip k the buffer holds
  the histogram of the first 4 k positions); the buffer is then copied out to the chunk's slice of the counts. Two
  count buffers alternate, each with its own semaphore, so a buffer is never touched while its copy is in flight.
  At the end both last copies are waited for, every slice of the counts holds the histogram of the ids, every
  semaphore is back at zero and the scratch buffers are whole.
-/
import proofs.«215258_g80247168959020_cont_9to1_m_796_9_alg».proof.Proof.KTileRes
import proofs.«215258_g80247168959020_cont_9to1_m_796_9_alg».proof.Proof.KTileView
import proofs.«215258_g80247168959020_cont_9to1_m_796_9_alg».proof.Proof.KTileLand

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Cert.HistPure (zeroF oneF ZeroBelow Hist gIdx sIdx tWord histArr)

/-- Waits recorded at the index of local waits keep the waits fact. -/
theorem wok_refl (W : Waits sig (HIx 1)) : ∀ p ∈ W, p ∈ W ∨ p.2 = none := fun _ hp => .inl hp

theorem wok_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

section Landing
variable (d : Dev nD) (L : grid0.Coords)

/-- A chunk's slice of the counts after the copy out of count buffer A has landed, the chunk named by its word
    `u = 16 r`: it holds the histogram of the ids. -/
theorem landed_litA (r : Fin 8) (u : BitVec 32) (hu : u = BitVec.ofNat 32 (16 * r.val))
    (hin1 : ∀ a, k0_off1 L u a + S3200.size a ≤ S819200.size a) (hin3 : ∀ a, k0_off3 L u a + S16384.size a ≤ S4194304.size a)
    (fi : Buf (Elt F) (idsLoc d)) (gp g : HistPure.S3200.Idx → BitVec 32) (wI : S3200.Idx → Elt F .i32)
    (hwI : wI = ReadAs.same.apply (View.read (Elt F) (idsV.slice (Rect.unit (s := S819200) (k0_off1 L u) S3200.size hin1) (fun _ => rfl)).view fi))
    (hg : View.write (Elt F) (sI).view gp wI Finset.univ = g) (fh : HistPure.S16384.Idx → F .f32) (hh : Hist g 200 fh)
    (X : (outV.slice (Rect.unit (s := S4194304) (k0_off3 L u) S16384.size hin3) (fun _ => rfl)).view.ty.Contents (Elt F)) :
    ((outV.slice (Rect.unit (s := S4194304) (k0_off3 L u) S16384.size hin3) (fun _ => rfl)).view.loc (V d (cV L) (jV L))
        ↦[(outV.slice (Rect.unit (s := S4194304) (k0_off3 L u) S16384.size hin3) (fun _ => rfl)).view.set]{fullShare}
          (outV.slice (Rect.unit (s := S4194304) (k0_off3 L u) S16384.size hin3) (fun _ => rfl)).view.writes (Elt F) X
            [⟨Rect.whole _, ReadAs.same.apply (View.read (Elt F) (sA).view fh)⟩] : sProp 𝕄)
      = ((outV.slice (Rect.unit (s := S4194304) (k0_off3 L u) S16384.size hin3) (fun _ => rfl)).view.loc (V d (cV L) (jV L))
        ↦[(outV.slice (Rect.unit (s := S4194304) (k0_off3 L u) S16384.size hin3) (fun _ => rfl)).view.set]{fullShare} histArr (F := F) fi) := by
  subst hu
  exact landed_out d L r fi gp g wI hwI hg fh hh X _ (fun _ => rfl)

/-- A chunk's slice of the counts after the copy out of count buffer B has landed, the chunk named by its word
    `u = 16 r`: it holds the histogram of the ids. -/
theorem landed_litB (r : Fin 8) (u : BitVec 32) (hu : u = BitVec.ofNat 32 (16 * r.val))
    (hin1 : ∀ a, k0_off1 L u a + S3200.size a ≤ S819200.size a) (hin3 : ∀ a, k0_off3 L u a + S16384.size a ≤ S4194304.size a)
    (fi : Buf (Elt F) (idsLoc d)) (gp g : HistPure.S3200.Idx → BitVec 32) (wI : S3200.Idx → Elt F .i32)
    (hwI : wI = ReadAs.same.apply (View.read (Elt F) (idsV.slice (Rect.unit (s := S819200) (k0_off1 L u) S3200.size hin1) (fun _ => rfl)).view fi))
    (hg : View.write (Elt F) (sI).view gp wI Finset.univ = g) (fh : HistPure.S16384.Idx → F .f32) (hh : Hist g 200 fh)
    (X : (outV.slice (Rect.unit (s := S4194304) (k0_off3 L u) S16384.size hin3) (fun _ => rfl)).view.ty.Contents (Elt F)) :
    ((outV.slice (Rect.unit (s := S4194304) (k0_off3 L u) S16384.size hin3) (fun _ => rfl)).view.loc (V d (cV L) (jV L))
        ↦[(outV.slice (Rect.unit (s := S4194304) (k0_off3 L u) S16384.size hin3) (fun _ => rfl)).view.set]{fullShare}
          (outV.slice (Rect.unit (s := S4194304) (k0_off3 L u) S16384.size hin3) (fun _ => rfl)).view.writes (Elt F) X
            [⟨Rect.whole _, ReadAs.same.apply (View.read (Elt F) (sB).view fh)⟩] : sProp 𝕄)
      = ((outV.slice (Rect.unit (s := S4194304) (k0_off3 L u) S16384.size hin3) (fun _ => rfl)).view.loc (V d (cV L) (jV L))
        ↦[(outV.slice (Rect.unit (s := S4194304) (k0_off3 L u) S16384.size hin3) (fun _ => rfl)).view.set]{fullShare} histArr (F := F) fi) := by
  subst hu
  exact landed_out d L r fi gp g wI hwI hg fh hh X _ (fun _ => rfl)

end Landing

set_option maxHeartbeats 40000000 in
theorem tile_body : TileBody (F := F) := by
  intro d L hF O W hO fi fo
  simp only [cc0__sc_hist_body_eq_skeleton]; unfold cc0__sc_hist_body_skel
  rw [(K (F := F)).scopedBufs_V hF d (cV L) (jV L), SparseCore.Cfg.scopedSems0_V (Val := Elt F) d (cV L) (jV L), taskSems0, ownBufs_V]
  unfold taskRes
  iintro ⟨#Hlv, ⟨Hi0, Hi1, Hi2, Hi3, Hi4, Hi5, Hi6, Hi7, Ho0, Ho1, Ho2, Ho3, Ho4, Ho5, Ho6, Ho7⟩,
    ⟨⟨%fI, HsI⟩, ⟨%fA, HsA⟩, ⟨%fB, HsB⟩, Hbufs⟩, ⟨⟨Hm3, Hm4, Hs0, Hs1, Hs2, Hs3, Hs4, Hs5, Hs6, Hs7⟩, Hsems⟩, HO⟩
  ihave Hmw := ((K (F := F)).mayWaits_none (thr := (V d (cV L) (jV L))) hO) $$ Hlv
  ihave HsI := (Entails.of_eq (show (((V d (cV L) (jV L))).loc cc0_scratch0 ↦{fullShare} fI : sProp 𝕄) = ((sI).view.loc (V d (cV L) (jV L)) ↦{fullShare} fI) from rfl)) $$ HsI
  ihave HsA := (Entails.of_eq (show (((V d (cV L) (jV L))).loc cc0_scratch1 ↦{fullShare} fA : sProp 𝕄) = ((sA).view.loc (V d (cV L) (jV L)) ↦{fullShare} fA) from rfl)) $$ HsA
  ihave HsB := (Entails.of_eq (show (((V d (cV L) (jV L))).loc cc0_scratch2 ↦{fullShare} fB : sProp 𝕄) = ((sB).view.loc (V d (cV L) (jV L)) ↦{fullShare} fB) from rfl)) $$ HsB
  -- chunk 0: its ids are in; zero the count buffer A, then add the 200 positions
  sl_exec_parts
  generalize hg0 : View.write (Elt F) (sI).view _ _ Finset.univ = g0
  sl_for (fun (k : Nat) (_ : BitVec 32) => (iprop(∃ f, ⌜ZeroBelow (256 * k) f⌝ ∗ (sA).view.loc (V d (cV L) (jV L)) ↦{fullShare} f) : sProp 𝕄)) $$ [HsA]
  case region =>
    intro k a
    iintro ⟨%f, %hf, HsA⟩
    sl_exec
    sl_step
    iexists _
    isplitr
    rotate_left
    · iexact HsA
    · ipureintro
      exact zero_trip_A f k.val (k0_off2 k) (k0_off2_eq k) (k0_off2_inb k) _ (fun _ => rfl) hf
  · iexists _; isplitr
    rotate_left
    · iexact HsA
    · ipureintro; intro j hj; exact absurd hj (by omega)
  iintro %a0 ⟨%fz0, %hz0, HsA⟩
  have hzz0 : fz0 = fun _ => zeroF := Cert.HistPure.zeroBelow_all fz0 (by
    have e : 256 * Scf.trips k0_t1_loop.lb k0_t1_loop.ub k0_t1_loop.st = 16384 := by decide
    rw [e] at hz0; exact hz0)
  sl_exec_parts
  sl_for (fun (k : Nat) (_ : BitVec 32) => (iprop((∃ f, ⌜Hist g0 (4 * k) f⌝ ∗ (sA).view.loc (V d (cV L) (jV L)) ↦{fullShare} f) ∗ ((sI).view.loc (V d (cV L) (jV L)) ↦{fullShare} g0)) : sProp 𝕄)) $$ [HsA HsI]
  case region =>
    intro k a
    iintro ⟨⟨%f, %hf0, HsA⟩, HsI⟩
    have hk : k.val < 50 := lt_of_lt_of_le k.isLt (by decide)
    have hf : Hist g0 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sA).view.writes (Elt F) f _ = f1
    have hf1 : Hist g0 (4 * k.val + 0 + 1) f1 := by
      rw [← hfx0]
      refine hist_step_A g0 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sA).view.writes (Elt F) f1 _ = f2
    have hf2 : Hist g0 (4 * k.val + 1 + 1) f2 := by
      rw [← hfx1]
      refine hist_step_A g0 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sA).view.writes (Elt F) f2 _ = f3
    have hf3 : Hist g0 (4 * k.val + 2 + 1) f3 := by
      rw [← hfx2]
      refine hist_step_A g0 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sA).view.writes (Elt F) f3 _ = f4
    have hf4 : Hist g0 (4 * k.val + 3 + 1) f4 := by
      rw [← hfx3]
      refine hist_step_A g0 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsA]
    · iexists f4
      isplitr
      · ipureintro
        have e4 : 4 * (k.val + 1) = 4 * k.val + 3 + 1 := by omega
        rw [e4]; exact hf4
      · iexact HsA
    · iexact HsI
  · isplitl [HsA]
    · iexists fz0; isplitr
      · ipureintro; rw [hzz0]; exact Cert.HistPure.hist_zero g0
      · iexact HsA
    · iexact HsI
  iintro %b0 ⟨⟨%fh0, %hh0, HsA⟩, HsI⟩
  have hh0' : Hist g0 200 fh0 := by
    have e : 4 * Scf.trips k0_t2_loop.lb k0_t2_loop.ub k0_t2_loop.st = 200 := by decide
    rw [e] at hh0; exact hh0
  -- chunk 1: its ids are in; zero the count buffer B, then add the 200 positions
  sl_exec_parts
  generalize hg1 : View.write (Elt F) (sI).view _ _ Finset.univ = g1
  sl_for (fun (k : Nat) (_ : BitVec 32) => (iprop(∃ f, ⌜ZeroBelow (256 * k) f⌝ ∗ (sB).view.loc (V d (cV L) (jV L)) ↦{fullShare} f) : sProp 𝕄)) $$ [HsB]
  case region =>
    intro k a
    iintro ⟨%f, %hf, HsB⟩
    sl_exec
    sl_step
    iexists _
    isplitr
    rotate_left
    · iexact HsB
    · ipureintro
      exact zero_trip_B f k.val (k0_off4 k) (k0_off4_eq k) (k0_off4_inb k) _ (fun _ => rfl) hf
  · iexists _; isplitr
    rotate_left
    · iexact HsB
    · ipureintro; intro j hj; exact absurd hj (by omega)
  iintro %a1 ⟨%fz1, %hz1, HsB⟩
  have hzz1 : fz1 = fun _ => zeroF := Cert.HistPure.zeroBelow_all fz1 (by
    have e : 256 * Scf.trips k0_t3_loop.lb k0_t3_loop.ub k0_t3_loop.st = 16384 := by decide
    rw [e] at hz1; exact hz1)
  sl_exec_parts
  sl_for (fun (k : Nat) (_ : BitVec 32) => (iprop((∃ f, ⌜Hist g1 (4 * k) f⌝ ∗ (sB).view.loc (V d (cV L) (jV L)) ↦{fullShare} f) ∗ ((sI).view.loc (V d (cV L) (jV L)) ↦{fullShare} g1)) : sProp 𝕄)) $$ [HsB HsI]
  case region =>
    intro k a
    iintro ⟨⟨%f, %hf0, HsB⟩, HsI⟩
    have hk : k.val < 50 := lt_of_lt_of_le k.isLt (by decide)
    have hf : Hist g1 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sB).view.writes (Elt F) f _ = f1
    have hf1 : Hist g1 (4 * k.val + 0 + 1) f1 := by
      rw [← hfx0]
      refine hist_step_B g1 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sB).view.writes (Elt F) f1 _ = f2
    have hf2 : Hist g1 (4 * k.val + 1 + 1) f2 := by
      rw [← hfx1]
      refine hist_step_B g1 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sB).view.writes (Elt F) f2 _ = f3
    have hf3 : Hist g1 (4 * k.val + 2 + 1) f3 := by
      rw [← hfx2]
      refine hist_step_B g1 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sB).view.writes (Elt F) f3 _ = f4
    have hf4 : Hist g1 (4 * k.val + 3 + 1) f4 := by
      rw [← hfx3]
      refine hist_step_B g1 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsB]
    · iexists f4
      isplitr
      · ipureintro
        have e4 : 4 * (k.val + 1) = 4 * k.val + 3 + 1 := by omega
        rw [e4]; exact hf4
      · iexact HsB
    · iexact HsI
  · isplitl [HsB]
    · iexists fz1; isplitr
      · ipureintro; rw [hzz1]; exact Cert.HistPure.hist_zero g1
      · iexact HsB
    · iexact HsI
  iintro %b1 ⟨⟨%fh1, %hh1, HsB⟩, HsI⟩
  have hh1' : Hist g1 200 fh1 := by
    have e : 4 * Scf.trips k0_t4_loop.lb k0_t4_loop.ub k0_t4_loop.st = 200 := by decide
    rw [e] at hh1; exact hh1
  -- chunk 2: its ids are in; zero the count buffer A, then add the 200 positions
  sl_exec_parts
  generalize hg2 : View.write (Elt F) (sI).view _ _ Finset.univ = g2
  sl_for (fun (k : Nat) (_ : BitVec 32) => (iprop(∃ f, ⌜ZeroBelow (256 * k) f⌝ ∗ (sA).view.loc (V d (cV L) (jV L)) ↦{fullShare} f) : sProp 𝕄)) $$ [HsA]
  case region =>
    intro k a
    iintro ⟨%f, %hf, HsA⟩
    sl_exec
    sl_step
    iexists _
    isplitr
    rotate_left
    · iexact HsA
    · ipureintro
      exact zero_trip_A f k.val (k0_off5 k) (k0_off5_eq k) (k0_off5_inb k) _ (fun _ => rfl) hf
  · iexists _; isplitr
    rotate_left
    · iexact HsA
    · ipureintro; intro j hj; exact absurd hj (by omega)
  iintro %a2 ⟨%fz2, %hz2, HsA⟩
  have hzz2 : fz2 = fun _ => zeroF := Cert.HistPure.zeroBelow_all fz2 (by
    have e : 256 * Scf.trips k0_t5_loop.lb k0_t5_loop.ub k0_t5_loop.st = 16384 := by decide
    rw [e] at hz2; exact hz2)
  sl_exec_parts
  sl_for (fun (k : Nat) (_ : BitVec 32) => (iprop((∃ f, ⌜Hist g2 (4 * k) f⌝ ∗ (sA).view.loc (V d (cV L) (jV L)) ↦{fullShare} f) ∗ ((sI).view.loc (V d (cV L) (jV L)) ↦{fullShare} g2)) : sProp 𝕄)) $$ [HsA HsI]
  case region =>
    intro k a
    iintro ⟨⟨%f, %hf0, HsA⟩, HsI⟩
    have hk : k.val < 50 := lt_of_lt_of_le k.isLt (by decide)
    have hf : Hist g2 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sA).view.writes (Elt F) f _ = f1
    have hf1 : Hist g2 (4 * k.val + 0 + 1) f1 := by
      rw [← hfx0]
      refine hist_step_A g2 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sA).view.writes (Elt F) f1 _ = f2
    have hf2 : Hist g2 (4 * k.val + 1 + 1) f2 := by
      rw [← hfx1]
      refine hist_step_A g2 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sA).view.writes (Elt F) f2 _ = f3
    have hf3 : Hist g2 (4 * k.val + 2 + 1) f3 := by
      rw [← hfx2]
      refine hist_step_A g2 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sA).view.writes (Elt F) f3 _ = f4
    have hf4 : Hist g2 (4 * k.val + 3 + 1) f4 := by
      rw [← hfx3]
      refine hist_step_A g2 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsA]
    · iexists f4
      isplitr
      · ipureintro
        have e4 : 4 * (k.val + 1) = 4 * k.val + 3 + 1 := by omega
        rw [e4]; exact hf4
      · iexact HsA
    · iexact HsI
  · isplitl [HsA]
    · iexists fz2; isplitr
      · ipureintro; rw [hzz2]; exact Cert.HistPure.hist_zero g2
      · iexact HsA
    · iexact HsI
  iintro %b2 ⟨⟨%fh2, %hh2, HsA⟩, HsI⟩
  have hh2' : Hist g2 200 fh2 := by
    have e : 4 * Scf.trips k0_t6_loop.lb k0_t6_loop.ub k0_t6_loop.st = 200 := by decide
    rw [e] at hh2; exact hh2
  -- chunk 3: its ids are in; zero the count buffer B, then add the 200 positions
  sl_exec_parts
  generalize hg3 : View.write (Elt F) (sI).view _ _ Finset.univ = g3
  sl_for (fun (k : Nat) (_ : BitVec 32) => (iprop(∃ f, ⌜ZeroBelow (256 * k) f⌝ ∗ (sB).view.loc (V d (cV L) (jV L)) ↦{fullShare} f) : sProp 𝕄)) $$ [HsB]
  case region =>
    intro k a
    iintro ⟨%f, %hf, HsB⟩
    sl_exec
    sl_step
    iexists _
    isplitr
    rotate_left
    · iexact HsB
    · ipureintro
      exact zero_trip_B f k.val (k0_off6 k) (k0_off6_eq k) (k0_off6_inb k) _ (fun _ => rfl) hf
  · iexists _; isplitr
    rotate_left
    · iexact HsB
    · ipureintro; intro j hj; exact absurd hj (by omega)
  iintro %a3 ⟨%fz3, %hz3, HsB⟩
  have hzz3 : fz3 = fun _ => zeroF := Cert.HistPure.zeroBelow_all fz3 (by
    have e : 256 * Scf.trips k0_t7_loop.lb k0_t7_loop.ub k0_t7_loop.st = 16384 := by decide
    rw [e] at hz3; exact hz3)
  sl_exec_parts
  sl_for (fun (k : Nat) (_ : BitVec 32) => (iprop((∃ f, ⌜Hist g3 (4 * k) f⌝ ∗ (sB).view.loc (V d (cV L) (jV L)) ↦{fullShare} f) ∗ ((sI).view.loc (V d (cV L) (jV L)) ↦{fullShare} g3)) : sProp 𝕄)) $$ [HsB HsI]
  case region =>
    intro k a
    iintro ⟨⟨%f, %hf0, HsB⟩, HsI⟩
    have hk : k.val < 50 := lt_of_lt_of_le k.isLt (by decide)
    have hf : Hist g3 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sB).view.writes (Elt F) f _ = f1
    have hf1 : Hist g3 (4 * k.val + 0 + 1) f1 := by
      rw [← hfx0]
      refine hist_step_B g3 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sB).view.writes (Elt F) f1 _ = f2
    have hf2 : Hist g3 (4 * k.val + 1 + 1) f2 := by
      rw [← hfx1]
      refine hist_step_B g3 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sB).view.writes (Elt F) f2 _ = f3
    have hf3 : Hist g3 (4 * k.val + 2 + 1) f3 := by
      rw [← hfx2]
      refine hist_step_B g3 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sB).view.writes (Elt F) f3 _ = f4
    have hf4 : Hist g3 (4 * k.val + 3 + 1) f4 := by
      rw [← hfx3]
      refine hist_step_B g3 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsB]
    · iexists f4
      isplitr
      · ipureintro
        have e4 : 4 * (k.val + 1) = 4 * k.val + 3 + 1 := by omega
        rw [e4]; exact hf4
      · iexact HsB
    · iexact HsI
  · isplitl [HsB]
    · iexists fz3; isplitr
      · ipureintro; rw [hzz3]; exact Cert.HistPure.hist_zero g3
      · iexact HsB
    · iexact HsI
  iintro %b3 ⟨⟨%fh3, %hh3, HsB⟩, HsI⟩
  have hh3' : Hist g3 200 fh3 := by
    have e : 4 * Scf.trips k0_t8_loop.lb k0_t8_loop.ub k0_t8_loop.st = 200 := by decide
    rw [e] at hh3; exact hh3
  -- chunk 4: its ids are in; zero the count buffer A, then add the 200 positions
  sl_exec_parts
  generalize hg4 : View.write (Elt F) (sI).view _ _ Finset.univ = g4
  sl_for (fun (k : Nat) (_ : BitVec 32) => (iprop(∃ f, ⌜ZeroBelow (256 * k) f⌝ ∗ (sA).view.loc (V d (cV L) (jV L)) ↦{fullShare} f) : sProp 𝕄)) $$ [HsA]
  case region =>
    intro k a
    iintro ⟨%f, %hf, HsA⟩
    sl_exec
    sl_step
    iexists _
    isplitr
    rotate_left
    · iexact HsA
    · ipureintro
      exact zero_trip_A f k.val (k0_off7 k) (k0_off7_eq k) (k0_off7_inb k) _ (fun _ => rfl) hf
  · iexists _; isplitr
    rotate_left
    · iexact HsA
    · ipureintro; intro j hj; exact absurd hj (by omega)
  iintro %a4 ⟨%fz4, %hz4, HsA⟩
  have hzz4 : fz4 = fun _ => zeroF := Cert.HistPure.zeroBelow_all fz4 (by
    have e : 256 * Scf.trips k0_t9_loop.lb k0_t9_loop.ub k0_t9_loop.st = 16384 := by decide
    rw [e] at hz4; exact hz4)
  sl_exec_parts
  sl_for (fun (k : Nat) (_ : BitVec 32) => (iprop((∃ f, ⌜Hist g4 (4 * k) f⌝ ∗ (sA).view.loc (V d (cV L) (jV L)) ↦{fullShare} f) ∗ ((sI).view.loc (V d (cV L) (jV L)) ↦{fullShare} g4)) : sProp 𝕄)) $$ [HsA HsI]
  case region =>
    intro k a
    iintro ⟨⟨%f, %hf0, HsA⟩, HsI⟩
    have hk : k.val < 50 := lt_of_lt_of_le k.isLt (by decide)
    have hf : Hist g4 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sA).view.writes (Elt F) f _ = f1
    have hf1 : Hist g4 (4 * k.val + 0 + 1) f1 := by
      rw [← hfx0]
      refine hist_step_A g4 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sA).view.writes (Elt F) f1 _ = f2
    have hf2 : Hist g4 (4 * k.val + 1 + 1) f2 := by
      rw [← hfx1]
      refine hist_step_A g4 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sA).view.writes (Elt F) f2 _ = f3
    have hf3 : Hist g4 (4 * k.val + 2 + 1) f3 := by
      rw [← hfx2]
      refine hist_step_A g4 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sA).view.writes (Elt F) f3 _ = f4
    have hf4 : Hist g4 (4 * k.val + 3 + 1) f4 := by
      rw [← hfx3]
      refine hist_step_A g4 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsA]
    · iexists f4
      isplitr
      · ipureintro
        have e4 : 4 * (k.val + 1) = 4 * k.val + 3 + 1 := by omega
        rw [e4]; exact hf4
      · iexact HsA
    · iexact HsI
  · isplitl [HsA]
    · iexists fz4; isplitr
      · ipureintro; rw [hzz4]; exact Cert.HistPure.hist_zero g4
      · iexact HsA
    · iexact HsI
  iintro %b4 ⟨⟨%fh4, %hh4, HsA⟩, HsI⟩
  have hh4' : Hist g4 200 fh4 := by
    have e : 4 * Scf.trips k0_t10_loop.lb k0_t10_loop.ub k0_t10_loop.st = 200 := by decide
    rw [e] at hh4; exact hh4
  -- chunk 5: its ids are in; zero the count buffer B, then add the 200 positions
  sl_exec_parts
  generalize hg5 : View.write (Elt F) (sI).view _ _ Finset.univ = g5
  sl_for (fun (k : Nat) (_ : BitVec 32) => (iprop(∃ f, ⌜ZeroBelow (256 * k) f⌝ ∗ (sB).view.loc (V d (cV L) (jV L)) ↦{fullShare} f) : sProp 𝕄)) $$ [HsB]
  case region =>
    intro k a
    iintro ⟨%f, %hf, HsB⟩
    sl_exec
    sl_step
    iexists _
    isplitr
    rotate_left
    · iexact HsB
    · ipureintro
      exact zero_trip_B f k.val (k0_off8 k) (k0_off8_eq k) (k0_off8_inb k) _ (fun _ => rfl) hf
  · iexists _; isplitr
    rotate_left
    · iexact HsB
    · ipureintro; intro j hj; exact absurd hj (by omega)
  iintro %a5 ⟨%fz5, %hz5, HsB⟩
  have hzz5 : fz5 = fun _ => zeroF := Cert.HistPure.zeroBelow_all fz5 (by
    have e : 256 * Scf.trips k0_t11_loop.lb k0_t11_loop.ub k0_t11_loop.st = 16384 := by decide
    rw [e] at hz5; exact hz5)
  sl_exec_parts
  sl_for (fun (k : Nat) (_ : BitVec 32) => (iprop((∃ f, ⌜Hist g5 (4 * k) f⌝ ∗ (sB).view.loc (V d (cV L) (jV L)) ↦{fullShare} f) ∗ ((sI).view.loc (V d (cV L) (jV L)) ↦{fullShare} g5)) : sProp 𝕄)) $$ [HsB HsI]
  case region =>
    intro k a
    iintro ⟨⟨%f, %hf0, HsB⟩, HsI⟩
    have hk : k.val < 50 := lt_of_lt_of_le k.isLt (by decide)
    have hf : Hist g5 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sB).view.writes (Elt F) f _ = f1
    have hf1 : Hist g5 (4 * k.val + 0 + 1) f1 := by
      rw [← hfx0]
      refine hist_step_B g5 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sB).view.writes (Elt F) f1 _ = f2
    have hf2 : Hist g5 (4 * k.val + 1 + 1) f2 := by
      rw [← hfx1]
      refine hist_step_B g5 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sB).view.writes (Elt F) f2 _ = f3
    have hf3 : Hist g5 (4 * k.val + 2 + 1) f3 := by
      rw [← hfx2]
      refine hist_step_B g5 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sB).view.writes (Elt F) f3 _ = f4
    have hf4 : Hist g5 (4 * k.val + 3 + 1) f4 := by
      rw [← hfx3]
      refine hist_step_B g5 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsB]
    · iexists f4
      isplitr
      · ipureintro
        have e4 : 4 * (k.val + 1) = 4 * k.val + 3 + 1 := by omega
        rw [e4]; exact hf4
      · iexact HsB
    · iexact HsI
  · isplitl [HsB]
    · iexists fz5; isplitr
      · ipureintro; rw [hzz5]; exact Cert.HistPure.hist_zero g5
      · iexact HsB
    · iexact HsI
  iintro %b5 ⟨⟨%fh5, %hh5, HsB⟩, HsI⟩
  have hh5' : Hist g5 200 fh5 := by
    have e : 4 * Scf.trips k0_t12_loop.lb k0_t12_loop.ub k0_t12_loop.st = 200 := by decide
    rw [e] at hh5; exact hh5
  -- chunk 6: its ids are in; zero the count buffer A, then add the 200 positions
  sl_exec_parts
  generalize hg6 : View.write (Elt F) (sI).view _ _ Finset.univ = g6
  sl_for (fun (k : Nat) (_ : BitVec 32) => (iprop(∃ f, ⌜ZeroBelow (256 * k) f⌝ ∗ (sA).view.loc (V d (cV L) (jV L)) ↦{fullShare} f) : sProp 𝕄)) $$ [HsA]
  case region =>
    intro k a
    iintro ⟨%f, %hf, HsA⟩
    sl_exec
    sl_step
    iexists _
    isplitr
    rotate_left
    · iexact HsA
    · ipureintro
      exact zero_trip_A f k.val (k0_off9 k) (k0_off9_eq k) (k0_off9_inb k) _ (fun _ => rfl) hf
  · iexists _; isplitr
    rotate_left
    · iexact HsA
    · ipureintro; intro j hj; exact absurd hj (by omega)
  iintro %a6 ⟨%fz6, %hz6, HsA⟩
  have hzz6 : fz6 = fun _ => zeroF := Cert.HistPure.zeroBelow_all fz6 (by
    have e : 256 * Scf.trips k0_t13_loop.lb k0_t13_loop.ub k0_t13_loop.st = 16384 := by decide
    rw [e] at hz6; exact hz6)
  sl_exec_parts
  sl_for (fun (k : Nat) (_ : BitVec 32) => (iprop((∃ f, ⌜Hist g6 (4 * k) f⌝ ∗ (sA).view.loc (V d (cV L) (jV L)) ↦{fullShare} f) ∗ ((sI).view.loc (V d (cV L) (jV L)) ↦{fullShare} g6)) : sProp 𝕄)) $$ [HsA HsI]
  case region =>
    intro k a
    iintro ⟨⟨%f, %hf0, HsA⟩, HsI⟩
    have hk : k.val < 50 := lt_of_lt_of_le k.isLt (by decide)
    have hf : Hist g6 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sA).view.writes (Elt F) f _ = f1
    have hf1 : Hist g6 (4 * k.val + 0 + 1) f1 := by
      rw [← hfx0]
      refine hist_step_A g6 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sA).view.writes (Elt F) f1 _ = f2
    have hf2 : Hist g6 (4 * k.val + 1 + 1) f2 := by
      rw [← hfx1]
      refine hist_step_A g6 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sA).view.writes (Elt F) f2 _ = f3
    have hf3 : Hist g6 (4 * k.val + 2 + 1) f3 := by
      rw [← hfx2]
      refine hist_step_A g6 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sA).view.writes (Elt F) f3 _ = f4
    have hf4 : Hist g6 (4 * k.val + 3 + 1) f4 := by
      rw [← hfx3]
      refine hist_step_A g6 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsA]
    · iexists f4
      isplitr
      · ipureintro
        have e4 : 4 * (k.val + 1) = 4 * k.val + 3 + 1 := by omega
        rw [e4]; exact hf4
      · iexact HsA
    · iexact HsI
  · isplitl [HsA]
    · iexists fz6; isplitr
      · ipureintro; rw [hzz6]; exact Cert.HistPure.hist_zero g6
      · iexact HsA
    · iexact HsI
  iintro %b6 ⟨⟨%fh6, %hh6, HsA⟩, HsI⟩
  have hh6' : Hist g6 200 fh6 := by
    have e : 4 * Scf.trips k0_t14_loop.lb k0_t14_loop.ub k0_t14_loop.st = 200 := by decide
    rw [e] at hh6; exact hh6
  -- chunk 7: its ids are in; zero the count buffer B, then add the 200 positions
  sl_exec_parts
  generalize hg7 : View.write (Elt F) (sI).view _ _ Finset.univ = g7
  sl_for (fun (k : Nat) (_ : BitVec 32) => (iprop(∃ f, ⌜ZeroBelow (256 * k) f⌝ ∗ (sB).view.loc (V d (cV L) (jV L)) ↦{fullShare} f) : sProp 𝕄)) $$ [HsB]
  case region =>
    intro k a
    iintro ⟨%f, %hf, HsB⟩
    sl_exec
    sl_step
    iexists _
    isplitr
    rotate_left
    · iexact HsB
    · ipureintro
      exact zero_trip_B f k.val (k0_off10 k) (k0_off10_eq k) (k0_off10_inb k) _ (fun _ => rfl) hf
  · iexists _; isplitr
    rotate_left
    · iexact HsB
    · ipureintro; intro j hj; exact absurd hj (by omega)
  iintro %a7 ⟨%fz7, %hz7, HsB⟩
  have hzz7 : fz7 = fun _ => zeroF := Cert.HistPure.zeroBelow_all fz7 (by
    have e : 256 * Scf.trips k0_t15_loop.lb k0_t15_loop.ub k0_t15_loop.st = 16384 := by decide
    rw [e] at hz7; exact hz7)
  sl_exec_parts
  sl_for (fun (k : Nat) (_ : BitVec 32) => (iprop((∃ f, ⌜Hist g7 (4 * k) f⌝ ∗ (sB).view.loc (V d (cV L) (jV L)) ↦{fullShare} f) ∗ ((sI).view.loc (V d (cV L) (jV L)) ↦{fullShare} g7)) : sProp 𝕄)) $$ [HsB HsI]
  case region =>
    intro k a
    iintro ⟨⟨%f, %hf0, HsB⟩, HsI⟩
    have hk : k.val < 50 := lt_of_lt_of_le k.isLt (by decide)
    have hf : Hist g7 (4 * k.val + 0) f := hf0
    sl_exec (disch := exact Cert.HistPure.chk_gather _ (lt_of_lt_of_le (Fin.isLt _) (by decide)) _ (by decide))
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx0 : (sB).view.writes (Elt F) f _ = f1
    have hf1 : Hist g7 (4 * k.val + 0 + 1) f1 := by
      rw [← hfx0]
      refine hist_step_B g7 f (tWord k.val 0#32) (4 * k.val + 0) (Cert.HistPure.tWord_toNat _ hk _ (by decide)) (by omega) ?h1 _ ?hI _ ?hv _ hf
      case h1 => exact Cert.HistPure.chk_gather _ hk _ (by decide)
      case hI => rfl
      case hv => rfl
    clear hfx0
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx1 : (sB).view.writes (Elt F) f1 _ = f2
    have hf2 : Hist g7 (4 * k.val + 1 + 1) f2 := by
      rw [← hfx1]
      refine hist_step_B g7 f1 (tWord k.val 1#32) (4 * k.val + 1) (Cert.HistPure.tWord_toNat _ hk _ (by decide)) (by omega) ?h1 _ ?hI _ ?hv _ hf1
      case h1 => exact Cert.HistPure.chk_gather _ hk _ (by decide)
      case hI => rfl
      case hv => rfl
    clear hfx1
    rw [SparseCore.vectorLoadIdx_bind (V d (cV L) (jV L))]
    sl_exec (disch := exact Cert.HistPure.chk_scatter _)
    rw [SparseCore.vectorStoreIdx_bind (V d (cV L) (jV L))]
    sl_exec (disch := exact Cert.HistPure.chk_gather _ (lt_of_lt_of_le (Fin.isLt _) (by decide)) _ (by decide))
    generalize hfx2 : (sB).view.writes (Elt F) f2 _ = f3
    have hf3 : Hist g7 (4 * k.val + 2 + 1) f3 := by
      rw [← hfx2]
      refine hist_step_B g7 f2 (tWord k.val 2#32) (4 * k.val + 2) (Cert.HistPure.tWord_toNat _ hk _ (by decide)) (by omega) ?h1 _ ?hI _ ?hv _ hf2
      case h1 => exact Cert.HistPure.chk_gather _ hk _ (by decide)
      case hI => rfl
      case hv => rfl
    clear hfx2
    rw [SparseCore.vectorLoadIdx_bind (V d (cV L) (jV L))]
    sl_exec (disch := exact Cert.HistPure.chk_scatter _)
    rw [SparseCore.vectorStoreIdx_bind (V d (cV L) (jV L))]
    sl_exec
    generalize hfx3 : (sB).view.writes (Elt F) f3 _ = f4
    have hf4 : Hist g7 (4 * k.val + 3 + 1) f4 := by
      rw [← hfx3]
      refine hist_step_B g7 f3 (tWord k.val 3#32) (4 * k.val + 3) (Cert.HistPure.tWord_toNat _ hk _ (by decide)) (by omega) ?h1 _ ?hI _ ?hv _ hf3
      case h1 => exact Cert.HistPure.chk_gather _ hk _ (by decide)
      case hI => rfl
      case hv => rfl
    clear hfx3
    sl_step
    isplitl [HsB]
    · iexists f4
      isplitr
      · ipureintro
        have e4 : 4 * (k.val + 1) = 4 * k.val + 3 + 1 := by omega
        rw [e4]; exact hf4
      · iexact HsB
    · iexact HsI
  · isplitl [HsB]
    · iexists fz7; isplitr
      · ipureintro; rw [hzz7]; exact Cert.HistPure.hist_zero g7
      · iexact HsB
    · iexact HsI
  iintro %b7 ⟨⟨%fh7, %hh7, HsB⟩, HsI⟩
  have hh7' : Hist g7 200 fh7 := by
    have e : 4 * Scf.trips k0_t16_loop.lb k0_t16_loop.ub k0_t16_loop.st = 200 := by decide
    rw [e] at hh7; exact hh7
  -- the last copy out, the two last waits, and the return
  sl_exec_parts
  sl_step
  isplitl [Hi0 Hi1 Hi2 Hi3 Hi4 Hi5 Hi6 Hi7 Ho0 Ho1 Ho2 Ho3 Ho4 Ho5 Ho6 Ho7]
  · -- the ids as found; every slice of the counts at the histogram of the ids
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    isplitl [Ho0]
    · iapply (Entails.of_eq (landed_litA d L (0 : Fin 8) 0#32 rfl (k0_off1_inb L 0) (k0_off3_inb L 0) fi fI g0 _ (by rfl) hg0 fh0 hh0' _))
      iexact Ho0
    isplitl [Ho1]
    · iapply (Entails.of_eq (landed_litB d L (1 : Fin 8) 16#32 rfl (k0_off1_inb L 1) (k0_off3_inb L 1) fi g0 g1 _ (by rfl) hg1 fh1 hh1' _))
      iexact Ho1
    isplitl [Ho2]
    · iapply (Entails.of_eq (landed_litA d L (2 : Fin 8) 32#32 rfl (k0_off1_inb L 2) (k0_off3_inb L 2) fi g1 g2 _ (by rfl) hg2 fh2 hh2' _))
      iexact Ho2
    isplitl [Ho3]
    · iapply (Entails.of_eq (landed_litB d L (3 : Fin 8) 48#32 rfl (k0_off1_inb L 3) (k0_off3_inb L 3) fi g2 g3 _ (by rfl) hg3 fh3 hh3' _))
      iexact Ho3
    isplitl [Ho4]
    · iapply (Entails.of_eq (landed_litA d L (4 : Fin 8) 64#32 rfl (k0_off1_inb L 4) (k0_off3_inb L 4) fi g3 g4 _ (by rfl) hg4 fh4 hh4' _))
      iexact Ho4
    isplitl [Ho5]
    · iapply (Entails.of_eq (landed_litB d L (5 : Fin 8) 80#32 rfl (k0_off1_inb L 5) (k0_off3_inb L 5) fi g4 g5 _ (by rfl) hg5 fh5 hh5' _))
      iexact Ho5
    isplitl [Ho6]
    · iapply (Entails.of_eq (landed_litA d L (6 : Fin 8) 96#32 rfl (k0_off1_inb L 6) (k0_off3_inb L 6) fi g5 g6 _ (by rfl) hg6 fh6 hh6' _))
      iexact Ho6
    iapply (Entails.of_eq (landed_litB d L (7 : Fin 8) 112#32 rfl (k0_off1_inb L 7) (k0_off3_inb L 7) fi g6 g7 _ (by rfl) hg7 fh7 hh7' _))
    iexact Ho7
  isplitl [HsI HsA HsB Hbufs]
  · isplitl [HsI]; · iexists _; iexact HsI
    isplitl [HsA]; · iexists _; iexact HsA
    isplitl [HsB]; · iexists _; iexact HsB
    iexact Hbufs
  isplitl [Hm3 Hm4 Hs0 Hs1 Hs2 Hs3 Hs4 Hs5 Hs6 Hs7 Hsems]
  · isplitl [Hm3 Hm4 Hs0 Hs1 Hs2 Hs3 Hs4 Hs5 Hs6 Hs7]
    · isplitl [Hm3]; · iexact Hm3
      isplitl [Hm4]; · iexact Hm4
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    · iexact Hsems
  iexists _
  isplitr
  rotate_left
  · iexact HO
  · ipureintro
    repeat apply wok_insert
    exact wok_refl W

end Cert.Proof.KernelRun

end
-- ==== Proof.lean ====
/-
  The certificate's five claims, assembled.

  Both kernel programs (the one at the word level and its idealization) are one SparseCore histogram call on 32 vector
  subcores followed by one TensorCore pipeline; each runs to its end with its arguments unchanged by the launch theorem
  for SparseCore programs, from the proof of one task's body (`KernelRun`, `KernelIdealRun`). The reference program is
  a straight line of host operations (`RefSide`). The idealization differs from the printed kernel in one constant,
  the factor 1/200, which the table names. At the ideal instance the kernel's result is
  ((sum of the embeddings over positions) + counts · tables) · (1/200) against Wᵀ plus the bias, the reference's the
  mean of the looked-up table rows plus the mean of the embeddings against Wᵀ plus the bias; with every float input a
  real number and every id in range the two are one function of the arguments.
-/
import proofs.«215258_g80247168959020_cont_9to1_m_796_9_alg».proof.Defs
import proofs.«215258_g80247168959020_cont_9to1_m_796_9_alg».proof.Proof.Gen.Kernel
import proofs.«215258_g80247168959020_cont_9to1_m_796_9_alg».proof.Proof.Gen.Kernel.Skeleton
import proofs.«215258_g80247168959020_cont_9to1_m_796_9_alg».proof.Proof.Gen.Kernel.Launch
import proofs.«215258_g80247168959020_cont_9to1_m_796_9_alg».proof.Proof.Gen.Kernel.Points
import proofs.«215258_g80247168959020_cont_9to1_m_796_9_alg».proof.Proof.Gen.KernelIdeal
import proofs.«215258_g80247168959020_cont_9to1_m_796_9_alg».proof.Proof.Gen.KernelIdeal.Skeleton
import proofs.«215258_g80247168959020_cont_9to1_m_796_9_alg».proof.Proof.Gen.KernelIdeal.Launch
import proofs.«215258_g80247168959020_cont_9to1_m_796_9_alg».proof.Proof.Gen.KernelIdeal.Points
import proofs.«215258_g80247168959020_cont_9to1_m_796_9_alg».proof.Proof.Gen.ReferenceIdeal
import proofs.«215258_g80247168959020_cont_9to1_m_796_9_alg».proof.Proof.Gen.Pre_input_domain
import proofs.«215258_g80247168959020_cont_9to1_m_796_9_alg».proof.Proof.KIClaims
import proofs.«215258_g80247168959020_cont_9to1_m_796_9_alg».proof.Proof.KITileBody
import proofs.«215258_g80247168959020_cont_9to1_m_796_9_alg».proof.Proof.KClaims
import proofs.«215258_g80247168959020_cont_9to1_m_796_9_alg».proof.Proof.KTileBody
import proofs.«215258_g80247168959020_cont_9to1_m_796_9_alg».proof.Proof.RefRun
import Idealize.ShloMosaic.Adequacy
import Idealize.ShloMosaic.Init

noncomputable section

namespace Cert.Proof

open Idealize.ShloMosaic Idealize.SL.Sem

/-- The reference program runs to its end with its arguments unchanged. -/
theorem frame_R : Cert.frame_ReferenceIdeal (hReferenceIdeal := Cert.ReferenceIdeal.Gen.facts) (hPre_input_domain := Cert.Pre_input_domain.Gen.facts) :=
  fun m g _ => (θ_run _ _ _).mono (fun _ h c => (h c).2) (Cert.RefSide.refRun (F := Ideal) m g)

/-- The one rewrite of the idealization: the table gives the name "inv_200" the value 1/200. -/
theorem preserves : Cert.preserves_Kernel_KernelIdeal :=
  IdealRules.named_const.statement Cert.KernelIdeal.κ "inv_200" .f32 0x3BA3D70A#32 ((1 / 200 : ℝ) : EReal) rfl

theorem claim : Cert.Claim := ⟨Cert.Kernel.Gen.facts, Cert.KernelIdeal.Gen.facts, Cert.ReferenceIdeal.Gen.facts, Cert.Pre_input_domain.Gen.facts,
  Cert.Proof.KernelRun.frame_K Cert.Proof.KernelRun.tile_body,
  Cert.Proof.KernelIdealRun.frame_KI Cert.Proof.KernelIdealRun.tile_body,
  frame_R,
  preserves,
  Cert.Proof.KernelIdealRun.algebraic Cert.Proof.KernelIdealRun.tile_body⟩

end Cert.Proof

end
